-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S128x64 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S128x64 .f32) (main_arg10 : FVec F S64 .f32) (main_arg11 : FVec F S128x64 .f32) (main_arg12 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_arg9 : FVec F S128x64 .f32) (main_arg10 : FVec F S64 .f32) (main_arg11 : FVec F S128x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x256 .f32) (main_arg1 : FVec F S256x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x64 .f32) (main_arg10 : FVec F S64 .f32) (main_arg11 : FVec F S128x64 .f32) (main_arg12 : FVec F S64 .f32) (main_arg13 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 160
  | .vmem => 58
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x64, .f32⟩
  | 10 => ⟨S64, .f32⟩
  | 11 => ⟨S128x64, .f32⟩
  | 12 => ⟨S64, .f32⟩
  | 13 => ⟨S2x1600000, .i32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S100000x128, .f32⟩
  | 86 => ⟨S100000x128, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x128, .f32⟩
  | 96 => ⟨S1700000x1, .f32⟩
  | 97 => ⟨S1700000x128, .f32⟩
  | 98 => ⟨S1700000x128, .f32⟩
  | 99 => ⟨S_, .f32⟩
  | 100 => ⟨S100000x128, .f32⟩
  | 101 => ⟨S1700000x1, .i32⟩
  | 102 => ⟨S100000x128, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S100000x128, .f32⟩
  | 122 => ⟨S100000x64, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x256, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x1, .f32⟩
  | 5 => ⟨S1700000x64, .f32⟩
  | 6 => ⟨S1700000x64, .f32⟩
  | 7 => ⟨S_, .f32⟩
  | 8 => ⟨S100000x64, .f32⟩
  | 9 => ⟨S1700000x1, .i32⟩
  | 10 => ⟨S100000x64, .f32⟩
  | 11 => ⟨S1x64, .f32⟩
  | 12 => ⟨S100000x64, .f32⟩
  | 13 => ⟨S100000x64, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x64, .f32⟩
  | 23 => ⟨S1700000x1, .f32⟩
  | 24 => ⟨S1700000x64, .f32⟩
  | 25 => ⟨S1700000x64, .f32⟩
  | 26 => ⟨S_, .f32⟩
  | 27 => ⟨S100000x64, .f32⟩
  | 28 => ⟨S1700000x1, .i32⟩
  | 29 => ⟨S100000x64, .f32⟩
  | 30 => ⟨S1x64, .f32⟩
  | 31 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S10000x128, .f32⟩
  | .local _ .vmem, ⟨30, _⟩ => ⟨S10000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S128x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x128, .f32⟩
  | .local _ .vmem, ⟨49, _⟩ => ⟨S10000x128, .f32⟩
  | .local _ .vmem, ⟨50, _⟩ => ⟨S128x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73_0 : Ref sig .tc := ⟨.hbm, 104, rfl⟩
abbrev main_v73_1 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_20 : Ref sig .tc := ⟨.hbm, 142, rfl⟩
abbrev main_v104 : Ref sig .tc := ⟨.hbm, 143, rfl⟩
abbrev main_v105 : Ref sig .tc := ⟨.hbm, 144, rfl⟩
abbrev main_c_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_22 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem2_0 : DmaSem sig := 56
abbrev cc9_sem2_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v71) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v86) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v86) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v86) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v116) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v118) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 224
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x64, .f32⟩
  | 10 => ⟨S64, .f32⟩
  | 11 => ⟨S128x64, .f32⟩
  | 12 => ⟨S64, .f32⟩
  | 13 => ⟨S2x1600000, .i32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x256, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x1, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S1x64, .f32⟩
  | 94 => ⟨S100000x64, .f32⟩
  | 95 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_cst_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_cst_1 : Ref sig .tc := ⟨.hbm, 86, rfl⟩
abbrev main_call0_v8 : Ref sig .tc := ⟨.hbm, 87, rfl⟩
abbrev main_call0_cst_2 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst_3 : Ref sig .tc := ⟨.hbm, 92, rfl⟩
abbrev main_call0_v12 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_11 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call1_cst : Ref sig .tc := ⟨.hbm, 114, rfl⟩
abbrev main_call1_v0 : Ref sig .tc := ⟨.hbm, 115, rfl⟩
abbrev main_v65 : Ref sig .tc := ⟨.hbm, 116, rfl⟩
abbrev main_v66 : Ref sig .tc := ⟨.hbm, 117, rfl⟩
abbrev main_c_12 : Ref sig .tc := ⟨.hbm, 118, rfl⟩
abbrev main_v67 : Ref sig .tc := ⟨.hbm, 119, rfl⟩
abbrev main_v68 : Ref sig .tc := ⟨.hbm, 120, rfl⟩
abbrev main_c_13 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_14 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_15 : Ref sig .tc := ⟨.hbm, 137, rfl⟩
abbrev main_v83 : Ref sig .tc := ⟨.hbm, 138, rfl⟩
abbrev main_cst_16 : Ref sig .tc := ⟨.hbm, 139, rfl⟩
abbrev main_v84 : Ref sig .tc := ⟨.hbm, 140, rfl⟩
abbrev main_v85 : Ref sig .tc := ⟨.hbm, 141, rfl⟩
abbrev main_c_17 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_cst_1 : Ref sig .tc := ⟨.hbm, 153, rfl⟩
abbrev main_call2_v8 : Ref sig .tc := ⟨.hbm, 154, rfl⟩
abbrev main_call2_cst_2 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_cst_3 : Ref sig .tc := ⟨.hbm, 159, rfl⟩
abbrev main_call2_v12 : Ref sig .tc := ⟨.hbm, 160, rfl⟩
abbrev main_call2_cst_4 : Ref sig .tc := ⟨.hbm, 161, rfl⟩
abbrev main_call2_call0_v0 : Ref sig .tc := ⟨.hbm, 162, rfl⟩
abbrev main_call2_call0_v1 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_cst_18 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_call3_cst : Ref sig .tc := ⟨.hbm, 181, rfl⟩
abbrev main_call3_v0 : Ref sig .tc := ⟨.hbm, 182, rfl⟩
abbrev main_v102 : Ref sig .tc := ⟨.hbm, 183, rfl⟩
abbrev main_v103 : Ref sig .tc := ⟨.hbm, 184, rfl⟩
abbrev main_c_19 : Ref sig .tc := ⟨.hbm, 185, rfl⟩
abbrev main_v104 : Ref sig .tc := ⟨.hbm, 186, rfl⟩
abbrev main_v105 : Ref sig .tc := ⟨.hbm, 187, rfl⟩
abbrev main_c_20 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_21 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_22 : Ref sig .tc := ⟨.hbm, 205, rfl⟩
abbrev main_v121 : Ref sig .tc := ⟨.hbm, 206, rfl⟩
abbrev main_v122 : Ref sig .tc := ⟨.hbm, 207, rfl⟩
abbrev main_c_23 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_cst_24 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its two results named.

  The program is ten kernel regions among seven stretches of host operations. Its buffer contents at the
  eighteen segment boundaries form a fold from the launch memory: a stretch of host operations applies its
  operations to the contents it finds, and a region replaces each of its arrays by what its pipeline leaves
  there and keeps every other buffer. Every weakly fair execution terminates, nothing faults, and in every
  final state each unscoped buffer holds the last boundary's contents; read at the two result buffers this
  names the results, and read at the fourteen argument buffers it walks back to the launch memory.
-/
import proofs.«151309_j60756607369296_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, the two
    result buffers end at the last boundary's contents, and the fourteen argument arrays end as launched. -/
theorem run_values : θ_run defs (onTc (τ := τ) (main (F := F))) ⟨m, fun _ => 0, ρ⟩ (fun r => ∀ c : Dev nD,
      r.2.mem ((c.tc : Thread nD τ).loc main_v102) = W17 m ρ c (Proc.devRef .tc main_v102)
      ∧ r.2.mem ((c.tc : Thread nD τ).loc main_v118) = W17 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v102 (by decide)),
       h c _ (mem_uc main_v118 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.KRun

end
-- ==== Proof.KStages.lean ====
/-
  The host stretches of the kernel program as functions of the arrays they read.

  Between its kernel regions the program computes, on the host: the edge list with a self loop appended per node
  (sources `src`, destinations `dst`); the symmetric normalisation `normOf`, entry e being
  rsqrt(max(deg[src e], 1)) · rsqrt(max(deg[dst e], 1)) with deg the number of edges arriving at a node; the
  aggregation `aggOf` of a table of node rows, row p of the result being the sum over the edges e arriving at p of
  norm e · (row src e of the table); a vector as a one-row matrix (`rowOf`); and from the column sums and the column
  sums of squares of a 100000-row table the column mean `meanOf` (sum / 1e5) and the inverse deviation
  `invstdOf`, rsqrt(sumsq / 1e5 − mean² + 1e-5). Each is written here with the program's own operations, so that
  a stretch's result is the function applied to what the stretch finds.
-/
import proofs.«151309_j60756607369296_1_alg».proof.Proof.Gen.KernelIdeal

noncomputable section

namespace Cert.KernelIdeal.KVal

open Idealize.ShloMosaic Idealize.ShloMosaic.TcCoe
open Cert.KernelIdeal Cert.KernelIdeal.Gen

variable {F : FTy → Type} [FloatOps F]

/-- The edge sources followed by every node once: row 0 of the edge list, then 0 … 99999. -/
def src (ei : (⟨S2x1600000, .i32⟩ : BufTy).Contents (Elt F)) : (⟨S1700000, .i32⟩ : BufTy).Contents (Elt F) :=
  (((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (shapeCast _ (((extractStridedSlice S1x1600000 ![0, 0] · slices_S2x1600000_S1x1600000_0_0) : (⟨S2x1600000, .i32⟩ : BufTy).Contents (Elt F) → (⟨S1x1600000, .i32⟩ : BufTy).Contents (Elt F)) ei) shapeCasts_S1x1600000_S1600000) (iotaInDim S100000 32 0))

/-- The edge destinations followed by every node once: row 1 of the edge list, then 0 … 99999. -/
def dst (ei : (⟨S2x1600000, .i32⟩ : BufTy).Contents (Elt F)) : (⟨S1700000, .i32⟩ : BufTy).Contents (Elt F) :=
  (((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (shapeCast _ (((extractStridedSlice S1x1600000 ![1, 0] · slices_S2x1600000_S1x1600000_1_0) : (⟨S2x1600000, .i32⟩ : BufTy).Contents (Elt F) → (⟨S1x1600000, .i32⟩ : BufTy).Contents (Elt F)) ei) shapeCasts_S1x1600000_S1600000) (iotaInDim S100000 32 0))

/-- The normalisation of the edges `(s, d)`: with deg the count of edges arriving at each node and
    dinv = rsqrt(max(deg, 1)), entry e is dinv[s e] · dinv[d e] (a negative index wrapped by the node count). -/
def normOf (s d : (⟨S1700000, .i32⟩ : BufTy).Contents (Elt F)) : (⟨S1700000, .f32⟩ : BufTy).Contents (Elt F) :=
  ((mulf : (⟨S1700000, .f32⟩ : BufTy).Contents (Elt F) → (⟨S1700000, .f32⟩ : BufTy).Contents (Elt F) → (⟨S1700000, .f32⟩ : BufTy).Contents (Elt F)) (((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1700000x1 ![0] bcast_S1700000_S1700000x1_0 : (⟨S1700000, .i32⟩ : BufTy).Contents (Elt F) → (⟨S1700000x1, .i32⟩ : BufTy).Contents (Elt F)) d) ((broadcastInDim S1700000 ![] bcast_S_S1700000 : (⟨S_, .f32⟩ : BufTy).Contents (Elt F) → (⟨S1700000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) s ((broadcastInDim S1700000 ![] bcast_S_S1700000 : (⟨S_, .i32⟩ : BufTy).Contents (Elt F) → (⟨S1700000, .i32⟩ : BufTy).Contents (Elt F)) (constantI S_ 32 0#32))) ((addi : (⟨S1700000, .i32⟩ : BufTy).Contents (Elt F) → (⟨S1700000, .i32⟩ : BufTy).Contents (Elt F) → (⟨S1700000, .i32⟩ : BufTy).Contents (Elt F)) s ((broadcastInDim S1700000 ![] bcast_S_S1700000 : (⟨S_, .i32⟩ : BufTy).Contents (Elt F) → (⟨S1700000, .i32⟩ : BufTy).Contents (Elt F)) (constantI S_ 32 100000#32))) s))) (((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1700000x1 ![0] bcast_S1700000_S1700000x1_0 : (⟨S1700000, .i32⟩ : BufTy).Contents (Elt F) → (⟨S1700000x1, .i32⟩ : BufTy).Contents (Elt F)) d) ((broadcastInDim S1700000 ![] bcast_S_S1700000 : (⟨S_, .f32⟩ : BufTy).Contents (Elt F) → (⟨S1700000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))) ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) d ((broadcastInDim S1700000 ![] bcast_S_S1700000 : (⟨S_, .i32⟩ : BufTy).Contents (Elt F) → (⟨S1700000, .i32⟩ : BufTy).Contents (Elt F)) (constantI S_ 32 0#32))) ((addi : (⟨S1700000, .i32⟩ : BufTy).Contents (Elt F) → (⟨S1700000, .i32⟩ : BufTy).Contents (Elt F) → (⟨S1700000, .i32⟩ : BufTy).Contents (Elt F)) d ((broadcastInDim S1700000 ![] bcast_S_S1700000 : (⟨S_, .i32⟩ : BufTy).Contents (Elt F) → (⟨S1700000, .i32⟩ : BufTy).Contents (Elt F)) (constantI S_ 32 100000#32))) d))))

/-- The aggregation of a 128-column table `h` over the edges `(s, d)` weighted by `n`: the rows of `h` at the sources,
    each scaled by its edge's weight, summed into the destinations' rows of a zero table. -/
def aggOf128 (s d : (⟨S1700000, .i32⟩ : BufTy).Contents (Elt F)) (n : (⟨S1700000, .f32⟩ : BufTy).Contents (Elt F)) (h : (⟨S100000x128, .f32⟩ : BufTy).Contents (Elt F)) : (⟨S100000x128, .f32⟩ : BufTy).Contents (Elt F) :=
  (((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1700000x1 ![0] bcast_S1700000_S1700000x1_0 : (⟨S1700000, .i32⟩ : BufTy).Contents (Elt F) → (⟨S1700000x1, .i32⟩ : BufTy).Contents (Elt F)) d) ((mulf : (⟨S1700000x128, .f32⟩ : BufTy).Contents (Elt F) → (⟨S1700000x128, .f32⟩ : BufTy).Contents (Elt F) → (⟨S1700000x128, .f32⟩ : BufTy).Contents (Elt F)) (((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) h ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) s ((broadcastInDim S1700000 ![] bcast_S_S1700000 : (⟨S_, .i32⟩ : BufTy).Contents (Elt F) → (⟨S1700000, .i32⟩ : BufTy).Contents (Elt F)) (constantI S_ 32 0#32))) ((addi : (⟨S1700000, .i32⟩ : BufTy).Contents (Elt F) → (⟨S1700000, .i32⟩ : BufTy).Contents (Elt F) → (⟨S1700000, .i32⟩ : BufTy).Contents (Elt F)) s ((broadcastInDim S1700000 ![] bcast_S_S1700000 : (⟨S_, .i32⟩ : BufTy).Contents (Elt F) → (⟨S1700000, .i32⟩ : BufTy).Contents (Elt F)) (constantI S_ 32 100000#32))) s))) ((broadcastInDim S1700000x128 ![0, 1] bcast_S1700000x1_S1700000x128_0_1 : (⟨S1700000x1, .f32⟩ : BufTy).Contents (Elt F) → (⟨S1700000x128, .f32⟩ : BufTy).Contents (Elt F)) ((broadcastInDim S1700000x1 ![0] bcast_S1700000_S1700000x1_0 : (⟨S1700000, .f32⟩ : BufTy).Contents (Elt F) → (⟨S1700000x1, .f32⟩ : BufTy).Contents (Elt F)) n))))

/-- The same aggregation of a 64-column table. -/
def aggOf64 (s d : (⟨S1700000, .i32⟩ : BufTy).Contents (Elt F)) (n : (⟨S1700000, .f32⟩ : BufTy).Contents (Elt F)) (h : (⟨S100000x64, .f32⟩ : BufTy).Contents (Elt F)) : (⟨S100000x64, .f32⟩ : BufTy).Contents (Elt F) :=
  (((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x00000000#32)) ((broadcastInDim S1700000x1 ![0] bcast_S1700000_S1700000x1_0 : (⟨S1700000, .i32⟩ : BufTy).Contents (Elt F) → (⟨S1700000x1, .i32⟩ : BufTy).Contents (Elt F)) d) ((mulf : (⟨S1700000x64, .f32⟩ : BufTy).Contents (Elt F) → (⟨S1700000x64, .f32⟩ : BufTy).Contents (Elt F) → (⟨S1700000x64, .f32⟩ : BufTy).Contents (Elt F)) (((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) h ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) s ((broadcastInDim S1700000 ![] bcast_S_S1700000 : (⟨S_, .i32⟩ : BufTy).Contents (Elt F) → (⟨S1700000, .i32⟩ : BufTy).Contents (Elt F)) (constantI S_ 32 0#32))) ((addi : (⟨S1700000, .i32⟩ : BufTy).Contents (Elt F) → (⟨S1700000, .i32⟩ : BufTy).Contents (Elt F) → (⟨S1700000, .i32⟩ : BufTy).Contents (Elt F)) s ((broadcastInDim S1700000 ![] bcast_S_S1700000 : (⟨S_, .i32⟩ : BufTy).Contents (Elt F) → (⟨S1700000, .i32⟩ : BufTy).Contents (Elt F)) (constantI S_ 32 100000#32))) s))) ((broadcastInDim S1700000x64 ![0, 1] bcast_S1700000x1_S1700000x64_0_1 : (⟨S1700000x1, .f32⟩ : BufTy).Contents (Elt F) → (⟨S1700000x64, .f32⟩ : BufTy).Contents (Elt F)) ((broadcastInDim S1700000x1 ![0] bcast_S1700000_S1700000x1_0 : (⟨S1700000, .f32⟩ : BufTy).Contents (Elt F) → (⟨S1700000x1, .f32⟩ : BufTy).Contents (Elt F)) n))))

/-- A 128-vector as a one-row matrix. -/
def rowOf128 (b : (⟨S128, .f32⟩ : BufTy).Contents (Elt F)) : (⟨S1x128, .f32⟩ : BufTy).Contents (Elt F) :=
  (shapeCast _ b shapeCasts_S128_S1x128)

/-- A 64-vector as a one-row matrix. -/
def rowOf64 (b : (⟨S64, .f32⟩ : BufTy).Contents (Elt F)) : (⟨S1x64, .f32⟩ : BufTy).Contents (Elt F) :=
  (shapeCast _ b shapeCasts_S64_S1x64)

/-- The column means from the column sums of a 100000-row table: sum / 1e5. -/
def meanOf (sm : (⟨S1x128, .f32⟩ : BufTy).Contents (Elt F)) : (⟨S1x128, .f32⟩ : BufTy).Contents (Elt F) :=
  ((Host.divf : (⟨S1x128, .f32⟩ : BufTy).Contents (Elt F) → (⟨S1x128, .f32⟩ : BufTy).Contents (Elt F) → (⟨S1x128, .f32⟩ : BufTy).Contents (Elt F)) sm ((broadcastInDim S1x128 ![] bcast_S_S1x128 : (⟨S_, .f32⟩ : BufTy).Contents (Elt F) → (⟨S1x128, .f32⟩ : BufTy).Contents (Elt F)) (constant S_ .f32 0x47C35000#32)))

/-- The inverse deviations from the column sums and the column sums of squares:
    rsqrt(sumsq / 1e5 − (sum / 1e5)² + 1e-5). -/
def invstdOf (sm sq : (⟨S1x128, .f32⟩ : BufTy).Contents (Elt F)) : (⟨S1x128, .f32⟩ : BufTy).Contents (Elt F) :=
  ((Host.rsqrt : (⟨S1x128, .f32⟩ : BufTy).Contents (Elt F) → (⟨S1x128, .f32⟩ : BufTy).Contents (Elt F)) ((addf : (⟨S1x128, .f32⟩ : BufTy).Contents (Elt F) → (⟨S1x128, .f32⟩ : BufTy).Contents (Elt F) → (⟨S1x128, .f32⟩ : BufTy).Contents (Elt F)) ((subf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) sq ((broadcastInDim S1x128 ![] bcast_S_S1x128 : (⟨S_, .f32⟩ : BufTy).Contents (Elt F) → (⟨S1x128, .f32⟩ : BufTy).Contents (Elt F)) (constant S_ .f32 0x47C35000#32))) ((mulf : (⟨S1x128, .f32⟩ : BufTy).Contents (Elt F) → (⟨S1x128, .f32⟩ : BufTy).Contents (Elt F) → (⟨S1x128, .f32⟩ : BufTy).Contents (Elt F)) ((Host.divf : (⟨S1x128, .f32⟩ : BufTy).Contents (Elt F) → (⟨S1x128, .f32⟩ : BufTy).Contents (Elt F) → (⟨S1x128, .f32⟩ : BufTy).Contents (Elt F)) sm ((broadcastInDim S1x128 ![] bcast_S_S1x128 : (⟨S_, .f32⟩ : BufTy).Contents (Elt F) → (⟨S1x128, .f32⟩ : BufTy).Contents (Elt F)) (constant S_ .f32 0x47C35000#32))) ((Host.divf : (⟨S1x128, .f32⟩ : BufTy).Contents (Elt F) → (⟨S1x128, .f32⟩ : BufTy).Contents (Elt F) → (⟨S1x128, .f32⟩ : BufTy).Contents (Elt F)) sm ((broadcastInDim S1x128 ![] bcast_S_S1x128 : (⟨S_, .f32⟩ : BufTy).Contents (Elt F) → (⟨S1x128, .f32⟩ : BufTy).Contents (Elt F)) (constant S_ .f32 0x47C35000#32))))) ((broadcastInDim S1x128 ![] bcast_S_S1x128 : (⟨S_, .f32⟩ : BufTy).Contents (Elt F) → (⟨S1x128, .f32⟩ : BufTy).Contents (Elt F)) (constant S_ .f32 0x3727C5AC#32))))

end Cert.KernelIdeal.KVal

end
-- ==== Proof.KHost.lean ====
/-
  The host stretches of the kernel program read as functions.

  Each stretch of host operations between two kernel regions is a fold of its operations over the buffer contents it
  finds. Read at a buffer the stretch computes, the fold is one of the stage functions applied to the contents of the
  buffers the stretch reads; read at a buffer no operation of the stretch writes, it is what was there.
-/
import proofs.«151309_j60756607369296_1_alg».proof.Proof.KStages
import proofs.«151309_j60756607369296_1_alg».proof.Proof.Gen.KernelIdeal.Launch
import Idealize.ShloMosaic.Lib.StableHlo.Run

set_option maxRecDepth 16384

noncomputable section

namespace Cert.KernelIdeal.KHost

open Idealize.ShloMosaic Idealize.ShloMosaic.TcCoe Idealize.ShloMosaic.StableHlo
open Cert.KernelIdeal Cert.KernelIdeal.Gen

variable {F : FTy → Type} [FloatOps F] (W : Valuation τ sig (Elt F))

/-- Every buffer stretch 0 writes. -/
abbrev written0 : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]

theorem writes0 : (hostOps0 : List (HloOp τ sig (Elt F))).Forall fun op => op.writes ⊆ (written0.map (Proc.devRef (τ := τ) .tc)).toFinset := by
  simp only [hostOps0, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 0 does not write is kept. -/
theorem keep0 (r : Ref sig .tc) (hr : r ∉ written0) :
    after hostOps0 W (Proc.devRef .tc r) = W (Proc.devRef .tc r) :=
  after_of_writes_sub hostOps0 W writes0 hr

theorem read0_v3 : after hostOps0 W (Proc.devRef .tc main_v3) = KVal.src (W (Proc.devRef .tc main_arg13)) := by
  after_results
  rfl

theorem read0_v6 : after hostOps0 W (Proc.devRef .tc main_v6) = KVal.dst (W (Proc.devRef .tc main_arg13)) := by
  after_results
  rfl

set_option maxHeartbeats 4000000 in
theorem read0_v28 : after hostOps0 W (Proc.devRef .tc main_v28) = KVal.normOf (KVal.src (W (Proc.devRef .tc main_arg13))) (KVal.dst (W (Proc.devRef .tc main_arg13))) := by
  after_results_simp
  rfl

/-- Every buffer stretch 1 writes. -/
abbrev written1 : List (Ref sig .tc) := [main_c_5, main_v30, main_v31, main_c_6, main_v32, main_v33, main_v34, main_v35, main_v36, main_v37, main_v38, main_v39, main_cst_7, main_v40, main_v41, main_v42, main_v43]

theorem writes1 : (hostOps1 : List (HloOp τ sig (Elt F))).Forall fun op => op.writes ⊆ (written1.map (Proc.devRef (τ := τ) .tc)).toFinset := by
  simp only [hostOps1, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 1 does not write is kept. -/
theorem keep1 (r : Ref sig .tc) (hr : r ∉ written1) :
    after hostOps1 W (Proc.devRef .tc r) = W (Proc.devRef .tc r) :=
  after_of_writes_sub hostOps1 W writes1 hr

set_option maxHeartbeats 4000000 in
theorem read1_v42 : after hostOps1 W (Proc.devRef .tc main_v42) = KVal.aggOf128 (W (Proc.devRef .tc main_v3)) (W (Proc.devRef .tc main_v6)) (W (Proc.devRef .tc main_v28)) (W (Proc.devRef .tc main_v29)) := by
  after_results_simp
  rfl

theorem read1_v43 : after hostOps1 W (Proc.devRef .tc main_v43) = KVal.rowOf128 (W (Proc.devRef .tc main_arg2)) := by
  after_results
  rfl

/-- Every buffer stretch 2 writes. -/
abbrev written2 : List (Ref sig .tc) := [main_cst_8, main_v45, main_v46, main_cst_9, main_v47, main_v48, main_v49, main_v50, main_cst_10, main_v51, main_v52, main_v53, main_v54, main_v55, main_v56]

theorem writes2 : (hostOps2 : List (HloOp τ sig (Elt F))).Forall fun op => op.writes ⊆ (written2.map (Proc.devRef (τ := τ) .tc)).toFinset := by
  simp only [hostOps2, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 2 does not write is kept. -/
theorem keep2 (r : Ref sig .tc) (hr : r ∉ written2) :
    after hostOps2 W (Proc.devRef .tc r) = W (Proc.devRef .tc r) :=
  after_of_writes_sub hostOps2 W writes2 hr

theorem read2_v46 : after hostOps2 W (Proc.devRef .tc main_v46) = KVal.meanOf (W (Proc.devRef .tc main_v44_0)) := by
  after_results
  rfl

theorem read2_v53 : after hostOps2 W (Proc.devRef .tc main_v53) = KVal.invstdOf (W (Proc.devRef .tc main_v44_0)) (W (Proc.devRef .tc main_v44_1)) := by
  after_results
  rfl

theorem read2_v54 : after hostOps2 W (Proc.devRef .tc main_v54) = KVal.rowOf128 (W (Proc.devRef .tc main_arg2)) := by
  after_results
  rfl

theorem read2_v55 : after hostOps2 W (Proc.devRef .tc main_v55) = KVal.rowOf128 (W (Proc.devRef .tc main_arg3)) := by
  after_results
  rfl

theorem read2_v56 : after hostOps2 W (Proc.devRef .tc main_v56) = KVal.rowOf128 (W (Proc.devRef .tc main_arg4)) := by
  after_results
  rfl

/-- Every buffer stretch 4 writes. -/
abbrev written4 : List (Ref sig .tc) := [main_c_11, main_v59, main_v60, main_c_12, main_v61, main_v62, main_v63, main_v64, main_v65, main_v66, main_v67, main_v68, main_cst_13, main_v69, main_v70, main_v71, main_v72]

theorem writes4 : (hostOps4 : List (HloOp τ sig (Elt F))).Forall fun op => op.writes ⊆ (written4.map (Proc.devRef (τ := τ) .tc)).toFinset := by
  simp only [hostOps4, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 4 does not write is kept. -/
theorem keep4 (r : Ref sig .tc) (hr : r ∉ written4) :
    after hostOps4 W (Proc.devRef .tc r) = W (Proc.devRef .tc r) :=
  after_of_writes_sub hostOps4 W writes4 hr

set_option maxHeartbeats 4000000 in
theorem read4_v71 : after hostOps4 W (Proc.devRef .tc main_v71) = KVal.aggOf128 (W (Proc.devRef .tc main_v3)) (W (Proc.devRef .tc main_v6)) (W (Proc.devRef .tc main_v28)) (W (Proc.devRef .tc main_v58)) := by
  after_results_simp
  rfl

theorem read4_v72 : after hostOps4 W (Proc.devRef .tc main_v72) = KVal.rowOf128 (W (Proc.devRef .tc main_arg6)) := by
  after_results
  rfl

/-- Every buffer stretch 5 writes. -/
abbrev written5 : List (Ref sig .tc) := [main_cst_14, main_v74, main_v75, main_cst_15, main_v76, main_v77, main_v78, main_v79, main_cst_16, main_v80, main_v81, main_v82, main_v83, main_v84, main_v85]

theorem writes5 : (hostOps5 : List (HloOp τ sig (Elt F))).Forall fun op => op.writes ⊆ (written5.map (Proc.devRef (τ := τ) .tc)).toFinset := by
  simp only [hostOps5, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 5 does not write is kept. -/
theorem keep5 (r : Ref sig .tc) (hr : r ∉ written5) :
    after hostOps5 W (Proc.devRef .tc r) = W (Proc.devRef .tc r) :=
  after_of_writes_sub hostOps5 W writes5 hr

theorem read5_v75 : after hostOps5 W (Proc.devRef .tc main_v75) = KVal.meanOf (W (Proc.devRef .tc main_v73_0)) := by
  after_results
  rfl

theorem read5_v82 : after hostOps5 W (Proc.devRef .tc main_v82) = KVal.invstdOf (W (Proc.devRef .tc main_v73_0)) (W (Proc.devRef .tc main_v73_1)) := by
  after_results
  rfl

theorem read5_v83 : after hostOps5 W (Proc.devRef .tc main_v83) = KVal.rowOf128 (W (Proc.devRef .tc main_arg6)) := by
  after_results
  rfl

theorem read5_v84 : after hostOps5 W (Proc.devRef .tc main_v84) = KVal.rowOf128 (W (Proc.devRef .tc main_arg7)) := by
  after_results
  rfl

theorem read5_v85 : after hostOps5 W (Proc.devRef .tc main_v85) = KVal.rowOf128 (W (Proc.devRef .tc main_arg8)) := by
  after_results
  rfl

/-- Every buffer stretch 7 writes. -/
abbrev written7 : List (Ref sig .tc) := [main_c_17, main_v88, main_v89, main_c_18, main_v90, main_v91, main_v92, main_v93, main_v94, main_v95, main_v96, main_v97, main_cst_19, main_v98, main_v99, main_v100, main_v101]

theorem writes7 : (hostOps7 : List (HloOp τ sig (Elt F))).Forall fun op => op.writes ⊆ (written7.map (Proc.devRef (τ := τ) .tc)).toFinset := by
  simp only [hostOps7, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 7 does not write is kept. -/
theorem keep7 (r : Ref sig .tc) (hr : r ∉ written7) :
    after hostOps7 W (Proc.devRef .tc r) = W (Proc.devRef .tc r) :=
  after_of_writes_sub hostOps7 W writes7 hr

set_option maxHeartbeats 4000000 in
theorem read7_v100 : after hostOps7 W (Proc.devRef .tc main_v100) = KVal.aggOf64 (W (Proc.devRef .tc main_v3)) (W (Proc.devRef .tc main_v6)) (W (Proc.devRef .tc main_v28)) (W (Proc.devRef .tc main_v87)) := by
  after_results_simp
  rfl

theorem read7_v101 : after hostOps7 W (Proc.devRef .tc main_v101) = KVal.rowOf64 (W (Proc.devRef .tc main_arg10)) := by
  after_results
  rfl

/-- Every buffer stretch 9 writes. -/
abbrev written9 : List (Ref sig .tc) := [main_c_20, main_v104, main_v105, main_c_21, main_v106, main_v107, main_v108, main_v109, main_v110, main_v111, main_v112, main_v113, main_cst_22, main_v114, main_v115, main_v116, main_v117]

theorem writes9 : (hostOps9 : List (HloOp τ sig (Elt F))).Forall fun op => op.writes ⊆ (written9.map (Proc.devRef (τ := τ) .tc)).toFinset := by
  simp only [hostOps9, List.Forall, nullary_writes, unary_writes, binary_writes, ternary_writes, reshape_writes]
  repeat' apply And.intro
  all_goals (rw [Finset.singleton_subset_iff, List.mem_toFinset]; exact List.mem_map.mpr ⟨_, by decide, rfl⟩)

/-- A buffer stretch 9 does not write is kept. -/
theorem keep9 (r : Ref sig .tc) (hr : r ∉ written9) :
    after hostOps9 W (Proc.devRef .tc r) = W (Proc.devRef .tc r) :=
  after_of_writes_sub hostOps9 W writes9 hr

set_option maxHeartbeats 4000000 in
theorem read9_v116 : after hostOps9 W (Proc.devRef .tc main_v116) = KVal.aggOf64 (W (Proc.devRef .tc main_v3)) (W (Proc.devRef .tc main_v6)) (W (Proc.devRef .tc main_v28)) (W (Proc.devRef .tc main_v103)) := by
  after_results_simp
  rfl

theorem read9_v117 : after hostOps9 W (Proc.devRef .tc main_v117) = KVal.rowOf64 (W (Proc.devRef .tc main_arg12)) := by
  after_results
  rfl

end Cert.KernelIdeal.KHost

end
-- ==== Proof.RowFns.lean ====
/-
  Two whole-array functions of a matrix and of one-row arrays, on the extended reals, index by index.

  `addRow a b`: every row of the `M×C` array `a` plus the one row of `b`; entry `(p, q)` is `a[p,q] + b[0,q]`.

  `normAct x b mean invstd g bt`: the affine normalisation of `x + b` by per-column statistics followed by the positive
  part; entry `(p, q)` is `max ((((x[p,q] + b[0,q]) - mean[0,q]) * invstd[0,q]) * g[0,q] + bt[0,q]) 0`, grouped and
  ordered exactly so.

  Both are stated for any number of rows, so that the function of a block of rows and the function of the whole array
  carry one name: a block of rows of `addRow a b` is `addRow` of the block of rows of `a` and the same `b`
  (`addRow_congr`, `normAct_congr`).
-/
import Idealize.ShloMosaic.Lib.ValueIdx
import Idealize.ShloMosaic.PureOps.Ideal

noncomputable section

namespace Cert.KernelIdeal.RowFns

open Idealize.ShloMosaic Idealize.ShloMosaic.ValueIdx

/-- Every row of `a` plus the one row of `b`: entry `(p, q)` is `a[p,q] + b[0,q]`. -/
def addRow {M C : ℕ} (a : (⟨2, ![M, C]⟩ : Shape).Idx → EReal) (b : (⟨2, ![1, C]⟩ : Shape).Idx → EReal) :
    (⟨2, ![M, C]⟩ : Shape).Idx → EReal :=
  fun i => a i + b (ix2 (0 : Fin 1) (i 1))

theorem addRow_apply {M C : ℕ} (a : (⟨2, ![M, C]⟩ : Shape).Idx → EReal) (b : (⟨2, ![1, C]⟩ : Shape).Idx → EReal)
    (i : (⟨2, ![M, C]⟩ : Shape).Idx) : addRow a b i = a i + b (ix2 (0 : Fin 1) (i 1)) := rfl

/-- Two such sums agree at two indices when the matrices agree there and the rows agree at the indices' columns. -/
theorem addRow_congr {M M' C C' : ℕ} (a : (⟨2, ![M, C]⟩ : Shape).Idx → EReal) (b : (⟨2, ![1, C]⟩ : Shape).Idx → EReal)
    (a' : (⟨2, ![M', C']⟩ : Shape).Idx → EReal) (b' : (⟨2, ![1, C']⟩ : Shape).Idx → EReal)
    (j' : (⟨2, ![M', C']⟩ : Shape).Idx) (j : (⟨2, ![M, C]⟩ : Shape).Idx)
    (ha : a' j' = a j) (hb : b' (ix2 (0 : Fin 1) (j' 1)) = b (ix2 (0 : Fin 1) (j 1))) :
    addRow a' b' j' = addRow a b j := by
  unfold addRow
  rw [ha, hb]

/-- The normalisation `(((x + b) - mean) * invstd) * g + bt` by one-row arrays, then the maximum with zero. -/
def normAct {M C : ℕ} (x : (⟨2, ![M, C]⟩ : Shape).Idx → EReal)
    (b mean invstd g bt : (⟨2, ![1, C]⟩ : Shape).Idx → EReal) : (⟨2, ![M, C]⟩ : Shape).Idx → EReal :=
  fun i => max ((((x i + b (ix2 (0 : Fin 1) (i 1))) - mean (ix2 (0 : Fin 1) (i 1))) * invstd (ix2 (0 : Fin 1) (i 1)))
    * g (ix2 (0 : Fin 1) (i 1)) + bt (ix2 (0 : Fin 1) (i 1))) 0

theorem normAct_apply {M C : ℕ} (x : (⟨2, ![M, C]⟩ : Shape).Idx → EReal)
    (b mean invstd g bt : (⟨2, ![1, C]⟩ : Shape).Idx → EReal) (i : (⟨2, ![M, C]⟩ : Shape).Idx) :
    normAct x b mean invstd g bt i
      = max ((((x i + b (ix2 (0 : Fin 1) (i 1))) - mean (ix2 (0 : Fin 1) (i 1))) * invstd (ix2 (0 : Fin 1) (i 1)))
          * g (ix2 (0 : Fin 1) (i 1)) + bt (ix2 (0 : Fin 1) (i 1))) 0 := rfl

/-- Two such normalisations agree at two indices when the matrices agree there and each one-row array agrees with its
    counterpart at the indices' columns. -/
theorem normAct_congr {M M' C C' : ℕ} (x : (⟨2, ![M, C]⟩ : Shape).Idx → EReal)
    (b mean invstd g bt : (⟨2, ![1, C]⟩ : Shape).Idx → EReal)
    (x' : (⟨2, ![M', C']⟩ : Shape).Idx → EReal) (b' mean' invstd' g' bt' : (⟨2, ![1, C']⟩ : Shape).Idx → EReal)
    (j' : (⟨2, ![M', C']⟩ : Shape).Idx) (j : (⟨2, ![M, C]⟩ : Shape).Idx)
    (hx : x' j' = x j) (hb : b' (ix2 (0 : Fin 1) (j' 1)) = b (ix2 (0 : Fin 1) (j 1)))
    (hmean : mean' (ix2 (0 : Fin 1) (j' 1)) = mean (ix2 (0 : Fin 1) (j 1)))
    (hinvstd : invstd' (ix2 (0 : Fin 1) (j' 1)) = invstd (ix2 (0 : Fin 1) (j 1)))
    (hg : g' (ix2 (0 : Fin 1) (j' 1)) = g (ix2 (0 : Fin 1) (j 1)))
    (hbt : bt' (ix2 (0 : Fin 1) (j' 1)) = bt (ix2 (0 : Fin 1) (j 1))) :
    normAct x' b' mean' invstd' g' bt' j' = normAct x b mean invstd g bt j := by
  unfold normAct
  rw [hx, hb, hmean, hinvstd, hg, hbt]

end Cert.KernelIdeal.RowFns

end
-- ==== Proof.StatFns.lean ====
/-
  Column sums of a table of rows after a bias row is added to every row.

  For a table x with M rows and C columns and a one-row matrix b, `colSum x b` is the one-row matrix whose entry in
  column q is the sum over the rows i of x[i,q] + b[0,q], and `colSumSq x b` the sum of the squares of the same
  entries: the two statistics a batch normalisation takes of its input.
-/
import Idealize.ShloMosaic.Lib.ValueIdx
import Idealize.ShloMosaic.PureOps.Ideal

noncomputable section

namespace Cert.KernelIdeal.StatFns

open Idealize.ShloMosaic Idealize.ShloMosaic.ValueIdx

/-- Column q: the sum over the rows i of x[i,q] + b[0,q]. -/
def colSum {M C : ℕ} (x : (⟨2, ![M, C]⟩ : Shape).Idx → EReal) (b : (⟨2, ![1, C]⟩ : Shape).Idx → EReal) :
    (⟨2, ![1, C]⟩ : Shape).Idx → EReal :=
  fun j => ∑ i : Fin M, (x (ix2 i (j 1)) + b (ix2 (0 : Fin 1) (j 1)))

theorem colSum_apply {M C : ℕ} (x : (⟨2, ![M, C]⟩ : Shape).Idx → EReal) (b : (⟨2, ![1, C]⟩ : Shape).Idx → EReal)
    (j : (⟨2, ![1, C]⟩ : Shape).Idx) :
    colSum x b j = ∑ i : Fin M, (x (ix2 i (j 1)) + b (ix2 (0 : Fin 1) (j 1))) := rfl

/-- Column q: the sum over the rows i of (x[i,q] + b[0,q])². -/
def colSumSq {M C : ℕ} (x : (⟨2, ![M, C]⟩ : Shape).Idx → EReal) (b : (⟨2, ![1, C]⟩ : Shape).Idx → EReal) :
    (⟨2, ![1, C]⟩ : Shape).Idx → EReal :=
  fun j => ∑ i : Fin M, (x (ix2 i (j 1)) + b (ix2 (0 : Fin 1) (j 1))) * (x (ix2 i (j 1)) + b (ix2 (0 : Fin 1) (j 1)))

theorem colSumSq_apply {M C : ℕ} (x : (⟨2, ![M, C]⟩ : Shape).Idx → EReal) (b : (⟨2, ![1, C]⟩ : Shape).Idx → EReal)
    (j : (⟨2, ![1, C]⟩ : Shape).Idx) :
    colSumSq x b j
      = ∑ i : Fin M, (x (ix2 i (j 1)) + b (ix2 (0 : Fin 1) (j 1))) * (x (ix2 i (j 1)) + b (ix2 (0 : Fin 1) (j 1))) := rfl

end Cert.KernelIdeal.StatFns

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KNet.lean ====
/-
  The kernel program's intermediate values as functions of its fourteen argument arrays.

  A two-layer graph convolution encoder with batch normalisation and two output heads. With A the normalised
  adjacency (self loops added; `KVal.aggOf` applies it to a table of node rows), a layer is
    G = A (H W),  then per column  mean = Σ(G + b)/n,  invstd = rsqrt(Σ(G + b)²/n − mean² + ε),
    H' = max(((G + b − mean) · invstd) · g + β, 0),
  and a head is A (H W) + b. The column sums are taken of the biased entries G + b over all n = 100000 rows.
-/
import proofs.«151309_j60756607369296_1_alg».proof.Proof.KStages
import proofs.«151309_j60756607369296_1_alg».proof.Proof.RowFns
import proofs.«151309_j60756607369296_1_alg».proof.Proof.StatFns
import proofs.«151309_j60756607369296_1_alg».proof.Proof.LibPlainDot

noncomputable section

namespace Cert.KernelIdeal.KNet

open Idealize.ShloMosaic Idealize.ShloMosaic.TcCoe
open Cert.KernelIdeal Cert.KernelIdeal.Gen
open Cert.KernelIdeal.RowFns Cert.KernelIdeal.StatFns Cert.Lib.PlainDot

/-- The fourteen argument arrays: features, then per layer weight, bias, scale, shift, then the two heads' weight and
    bias, then the edge list. -/
structure Args where
  x : (⟨S100000x256, .f32⟩ : BufTy).Contents (Elt Ideal)
  w1 : (⟨S256x128, .f32⟩ : BufTy).Contents (Elt Ideal)
  b1 : (⟨S128, .f32⟩ : BufTy).Contents (Elt Ideal)
  g1 : (⟨S128, .f32⟩ : BufTy).Contents (Elt Ideal)
  bt1 : (⟨S128, .f32⟩ : BufTy).Contents (Elt Ideal)
  w2 : (⟨S128x128, .f32⟩ : BufTy).Contents (Elt Ideal)
  b2 : (⟨S128, .f32⟩ : BufTy).Contents (Elt Ideal)
  g2 : (⟨S128, .f32⟩ : BufTy).Contents (Elt Ideal)
  bt2 : (⟨S128, .f32⟩ : BufTy).Contents (Elt Ideal)
  wmu : (⟨S128x64, .f32⟩ : BufTy).Contents (Elt Ideal)
  bmu : (⟨S64, .f32⟩ : BufTy).Contents (Elt Ideal)
  wls : (⟨S128x64, .f32⟩ : BufTy).Contents (Elt Ideal)
  bls : (⟨S64, .f32⟩ : BufTy).Contents (Elt Ideal)
  ei : (⟨S2x1600000, .i32⟩ : BufTy).Contents (Elt Ideal)

variable (a : Args)

/-- Edge sources, destinations and weights. -/
def S : (⟨S1700000, .i32⟩ : BufTy).Contents (Elt Ideal) := KVal.src a.ei
def D : (⟨S1700000, .i32⟩ : BufTy).Contents (Elt Ideal) := KVal.dst a.ei
def Nn : (⟨S1700000, .f32⟩ : BufTy).Contents (Elt Ideal) := KVal.normOf (S a) (D a)

/-- Layer 1: the product, its aggregation, the bias row, the two statistics rows, mean, inverse deviation, output. -/
def P1 : (⟨S100000x128, .f32⟩ : BufTy).Contents (Elt Ideal) := rowsByCols a.x a.w1
def G1 : (⟨S100000x128, .f32⟩ : BufTy).Contents (Elt Ideal) := KVal.aggOf128 (S a) (D a) (Nn a) (P1 a)
def R1 : (⟨S1x128, .f32⟩ : BufTy).Contents (Elt Ideal) := KVal.rowOf128 a.b1
def SM1 : (⟨S1x128, .f32⟩ : BufTy).Contents (Elt Ideal) := colSum (G1 a) (R1 a)
def SQ1 : (⟨S1x128, .f32⟩ : BufTy).Contents (Elt Ideal) := colSumSq (G1 a) (R1 a)
def MN1 : (⟨S1x128, .f32⟩ : BufTy).Contents (Elt Ideal) := KVal.meanOf (SM1 a)
def IV1 : (⟨S1x128, .f32⟩ : BufTy).Contents (Elt Ideal) := KVal.invstdOf (SM1 a) (SQ1 a)
def H1 : (⟨S100000x128, .f32⟩ : BufTy).Contents (Elt Ideal) := normAct (G1 a) (R1 a) (MN1 a) (IV1 a) (KVal.rowOf128 a.g1) (KVal.rowOf128 a.bt1)

/-- Layer 2, the same over layer 1's output. -/
def P2 : (⟨S100000x128, .f32⟩ : BufTy).Contents (Elt Ideal) := rowsByCols (H1 a) a.w2
def G2 : (⟨S100000x128, .f32⟩ : BufTy).Contents (Elt Ideal) := KVal.aggOf128 (S a) (D a) (Nn a) (P2 a)
def R2 : (⟨S1x128, .f32⟩ : BufTy).Contents (Elt Ideal) := KVal.rowOf128 a.b2
def SM2 : (⟨S1x128, .f32⟩ : BufTy).Contents (Elt Ideal) := colSum (G2 a) (R2 a)
def SQ2 : (⟨S1x128, .f32⟩ : BufTy).Contents (Elt Ideal) := colSumSq (G2 a) (R2 a)
def MN2 : (⟨S1x128, .f32⟩ : BufTy).Contents (Elt Ideal) := KVal.meanOf (SM2 a)
def IV2 : (⟨S1x128, .f32⟩ : BufTy).Contents (Elt Ideal) := KVal.invstdOf (SM2 a) (SQ2 a)
def H2 : (⟨S100000x128, .f32⟩ : BufTy).Contents (Elt Ideal) := normAct (G2 a) (R2 a) (MN2 a) (IV2 a) (KVal.rowOf128 a.g2) (KVal.rowOf128 a.bt2)

/-- The two heads over layer 2's output. -/
def P3 : (⟨S100000x64, .f32⟩ : BufTy).Contents (Elt Ideal) := rowsByCols (H2 a) a.wmu
def G3 : (⟨S100000x64, .f32⟩ : BufTy).Contents (Elt Ideal) := KVal.aggOf64 (S a) (D a) (Nn a) (P3 a)
def MU : (⟨S100000x64, .f32⟩ : BufTy).Contents (Elt Ideal) := addRow (G3 a) (KVal.rowOf64 a.bmu)
def P4 : (⟨S100000x64, .f32⟩ : BufTy).Contents (Elt Ideal) := rowsByCols (H2 a) a.wls
def G4 : (⟨S100000x64, .f32⟩ : BufTy).Contents (Elt Ideal) := KVal.aggOf64 (S a) (D a) (Nn a) (P4 a)
def LS : (⟨S100000x64, .f32⟩ : BufTy).Contents (Elt Ideal) := addRow (G4 a) (KVal.rowOf64 a.bls)

end Cert.KernelIdeal.KNet

end
-- ==== Proof.LibAggLinear.lean ====
/-
  Real-valued extended reals, and the law that lets a weighted row aggregation pass through a right matrix product.

  An extended real is REAL when it is the image of a real number. Reals are closed under `+`, `·`, `max` and finite
  sums, and on them the extended reals' arithmetic is the reals' (where distributivity holds, which it does not
  at the infinities).

  The law (`agg_dot`): for real coefficients, aggregating rows and then multiplying on the right by a matrix column
  is multiplying each row first and then aggregating:
    ∑ₖ ((z + ∑_{r ∈ E} a r k · n r) + c k · t) · W k  =  (z + ∑_{r ∈ E} (∑ₖ a r k · W k) · n r) + (∑ₖ c k · W k) · t,
  with `z = 0`. It is distributivity and an exchange of two finite sums.
-/
import Idealize.ShloMosaic.PureOps.Ideal

noncomputable section

namespace Cert.Lib.AggLinear

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type*} (s : Finset ι) (f : ι → EReal) (h : ∀ i ∈ s, IsReal (f i)) : IsReal (∑ i ∈ s, f i) := by
  induction s using Finset.cons_induction with
  | empty => simpa using isReal_zero
  | cons a s ha ih =>
    rw [Finset.sum_cons]
    exact (h a (Finset.mem_cons_self a s)).add (ih fun i hi => h i (Finset.mem_cons.mpr (Or.inr hi)))

/-- A sum of ones is a natural number: real and nonnegative. -/
theorem sum_one_eq {ι : Type*} (s : Finset ι) : (∑ _i ∈ s, (1 : EReal)) = ((s.card : ℝ) : EReal) := by
  have : (∑ _i ∈ s, ((1 : ℝ) : EReal)) = (((∑ _i ∈ s, (1 : ℝ)) : ℝ) : EReal) := (coe_sum s fun _ => (1 : ℝ)).symm
  rw [show (1 : EReal) = ((1 : ℝ) : EReal) from rfl, this]
  simp

/-- Aggregating rows with real weights and then taking a real column combination is combining first and aggregating after. -/
theorem agg_dot {ε κ : Type*} [Fintype κ] (E : Finset ε) (a : ε → κ → EReal) (n : ε → EReal) (c : κ → EReal) (t : EReal)
    (W : κ → EReal) (ha : ∀ r k, IsReal (a r k)) (hn : ∀ r, IsReal (n r)) (hc : ∀ k, IsReal (c k)) (ht : IsReal t)
    (hW : ∀ k, IsReal (W k)) :
    ∑ k, (((0 : EReal) + ∑ r ∈ E, a r k * n r) + c k * t) * W k
      = ((0 : EReal) + ∑ r ∈ E, (∑ k, a r k * W k) * n r) + (∑ k, c k * W k) * t := by
  choose a' ha' using ha
  choose n' hn' using hn
  choose c' hc' using hc
  obtain ⟨t', rfl⟩ := ht
  choose W' hW' using hW
  have key : (∑ k, (((0 : ℝ) + ∑ r ∈ E, a' r k * n' r) + c' k * t') * W' k)
      = ((0 : ℝ) + ∑ r ∈ E, (∑ k, a' r k * W' k) * n' r) + (∑ k, c' k * W' k) * t' := by
    simp only [zero_add, add_mul, Finset.sum_add_distrib, Finset.sum_mul]
    congr 1
    · rw [Finset.sum_comm]
      refine Finset.sum_congr rfl fun r _ => Finset.sum_congr rfl fun k _ => ?_
      ring
    · refine Finset.sum_congr rfl fun k _ => ?_
      ring
  have e := congrArg (fun x : ℝ => (x : EReal)) key
  simp only [EReal.coe_add, EReal.coe_mul, coe_sum, EReal.coe_zero] at e
  simpa only [ha', hn', hc', hW'] using e

end Cert.Lib.AggLinear

end
-- ==== Proof.KReal.lean ====
/-
  The launched argument arrays of the kernel program, and what it means for them to hold real numbers.
-/
import proofs.«151309_j60756607369296_1_alg».proof.Proof.KNet
import proofs.«151309_j60756607369296_1_alg».proof.Proof.LibAggLinear

noncomputable section

namespace Cert.KernelIdeal.KReal

open Idealize.ShloMosaic Idealize.ShloMosaic.TcCoe Idealize.SL.Sem
open Cert.KernelIdeal Cert.Lib.AggLinear

/-- The fourteen argument arrays as a memory holds them on core c. -/
def args (m : (ℓ : Loc nD τ sig) → Buf (Elt Ideal) ℓ) (c : Dev nD) : KNet.Args where
  x := m ((c : Thread nD τ).loc main_arg0)
  w1 := m ((c : Thread nD τ).loc main_arg1)
  b1 := m ((c : Thread nD τ).loc main_arg2)
  g1 := m ((c : Thread nD τ).loc main_arg3)
  bt1 := m ((c : Thread nD τ).loc main_arg4)
  w2 := m ((c : Thread nD τ).loc main_arg5)
  b2 := m ((c : Thread nD τ).loc main_arg6)
  g2 := m ((c : Thread nD τ).loc main_arg7)
  bt2 := m ((c : Thread nD τ).loc main_arg8)
  wmu := m ((c : Thread nD τ).loc main_arg9)
  bmu := m ((c : Thread nD τ).loc main_arg10)
  wls := m ((c : Thread nD τ).loc main_arg11)
  bls := m ((c : Thread nD τ).loc main_arg12)
  ei := m ((c : Thread nD τ).loc main_arg13)

/-- Every entry of every float argument array is a real number. -/
structure RealArgs (a : KNet.Args) : Prop where
  x : ∀ i, IsReal (a.x i)
  w1 : ∀ i, IsReal (a.w1 i)
  b1 : ∀ i, IsReal (a.b1 i)
  g1 : ∀ i, IsReal (a.g1 i)
  bt1 : ∀ i, IsReal (a.bt1 i)
  w2 : ∀ i, IsReal (a.w2 i)
  b2 : ∀ i, IsReal (a.b2 i)
  g2 : ∀ i, IsReal (a.g2 i)
  bt2 : ∀ i, IsReal (a.bt2 i)
  wmu : ∀ i, IsReal (a.wmu i)
  bmu : ∀ i, IsReal (a.bmu i)
  wls : ∀ i, IsReal (a.wls i)
  bls : ∀ i, IsReal (a.bls i)

end Cert.KernelIdeal.KReal

end
-- ==== Proof.ProductValue.lean ====
/-
  The four matrix-product regions (0, 3, 6 and 8) of the kernel program, each as ONE whole-array function of the arrays
  the region finds: the output array the pipeline leaves is the product `rowsByCols` of the `100000×K` left operand by
  the `K×N` right operand.

  Per region: the body's arithmetic on a block is the product of the left operand's block of rows by the whole right
  operand — a `tpu.matmul` with plain dimension numbers into the zero accumulator (`pay_eq`); the windows' index maps
  over the ten grid points (`idx_facts`: the left operand's and the output's windows move together down the rows, block
  `t` being rows `10000·t … 10000·t + 9999`, and the right operand's window stays at its one block); rows of a product
  are the product of the rows, so what point `t` writes back is block `t` of the product of the arrays
  (`flushed_eq`); the ten blocks cover the array (`cover`: row `r` lies in block `r / 10000`); so the array ends
  holding the product of the arrays (`final`).
-/
import proofs.«151309_j60756607369296_1_alg».proof.Proof.Gen.KernelIdeal.Frame
import proofs.«151309_j60756607369296_1_alg».proof.Proof.LibPlainDot
import Idealize.ShloMosaic.Lib.Pipeline.Value
import Idealize.ShloMosaic.Lib.ValueLayout

noncomputable section

namespace Cert.KernelIdeal.RegionValue

open Cert.KernelIdeal Cert.KernelIdeal.Gen Cert.Lib.PlainDot
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-! ## Region 0 -/

/-- The body's arithmetic on a block of rows of the left operand and the whole right operand: their product. -/
theorem pay0_eq (x0 : Vec Ideal S10000x256 .f32) (x1 : Vec Ideal S256x128 .f32) : k0_pay1 x0 x1 = rowsByCols x0 x1 := by
  unfold k0_pay1
  exact matmul_zero_eq dot_S10000x256_S256x128_S10000x128_1_0_0_1_n_n rfl none x0 x1

/-- What the body leaves in the output window's buffer at point `t`: the product of the two input blocks. -/
theorem after0_eq (c : Dev nD) (t : Fin cfg0.N) :
    (dat0 (F := Ideal) V c).after 2 t = rowsByCols (iblk0 V c 0 t) (iblk0 V c 1 t) := by
  rw [after0_2]
  unfold out0_2
  rw [View.canon_unit_zero zeros2]
  simp only [View.ld_unit_zero (S := S10000x256) zeros2, View.ld_unit_zero (S := S256x128) zeros2]
  rw [pay0_eq]

/-- The index maps over the ten points: the left operand's and the output's windows are at block row `t`, column
    block 0; the right operand's window is at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t`, read at row `j 0` and column `k`, is the array at the row the output's
    block puts `j` in and column `k`. -/
theorem lblk0 (c : Dev nD) (t : Fin cfg0.N) (j : S10000x128.Idx) (k : Fin 256) :
    iblk0 V c 0 t (ix2 (j 0) k) = V c (Pipeline.arrRef spec0 0) (ix2 ((((cfg0.win 2).blk t).view.emb j) 0) k) := by
  obtain ⟨e00, e01, -, -, e20, -⟩ := idx_facts0 t
  show V c (Pipeline.arrRef spec0 0) (((cfg0.win 0).blk t).view.emb (ix2 (j 0) k)) = _
  refine congrArg _ (funext fun a => Fin.ext ?_)
  match a with
  | ⟨0, _⟩ => show win0_0.index t (0 : Fin 2) * 10000 + 1 * (j 0).val = win0_2.index t (0 : Fin 2) * 10000 + 1 * (j 0).val; omega
  | ⟨1, _⟩ => show win0_0.index t (1 : Fin 2) * 256 + 1 * k.val = k.val; omega

/-- The right operand's block at point `t`, read at row `k` and column `j 1`, is the array at row `k` and the
    column the output's block puts `j` in. -/
theorem rblk0 (c : Dev nD) (t : Fin cfg0.N) (j : S10000x128.Idx) (k : Fin 256) :
    iblk0 V c 1 t (ix2 k (j 1)) = V c (Pipeline.arrRef spec0 1) (ix2 k ((((cfg0.win 2).blk t).view.emb j) 1)) := by
  obtain ⟨-, -, e10, e11, -, e21⟩ := idx_facts0 t
  show V c (Pipeline.arrRef spec0 1) (((cfg0.win 1).blk t).view.emb (ix2 k (j 1))) = _
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * (j 1).val = win0_2.index t (1 : Fin 2) * 128 + 1 * (j 1).val; omega

/-- What point `t` writes back is block `t` of the product of the two arrays as the region finds them: rows of a
    product are the product of the rows. -/
theorem flushed0_eq (c : Dev nD) (t : Fin cfg0.N) :
    (dat0 (F := Ideal) V c).flushed 2 t
      = ((cfg0.win 2).blk t).view.read (Elt Ideal) (rowsByCols (V c (Pipeline.arrRef spec0 0)) (V c (Pipeline.arrRef spec0 1))) := by
  show (cfg0.win 2).cut (grid0.coords t) ((dat0 (F := Ideal) V c).after 2 t) = _
  rw [after0_eq]
  funext j
  exact rowsByCols_congr (V c (Pipeline.arrRef spec0 0)) (V c (Pipeline.arrRef spec0 1)) (iblk0 V c 0 t) (iblk0 V c 1 t) j
    (((cfg0.win 2).blk t).view.emb j) (fun k => lblk0 V c t j k) (fun k => rblk0 V c t j k)

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- Every index of the array lies in some point's block: row `r` in block `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk0]
  obtain ⟨-, -, -, -, e20, e21⟩ := idx_facts0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e21]; omega

/-- The output array of region 0 after its pipeline: the product of the left operand by the right operand. -/
theorem final0 (c : Dev nD) :
    (dat0 (F := Ideal) V c).arrAt 2 cfg0.N = rowsByCols (V c (Pipeline.arrRef spec0 0)) (V c (Pipeline.arrRef spec0 1)) :=
  (dat0 (F := Ideal) V c).arrAt_eq_of_cover 2 (rowsByCols (V c (Pipeline.arrRef spec0 0)) (V c (Pipeline.arrRef spec0 1)))
    (fun t _ => flushed0_eq V c t) cover0

/-! ## Region 3 -/

/-- The body's arithmetic on a block of rows of the left operand and the whole right operand: their product. -/
theorem pay3_eq (x0 : Vec Ideal S10000x128 .f32) (x1 : Vec Ideal S128x128 .f32) : k3_pay1 x0 x1 = rowsByCols x0 x1 := by
  unfold k3_pay1
  rw [shapeCast_self]
  exact matmul_zero_eq dot_S10000x128_S128x128_S10000x128_1_0_0_1_n_n rfl none x0 x1

/-- What the body leaves in the output window's buffer at point `t`: the product of the two input blocks. -/
theorem after3_eq (c : Dev nD) (t : Fin cfg3.N) :
    (dat3 (F := Ideal) V c).after 2 t = rowsByCols (iblk3 V c 0 t) (iblk3 V c 1 t) := by
  rw [after3_2]
  unfold out3_2
  rw [View.canon_unit_zero zeros2]
  simp only [View.ld_unit_zero (S := S10000x128) zeros2, View.ld_unit_zero (S := S128x128) zeros2]
  rw [pay3_eq]

/-- The index maps over the ten points: the left operand's and the output's windows are at block row `t`, column
    block 0; the right operand's window is at its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t`, read at row `j 0` and column `k`, is the array at the row the output's
    block puts `j` in and column `k`. -/
theorem lblk3 (c : Dev nD) (t : Fin cfg3.N) (j : S10000x128.Idx) (k : Fin 128) :
    iblk3 V c 0 t (ix2 (j 0) k) = V c (Pipeline.arrRef spec3 0) (ix2 ((((cfg3.win 2).blk t).view.emb j) 0) k) := by
  obtain ⟨e00, e01, -, -, e20, -⟩ := idx_facts3 t
  show V c (Pipeline.arrRef spec3 0) (((cfg3.win 0).blk t).view.emb (ix2 (j 0) k)) = _
  refine congrArg _ (funext fun a => Fin.ext ?_)
  match a with
  | ⟨0, _⟩ => show win3_0.index t (0 : Fin 2) * 10000 + 1 * (j 0).val = win3_2.index t (0 : Fin 2) * 10000 + 1 * (j 0).val; omega
  | ⟨1, _⟩ => show win3_0.index t (1 : Fin 2) * 128 + 1 * k.val = k.val; omega

/-- The right operand's block at point `t`, read at row `k` and column `j 1`, is the array at row `k` and the
    column the output's block puts `j` in. -/
theorem rblk3 (c : Dev nD) (t : Fin cfg3.N) (j : S10000x128.Idx) (k : Fin 128) :
    iblk3 V c 1 t (ix2 k (j 1)) = V c (Pipeline.arrRef spec3 1) (ix2 k ((((cfg3.win 2).blk t).view.emb j) 1)) := by
  obtain ⟨-, -, e10, e11, -, e21⟩ := idx_facts3 t
  show V c (Pipeline.arrRef spec3 1) (((cfg3.win 1).blk t).view.emb (ix2 k (j 1))) = _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * (j 1).val = win3_2.index t (1 : Fin 2) * 128 + 1 * (j 1).val; omega

/-- What point `t` writes back is block `t` of the product of the two arrays as the region finds them: rows of a
    product are the product of the rows. -/
theorem flushed3_eq (c : Dev nD) (t : Fin cfg3.N) :
    (dat3 (F := Ideal) V c).flushed 2 t
      = ((cfg3.win 2).blk t).view.read (Elt Ideal) (rowsByCols (V c (Pipeline.arrRef spec3 0)) (V c (Pipeline.arrRef spec3 1))) := by
  show (cfg3.win 2).cut (grid3.coords t) ((dat3 (F := Ideal) V c).after 2 t) = _
  rw [after3_eq]
  funext j
  exact rowsByCols_congr (V c (Pipeline.arrRef spec3 0)) (V c (Pipeline.arrRef spec3 1)) (iblk3 V c 0 t) (iblk3 V c 1 t) j
    (((cfg3.win 2).blk t).view.emb j) (fun k => lblk3 V c t j k) (fun k => rblk3 V c t j k)

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v58).slice (win3_2.rect t)).set ↔ _
  rw [View.set_slice_whole, Rect.mem_set_unit]
  exact Iff.rfl

/-- Every index of the array lies in some point's block: row `r` in block `r / 10000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  refine ⟨⟨(i 0).val / 10000, by rw [hN]; omega⟩, flush3_2 _, ?_⟩
  rw [mem_blk3]
  obtain ⟨-, -, -, -, e20, e21⟩ := idx_facts3 ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e20]; show (i 0).val / 10000 * 10000 ≤ (i 0).val ∧ (i 0).val < (i 0).val / 10000 * 10000 + 10000; omega
  | ⟨1, _⟩ => show win3_2.index _ (1 : Fin 2) * 128 ≤ (i 1).val ∧ (i 1).val < win3_2.index _ (1 : Fin 2) * 128 + 128; rw [e21]; omega

/-- The output array of region 3 after its pipeline: the product of the left operand by the right operand. -/
theorem final3 (c : Dev nD) :
    (dat3 (F := Ideal) V c).arrAt 2 cfg3.N = rowsByCols (V c (Pipeline.arrRef spec3 0)) (V c (Pipeline.arrRef spec3 1)) :=
  (dat3 (F := Ideal) V c).arrAt_eq_of_cover 2 (rowsByCols (V c (Pipeline.arrRef spec3 0)) (V c (Pipeline.arrRef spec3 1)))
    (fun t _ => flushed3_eq V c t) cover3

/-! ## Region 6 -/

/-- The body's arithmetic on a block of rows of the left operand and the whole right operand: their product. -/
theorem pay6_eq (x0 : Vec Ideal S10000x128 .f32) (x1 : Vec Ideal S128x64 .f32) : k6_pay1 x0 x1 = rowsByCols x0 x1 := by
  unfold k6_pay1
  rw [shapeCast_self]
  exact matmul_zero_eq dot_S10000x128_S128x64_S10000x64_1_0_0_1_n_n rfl none x0 x1

/-- What the body leaves in the output window's buffer at point `t`: the product of the two input blocks. -/
theorem after6_eq (c : Dev nD) (t : Fin cfg6.N) :
    (dat6 (F := Ideal) V c).after 2 t = rowsByCols (iblk6 V c 0 t) (iblk6 V c 1 t) := by
  rw [after6_2]
  unfold out6_2
  rw [View.canon_unit_zero zeros2]
  simp only [View.ld_unit_zero (S := S10000x128) zeros2, View.ld_unit_zero (S := S128x64) zeros2]
  rw [pay6_eq]

/-- The index maps over the ten points: the left operand's and the output's windows are at block row `t`, column
    block 0; the right operand's window is at its one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The left operand's block at point `t`, read at row `j 0` and column `k`, is the array at the row the output's
    block puts `j` in and column `k`. -/
theorem lblk6 (c : Dev nD) (t : Fin cfg6.N) (j : S10000x64.Idx) (k : Fin 128) :
    iblk6 V c 0 t (ix2 (j 0) k) = V c (Pipeline.arrRef spec6 0) (ix2 ((((cfg6.win 2).blk t).view.emb j) 0) k) := by
  obtain ⟨e00, e01, -, -, e20, -⟩ := idx_facts6 t
  show V c (Pipeline.arrRef spec6 0) (((cfg6.win 0).blk t).view.emb (ix2 (j 0) k)) = _
  refine congrArg _ (funext fun a => Fin.ext ?_)
  match a with
  | ⟨0, _⟩ => show win6_0.index t (0 : Fin 2) * 10000 + 1 * (j 0).val = win6_2.index t (0 : Fin 2) * 10000 + 1 * (j 0).val; omega
  | ⟨1, _⟩ => show win6_0.index t (1 : Fin 2) * 128 + 1 * k.val = k.val; omega

/-- The right operand's block at point `t`, read at row `k` and column `j 1`, is the array at row `k` and the
    column the output's block puts `j` in. -/
theorem rblk6 (c : Dev nD) (t : Fin cfg6.N) (j : S10000x64.Idx) (k : Fin 128) :
    iblk6 V c 1 t (ix2 k (j 1)) = V c (Pipeline.arrRef spec6 1) (ix2 k ((((cfg6.win 2).blk t).view.emb j) 1)) := by
  obtain ⟨-, -, e10, e11, -, e21⟩ := idx_facts6 t
  show V c (Pipeline.arrRef spec6 1) (((cfg6.win 1).blk t).view.emb (ix2 k (j 1))) = _
  refine congrArg _ (funext fun a => Fin.ext ?_)
  match a with
  | ⟨0, _⟩ => show win6_1.index t (0 : Fin 2) * 128 + 1 * k.val = k.val; omega
  | ⟨1, _⟩ => show win6_1.index t (1 : Fin 2) * 64 + 1 * (j 1).val = win6_2.index t (1 : Fin 2) * 64 + 1 * (j 1).val; omega

/-- What point `t` writes back is block `t` of the product of the two arrays as the region finds them: rows of a
    product are the product of the rows. -/
theorem flushed6_eq (c : Dev nD) (t : Fin cfg6.N) :
    (dat6 (F := Ideal) V c).flushed 2 t
      = ((cfg6.win 2).blk t).view.read (Elt Ideal) (rowsByCols (V c (Pipeline.arrRef spec6 0)) (V c (Pipeline.arrRef spec6 1))) := by
  show (cfg6.win 2).cut (grid6.coords t) ((dat6 (F := Ideal) V c).after 2 t) = _
  rw [after6_eq]
  funext j
  exact rowsByCols_congr (V c (Pipeline.arrRef spec6 0)) (V c (Pipeline.arrRef spec6 1)) (iblk6 V c 0 t) (iblk6 V c 1 t) j
    (((cfg6.win 2).blk t).view.emb j) (fun k => lblk6 V c t j k) (fun k => rblk6 V c t j k)

/-- An index of the array is in point `t`'s block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v87).slice (win6_2.rect t)).set ↔ _
  rw [View.set_slice_whole, Rect.mem_set_unit]
  exact Iff.rfl

/-- Every index of the array lies in some point's block: row `r` in block `r / 10000`. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  refine ⟨⟨(i 0).val / 10000, by rw [hN]; omega⟩, flush6_2 _, ?_⟩
  rw [mem_blk6]
  obtain ⟨-, -, -, -, e20, e21⟩ := idx_facts6 ⟨(i 0).val / 10000, by rw [hN]; omega⟩
  intro a
  match a with
  | ⟨0, _⟩ => show win6_2.index _ (0 : Fin 2) * 10000 ≤ (i 0).val ∧ (i 0).val < win6_2.index _ (0 : Fin 2) * 10000 + 10000; rw [e20]; show (i 0).val / 10000 * 10000 ≤ (i 0).val ∧ (i 0).val < (i 0).val / 10000 * 10000 + 10000; omega
  | ⟨1, _⟩ => show win6_2.index _ (1 : Fin 2) * 64 ≤ (i 1).val ∧ (i 1).val < win6_2.index _ (1 : Fin 2) * 64 + 64; rw [e21]; omega

/-- The output array of region 6 after its pipeline: the product of the left operand by the right operand. -/
theorem final6 (c : Dev nD) :
    (dat6 (F := Ideal) V c).arrAt 2 cfg6.N = rowsByCols (V c (Pipeline.arrRef spec6 0)) (V c (Pipeline.arrRef spec6 1)) :=
  (dat6 (F := Ideal) V c).arrAt_eq_of_cover 2 (rowsByCols (V c (Pipeline.arrRef spec6 0)) (V c (Pipeline.arrRef spec6 1)))
    (fun t _ => flushed6_eq V c t) cover6

/-! ## Region 8 -/

/-- The body's arithmetic on a block of rows of the left operand and the whole right operand: their product. -/
theorem pay8_eq (x0 : Vec Ideal S10000x128 .f32) (x1 : Vec Ideal S128x64 .f32) : k8_pay1 x0 x1 = rowsByCols x0 x1 := by
  unfold k8_pay1
  rw [shapeCast_self]
  exact matmul_zero_eq dot_S10000x128_S128x64_S10000x64_1_0_0_1_n_n rfl none x0 x1

/-- What the body leaves in the output window's buffer at point `t`: the product of the two input blocks. -/
theorem after8_eq (c : Dev nD) (t : Fin cfg8.N) :
    (dat8 (F := Ideal) V c).after 2 t = rowsByCols (iblk8 V c 0 t) (iblk8 V c 1 t) := by
  rw [after8_2]
  unfold out8_2
  rw [View.canon_unit_zero zeros2]
  simp only [View.ld_unit_zero (S := S10000x128) zeros2, View.ld_unit_zero (S := S128x64) zeros2]
  rw [pay8_eq]

/-- The index maps over the ten points: the left operand's and the output's windows are at block row `t`, column
    block 0; the right operand's window is at its one block. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The left operand's block at point `t`, read at row `j 0` and column `k`, is the array at the row the output's
    block puts `j` in and column `k`. -/
theorem lblk8 (c : Dev nD) (t : Fin cfg8.N) (j : S10000x64.Idx) (k : Fin 128) :
    iblk8 V c 0 t (ix2 (j 0) k) = V c (Pipeline.arrRef spec8 0) (ix2 ((((cfg8.win 2).blk t).view.emb j) 0) k) := by
  obtain ⟨e00, e01, -, -, e20, -⟩ := idx_facts8 t
  show V c (Pipeline.arrRef spec8 0) (((cfg8.win 0).blk t).view.emb (ix2 (j 0) k)) = _
  refine congrArg _ (funext fun a => Fin.ext ?_)
  match a with
  | ⟨0, _⟩ => show win8_0.index t (0 : Fin 2) * 10000 + 1 * (j 0).val = win8_2.index t (0 : Fin 2) * 10000 + 1 * (j 0).val; omega
  | ⟨1, _⟩ => show win8_0.index t (1 : Fin 2) * 128 + 1 * k.val = k.val; omega

/-- The right operand's block at point `t`, read at row `k` and column `j 1`, is the array at row `k` and the
    column the output's block puts `j` in. -/
theorem rblk8 (c : Dev nD) (t : Fin cfg8.N) (j : S10000x64.Idx) (k : Fin 128) :
    iblk8 V c 1 t (ix2 k (j 1)) = V c (Pipeline.arrRef spec8 1) (ix2 k ((((cfg8.win 2).blk t).view.emb j) 1)) := by
  obtain ⟨-, -, e10, e11, -, e21⟩ := idx_facts8 t
  show V c (Pipeline.arrRef spec8 1) (((cfg8.win 1).blk t).view.emb (ix2 k (j 1))) = _
  refine congrArg _ (funext fun a => Fin.ext ?_)
  match a with
  | ⟨0, _⟩ => show win8_1.index t (0 : Fin 2) * 128 + 1 * k.val = k.val; omega
  | ⟨1, _⟩ => show win8_1.index t (1 : Fin 2) * 64 + 1 * (j 1).val = win8_2.index t (1 : Fin 2) * 64 + 1 * (j 1).val; omega

/-- What point `t` writes back is block `t` of the product of the two arrays as the region finds them: rows of a
    product are the product of the rows. -/
theorem flushed8_eq (c : Dev nD) (t : Fin cfg8.N) :
    (dat8 (F := Ideal) V c).flushed 2 t
      = ((cfg8.win 2).blk t).view.read (Elt Ideal) (rowsByCols (V c (Pipeline.arrRef spec8 0)) (V c (Pipeline.arrRef spec8 1))) := by
  show (cfg8.win 2).cut (grid8.coords t) ((dat8 (F := Ideal) V c).after 2 t) = _
  rw [after8_eq]
  funext j
  exact rowsByCols_congr (V c (Pipeline.arrRef spec8 0)) (V c (Pipeline.arrRef spec8 1)) (iblk8 V c 0 t) (iblk8 V c 1 t) j
    (((cfg8.win 2).blk t).view.emb j) (fun k => lblk8 V c t j k) (fun k => rblk8 V c t j k)

/-- An index of the array is in point `t`'s block iff each coordinate is in the block's range on its axis. -/
theorem mem_blk8 (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v103).slice (win8_2.rect t)).set ↔ _
  rw [View.set_slice_whole, Rect.mem_set_unit]
  exact Iff.rfl

/-- Every index of the array lies in some point's block: row `r` in block `r / 10000`. -/
theorem cover8 (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have hN : cfg8.N = 10 := N_8
  refine ⟨⟨(i 0).val / 10000, by rw [hN]; omega⟩, flush8_2 _, ?_⟩
  rw [mem_blk8]
  obtain ⟨-, -, -, -, e20, e21⟩ := idx_facts8 ⟨(i 0).val / 10000, by rw [hN]; omega⟩
  intro a
  match a with
  | ⟨0, _⟩ => show win8_2.index _ (0 : Fin 2) * 10000 ≤ (i 0).val ∧ (i 0).val < win8_2.index _ (0 : Fin 2) * 10000 + 10000; rw [e20]; show (i 0).val / 10000 * 10000 ≤ (i 0).val ∧ (i 0).val < (i 0).val / 10000 * 10000 + 10000; omega
  | ⟨1, _⟩ => show win8_2.index _ (1 : Fin 2) * 64 ≤ (i 1).val ∧ (i 1).val < win8_2.index _ (1 : Fin 2) * 64 + 64; rw [e21]; omega

/-- The output array of region 8 after its pipeline: the product of the left operand by the right operand. -/
theorem final8 (c : Dev nD) :
    (dat8 (F := Ideal) V c).arrAt 2 cfg8.N = rowsByCols (V c (Pipeline.arrRef spec8 0)) (V c (Pipeline.arrRef spec8 1)) :=
  (dat8 (F := Ideal) V c).arrAt_eq_of_cover 2 (rowsByCols (V c (Pipeline.arrRef spec8 0)) (V c (Pipeline.arrRef spec8 1)))
    (fun t _ => flushed8_eq V c t) cover8

end Cert.KernelIdeal.RegionValue

end
-- ==== Proof.BiasAddValue.lean ====
/-
  The two bias-add regions (7 and 9) of the kernel program, each as ONE whole-array function of the arrays the region
  finds: the output array the pipeline leaves is `addRow` of the region's two input arrays — every row of the
  `100000×64` operand plus the one row of the `1×64` operand.

  Per region: the body's arithmetic on a block is `addRow` of the blocks (`pay_eq`); the windows' index maps over the
  ten grid points (`idx_facts`: the matrix windows move together down the rows, block `t` being rows
  `10000·t … 10000·t + 9999`, and the row window stays at the one row); what point `t` writes back is block `t` of
  `addRow` of the arrays (`flushed_eq`); the ten blocks cover the array (`cover`: row `r` lies in block `r / 10000`);
  so the array ends holding `addRow` of the arrays (`final`).
-/
import proofs.«151309_j60756607369296_1_alg».proof.Proof.Gen.KernelIdeal.Frame
import proofs.«151309_j60756607369296_1_alg».proof.Proof.RowFns
import Idealize.ShloMosaic.Lib.Pipeline.Value
import Idealize.ShloMosaic.Lib.ValueLayout

noncomputable section

namespace Cert.KernelIdeal.RegionValue

open Cert.KernelIdeal Cert.KernelIdeal.Gen Cert.KernelIdeal.RowFns
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-! ## Region 7 -/

/-- The body's arithmetic on a block of rows and the one row: the block plus the row, row by row. -/
theorem pay7_eq (x0 : Vec Ideal S10000x64 .f32) (x1 : Vec Ideal S1x64 .f32) : k7_pay1 x0 x1 = addRow x0 x1 := by
  funext j
  obtain ⟨p, q, rfl⟩ : ∃ (p : Fin 10000) (q : Fin 64), j = ix2 p q := ⟨j 0, j 1, eq_ix2 j⟩
  unfold k7_pay1
  rw [addf_apply, shapeCast_self, shapeCast_self, broadcastTo_1b_ab_apply]
  rfl

/-- The index maps over the ten points: the two matrix windows are at block row `t`, column block 0; the row
    window is at its one block. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of `addRow` of the two arrays as the region finds them. -/
theorem flushed7_eq (c : Dev nD) (t : Fin cfg7.N) :
    (dat7 (F := Ideal) V c).flushed 2 t
      = ((cfg7.win 2).blk t).view.read (Elt Ideal) (addRow (V c (Pipeline.arrRef spec7 0)) (V c (Pipeline.arrRef spec7 1))) := by
  show (cfg7.win 2).cut (grid7.coords t) ((dat7 (F := Ideal) V c).after 2 t) = _
  rw [after7_2]
  unfold out7_2
  rw [View.canon_unit_zero zeros2]
  simp only [View.ld_unit_zero (S := S10000x64) zeros2, View.ld_unit_zero (S := S1x64) zeros2]
  rw [pay7_eq]
  obtain ⟨e00, e01, e10, e11, e20, e21⟩ := idx_facts7 t
  funext j
  show addRow (iblk7 V c 0 t) (iblk7 V c 1 t) j = addRow (V c (Pipeline.arrRef spec7 0)) (V c (Pipeline.arrRef spec7 1)) (((cfg7.win 2).blk t).view.emb j)
  refine addRow_congr _ _ _ _ j _ ?_ ?_
  · show V c (Pipeline.arrRef spec7 0) (((cfg7.win 0).blk t).view.emb j) = V c (Pipeline.arrRef spec7 0) (((cfg7.win 2).blk t).view.emb j)
    refine congrArg _ (funext fun a => Fin.ext ?_)
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * (j 1).val = win7_2.index t (1 : Fin 2) * 64 + 1 * (j 1).val; omega
  · show V c (Pipeline.arrRef spec7 1) (((cfg7.win 1).blk t).view.emb (ix2 (0 : Fin 1) (j 1))) = V c (Pipeline.arrRef spec7 1) (ix2 (0 : Fin 1) ((((cfg7.win 2).blk t).view.emb j) 1))
    refine congrArg _ (funext fun a => Fin.ext ?_)
    match a with
    | ⟨0, _⟩ => show win7_1.index t (0 : Fin 2) * 1 + 1 * 0 = 0; omega
    | ⟨1, _⟩ => show win7_1.index t (1 : Fin 2) * 64 + 1 * (j 1).val = win7_2.index t (1 : Fin 2) * 64 + 1 * (j 1).val; omega

/-- An index of the array is in point `t`'s block iff each coordinate is in the block's range on its axis. -/
theorem mem_blk7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v102).slice (win7_2.rect t)).set ↔ _
  rw [View.set_slice_whole, Rect.mem_set_unit]
  exact Iff.rfl

/-- Every index of the array lies in some point's block: row `r` in block `r / 10000`. -/
theorem cover7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 10 := N_7
  refine ⟨⟨(i 0).val / 10000, by rw [hN]; omega⟩, flush7_2 _, ?_⟩
  rw [mem_blk7]
  obtain ⟨-, -, -, -, e20, e21⟩ := idx_facts7 ⟨(i 0).val / 10000, by rw [hN]; omega⟩
  intro a
  match a with
  | ⟨0, _⟩ => show win7_2.index _ (0 : Fin 2) * 10000 ≤ (i 0).val ∧ (i 0).val < win7_2.index _ (0 : Fin 2) * 10000 + 10000; rw [e20]; show (i 0).val / 10000 * 10000 ≤ (i 0).val ∧ (i 0).val < (i 0).val / 10000 * 10000 + 10000; omega
  | ⟨1, _⟩ => show win7_2.index _ (1 : Fin 2) * 64 ≤ (i 1).val ∧ (i 1).val < win7_2.index _ (1 : Fin 2) * 64 + 64; rw [e21]; omega

/-- The output array of region 7 after its pipeline: every row of the matrix operand plus the one-row operand. -/
theorem final7 (c : Dev nD) :
    (dat7 (F := Ideal) V c).arrAt 2 cfg7.N = addRow (V c (Pipeline.arrRef spec7 0)) (V c (Pipeline.arrRef spec7 1)) :=
  (dat7 (F := Ideal) V c).arrAt_eq_of_cover 2 (addRow (V c (Pipeline.arrRef spec7 0)) (V c (Pipeline.arrRef spec7 1)))
    (fun t _ => flushed7_eq V c t) cover7

/-! ## Region 9 -/

/-- The body's arithmetic on a block of rows and the one row: the block plus the row, row by row. -/
theorem pay9_eq (x0 : Vec Ideal S10000x64 .f32) (x1 : Vec Ideal S1x64 .f32) : k9_pay1 x0 x1 = addRow x0 x1 := by
  funext j
  obtain ⟨p, q, rfl⟩ : ∃ (p : Fin 10000) (q : Fin 64), j = ix2 p q := ⟨j 0, j 1, eq_ix2 j⟩
  unfold k9_pay1
  rw [addf_apply, shapeCast_self, shapeCast_self, broadcastTo_1b_ab_apply]
  rfl

/-- The index maps over the ten points: the two matrix windows are at block row `t`, column block 0; the row
    window is at its one block. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point `t` writes back is block `t` of `addRow` of the two arrays as the region finds them. -/
theorem flushed9_eq (c : Dev nD) (t : Fin cfg9.N) :
    (dat9 (F := Ideal) V c).flushed 2 t
      = ((cfg9.win 2).blk t).view.read (Elt Ideal) (addRow (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero zeros2]
  simp only [View.ld_unit_zero (S := S10000x64) zeros2, View.ld_unit_zero (S := S1x64) zeros2]
  rw [pay9_eq]
  obtain ⟨e00, e01, e10, e11, e20, e21⟩ := idx_facts9 t
  funext j
  show addRow (iblk9 V c 0 t) (iblk9 V c 1 t) j = addRow (V c (Pipeline.arrRef spec9 0)) (V c (Pipeline.arrRef spec9 1)) (((cfg9.win 2).blk t).view.emb j)
  refine addRow_congr _ _ _ _ j _ ?_ ?_
  · show V c (Pipeline.arrRef spec9 0) (((cfg9.win 0).blk t).view.emb j) = V c (Pipeline.arrRef spec9 0) (((cfg9.win 2).blk t).view.emb j)
    refine congrArg _ (funext fun a => Fin.ext ?_)
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 64 + 1 * (j 1).val = win9_2.index t (1 : Fin 2) * 64 + 1 * (j 1).val; omega
  · show V c (Pipeline.arrRef spec9 1) (((cfg9.win 1).blk t).view.emb (ix2 (0 : Fin 1) (j 1))) = V c (Pipeline.arrRef spec9 1) (ix2 (0 : Fin 1) ((((cfg9.win 2).blk t).view.emb j) 1))
    refine congrArg _ (funext fun a => Fin.ext ?_)
    match a with
    | ⟨0, _⟩ => show win9_1.index t (0 : Fin 2) * 1 + 1 * 0 = 0; omega
    | ⟨1, _⟩ => show win9_1.index t (1 : Fin 2) * 64 + 1 * (j 1).val = win9_2.index t (1 : Fin 2) * 64 + 1 * (j 1).val; omega

/-- An index of the array is in point `t`'s block iff each coordinate is in the block's range on its axis. -/
theorem mem_blk9 (t : Fin cfg9.N) (i : S100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v118).slice (win9_2.rect t)).set ↔ _
  rw [View.set_slice_whole, Rect.mem_set_unit]
  exact Iff.rfl

/-- Every index of the array lies in some point's block: row `r` in block `r / 10000`. -/
theorem cover9 (i : S100000x64.Idx) : ∃ t : Fin cfg9.N, (cfg9.win 2).flush t = true ∧ i ∈ ((cfg9.win 2).blk t).view.set := by
  have hi0 : (i 0).val < 100000 := (i 0).isLt
  have hi1 : (i 1).val < 64 := (i 1).isLt
  have hN : cfg9.N = 10 := N_9
  refine ⟨⟨(i 0).val / 10000, by rw [hN]; omega⟩, flush9_2 _, ?_⟩
  rw [mem_blk9]
  obtain ⟨-, -, -, -, e20, e21⟩ := idx_facts9 ⟨(i 0).val / 10000, by rw [hN]; omega⟩
  intro a
  match a with
  | ⟨0, _⟩ => show win9_2.index _ (0 : Fin 2) * 10000 ≤ (i 0).val ∧ (i 0).val < win9_2.index _ (0 : Fin 2) * 10000 + 10000; rw [e20]; show (i 0).val / 10000 * 10000 ≤ (i 0).val ∧ (i 0).val < (i 0).val / 10000 * 10000 + 10000; omega
  | ⟨1, _⟩ => show win9_2.index _ (1 : Fin 2) * 64 ≤ (i 1).val ∧ (i 1).val < win9_2.index _ (1 : Fin 2) * 64 + 64; rw [e21]; omega

/-- The output array of region 9 after its pipeline: every row of the matrix operand plus the one-row operand. -/
theorem final9 (c : Dev nD) :
    (dat9 (F := Ideal) V c).arrAt 2 cfg9.N = addRow (V c (Pipeline.arrRef spec9 0)) (V c (Pipeline.arrRef spec9 1)) :=
  (dat9 (F := Ideal) V c).arrAt_eq_of_cover 2 (addRow (V c (Pipeline.arrRef spec9 0)) (V c (Pipeline.arrRef spec9 1)))
    (fun t _ => flushed9_eq V c t) cover9

end Cert.KernelIdeal.RegionValue

end
-- ==== Proof.NormActValue.lean ====
/-
  The two normalise-and-activate regions (2 and 5) of the kernel program, each as ONE whole-array function of the
  arrays the region finds: the output array the pipeline leaves is `normAct` of the region's six input arrays — the
  `100000×128` operand plus the bias row, minus the mean row, times the inverse-deviation row, times the scale row, plus
  the shift row, then the maximum with zero.

  Per region: the body's arithmetic on a block is `normAct` of the blocks (`pay_eq`); the windows' index maps over the
  ten grid points (`idx_facts`: the matrix windows move together down the rows, block `t` being rows
  `10000·t … 10000·t + 9999`, and each row window stays at the one row); what point `t` writes back is block `t` of
  `normAct` of the arrays (`flushed_eq`); the ten blocks cover the array (`cover`: row `r` lies in block `r / 10000`);
  so the array ends holding `normAct` of the arrays (`final`).
-/
import proofs.«151309_j60756607369296_1_alg».proof.Proof.Gen.KernelIdeal.Frame
import proofs.«151309_j60756607369296_1_alg».proof.Proof.RowFns
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.KernelIdeal.RowFns
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem zeros2 : (![0, 0] : Fin 2 → Nat) = fun _ => 0 := funext fun a => by fin_cases a <;> rfl

/-! ## Region 2 -/

/-- The body's arithmetic on a block of rows and the five one-row operands: the normalisation and the positive part
    of the block, row by row. The zero the maximum is taken with is the zero word of the format. -/
theorem pay2_eq (x0 : Vec Ideal S10000x128 .f32) (x1 x2 x3 x4 x5 : Vec Ideal S1x128 .f32) :
    k2_pay1 x0 x1 x2 x3 x4 x5 = normAct x0 x1 x2 x3 x4 x5 := by
  funext j
  obtain ⟨p, q, rfl⟩ : ∃ (p : Fin 10000) (q : Fin 128), j = ix2 p q := ⟨j 0, j 1, eq_ix2 j⟩
  unfold k2_pay1
  rw [maximumf_apply, addf_apply, mulf_apply, mulf_apply, subf_apply, addf_apply, broadcast_apply]
  simp only [shapeCast_self, broadcastTo_1b_ab_apply]
  rw [normAct_apply]
  show max _ (Ideal.ofBits .f32 0x00000000#32) = max _ 0
  rw [Ideal.ofBits_zero_f32]

/-- What the body leaves in the output window's buffer at point `t`: `normAct` of the six input blocks. -/
theorem after2_eq (c : Dev nD) (t : Fin cfg2.N) :
    (dat2 (F := Ideal) V c).after 6 t = normAct (iblk2 V c 0 t) (iblk2 V c 1 t) (iblk2 V c 2 t) (iblk2 V c 3 t) (iblk2 V c 4 t) (iblk2 V c 5 t) := by
  rw [after2_6]
  unfold out2_6
  rw [View.canon_unit_zero zeros2]
  simp only [View.ld_unit_zero (S := S10000x128) zeros2, View.ld_unit_zero (S := S1x128) zeros2]
  rw [pay2_eq]

/-- The index maps over the ten points: the matrix operand's and the output's windows are at block row `t`, column
    block 0; each one-row operand's window is at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The matrix operand's block at point `t`, read at `j`, is the array at the index the output's block puts `j` at. -/
theorem blk2_0 (c : Dev nD) (t : Fin cfg2.N) (j : S10000x128.Idx) :
    iblk2 V c 0 t j = V c (Pipeline.arrRef spec2 0) (((cfg2.win 6).blk t).view.emb j) := by
  obtain ⟨e00, e01, -, -, -, -, -, -, -, -, -, -, e60, e61⟩ := idx_facts2 t
  show V c (Pipeline.arrRef spec2 0) (((cfg2.win 0).blk t).view.emb j) = _
  refine congrArg _ (funext fun a => Fin.ext ?_)
  match a with
  | ⟨0, _⟩ => show win2_0.index t (0 : Fin 2) * 10000 + 1 * (j 0).val = win2_6.index t (0 : Fin 2) * 10000 + 1 * (j 0).val; omega
  | ⟨1, _⟩ => show win2_0.index t (1 : Fin 2) * 128 + 1 * (j 1).val = win2_6.index t (1 : Fin 2) * 128 + 1 * (j 1).val; omega

/-- The bias row's block at point `t`, read at column `j 1`, is the array's one row at the column the output's
    block puts `j` in. -/
theorem blk2_1 (c : Dev nD) (t : Fin cfg2.N) (j : S10000x128.Idx) :
    iblk2 V c 1 t (ix2 (0 : Fin 1) (j 1)) = V c (Pipeline.arrRef spec2 1) (ix2 (0 : Fin 1) ((((cfg2.win 6).blk t).view.emb j) 1)) := by
  obtain ⟨-, -, e0, e1, -, -, -, -, -, -, -, -, -, e61⟩ := idx_facts2 t
  show V c (Pipeline.arrRef spec2 1) (((cfg2.win 1).blk t).view.emb (ix2 (0 : Fin 1) (j 1))) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * (j 1).val = win2_6.index t (1 : Fin 2) * 128 + 1 * (j 1).val; omega

/-- The mean row's block at point `t`, read at column `j 1`, is the array's one row at the column the output's
    block puts `j` in. -/
theorem blk2_2 (c : Dev nD) (t : Fin cfg2.N) (j : S10000x128.Idx) :
    iblk2 V c 2 t (ix2 (0 : Fin 1) (j 1)) = V c (Pipeline.arrRef spec2 2) (ix2 (0 : Fin 1) ((((cfg2.win 6).blk t).view.emb j) 1)) := by
  obtain ⟨-, -, -, -, e0, e1, -, -, -, -, -, -, -, e61⟩ := idx_facts2 t
  show V c (Pipeline.arrRef spec2 2) (((cfg2.win 2).blk t).view.emb (ix2 (0 : Fin 1) (j 1))) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * (j 1).val = win2_6.index t (1 : Fin 2) * 128 + 1 * (j 1).val; omega

/-- The inverse-deviation row's block at point `t`, read at column `j 1`, is the array's one row at the column the output's
    block puts `j` in. -/
theorem blk2_3 (c : Dev nD) (t : Fin cfg2.N) (j : S10000x128.Idx) :
    iblk2 V c 3 t (ix2 (0 : Fin 1) (j 1)) = V c (Pipeline.arrRef spec2 3) (ix2 (0 : Fin 1) ((((cfg2.win 6).blk t).view.emb j) 1)) := by
  obtain ⟨-, -, -, -, -, -, e0, e1, -, -, -, -, -, e61⟩ := idx_facts2 t
  show V c (Pipeline.arrRef spec2 3) (((cfg2.win 3).blk t).view.emb (ix2 (0 : Fin 1) (j 1))) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * (j 1).val = win2_6.index t (1 : Fin 2) * 128 + 1 * (j 1).val; omega

/-- The scale row's block at point `t`, read at column `j 1`, is the array's one row at the column the output's
    block puts `j` in. -/
theorem blk2_4 (c : Dev nD) (t : Fin cfg2.N) (j : S10000x128.Idx) :
    iblk2 V c 4 t (ix2 (0 : Fin 1) (j 1)) = V c (Pipeline.arrRef spec2 4) (ix2 (0 : Fin 1) ((((cfg2.win 6).blk t).view.emb j) 1)) := by
  obtain ⟨-, -, -, -, -, -, -, -, e0, e1, -, -, -, e61⟩ := idx_facts2 t
  show V c (Pipeline.arrRef spec2 4) (((cfg2.win 4).blk t).view.emb (ix2 (0 : Fin 1) (j 1))) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * (j 1).val = win2_6.index t (1 : Fin 2) * 128 + 1 * (j 1).val; omega

/-- The shift row's block at point `t`, read at column `j 1`, is the array's one row at the column the output's
    block puts `j` in. -/
theorem blk2_5 (c : Dev nD) (t : Fin cfg2.N) (j : S10000x128.Idx) :
    iblk2 V c 5 t (ix2 (0 : Fin 1) (j 1)) = V c (Pipeline.arrRef spec2 5) (ix2 (0 : Fin 1) ((((cfg2.win 6).blk t).view.emb j) 1)) := by
  obtain ⟨-, -, -, -, -, -, -, -, -, -, e0, e1, -, e61⟩ := idx_facts2 t
  show V c (Pipeline.arrRef spec2 5) (((cfg2.win 5).blk t).view.emb (ix2 (0 : Fin 1) (j 1))) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * (j 1).val = win2_6.index t (1 : Fin 2) * 128 + 1 * (j 1).val; omega

/-- What point `t` writes back is block `t` of `normAct` of the six arrays as the region finds them. -/
theorem flushed2_eq (c : Dev nD) (t : Fin cfg2.N) :
    (dat2 (F := Ideal) V c).flushed 6 t
      = ((cfg2.win 6).blk t).view.read (Elt Ideal) (normAct (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 (F := Ideal) V c).after 6 t) = _
  rw [after2_eq]
  funext j
  exact normAct_congr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t) j (((cfg2.win 6).blk t).view.emb j)
    (blk2_0 V c t j) (blk2_1 V c t j) (blk2_2 V c t j) (blk2_3 V c t j) (blk2_4 V c t j) (blk2_5 V c t j)

/-- An index of the array is in point `t`'s block iff each coordinate is in the block's range on its axis. -/
theorem mem_blk2 (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v57).slice (win2_6.rect t)).set ↔ _
  rw [View.set_slice_whole, Rect.mem_set_unit]
  exact Iff.rfl

/-- Every index of the array lies in some point's block: row `r` in block `r / 10000`. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_6 _, ?_⟩
  rw [mem_blk2]
  obtain ⟨-, -, -, -, -, -, -, -, -, -, -, -, e60, e61⟩ := idx_facts2 ⟨(i 0).val / 10000, by rw [hN]; omega⟩
  intro a
  match a with
  | ⟨0, _⟩ => show win2_6.index _ (0 : Fin 2) * 10000 ≤ (i 0).val ∧ (i 0).val < win2_6.index _ (0 : Fin 2) * 10000 + 10000; rw [e60]; show (i 0).val / 10000 * 10000 ≤ (i 0).val ∧ (i 0).val < (i 0).val / 10000 * 10000 + 10000; omega
  | ⟨1, _⟩ => show win2_6.index _ (1 : Fin 2) * 128 ≤ (i 1).val ∧ (i 1).val < win2_6.index _ (1 : Fin 2) * 128 + 128; rw [e61]; omega

/-- The output array of region 2 after its pipeline: the normalisation and positive part of the matrix operand by
    the five one-row operands. -/
theorem final2 (c : Dev nD) :
    (dat2 (F := Ideal) V c).arrAt 6 cfg2.N = normAct (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 (normAct (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
    (fun t _ => flushed2_eq V c t) cover2

/-! ## Region 5 -/

/-- The body's arithmetic on a block of rows and the five one-row operands: the normalisation and the positive part
    of the block, row by row. The zero the maximum is taken with is the zero word of the format. -/
theorem pay5_eq (x0 : Vec Ideal S10000x128 .f32) (x1 x2 x3 x4 x5 : Vec Ideal S1x128 .f32) :
    k5_pay1 x0 x1 x2 x3 x4 x5 = normAct x0 x1 x2 x3 x4 x5 := by
  funext j
  obtain ⟨p, q, rfl⟩ : ∃ (p : Fin 10000) (q : Fin 128), j = ix2 p q := ⟨j 0, j 1, eq_ix2 j⟩
  unfold k5_pay1
  rw [maximumf_apply, addf_apply, mulf_apply, mulf_apply, subf_apply, addf_apply, broadcast_apply]
  simp only [shapeCast_self, broadcastTo_1b_ab_apply]
  rw [normAct_apply]
  show max _ (Ideal.ofBits .f32 0x00000000#32) = max _ 0
  rw [Ideal.ofBits_zero_f32]

/-- What the body leaves in the output window's buffer at point `t`: `normAct` of the six input blocks. -/
theorem after5_eq (c : Dev nD) (t : Fin cfg5.N) :
    (dat5 (F := Ideal) V c).after 6 t = normAct (iblk5 V c 0 t) (iblk5 V c 1 t) (iblk5 V c 2 t) (iblk5 V c 3 t) (iblk5 V c 4 t) (iblk5 V c 5 t) := by
  rw [after5_6]
  unfold out5_6
  rw [View.canon_unit_zero zeros2]
  simp only [View.ld_unit_zero (S := S10000x128) zeros2, View.ld_unit_zero (S := S1x128) zeros2]
  rw [pay5_eq]

/-- The index maps over the ten points: the matrix operand's and the output's windows are at block row `t`, column
    block 0; each one-row operand's window is at its one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The matrix operand's block at point `t`, read at `j`, is the array at the index the output's block puts `j` at. -/
theorem blk5_0 (c : Dev nD) (t : Fin cfg5.N) (j : S10000x128.Idx) :
    iblk5 V c 0 t j = V c (Pipeline.arrRef spec5 0) (((cfg5.win 6).blk t).view.emb j) := by
  obtain ⟨e00, e01, -, -, -, -, -, -, -, -, -, -, e60, e61⟩ := idx_facts5 t
  show V c (Pipeline.arrRef spec5 0) (((cfg5.win 0).blk t).view.emb j) = _
  refine congrArg _ (funext fun a => Fin.ext ?_)
  match a with
  | ⟨0, _⟩ => show win5_0.index t (0 : Fin 2) * 10000 + 1 * (j 0).val = win5_6.index t (0 : Fin 2) * 10000 + 1 * (j 0).val; omega
  | ⟨1, _⟩ => show win5_0.index t (1 : Fin 2) * 128 + 1 * (j 1).val = win5_6.index t (1 : Fin 2) * 128 + 1 * (j 1).val; omega

/-- The bias row's block at point `t`, read at column `j 1`, is the array's one row at the column the output's
    block puts `j` in. -/
theorem blk5_1 (c : Dev nD) (t : Fin cfg5.N) (j : S10000x128.Idx) :
    iblk5 V c 1 t (ix2 (0 : Fin 1) (j 1)) = V c (Pipeline.arrRef spec5 1) (ix2 (0 : Fin 1) ((((cfg5.win 6).blk t).view.emb j) 1)) := by
  obtain ⟨-, -, e0, e1, -, -, -, -, -, -, -, -, -, e61⟩ := idx_facts5 t
  show V c (Pipeline.arrRef spec5 1) (((cfg5.win 1).blk t).view.emb (ix2 (0 : Fin 1) (j 1))) = _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * (j 1).val = win5_6.index t (1 : Fin 2) * 128 + 1 * (j 1).val; omega

/-- The mean row's block at point `t`, read at column `j 1`, is the array's one row at the column the output's
    block puts `j` in. -/
theorem blk5_2 (c : Dev nD) (t : Fin cfg5.N) (j : S10000x128.Idx) :
    iblk5 V c 2 t (ix2 (0 : Fin 1) (j 1)) = V c (Pipeline.arrRef spec5 2) (ix2 (0 : Fin 1) ((((cfg5.win 6).blk t).view.emb j) 1)) := by
  obtain ⟨-, -, -, -, e0, e1, -, -, -, -, -, -, -, e61⟩ := idx_facts5 t
  show V c (Pipeline.arrRef spec5 2) (((cfg5.win 2).blk t).view.emb (ix2 (0 : Fin 1) (j 1))) = _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * (j 1).val = win5_6.index t (1 : Fin 2) * 128 + 1 * (j 1).val; omega

/-- The inverse-deviation row's block at point `t`, read at column `j 1`, is the array's one row at the column the output's
    block puts `j` in. -/
theorem blk5_3 (c : Dev nD) (t : Fin cfg5.N) (j : S10000x128.Idx) :
    iblk5 V c 3 t (ix2 (0 : Fin 1) (j 1)) = V c (Pipeline.arrRef spec5 3) (ix2 (0 : Fin 1) ((((cfg5.win 6).blk t).view.emb j) 1)) := by
  obtain ⟨-, -, -, -, -, -, e0, e1, -, -, -, -, -, e61⟩ := idx_facts5 t
  show V c (Pipeline.arrRef spec5 3) (((cfg5.win 3).blk t).view.emb (ix2 (0 : Fin 1) (j 1))) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * (j 1).val = win5_6.index t (1 : Fin 2) * 128 + 1 * (j 1).val; omega

/-- The scale row's block at point `t`, read at column `j 1`, is the array's one row at the column the output's
    block puts `j` in. -/
theorem blk5_4 (c : Dev nD) (t : Fin cfg5.N) (j : S10000x128.Idx) :
    iblk5 V c 4 t (ix2 (0 : Fin 1) (j 1)) = V c (Pipeline.arrRef spec5 4) (ix2 (0 : Fin 1) ((((cfg5.win 6).blk t).view.emb j) 1)) := by
  obtain ⟨-, -, -, -, -, -, -, -, e0, e1, -, -, -, e61⟩ := idx_facts5 t
  show V c (Pipeline.arrRef spec5 4) (((cfg5.win 4).blk t).view.emb (ix2 (0 : Fin 1) (j 1))) = _
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * (j 1).val = win5_6.index t (1 : Fin 2) * 128 + 1 * (j 1).val; omega

/-- The shift row's block at point `t`, read at column `j 1`, is the array's one row at the column the output's
    block puts `j` in. -/
theorem blk5_5 (c : Dev nD) (t : Fin cfg5.N) (j : S10000x128.Idx) :
    iblk5 V c 5 t (ix2 (0 : Fin 1) (j 1)) = V c (Pipeline.arrRef spec5 5) (ix2 (0 : Fin 1) ((((cfg5.win 6).blk t).view.emb j) 1)) := by
  obtain ⟨-, -, -, -, -, -, -, -, -, -, e0, e1, -, e61⟩ := idx_facts5 t
  show V c (Pipeline.arrRef spec5 5) (((cfg5.win 5).blk t).view.emb (ix2 (0 : Fin 1) (j 1))) = _
  refine congrArg _ (funext fun a => Fin.ext ?_)
  match a with
  | ⟨0, _⟩ => show win5_5.index t (0 : Fin 2) * 1 + 1 * 0 = 0; omega
  | ⟨1, _⟩ => show win5_5.index t (1 : Fin 2) * 128 + 1 * (j 1).val = win5_6.index t (1 : Fin 2) * 128 + 1 * (j 1).val; omega

/-- What point `t` writes back is block `t` of `normAct` of the six arrays as the region finds them. -/
theorem flushed5_eq (c : Dev nD) (t : Fin cfg5.N) :
    (dat5 (F := Ideal) V c).flushed 6 t
      = ((cfg5.win 6).blk t).view.read (Elt Ideal) (normAct (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 (F := Ideal) V c).after 6 t) = _
  rw [after5_eq]
  funext j
  exact normAct_congr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
    (iblk5 V c 0 t) (iblk5 V c 1 t) (iblk5 V c 2 t) (iblk5 V c 3 t) (iblk5 V c 4 t) (iblk5 V c 5 t) j (((cfg5.win 6).blk t).view.emb j)
    (blk5_0 V c t j) (blk5_1 V c t j) (blk5_2 V c t j) (blk5_3 V c t j) (blk5_4 V c t j) (blk5_5 V c t j)

/-- An index of the array is in point `t`'s block iff each coordinate is in the block's range on its axis. -/
theorem mem_blk5 (t : Fin cfg5.N) (i : S100000x128.Idx) :
    i ∈ ((cfg5.win 6).blk t).view.set ↔ ∀ a : Fin 2, win5_6.index t a * S10000x128.size a ≤ (i a).val ∧ (i a).val < win5_6.index t a * S10000x128.size a + S10000x128.size a := by
  show i ∈ ((View.whole main_v86).slice (win5_6.rect t)).set ↔ _
  rw [View.set_slice_whole, Rect.mem_set_unit]
  exact Iff.rfl

/-- Every index of the array lies in some point's block: row `r` in block `r / 10000`. -/
theorem cover5 (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 10 := N_5
  refine ⟨⟨(i 0).val / 10000, by rw [hN]; omega⟩, flush5_6 _, ?_⟩
  rw [mem_blk5]
  obtain ⟨-, -, -, -, -, -, -, -, -, -, -, -, e60, e61⟩ := idx_facts5 ⟨(i 0).val / 10000, by rw [hN]; omega⟩
  intro a
  match a with
  | ⟨0, _⟩ => show win5_6.index _ (0 : Fin 2) * 10000 ≤ (i 0).val ∧ (i 0).val < win5_6.index _ (0 : Fin 2) * 10000 + 10000; rw [e60]; show (i 0).val / 10000 * 10000 ≤ (i 0).val ∧ (i 0).val < (i 0).val / 10000 * 10000 + 10000; omega
  | ⟨1, _⟩ => show win5_6.index _ (1 : Fin 2) * 128 ≤ (i 1).val ∧ (i 1).val < win5_6.index _ (1 : Fin 2) * 128 + 128; rw [e61]; omega

/-- The output array of region 5 after its pipeline: the normalisation and positive part of the matrix operand by
    the five one-row operands. -/
theorem final5 (c : Dev nD) :
    (dat5 (F := Ideal) V c).arrAt 6 cfg5.N = normAct (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 (normAct (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)))
    (fun t _ => flushed5_eq V c t) cover5

end Cert.KernelIdeal.RegionValue

end
-- ==== Proof.LibBatchMoments.lean ====
/-
  Batch moments over the extended reals.

  A column of real data has two spellings of its variance: the mean of the squares minus the
  square of the mean, and the mean of the squared deviations from the mean. Over the extended
  reals (where `⊤ - ⊤` is junk) the two agree when every entry is a real number; this file
  proves that, in the operations as programs spell them (`Ideal.div` for the quotient by the
  row count), together with the regrouping of a sum over `T * B` consecutive rows into `T`
  blocks of `B` rows, which is how a blocked accumulation meets a whole-column sum.
-/
import Mathlib.Data.EReal.Basic
import Mathlib.Data.EReal.Operations
import Mathlib.Algebra.BigOperators.Fin
import Mathlib.Algebra.BigOperators.Intervals
import Mathlib.Algebra.BigOperators.Ring.Finset
import Mathlib.Tactic.Ring
import Mathlib.Tactic.FieldSimp
import Mathlib.Tactic.NormNum
import Idealize.ShloMosaic.PureOps.Ideal

namespace Cert.LibBatchMoments

open Idealize.ShloMosaic
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- The variance identity over the reals: with `S = ∑ o`, `Q = ∑ o²` and `n` the number of
    entries, `Q / n - (S / n)² = (∑ (o - S / n)²) / n`, written with products by `1 / n`. -/
theorem var_two_ways_real {ι : Type*} [Fintype ι] (o : ι → ℝ) (n : ℝ) (hn : n ≠ 0)
    (hcard : (Fintype.card ι : ℝ) = n) :
    (∑ i, o i * o i) * (1 / n) - (∑ i, o i) * (1 / n) * ((∑ i, o i) * (1 / n))
      = (∑ i, (o i - (∑ j, o j) * (1 / n)) * (o i - (∑ j, o j) * (1 / n))) * (1 / n) := by
  have expand : ∑ i, (o i - (∑ j, o j) * (1 / n)) * (o i - (∑ j, o j) * (1 / n))
      = (∑ i, o i * o i) - 2 * ((∑ j, o j) * (1 / n)) * (∑ i, o i)
        + n * (((∑ j, o j) * (1 / n)) * ((∑ j, o j) * (1 / n))) := by
    have h1 : ∀ i, (o i - (∑ j, o j) * (1 / n)) * (o i - (∑ j, o j) * (1 / n))
        = o i * o i - 2 * ((∑ j, o j) * (1 / n)) * o i
          + ((∑ j, o j) * (1 / n)) * ((∑ j, o j) * (1 / n)) := fun i => by ring
    rw [Finset.sum_congr rfl (fun i _ => h1 i), Finset.sum_add_distrib, Finset.sum_sub_distrib,
      ← Finset.mul_sum, Finset.sum_const, Finset.card_univ, nsmul_eq_mul, hcard]
  rw [expand]
  field_simp
  ring

/-- `E[o²] - E[o]² = E[(o - E[o])²]` for real data, over the extended reals and in the
    operations as programs spell them: every mean is `Ideal.div` of a sum by the row count
    `n`. The hypothesis that the data is real is in the type of `o`. -/
theorem var_two_ways {ι : Type*} [Fintype ι] (o : ι → ℝ) (n : ℝ) (hn : n ≠ 0)
    (hcard : (Fintype.card ι : ℝ) = n) :
    Ideal.div (∑ i, (o i : EReal) * (o i : EReal)) (n : EReal)
      - Ideal.div (∑ i, (o i : EReal)) (n : EReal) * Ideal.div (∑ i, (o i : EReal)) (n : EReal)
    = Ideal.div (∑ i, ((o i : EReal) - Ideal.div (∑ j, (o j : EReal)) (n : EReal))
        * ((o i : EReal) - Ideal.div (∑ j, (o j : EReal)) (n : EReal))) (n : EReal) := by
  have hmean : Ideal.div (∑ j, (o j : EReal)) (n : EReal)
      = (((∑ j, o j) * (1 / n) : ℝ) : EReal) := by
    rw [Ideal.div_coe hn, ← coe_sum, ← EReal.coe_mul]
  have hsq : (∑ i, (o i : EReal) * (o i : EReal)) = ((∑ i, o i * o i : ℝ) : EReal) := by
    rw [coe_sum]
    exact Finset.sum_congr rfl (fun i _ => (EReal.coe_mul _ _).symm)
  have hdev : (∑ i, ((o i : EReal) - (((∑ j, o j) * (1 / n) : ℝ) : EReal))
        * ((o i : EReal) - (((∑ j, o j) * (1 / n) : ℝ) : EReal)))
      = ((∑ i, (o i - (∑ j, o j) * (1 / n)) * (o i - (∑ j, o j) * (1 / n)) : ℝ) : EReal) := by
    rw [coe_sum]
    exact Finset.sum_congr rfl (fun i _ => by rw [← EReal.coe_sub, ← EReal.coe_mul])
  rw [hmean, hsq, hdev, Ideal.div_coe hn, Ideal.div_coe hn, ← EReal.coe_mul, ← EReal.coe_mul,
    ← EReal.coe_mul, ← EReal.coe_sub, var_two_ways_real o n hn hcard]

/-- A sum over `T * B` consecutive naturals is the sum over `T` blocks of `B`: entry `p` of the
    whole range is entry `r` of block `t` at `p = B * t + r`. -/
theorem sum_blocked {M : Type*} [AddCommMonoid M] (T B : ℕ) (g : ℕ → M) :
    ∑ p ∈ Finset.range (T * B), g p
      = ∑ t ∈ Finset.range T, ∑ r ∈ Finset.range B, g (B * t + r) := by
  induction T with
  | zero => simp
  | succ T ih =>
    rw [Finset.sum_range_succ, ← ih, Nat.succ_mul, Finset.sum_range_add, Nat.mul_comm T B]

/-- The instance at 50000 rows in 10 blocks of 5000, over `Fin` types. -/
theorem sum_rows_blocked {M : Type*} [AddCommMonoid M] (g : ℕ → M) :
    ∑ p : Fin 50000, g p.val = ∑ t ∈ Finset.range 10, ∑ r : Fin 5000, g (5000 * t + r.val) := by
  rw [Fin.sum_univ_eq_sum_range (fun p => g p), show (50000 : ℕ) = 10 * 5000 from rfl,
    sum_blocked 10 5000 g]
  exact Finset.sum_congr rfl
    (fun t _ => (Fin.sum_univ_eq_sum_range (fun r => g (5000 * t + r)) 5000).symm)

end Cert.LibBatchMoments
-- ==== Proof.StatsValue1.lean ====
/-
  The two statistics rows a batch normalisation's first kernel region leaves.

  The region walks the 100000-row table in ten blocks of 10000 rows. At the first block it zeroes two one-row
  buffers; at every block it adds to the first the block's column sums of the entries plus the bias row, and to the
  second the column sums of their squares; the two rows are written back once, after the last block. So the rows the
  region leaves are the column sums, over all rows, of the biased entries and of their squares: addition on the
  extended reals is commutative and associative, and no entry need be finite for that.
-/
import proofs.«151309_j60756607369296_1_alg».proof.Proof.Gen.KernelIdeal.Frame
import proofs.«151309_j60756607369296_1_alg».proof.Proof.LibBatchMoments
import proofs.«151309_j60756607369296_1_alg».proof.Proof.StatFns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Stats1
open Cert.KernelIdeal Cert.KernelIdeal.Gen

section AnyF
variable {F : FTy → Type} [FloatOps F]

theorem hz : (![0, 0] : Fin 2 → Nat) = fun _ => 0 := funext fun a => by fin_cases a <;> rfl

/-- After a point that is not the first, the sums' buffer holds the sums it held plus the block's column sums. -/
theorem sum_B (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : ¬cond1_0 i)
    (x0 : Vec F S10000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S10000x128) hz,
    View.ld_unit_zero (S := S1x128) hz]

/-- … and the squares' buffer the sums of squares it held plus the block's column sums of squares. -/
theorem sq_B (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : ¬cond1_0 i)
    (x0 : Vec F S10000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S10000x128) hz,
    View.ld_unit_zero (S := S1x128) hz]

/-- After the first point the sums' buffer holds the zero row plus the block's column sums: the row is zeroed first and
    read back. -/
theorem sum_A (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : cond1_0 i)
    (x0 : Vec F S10000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

theorem sq_A (c : Dev nD) (i : grid1.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : cond1_0 i)
    (x0 : Vec F S10000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

end AnyF

section AtIdeal

/-- The biased block at row r, column q: the block's entry plus the bias row's entry of that column. -/
theorem pay3_apply (x0 : FVec Ideal S10000x128 .f32) (x1 : FVec Ideal S1x128 .f32) (r : Fin 10000) (q : Fin 128) :
    k1_pay3 (F := Ideal) x0 x1 (ix2 r q) = x0 (ix2 r q) + x1 (ix2 (0 : Fin 1) q) := by
  unfold k1_pay3
  simp only [shapeCast_self]
  refine (addf_apply _ _ _).trans ?_
  exact congrArg (x0 (ix2 r q) + ·) (broadcastTo_1b_ab_apply x1 _ r q)

/-- The index a column sum reads at row r of column q. -/
theorem lift_eq (q : Fin 128) (r : Fin 10000) :
    reduces_S10000x128_S128.lift (ix1 q) r = (ix2 r q : S10000x128.Idx) :=
  funext fun a => Fin.ext (by match a with | ⟨0, _⟩ => rfl | ⟨1, _⟩ => rfl)

/-- The sums' update at column q: what the buffer held plus the block's column sum of biased entries. -/
theorem pay4_apply (x0 : FVec Ideal S10000x128 .f32) (x1 acc : FVec Ideal S1x128 .f32) (q : Fin 128) :
    k1_pay4 (F := Ideal) x0 x1 acc (ix2 (0 : Fin 1) q)
      = acc (ix2 (0 : Fin 1) q) + ∑ r : Fin 10000, (x0 (ix2 r q) + x1 (ix2 (0 : Fin 1) q)) := by
  unfold k1_pay4
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single (k1_pay3 (F := Ideal) x0 x1) 0x00000000#32 reduces_S10000x128_S128 (.inl rfl) rfl (ix1 q)).trans ?_
  exact Finset.sum_congr rfl fun r _ => (congrArg _ (lift_eq q r)).trans (pay3_apply x0 x1 r q)

/-- The squares' update at column q: what the buffer held plus the block's column sum of squared biased entries. -/
theorem pay5_apply (x0 : FVec Ideal S10000x128 .f32) (x1 acc : FVec Ideal S1x128 .f32) (q : Fin 128) :
    k1_pay5 (F := Ideal) x0 x1 acc (ix2 (0 : Fin 1) q)
      = acc (ix2 (0 : Fin 1) q)
        + ∑ r : Fin 10000, (x0 (ix2 r q) + x1 (ix2 (0 : Fin 1) q)) * (x0 (ix2 r q) + x1 (ix2 (0 : Fin 1) q)) := by
  unfold k1_pay5
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single (mulf (k1_pay3 (F := Ideal) x0 x1) (k1_pay3 (F := Ideal) x0 x1)) 0x00000000#32 reduces_S10000x128_S128 (.inl rfl) rfl (ix1 q)).trans ?_
  refine Finset.sum_congr rfl fun r _ => ?_
  refine (congrArg _ (lift_eq q r)).trans ?_
  refine (mulf_apply _ _ _).trans ?_
  exact congrArg₂ (· * ·) (pay3_apply x0 x1 r q) (pay3_apply x0 x1 r q)

/-- The row the first point stores first is zero everywhere. -/
theorem pay1_apply (j : S1x128.Idx) : k1_pay1 (F := Ideal) j = 0 := by
  unfold k1_pay1
  exact Ideal.ofBits_zero_f32
theorem pay2_apply (j : S1x128.Idx) : k1_pay2 (F := Ideal) j = 0 := by
  unfold k1_pay2
  exact Ideal.ofBits_zero_f32

end AtIdeal

section Region

variable (V : (c : Dev nD) → (b : Ref sig .tc) → Buf (Elt Ideal) ((c : Thread nD τ).loc b))

theorem hN : cfg1.N = 10 := N_1

/-- The table and the bias row as the region finds them, and their blocks at a point. -/
abbrev tbl (c : Dev nD) : FVec Ideal S100000x128 .f32 := V c (Pipeline.arrRef spec1 0)
abbrev brow (c : Dev nD) : FVec Ideal S1x128 .f32 := V c (Pipeline.arrRef spec1 1)
abbrev blk0 (c : Dev nD) (t : Fin cfg1.N) : FVec Ideal S10000x128 .f32 := iblk1 V c 0 t
abbrev blk1 (c : Dev nD) (t : Fin cfg1.N) : FVec Ideal S1x128 .f32 := iblk1 V c 1 t

/-- The table's block at point t is rows 10000·t … 10000·t + 9999, every column. -/
theorem idx0 : ∀ t : Fin cfg1.N, win1_0.index t (0 : Fin 2) = t.val ∧ win1_0.index t (1 : Fin 2) = 0 :=
  (by decide +kernel : ∀ t : Fin grid1.N, _)
/-- The bias row's block is the whole row at every point. -/
theorem idx1 : ∀ t : Fin cfg1.N, win1_1.index t (0 : Fin 2) = 0 ∧ win1_1.index t (1 : Fin 2) = 0 :=
  (by decide +kernel : ∀ t : Fin grid1.N, _)

/-- Entry (r, q) of the table's block at point t is entry (10000·t + r, q) of the table. -/
theorem blk0_apply (c : Dev nD) (t : Fin cfg1.N) (r : Fin 10000) (q : Fin 128)
    (hb : 10000 * t.val + r.val < 100000) :
    blk0 V c t (ix2 r q) = tbl V c (ix2 ⟨10000 * t.val + r.val, hb⟩ q) := by
  unfold blk0 tbl iblk1
  rw [View.read_apply]
  refine congrArg (V c (Pipeline.arrRef spec1 0)) (funext fun a => Fin.ext ?_)
  match a with
  | ⟨0, _⟩ => show win1_0.index t 0 * 10000 + 1 * r.val = 10000 * t.val + r.val; rw [(idx0 t).1]; omega
  | ⟨1, _⟩ => show win1_0.index t 1 * 128 + 1 * q.val = q.val; rw [(idx0 t).2]; omega

/-- Entry (0, q) of the bias row's block at any point is entry (0, q) of the row. -/
theorem blk1_apply (c : Dev nD) (t : Fin cfg1.N) (q : Fin 128) :
    blk1 V c t (ix2 (0 : Fin 1) q) = brow V c (ix2 (0 : Fin 1) q) := by
  unfold blk1 brow iblk1
  rw [View.read_apply]
  refine congrArg (V c (Pipeline.arrRef spec1 1)) (funext fun a => Fin.ext ?_)
  match a with
  | ⟨0, _⟩ => show win1_1.index t 0 * 1 + 1 * (0 : Fin 1).val = (0 : Fin 1).val; rw [(idx1 t).1]; rfl
  | ⟨1, _⟩ => show win1_1.index t 1 * 128 + 1 * q.val = q.val; rw [(idx1 t).2]; omega

/-- The biased entry in row p of column q, and 0 past the table's last row (so that it is a function on ℕ). -/
def entry (c : Dev nD) (q : Fin 128) (p : ℕ) : EReal :=
  if h : p < 100000 then tbl V c (ix2 ⟨p, h⟩ q) + brow V c (ix2 (0 : Fin 1) q) else 0

/-- Block t's column sum at column q of the biased entries, read off the blocks at point t. -/
theorem block_sum (c : Dev nD) (t : Fin cfg1.N) (q : Fin 128) :
    ∑ r : Fin 10000, (blk0 V c t (ix2 r q) + blk1 V c t (ix2 (0 : Fin 1) q))
      = ∑ r : Fin 10000, entry V c q (10000 * t.val + r.val) := by
  refine Finset.sum_congr rfl fun r _ => ?_
  have hb : 10000 * t.val + r.val < 100000 := by have := t.isLt; have := hN; have := r.isLt; omega
  rw [blk0_apply V c t r q hb, blk1_apply V c t q]
  unfold entry
  rw [dif_pos hb]

theorem block_sumsq (c : Dev nD) (t : Fin cfg1.N) (q : Fin 128) :
    ∑ r : Fin 10000, (blk0 V c t (ix2 r q) + blk1 V c t (ix2 (0 : Fin 1) q))
        * (blk0 V c t (ix2 r q) + blk1 V c t (ix2 (0 : Fin 1) q))
      = ∑ r : Fin 10000, entry V c q (10000 * t.val + r.val) * entry V c q (10000 * t.val + r.val) := by
  refine Finset.sum_congr rfl fun r _ => ?_
  have hb : 10000 * t.val + r.val < 100000 := by have := t.isLt; have := hN; have := r.isLt; omega
  rw [blk0_apply V c t r q hb, blk1_apply V c t q]
  unfold entry
  rw [dif_pos hb]

/-- After point n the two buffers hold, in column q, the sums over the blocks 0 … n of the biased entries and of their
    squares: by induction on the point, the first point starting from the zero row. -/
theorem running (c : Dev nD) (q : Fin 128) : ∀ (n : ℕ) (hn : n < cfg1.N),
    (outsAt1 V c n hn).1 (ix2 (0 : Fin 1) q)
        = 0 + ∑ t ∈ Finset.range (n + 1), ∑ r : Fin 10000, entry V c q (10000 * t + r.val)
    ∧ (outsAt1 V c n hn).2 (ix2 (0 : Fin 1) q)
        = 0 + ∑ t ∈ Finset.range (n + 1), ∑ r : Fin 10000, entry V c q (10000 * t + r.val) * entry V c q (10000 * t + r.val)
  | 0, hn => by
    rw [outsAt1_A V c ⟨0, hn⟩ rfl]
    dsimp only
    rw [sum_A, sq_A, pay4_apply, pay5_apply, pay1_apply, pay2_apply]
    rw [Finset.sum_range_succ, Finset.sum_range_zero, Finset.sum_range_succ, Finset.sum_range_zero]
    simp only [zero_add]
    exact ⟨block_sum V c ⟨0, hn⟩ q, block_sumsq V c ⟨0, hn⟩ q⟩
  | n + 1, hn => by
    have hB : ¬(⟨n + 1, hn⟩ : Fin cfg1.N).val % 10 = 0 := by have := hN; dsimp only; omega
    obtain ⟨ih1, ih2⟩ := running c q n (Nat.lt_of_succ_lt hn)
    rw [outsAt1_B V c ⟨n + 1, hn⟩ hB]
    dsimp only
    rw [sum_B, sq_B, pay4_apply, pay5_apply]
    rw [Finset.sum_range_succ _ (n + 1), Finset.sum_range_succ _ (n + 1), ← add_assoc, ← add_assoc]
    exact ⟨congrArg₂ (· + ·) ih1 (block_sum V c ⟨n + 1, hn⟩ q), congrArg₂ (· + ·) ih2 (block_sumsq V c ⟨n + 1, hn⟩ q)⟩

/-- The last point. -/
abbrev last : Fin cfg1.N := t1_9

/-- What the two result rows end holding: the buffers' contents after the last point. -/
abbrev resultS (c : Dev nD) : Buf (Elt Ideal) ((c : Thread nD τ).loc main_v44_0) := (outsAt1 V c last.val last.isLt).1
abbrev resultQ (c : Dev nD) : Buf (Elt Ideal) ((c : Thread nD τ).loc main_v44_1) := (outsAt1 V c last.val last.isLt).2

/-- The one write-back of the sums, after the last point, writes them: the row's one block is the whole row. -/
theorem flushedS_eq (c : Dev nD) (t : Fin cfg1.N) (hf : (cfg1.win 2).flush t = true) :
    (dat1 V c).flushed 2 t = ((cfg1.win 2).blk t).view.read (Elt Ideal) (resultS V c) := by
  have h9 : t.val = 9 := by have := (flush1_2 t).mp hf; have := t.isLt; have := hN; omega
  obtain rfl : t = t1_9 := Fin.ext h9
  show (cfg1.win 2).cut (grid1.coords t1_9) ((dat1 V c).after 2 t1_9) = _
  rw [after1_2]
  have hz' : (fun a => win1_2.index t1_9 a * main_v44_0.ty.shape.size a) = fun _ => 0 := funext fun a => by fin_cases a <;> decide
  exact (Memref.read_access_unit_zero (Elt Ideal) main_v44_0 hz' (fun a => by rw [congrFun hz' a]; simp) (resultS V c)).symm

theorem flushedQ_eq (c : Dev nD) (t : Fin cfg1.N) (hf : (cfg1.win 3).flush t = true) :
    (dat1 V c).flushed 3 t = ((cfg1.win 3).blk t).view.read (Elt Ideal) (resultQ V c) := by
  have h9 : t.val = 9 := by have := (flush1_3 t).mp hf; have := t.isLt; have := hN; omega
  obtain rfl : t = t1_9 := Fin.ext h9
  show (cfg1.win 3).cut (grid1.coords t1_9) ((dat1 V c).after 3 t1_9) = _
  rw [after1_3]
  have hz' : (fun a => win1_3.index t1_9 a * main_v44_1.ty.shape.size a) = fun _ => 0 := funext fun a => by fin_cases a <;> decide
  exact (Memref.read_access_unit_zero (Elt Ideal) main_v44_1 hz' (fun a => by rw [congrFun hz' a]; simp) (resultQ V c)).symm

/-- So the sums' row ends holding the buffer's contents after the last point: that point's block covers the row. -/
theorem finalS_raw (c : Dev nD) : (dat1 V c).arrAt 2 cfg1.N = resultS V c :=
  (dat1 V c).arrAt_eq_of_cover 2 (resultS V c) (flushedS_eq V c) fun i =>
    ⟨t1_9, (flush1_2 t1_9).mpr rfl, by
      show i ∈ ((View.whole main_v44_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

theorem finalQ_raw (c : Dev nD) : (dat1 V c).arrAt 3 cfg1.N = resultQ V c :=
  (dat1 V c).arrAt_eq_of_cover 3 (resultQ V c) (flushedQ_eq V c) fun i =>
    ⟨t1_9, (flush1_3 t1_9).mpr rfl, by
      show i ∈ ((View.whole main_v44_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- Ten blocks of 10000 consecutive rows are the 100000 rows. -/
theorem total (g : ℕ → EReal) :
    ∑ t ∈ Finset.range 10, ∑ r : Fin 10000, g (10000 * t + r.val) = ∑ i : Fin 100000, g i.val := by
  rw [Fin.sum_univ_eq_sum_range (fun p => g p) 100000, show (100000 : ℕ) = 10 * 10000 from rfl,
    Cert.LibBatchMoments.sum_blocked 10 10000 g]
  exact Finset.sum_congr rfl fun t _ => Fin.sum_univ_eq_sum_range (fun r => g (10000 * t + r)) 10000

/-- The sums' row the region leaves: column q holds the sum over all 100000 rows of the table's entry plus the bias. -/
theorem finalS (c : Dev nD) : (dat1 V c).arrAt 2 cfg1.N = StatFns.colSum (tbl V c) (brow V c) := by
  rw [finalS_raw]
  funext j
  obtain ⟨u, q, rfl⟩ : ∃ (u : Fin 1) (q : Fin 128), j = ix2 u q := ⟨j 0, j 1, eq_ix2 j⟩
  obtain rfl : u = 0 := Subsingleton.elim _ _
  refine ((running V c q 9 (by rw [hN]; decide)).1).trans ?_
  rw [zero_add, total]
  refine Finset.sum_congr rfl fun i _ => ?_
  unfold entry
  rw [dif_pos i.isLt]

/-- The squares' row the region leaves: column q holds the sum over all rows of the squared biased entries. -/
theorem finalQ (c : Dev nD) : (dat1 V c).arrAt 3 cfg1.N = StatFns.colSumSq (tbl V c) (brow V c) := by
  rw [finalQ_raw]
  funext j
  obtain ⟨u, q, rfl⟩ : ∃ (u : Fin 1) (q : Fin 128), j = ix2 u q := ⟨j 0, j 1, eq_ix2 j⟩
  obtain rfl : u = 0 := Subsingleton.elim _ _
  refine ((running V c q 9 (by rw [hN]; decide)).2).trans ?_
  rw [zero_add, total (fun p => entry V c q p * entry V c q p)]
  refine Finset.sum_congr rfl fun i _ => ?_
  unfold entry
  rw [dif_pos i.isLt]

end Region

end Cert.KernelIdeal.Stats1
end
-- ==== Proof.StatsValue4.lean ====
/-
  The two statistics rows a batch normalisation's first kernel region leaves.

  The region walks the 100000-row table in ten blocks of 10000 rows. At the first block it zeroes two one-row
  buffers; at every block it adds to the first the block's column sums of the entries plus the bias row, and to the
  second the column sums of their squares; the two rows are written back once, after the last block. So the rows the
  region leaves are the column sums, over all rows, of the biased entries and of their squares: addition on the
  extended reals is commutative and associative, and no entry need be finite for that.
-/
import proofs.«151309_j60756607369296_1_alg».proof.Proof.Gen.KernelIdeal.Frame
import proofs.«151309_j60756607369296_1_alg».proof.Proof.LibBatchMoments
import proofs.«151309_j60756607369296_1_alg».proof.Proof.StatFns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Stats4
open Cert.KernelIdeal Cert.KernelIdeal.Gen

section AnyF
variable {F : FTy → Type} [FloatOps F]

theorem hz : (![0, 0] : Fin 2 → Nat) = fun _ => 0 := funext fun a => by fin_cases a <;> rfl

/-- After a point that is not the first, the sums' buffer holds the sums it held plus the block's column sums. -/
theorem sum_B (c : Dev nD) (i : grid4.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : ¬cond4_0 i)
    (x0 : Vec F S10000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero hz]
  simp only [View.readAt_eq_ld, h1.read_unread, h2.read_unread, h3.read_unread, View.ld_unit_zero (S := S10000x128) hz,
    View.ld_unit_zero (S := S1x128) hz]

/-- … and the squares' buffer the sums of squares it held plus the block's column sums of squares. -/
theorem sq_B (c : Dev nD) (i : grid4.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : ¬cond4_0 i)
    (x0 : Vec F S10000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero hz]
  simp only [View.readAt_eq_ld, h1.read_unread, h2.read_unread, h4.read_unread, View.ld_unit_zero (S := S10000x128) hz,
    View.ld_unit_zero (S := S1x128) hz]

/-- After the first point the sums' buffer holds the zero row plus the block's column sums: the row is zeroed first and
    read back. -/
theorem sum_A (c : Dev nD) (i : grid4.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : cond4_0 i)
    (x0 : Vec F S10000x128 .f32) (x1 : Vec F S1x128 .f32) :
    out4_A_2 c i a1 h1 a2 h2 a3 h3 a4 h4 hc x0 x1 = k4_pay4 x0 x1 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

theorem sq_A (c : Dev nD) (i : grid4.Coords) (a1 : Memref sig .tc .vmem S10000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc : cond4_0 i)
    (x0 : Vec F S10000x128 .f32) (x1 : Vec F S1x128 .f32) :
    out4_A_3 c i a1 h1 a2 h2 a3 h3 a4 h4 hc x0 x1 = k4_pay5 x0 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz,
    View.ld_unit_zero (S := S1x128) hz]

end AnyF

section AtIdeal

/-- The biased block at row r, column q: the block's entry plus the bias row's entry of that column. -/
theorem pay3_apply (x0 : FVec Ideal S10000x128 .f32) (x1 : FVec Ideal S1x128 .f32) (r : Fin 10000) (q : Fin 128) :
    k4_pay3 (F := Ideal) x0 x1 (ix2 r q) = x0 (ix2 r q) + x1 (ix2 (0 : Fin 1) q) := by
  unfold k4_pay3
  simp only [shapeCast_self]
  refine (addf_apply _ _ _).trans ?_
  exact congrArg (x0 (ix2 r q) + ·) (broadcastTo_1b_ab_apply x1 _ r q)

/-- The index a column sum reads at row r of column q. -/
theorem lift_eq (q : Fin 128) (r : Fin 10000) :
    reduces_S10000x128_S128.lift (ix1 q) r = (ix2 r q : S10000x128.Idx) :=
  funext fun a => Fin.ext (by match a with | ⟨0, _⟩ => rfl | ⟨1, _⟩ => rfl)

/-- The sums' update at column q: what the buffer held plus the block's column sum of biased entries. -/
theorem pay4_apply (x0 : FVec Ideal S10000x128 .f32) (x1 acc : FVec Ideal S1x128 .f32) (q : Fin 128) :
    k4_pay4 (F := Ideal) x0 x1 acc (ix2 (0 : Fin 1) q)
      = acc (ix2 (0 : Fin 1) q) + ∑ r : Fin 10000, (x0 (ix2 r q) + x1 (ix2 (0 : Fin 1) q)) := by
  unfold k4_pay4
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single (k4_pay3 (F := Ideal) x0 x1) 0x00000000#32 reduces_S10000x128_S128 (.inl rfl) rfl (ix1 q)).trans ?_
  exact Finset.sum_congr rfl fun r _ => (congrArg _ (lift_eq q r)).trans (pay3_apply x0 x1 r q)

/-- The squares' update at column q: what the buffer held plus the block's column sum of squared biased entries. -/
theorem pay5_apply (x0 : FVec Ideal S10000x128 .f32) (x1 acc : FVec Ideal S1x128 .f32) (q : Fin 128) :
    k4_pay5 (F := Ideal) x0 x1 acc (ix2 (0 : Fin 1) q)
      = acc (ix2 (0 : Fin 1) q)
        + ∑ r : Fin 10000, (x0 (ix2 r q) + x1 (ix2 (0 : Fin 1) q)) * (x0 (ix2 r q) + x1 (ix2 (0 : Fin 1) q)) := by
  unfold k4_pay5
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single (mulf (k4_pay3 (F := Ideal) x0 x1) (k4_pay3 (F := Ideal) x0 x1)) 0x00000000#32 reduces_S10000x128_S128 (.inl rfl) rfl (ix1 q)).trans ?_
  refine Finset.sum_congr rfl fun r _ => ?_
  refine (congrArg _ (lift_eq q r)).trans ?_
  refine (mulf_apply _ _ _).trans ?_
  exact congrArg₂ (· * ·) (pay3_apply x0 x1 r q) (pay3_apply x0 x1 r q)

/-- The row the first point stores first is zero everywhere. -/
theorem pay1_apply (j : S1x128.Idx) : k4_pay1 (F := Ideal) j = 0 := by
  unfold k4_pay1
  exact Ideal.ofBits_zero_f32
theorem pay2_apply (j : S1x128.Idx) : k4_pay2 (F := Ideal) j = 0 := by
  unfold k4_pay2
  exact Ideal.ofBits_zero_f32

end AtIdeal

section Region

variable (V : (c : Dev nD) → (b : Ref sig .tc) → Buf (Elt Ideal) ((c : Thread nD τ).loc b))

theorem hN : cfg4.N = 10 := N_4

/-- The table and the bias row as the region finds them, and their blocks at a point. -/
abbrev tbl (c : Dev nD) : FVec Ideal S100000x128 .f32 := V c (Pipeline.arrRef spec4 0)
abbrev brow (c : Dev nD) : FVec Ideal S1x128 .f32 := V c (Pipeline.arrRef spec4 1)
abbrev blk0 (c : Dev nD) (t : Fin cfg4.N) : FVec Ideal S10000x128 .f32 := iblk4 V c 0 t
abbrev blk1 (c : Dev nD) (t : Fin cfg4.N) : FVec Ideal S1x128 .f32 := iblk4 V c 1 t

/-- The table's block at point t is rows 10000·t … 10000·t + 9999, every column. -/
theorem idx0 : ∀ t : Fin cfg4.N, win4_0.index t (0 : Fin 2) = t.val ∧ win4_0.index t (1 : Fin 2) = 0 :=
  (by decide +kernel : ∀ t : Fin grid4.N, _)
/-- The bias row's block is the whole row at every point. -/
theorem idx1 : ∀ t : Fin cfg4.N, win4_1.index t (0 : Fin 2) = 0 ∧ win4_1.index t (1 : Fin 2) = 0 :=
  (by decide +kernel : ∀ t : Fin grid4.N, _)

/-- Entry (r, q) of the table's block at point t is entry (10000·t + r, q) of the table. -/
theorem blk0_apply (c : Dev nD) (t : Fin cfg4.N) (r : Fin 10000) (q : Fin 128)
    (hb : 10000 * t.val + r.val < 100000) :
    blk0 V c t (ix2 r q) = tbl V c (ix2 ⟨10000 * t.val + r.val, hb⟩ q) := by
  unfold blk0 tbl iblk4
  rw [View.read_apply]
  refine congrArg (V c (Pipeline.arrRef spec4 0)) (funext fun a => Fin.ext ?_)
  match a with
  | ⟨0, _⟩ => show win4_0.index t 0 * 10000 + 1 * r.val = 10000 * t.val + r.val; rw [(idx0 t).1]; omega
  | ⟨1, _⟩ => show win4_0.index t 1 * 128 + 1 * q.val = q.val; rw [(idx0 t).2]; omega

/-- Entry (0, q) of the bias row's block at any point is entry (0, q) of the row. -/
theorem blk1_apply (c : Dev nD) (t : Fin cfg4.N) (q : Fin 128) :
    blk1 V c t (ix2 (0 : Fin 1) q) = brow V c (ix2 (0 : Fin 1) q) := by
  unfold blk1 brow iblk4
  rw [View.read_apply]
  refine congrArg (V c (Pipeline.arrRef spec4 1)) (funext fun a => Fin.ext ?_)
  match a with
  | ⟨0, _⟩ => show win4_1.index t 0 * 1 + 1 * (0 : Fin 1).val = (0 : Fin 1).val; rw [(idx1 t).1]; rfl
  | ⟨1, _⟩ => show win4_1.index t 1 * 128 + 1 * q.val = q.val; rw [(idx1 t).2]; omega

/-- The biased entry in row p of column q, and 0 past the table's last row (so that it is a function on ℕ). -/
def entry (c : Dev nD) (q : Fin 128) (p : ℕ) : EReal :=
  if h : p < 100000 then tbl V c (ix2 ⟨p, h⟩ q) + brow V c (ix2 (0 : Fin 1) q) else 0

/-- Block t's column sum at column q of the biased entries, read off the blocks at point t. -/
theorem block_sum (c : Dev nD) (t : Fin cfg4.N) (q : Fin 128) :
    ∑ r : Fin 10000, (blk0 V c t (ix2 r q) + blk1 V c t (ix2 (0 : Fin 1) q))
      = ∑ r : Fin 10000, entry V c q (10000 * t.val + r.val) := by
  refine Finset.sum_congr rfl fun r _ => ?_
  have hb : 10000 * t.val + r.val < 100000 := by have := t.isLt; have := hN; have := r.isLt; omega
  rw [blk0_apply V c t r q hb, blk1_apply V c t q]
  unfold entry
  rw [dif_pos hb]

theorem block_sumsq (c : Dev nD) (t : Fin cfg4.N) (q : Fin 128) :
    ∑ r : Fin 10000, (blk0 V c t (ix2 r q) + blk1 V c t (ix2 (0 : Fin 1) q))
        * (blk0 V c t (ix2 r q) + blk1 V c t (ix2 (0 : Fin 1) q))
      = ∑ r : Fin 10000, entry V c q (10000 * t.val + r.val) * entry V c q (10000 * t.val + r.val) := by
  refine Finset.sum_congr rfl fun r _ => ?_
  have hb : 10000 * t.val + r.val < 100000 := by have := t.isLt; have := hN; have := r.isLt; omega
  rw [blk0_apply V c t r q hb, blk1_apply V c t q]
  unfold entry
  rw [dif_pos hb]

/-- After point n the two buffers hold, in column q, the sums over the blocks 0 … n of the biased entries and of their
    squares: by induction on the point, the first point starting from the zero row. -/
theorem running (c : Dev nD) (q : Fin 128) : ∀ (n : ℕ) (hn : n < cfg4.N),
    (outsAt4 V c n hn).1 (ix2 (0 : Fin 1) q)
        = 0 + ∑ t ∈ Finset.range (n + 1), ∑ r : Fin 10000, entry V c q (10000 * t + r.val)
    ∧ (outsAt4 V c n hn).2 (ix2 (0 : Fin 1) q)
        = 0 + ∑ t ∈ Finset.range (n + 1), ∑ r : Fin 10000, entry V c q (10000 * t + r.val) * entry V c q (10000 * t + r.val)
  | 0, hn => by
    rw [outsAt4_A V c ⟨0, hn⟩ rfl]
    dsimp only
    rw [sum_A, sq_A, pay4_apply, pay5_apply, pay1_apply, pay2_apply]
    rw [Finset.sum_range_succ, Finset.sum_range_zero, Finset.sum_range_succ, Finset.sum_range_zero]
    simp only [zero_add]
    exact ⟨block_sum V c ⟨0, hn⟩ q, block_sumsq V c ⟨0, hn⟩ q⟩
  | n + 1, hn => by
    have hB : ¬(⟨n + 1, hn⟩ : Fin cfg4.N).val % 10 = 0 := by have := hN; dsimp only; omega
    obtain ⟨ih1, ih2⟩ := running c q n (Nat.lt_of_succ_lt hn)
    rw [outsAt4_B V c ⟨n + 1, hn⟩ hB]
    dsimp only
    rw [sum_B, sq_B, pay4_apply, pay5_apply]
    rw [Finset.sum_range_succ _ (n + 1), Finset.sum_range_succ _ (n + 1), ← add_assoc, ← add_assoc]
    exact ⟨congrArg₂ (· + ·) ih1 (block_sum V c ⟨n + 1, hn⟩ q), congrArg₂ (· + ·) ih2 (block_sumsq V c ⟨n + 1, hn⟩ q)⟩

/-- The last point. -/
abbrev last : Fin cfg4.N := t4_9

/-- What the two result rows end holding: the buffers' contents after the last point. -/
abbrev resultS (c : Dev nD) : Buf (Elt Ideal) ((c : Thread nD τ).loc main_v73_0) := (outsAt4 V c last.val last.isLt).1
abbrev resultQ (c : Dev nD) : Buf (Elt Ideal) ((c : Thread nD τ).loc main_v73_1) := (outsAt4 V c last.val last.isLt).2

/-- The one write-back of the sums, after the last point, writes them: the row's one block is the whole row. -/
theorem flushedS_eq (c : Dev nD) (t : Fin cfg4.N) (hf : (cfg4.win 2).flush t = true) :
    (dat4 V c).flushed 2 t = ((cfg4.win 2).blk t).view.read (Elt Ideal) (resultS V c) := by
  have h9 : t.val = 9 := by have := (flush4_2 t).mp hf; have := t.isLt; have := hN; omega
  obtain rfl : t = t4_9 := Fin.ext h9
  show (cfg4.win 2).cut (grid4.coords t4_9) ((dat4 V c).after 2 t4_9) = _
  rw [after4_2]
  have hz' : (fun a => win4_2.index t4_9 a * main_v73_0.ty.shape.size a) = fun _ => 0 := funext fun a => by fin_cases a <;> decide
  exact (Memref.read_access_unit_zero (Elt Ideal) main_v73_0 hz' (fun a => by rw [congrFun hz' a]; simp) (resultS V c)).symm

theorem flushedQ_eq (c : Dev nD) (t : Fin cfg4.N) (hf : (cfg4.win 3).flush t = true) :
    (dat4 V c).flushed 3 t = ((cfg4.win 3).blk t).view.read (Elt Ideal) (resultQ V c) := by
  have h9 : t.val = 9 := by have := (flush4_3 t).mp hf; have := t.isLt; have := hN; omega
  obtain rfl : t = t4_9 := Fin.ext h9
  show (cfg4.win 3).cut (grid4.coords t4_9) ((dat4 V c).after 3 t4_9) = _
  rw [after4_3]
  have hz' : (fun a => win4_3.index t4_9 a * main_v73_1.ty.shape.size a) = fun _ => 0 := funext fun a => by fin_cases a <;> decide
  exact (Memref.read_access_unit_zero (Elt Ideal) main_v73_1 hz' (fun a => by rw [congrFun hz' a]; simp) (resultQ V c)).symm

/-- So the sums' row ends holding the buffer's contents after the last point: that point's block covers the row. -/
theorem finalS_raw (c : Dev nD) : (dat4 V c).arrAt 2 cfg4.N = resultS V c :=
  (dat4 V c).arrAt_eq_of_cover 2 (resultS V c) (flushedS_eq V c) fun i =>
    ⟨t4_9, (flush4_2 t4_9).mpr rfl, by
      show i ∈ ((View.whole main_v73_0).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

theorem finalQ_raw (c : Dev nD) : (dat4 V c).arrAt 3 cfg4.N = resultQ V c :=
  (dat4 V c).arrAt_eq_of_cover 3 (resultQ V c) (flushedQ_eq V c) fun i =>
    ⟨t4_9, (flush4_3 t4_9).mpr rfl, by
      show i ∈ ((View.whole main_v73_1).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

/-- Ten blocks of 10000 consecutive rows are the 100000 rows. -/
theorem total (g : ℕ → EReal) :
    ∑ t ∈ Finset.range 10, ∑ r : Fin 10000, g (10000 * t + r.val) = ∑ i : Fin 100000, g i.val := by
  rw [Fin.sum_univ_eq_sum_range (fun p => g p) 100000, show (100000 : ℕ) = 10 * 10000 from rfl,
    Cert.LibBatchMoments.sum_blocked 10 10000 g]
  exact Finset.sum_congr rfl fun t _ => Fin.sum_univ_eq_sum_range (fun r => g (10000 * t + r)) 10000

/-- The sums' row the region leaves: column q holds the sum over all 100000 rows of the table's entry plus the bias. -/
theorem finalS (c : Dev nD) : (dat4 V c).arrAt 2 cfg4.N = StatFns.colSum (tbl V c) (brow V c) := by
  rw [finalS_raw]
  funext j
  obtain ⟨u, q, rfl⟩ : ∃ (u : Fin 1) (q : Fin 128), j = ix2 u q := ⟨j 0, j 1, eq_ix2 j⟩
  obtain rfl : u = 0 := Subsingleton.elim _ _
  refine ((running V c q 9 (by rw [hN]; decide)).1).trans ?_
  rw [zero_add, total]
  refine Finset.sum_congr rfl fun i _ => ?_
  unfold entry
  rw [dif_pos i.isLt]

/-- The squares' row the region leaves: column q holds the sum over all rows of the squared biased entries. -/
theorem finalQ (c : Dev nD) : (dat4 V c).arrAt 3 cfg4.N = StatFns.colSumSq (tbl V c) (brow V c) := by
  rw [finalQ_raw]
  funext j
  obtain ⟨u, q, rfl⟩ : ∃ (u : Fin 1) (q : Fin 128), j = ix2 u q := ⟨j 0, j 1, eq_ix2 j⟩
  obtain rfl : u = 0 := Subsingleton.elim _ _
  refine ((running V c q 9 (by rw [hN]; decide)).2).trans ?_
  rw [zero_add, total (fun p => entry V c q p * entry V c q p)]
  refine Finset.sum_congr rfl fun i _ => ?_
  unfold entry
  rw [dif_pos i.isLt]

end Region

end Cert.KernelIdeal.Stats4
end
-- ==== Proof.KValue.lean ====
/-
  The kernel program's buffer contents, boundary by boundary.

  The program's run folds the launch memory through seven stretches of host operations and ten kernel regions. At each
  of the eighteen boundaries every buffer still to be read holds one of the program's named values (KNet): a host
  stretch's result is its stage function of what the stretch read, a region's output array is its whole-array function
  of the region's input arrays, and every other buffer is carried unchanged. At the last boundary the two result
  buffers hold the two heads.
-/
import proofs.«151309_j60756607369296_1_alg».proof.Proof.Gen.KernelIdeal.Frame
import proofs.«151309_j60756607369296_1_alg».proof.Proof.KHost
import proofs.«151309_j60756607369296_1_alg».proof.Proof.KNet
import proofs.«151309_j60756607369296_1_alg».proof.Proof.KReal
import proofs.«151309_j60756607369296_1_alg».proof.Proof.ProductValue
import proofs.«151309_j60756607369296_1_alg».proof.Proof.BiasAddValue
import proofs.«151309_j60756607369296_1_alg».proof.Proof.NormActValue
import proofs.«151309_j60756607369296_1_alg».proof.Proof.StatsValue1
import proofs.«151309_j60756607369296_1_alg».proof.Proof.StatsValue4

set_option maxRecDepth 16384

noncomputable section

namespace Cert.KernelIdeal.KValue

open Idealize.ShloMosaic Idealize.ShloMosaic.TcCoe Idealize.SL.Sem
open Cert.KernelIdeal Cert.KernelIdeal.Gen
open Cert.KernelIdeal.RowFns Cert.KernelIdeal.StatFns Cert.Lib.PlainDot

theorem cg1 {α β : Sort _} (f : α → β) {a a' : α} (h : a = a') : f a = f a' := by subst h; rfl
theorem cg2 {α β γ : Sort _} (f : α → β → γ) {a a' : α} {b b' : β} (ha : a = a') (hb : b = b') : f a b = f a' b' := by
  subst ha; subst hb; rfl
theorem cg4 {α β γ δ ε : Sort _} (f : α → β → γ → δ → ε) {a a' : α} {b b' : β} {c c' : γ} {d d' : δ}
    (ha : a = a') (hb : b = b') (hc : c = c') (hd : d = d') : f a b c d = f a' b' c' d' := by
  subst ha; subst hb; subst hc; subst hd; rfl
theorem cg6 {α β γ δ ε ζ η : Sort _} (f : α → β → γ → δ → ε → ζ → η) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha; subst hb; subst hc; subst hd; subst he; subst hg; rfl

variable (m : (ℓ : Loc nD τ sig) → Buf (Elt Ideal) ℓ) (ρ : Dev nD → PrngReg) (c : Dev nD)

open Cert.KernelIdeal.KReal (args)

theorem at0_arg0 : W0 m ρ c (Proc.devRef .tc main_arg0) = (args m c).x := rfl
theorem at0_arg1 : W0 m ρ c (Proc.devRef .tc main_arg1) = (args m c).w1 := rfl
theorem at0_arg2 : W0 m ρ c (Proc.devRef .tc main_arg2) = (args m c).b1 := rfl
theorem at0_arg3 : W0 m ρ c (Proc.devRef .tc main_arg3) = (args m c).g1 := rfl
theorem at0_arg4 : W0 m ρ c (Proc.devRef .tc main_arg4) = (args m c).bt1 := rfl
theorem at0_arg5 : W0 m ρ c (Proc.devRef .tc main_arg5) = (args m c).w2 := rfl
theorem at0_arg6 : W0 m ρ c (Proc.devRef .tc main_arg6) = (args m c).b2 := rfl
theorem at0_arg7 : W0 m ρ c (Proc.devRef .tc main_arg7) = (args m c).g2 := rfl
theorem at0_arg8 : W0 m ρ c (Proc.devRef .tc main_arg8) = (args m c).bt2 := rfl
theorem at0_arg9 : W0 m ρ c (Proc.devRef .tc main_arg9) = (args m c).wmu := rfl
theorem at0_arg10 : W0 m ρ c (Proc.devRef .tc main_arg10) = (args m c).bmu := rfl
theorem at0_arg11 : W0 m ρ c (Proc.devRef .tc main_arg11) = (args m c).wls := rfl
theorem at0_arg12 : W0 m ρ c (Proc.devRef .tc main_arg12) = (args m c).bls := rfl
theorem at0_arg13 : W0 m ρ c (Proc.devRef .tc main_arg13) = (args m c).ei := rfl

/-! ### Boundary 1: after host stretch 0 -/

theorem at1_v3 : W1 m ρ c (Proc.devRef .tc main_v3) = KNet.S (args m c) :=
  ((KHost.read0_v3 (W0 m ρ c)).trans (cg1 KVal.src (at0_arg13 m ρ c))).trans rfl
theorem at1_v6 : W1 m ρ c (Proc.devRef .tc main_v6) = KNet.D (args m c) :=
  ((KHost.read0_v6 (W0 m ρ c)).trans (cg1 KVal.dst (at0_arg13 m ρ c))).trans rfl
theorem at1_v28 : W1 m ρ c (Proc.devRef .tc main_v28) = KNet.Nn (args m c) :=
  (KHost.read0_v28 (W0 m ρ c)).trans rfl
theorem at1_arg0 : W1 m ρ c (Proc.devRef .tc main_arg0) = (args m c).x :=
  (KHost.keep0 (W0 m ρ c) main_arg0 (by decide)).trans (at0_arg0 m ρ c)
theorem at1_arg1 : W1 m ρ c (Proc.devRef .tc main_arg1) = (args m c).w1 :=
  (KHost.keep0 (W0 m ρ c) main_arg1 (by decide)).trans (at0_arg1 m ρ c)
theorem at1_arg2 : W1 m ρ c (Proc.devRef .tc main_arg2) = (args m c).b1 :=
  (KHost.keep0 (W0 m ρ c) main_arg2 (by decide)).trans (at0_arg2 m ρ c)
theorem at1_arg3 : W1 m ρ c (Proc.devRef .tc main_arg3) = (args m c).g1 :=
  (KHost.keep0 (W0 m ρ c) main_arg3 (by decide)).trans (at0_arg3 m ρ c)
theorem at1_arg4 : W1 m ρ c (Proc.devRef .tc main_arg4) = (args m c).bt1 :=
  (KHost.keep0 (W0 m ρ c) main_arg4 (by decide)).trans (at0_arg4 m ρ c)
theorem at1_arg5 : W1 m ρ c (Proc.devRef .tc main_arg5) = (args m c).w2 :=
  (KHost.keep0 (W0 m ρ c) main_arg5 (by decide)).trans (at0_arg5 m ρ c)
theorem at1_arg6 : W1 m ρ c (Proc.devRef .tc main_arg6) = (args m c).b2 :=
  (KHost.keep0 (W0 m ρ c) main_arg6 (by decide)).trans (at0_arg6 m ρ c)
theorem at1_arg7 : W1 m ρ c (Proc.devRef .tc main_arg7) = (args m c).g2 :=
  (KHost.keep0 (W0 m ρ c) main_arg7 (by decide)).trans (at0_arg7 m ρ c)
theorem at1_arg8 : W1 m ρ c (Proc.devRef .tc main_arg8) = (args m c).bt2 :=
  (KHost.keep0 (W0 m ρ c) main_arg8 (by decide)).trans (at0_arg8 m ρ c)
theorem at1_arg9 : W1 m ρ c (Proc.devRef .tc main_arg9) = (args m c).wmu :=
  (KHost.keep0 (W0 m ρ c) main_arg9 (by decide)).trans (at0_arg9 m ρ c)
theorem at1_arg10 : W1 m ρ c (Proc.devRef .tc main_arg10) = (args m c).bmu :=
  (KHost.keep0 (W0 m ρ c) main_arg10 (by decide)).trans (at0_arg10 m ρ c)
theorem at1_arg11 : W1 m ρ c (Proc.devRef .tc main_arg11) = (args m c).wls :=
  (KHost.keep0 (W0 m ρ c) main_arg11 (by decide)).trans (at0_arg11 m ρ c)
theorem at1_arg12 : W1 m ρ c (Proc.devRef .tc main_arg12) = (args m c).bls :=
  (KHost.keep0 (W0 m ρ c) main_arg12 (by decide)).trans (at0_arg12 m ρ c)

/-! ### Boundary 2: after region 0 -/

theorem at2_v29 : W2 m ρ c (Proc.devRef .tc main_v29) = KNet.P1 (args m c) :=
  ((W2_arr m ρ c 2).trans ((RegionValue.final0 (V1 m ρ) c).trans (cg2 rowsByCols (at1_arg0 m ρ c) (at1_arg1 m ρ c)))).trans rfl
theorem at2_v3 : W2 m ρ c (Proc.devRef .tc main_v3) = KNet.S (args m c) :=
  (W2_of_ne m ρ c main_v3 (by decide)).trans (at1_v3 m ρ c)
theorem at2_v6 : W2 m ρ c (Proc.devRef .tc main_v6) = KNet.D (args m c) :=
  (W2_of_ne m ρ c main_v6 (by decide)).trans (at1_v6 m ρ c)
theorem at2_v28 : W2 m ρ c (Proc.devRef .tc main_v28) = KNet.Nn (args m c) :=
  (W2_of_ne m ρ c main_v28 (by decide)).trans (at1_v28 m ρ c)
theorem at2_arg2 : W2 m ρ c (Proc.devRef .tc main_arg2) = (args m c).b1 :=
  (W2_of_ne m ρ c main_arg2 (by decide)).trans (at1_arg2 m ρ c)
theorem at2_arg3 : W2 m ρ c (Proc.devRef .tc main_arg3) = (args m c).g1 :=
  (W2_of_ne m ρ c main_arg3 (by decide)).trans (at1_arg3 m ρ c)
theorem at2_arg4 : W2 m ρ c (Proc.devRef .tc main_arg4) = (args m c).bt1 :=
  (W2_of_ne m ρ c main_arg4 (by decide)).trans (at1_arg4 m ρ c)
theorem at2_arg5 : W2 m ρ c (Proc.devRef .tc main_arg5) = (args m c).w2 :=
  (W2_of_ne m ρ c main_arg5 (by decide)).trans (at1_arg5 m ρ c)
theorem at2_arg6 : W2 m ρ c (Proc.devRef .tc main_arg6) = (args m c).b2 :=
  (W2_of_ne m ρ c main_arg6 (by decide)).trans (at1_arg6 m ρ c)
theorem at2_arg7 : W2 m ρ c (Proc.devRef .tc main_arg7) = (args m c).g2 :=
  (W2_of_ne m ρ c main_arg7 (by decide)).trans (at1_arg7 m ρ c)
theorem at2_arg8 : W2 m ρ c (Proc.devRef .tc main_arg8) = (args m c).bt2 :=
  (W2_of_ne m ρ c main_arg8 (by decide)).trans (at1_arg8 m ρ c)
theorem at2_arg9 : W2 m ρ c (Proc.devRef .tc main_arg9) = (args m c).wmu :=
  (W2_of_ne m ρ c main_arg9 (by decide)).trans (at1_arg9 m ρ c)
theorem at2_arg10 : W2 m ρ c (Proc.devRef .tc main_arg10) = (args m c).bmu :=
  (W2_of_ne m ρ c main_arg10 (by decide)).trans (at1_arg10 m ρ c)
theorem at2_arg11 : W2 m ρ c (Proc.devRef .tc main_arg11) = (args m c).wls :=
  (W2_of_ne m ρ c main_arg11 (by decide)).trans (at1_arg11 m ρ c)
theorem at2_arg12 : W2 m ρ c (Proc.devRef .tc main_arg12) = (args m c).bls :=
  (W2_of_ne m ρ c main_arg12 (by decide)).trans (at1_arg12 m ρ c)

/-! ### Boundary 3: after host stretch 1 -/

theorem at3_v42 : W3 m ρ c (Proc.devRef .tc main_v42) = KNet.G1 (args m c) :=
  ((KHost.read1_v42 (W2 m ρ c)).trans (cg4 KVal.aggOf128 (at2_v3 m ρ c) (at2_v6 m ρ c) (at2_v28 m ρ c) (at2_v29 m ρ c))).trans rfl
theorem at3_v43 : W3 m ρ c (Proc.devRef .tc main_v43) = KNet.R1 (args m c) :=
  ((KHost.read1_v43 (W2 m ρ c)).trans (cg1 KVal.rowOf128 (at2_arg2 m ρ c))).trans rfl
theorem at3_v3 : W3 m ρ c (Proc.devRef .tc main_v3) = KNet.S (args m c) :=
  (KHost.keep1 (W2 m ρ c) main_v3 (by decide)).trans (at2_v3 m ρ c)
theorem at3_v6 : W3 m ρ c (Proc.devRef .tc main_v6) = KNet.D (args m c) :=
  (KHost.keep1 (W2 m ρ c) main_v6 (by decide)).trans (at2_v6 m ρ c)
theorem at3_v28 : W3 m ρ c (Proc.devRef .tc main_v28) = KNet.Nn (args m c) :=
  (KHost.keep1 (W2 m ρ c) main_v28 (by decide)).trans (at2_v28 m ρ c)
theorem at3_arg2 : W3 m ρ c (Proc.devRef .tc main_arg2) = (args m c).b1 :=
  (KHost.keep1 (W2 m ρ c) main_arg2 (by decide)).trans (at2_arg2 m ρ c)
theorem at3_arg3 : W3 m ρ c (Proc.devRef .tc main_arg3) = (args m c).g1 :=
  (KHost.keep1 (W2 m ρ c) main_arg3 (by decide)).trans (at2_arg3 m ρ c)
theorem at3_arg4 : W3 m ρ c (Proc.devRef .tc main_arg4) = (args m c).bt1 :=
  (KHost.keep1 (W2 m ρ c) main_arg4 (by decide)).trans (at2_arg4 m ρ c)
theorem at3_arg5 : W3 m ρ c (Proc.devRef .tc main_arg5) = (args m c).w2 :=
  (KHost.keep1 (W2 m ρ c) main_arg5 (by decide)).trans (at2_arg5 m ρ c)
theorem at3_arg6 : W3 m ρ c (Proc.devRef .tc main_arg6) = (args m c).b2 :=
  (KHost.keep1 (W2 m ρ c) main_arg6 (by decide)).trans (at2_arg6 m ρ c)
theorem at3_arg7 : W3 m ρ c (Proc.devRef .tc main_arg7) = (args m c).g2 :=
  (KHost.keep1 (W2 m ρ c) main_arg7 (by decide)).trans (at2_arg7 m ρ c)
theorem at3_arg8 : W3 m ρ c (Proc.devRef .tc main_arg8) = (args m c).bt2 :=
  (KHost.keep1 (W2 m ρ c) main_arg8 (by decide)).trans (at2_arg8 m ρ c)
theorem at3_arg9 : W3 m ρ c (Proc.devRef .tc main_arg9) = (args m c).wmu :=
  (KHost.keep1 (W2 m ρ c) main_arg9 (by decide)).trans (at2_arg9 m ρ c)
theorem at3_arg10 : W3 m ρ c (Proc.devRef .tc main_arg10) = (args m c).bmu :=
  (KHost.keep1 (W2 m ρ c) main_arg10 (by decide)).trans (at2_arg10 m ρ c)
theorem at3_arg11 : W3 m ρ c (Proc.devRef .tc main_arg11) = (args m c).wls :=
  (KHost.keep1 (W2 m ρ c) main_arg11 (by decide)).trans (at2_arg11 m ρ c)
theorem at3_arg12 : W3 m ρ c (Proc.devRef .tc main_arg12) = (args m c).bls :=
  (KHost.keep1 (W2 m ρ c) main_arg12 (by decide)).trans (at2_arg12 m ρ c)

/-! ### Boundary 4: after region 1 -/

theorem at4_v44_0 : W4 m ρ c (Proc.devRef .tc main_v44_0) = KNet.SM1 (args m c) :=
  ((W4_arr m ρ c 2).trans ((Stats1.finalS (V3 m ρ) c).trans (cg2 colSum (at3_v42 m ρ c) (at3_v43 m ρ c)))).trans rfl
theorem at4_v44_1 : W4 m ρ c (Proc.devRef .tc main_v44_1) = KNet.SQ1 (args m c) :=
  ((W4_arr m ρ c 3).trans ((Stats1.finalQ (V3 m ρ) c).trans (cg2 colSumSq (at3_v42 m ρ c) (at3_v43 m ρ c)))).trans rfl
theorem at4_v3 : W4 m ρ c (Proc.devRef .tc main_v3) = KNet.S (args m c) :=
  (W4_of_ne m ρ c main_v3 (by decide)).trans (at3_v3 m ρ c)
theorem at4_v6 : W4 m ρ c (Proc.devRef .tc main_v6) = KNet.D (args m c) :=
  (W4_of_ne m ρ c main_v6 (by decide)).trans (at3_v6 m ρ c)
theorem at4_v28 : W4 m ρ c (Proc.devRef .tc main_v28) = KNet.Nn (args m c) :=
  (W4_of_ne m ρ c main_v28 (by decide)).trans (at3_v28 m ρ c)
theorem at4_arg2 : W4 m ρ c (Proc.devRef .tc main_arg2) = (args m c).b1 :=
  (W4_of_ne m ρ c main_arg2 (by decide)).trans (at3_arg2 m ρ c)
theorem at4_v42 : W4 m ρ c (Proc.devRef .tc main_v42) = KNet.G1 (args m c) :=
  ((W4_arr m ρ c 0).trans (((dat1 (V3 m ρ) c).arrAt_in 0 rfl _).trans (A_eq1 (V3 m ρ) c 0))).trans (at3_v42 m ρ c)
theorem at4_arg3 : W4 m ρ c (Proc.devRef .tc main_arg3) = (args m c).g1 :=
  (W4_of_ne m ρ c main_arg3 (by decide)).trans (at3_arg3 m ρ c)
theorem at4_arg4 : W4 m ρ c (Proc.devRef .tc main_arg4) = (args m c).bt1 :=
  (W4_of_ne m ρ c main_arg4 (by decide)).trans (at3_arg4 m ρ c)
theorem at4_arg5 : W4 m ρ c (Proc.devRef .tc main_arg5) = (args m c).w2 :=
  (W4_of_ne m ρ c main_arg5 (by decide)).trans (at3_arg5 m ρ c)
theorem at4_arg6 : W4 m ρ c (Proc.devRef .tc main_arg6) = (args m c).b2 :=
  (W4_of_ne m ρ c main_arg6 (by decide)).trans (at3_arg6 m ρ c)
theorem at4_arg7 : W4 m ρ c (Proc.devRef .tc main_arg7) = (args m c).g2 :=
  (W4_of_ne m ρ c main_arg7 (by decide)).trans (at3_arg7 m ρ c)
theorem at4_arg8 : W4 m ρ c (Proc.devRef .tc main_arg8) = (args m c).bt2 :=
  (W4_of_ne m ρ c main_arg8 (by decide)).trans (at3_arg8 m ρ c)
theorem at4_arg9 : W4 m ρ c (Proc.devRef .tc main_arg9) = (args m c).wmu :=
  (W4_of_ne m ρ c main_arg9 (by decide)).trans (at3_arg9 m ρ c)
theorem at4_arg10 : W4 m ρ c (Proc.devRef .tc main_arg10) = (args m c).bmu :=
  (W4_of_ne m ρ c main_arg10 (by decide)).trans (at3_arg10 m ρ c)
theorem at4_arg11 : W4 m ρ c (Proc.devRef .tc main_arg11) = (args m c).wls :=
  (W4_of_ne m ρ c main_arg11 (by decide)).trans (at3_arg11 m ρ c)
theorem at4_arg12 : W4 m ρ c (Proc.devRef .tc main_arg12) = (args m c).bls :=
  (W4_of_ne m ρ c main_arg12 (by decide)).trans (at3_arg12 m ρ c)

/-! ### Boundary 5: after host stretch 2 -/

theorem at5_v46 : W5 m ρ c (Proc.devRef .tc main_v46) = KNet.MN1 (args m c) :=
  ((KHost.read2_v46 (W4 m ρ c)).trans (cg1 KVal.meanOf (at4_v44_0 m ρ c))).trans rfl
theorem at5_v53 : W5 m ρ c (Proc.devRef .tc main_v53) = KNet.IV1 (args m c) :=
  ((KHost.read2_v53 (W4 m ρ c)).trans (cg2 KVal.invstdOf (at4_v44_0 m ρ c) (at4_v44_1 m ρ c))).trans rfl
theorem at5_v54 : W5 m ρ c (Proc.devRef .tc main_v54) = KNet.R1 (args m c) :=
  ((KHost.read2_v54 (W4 m ρ c)).trans (cg1 KVal.rowOf128 (at4_arg2 m ρ c))).trans rfl
theorem at5_v55 : W5 m ρ c (Proc.devRef .tc main_v55) = KVal.rowOf128 (args m c).g1 :=
  ((KHost.read2_v55 (W4 m ρ c)).trans (cg1 KVal.rowOf128 (at4_arg3 m ρ c))).trans rfl
theorem at5_v56 : W5 m ρ c (Proc.devRef .tc main_v56) = KVal.rowOf128 (args m c).bt1 :=
  ((KHost.read2_v56 (W4 m ρ c)).trans (cg1 KVal.rowOf128 (at4_arg4 m ρ c))).trans rfl
theorem at5_v3 : W5 m ρ c (Proc.devRef .tc main_v3) = KNet.S (args m c) :=
  (KHost.keep2 (W4 m ρ c) main_v3 (by decide)).trans (at4_v3 m ρ c)
theorem at5_v6 : W5 m ρ c (Proc.devRef .tc main_v6) = KNet.D (args m c) :=
  (KHost.keep2 (W4 m ρ c) main_v6 (by decide)).trans (at4_v6 m ρ c)
theorem at5_v28 : W5 m ρ c (Proc.devRef .tc main_v28) = KNet.Nn (args m c) :=
  (KHost.keep2 (W4 m ρ c) main_v28 (by decide)).trans (at4_v28 m ρ c)
theorem at5_v42 : W5 m ρ c (Proc.devRef .tc main_v42) = KNet.G1 (args m c) :=
  (KHost.keep2 (W4 m ρ c) main_v42 (by decide)).trans (at4_v42 m ρ c)
theorem at5_arg5 : W5 m ρ c (Proc.devRef .tc main_arg5) = (args m c).w2 :=
  (KHost.keep2 (W4 m ρ c) main_arg5 (by decide)).trans (at4_arg5 m ρ c)
theorem at5_arg6 : W5 m ρ c (Proc.devRef .tc main_arg6) = (args m c).b2 :=
  (KHost.keep2 (W4 m ρ c) main_arg6 (by decide)).trans (at4_arg6 m ρ c)
theorem at5_arg7 : W5 m ρ c (Proc.devRef .tc main_arg7) = (args m c).g2 :=
  (KHost.keep2 (W4 m ρ c) main_arg7 (by decide)).trans (at4_arg7 m ρ c)
theorem at5_arg8 : W5 m ρ c (Proc.devRef .tc main_arg8) = (args m c).bt2 :=
  (KHost.keep2 (W4 m ρ c) main_arg8 (by decide)).trans (at4_arg8 m ρ c)
theorem at5_arg9 : W5 m ρ c (Proc.devRef .tc main_arg9) = (args m c).wmu :=
  (KHost.keep2 (W4 m ρ c) main_arg9 (by decide)).trans (at4_arg9 m ρ c)
theorem at5_arg10 : W5 m ρ c (Proc.devRef .tc main_arg10) = (args m c).bmu :=
  (KHost.keep2 (W4 m ρ c) main_arg10 (by decide)).trans (at4_arg10 m ρ c)
theorem at5_arg11 : W5 m ρ c (Proc.devRef .tc main_arg11) = (args m c).wls :=
  (KHost.keep2 (W4 m ρ c) main_arg11 (by decide)).trans (at4_arg11 m ρ c)
theorem at5_arg12 : W5 m ρ c (Proc.devRef .tc main_arg12) = (args m c).bls :=
  (KHost.keep2 (W4 m ρ c) main_arg12 (by decide)).trans (at4_arg12 m ρ c)

/-! ### Boundary 6: after region 2 -/

theorem at6_v57 : W6 m ρ c (Proc.devRef .tc main_v57) = KNet.H1 (args m c) :=
  ((W6_arr m ρ c 6).trans ((RegionValue.final2 (V5 m ρ) c).trans (cg6 normAct (at5_v42 m ρ c) (at5_v54 m ρ c) (at5_v46 m ρ c) (at5_v53 m ρ c) (at5_v55 m ρ c) (at5_v56 m ρ c)))).trans rfl
theorem at6_v3 : W6 m ρ c (Proc.devRef .tc main_v3) = KNet.S (args m c) :=
  (W6_of_ne m ρ c main_v3 (by decide)).trans (at5_v3 m ρ c)
theorem at6_v6 : W6 m ρ c (Proc.devRef .tc main_v6) = KNet.D (args m c) :=
  (W6_of_ne m ρ c main_v6 (by decide)).trans (at5_v6 m ρ c)
theorem at6_v28 : W6 m ρ c (Proc.devRef .tc main_v28) = KNet.Nn (args m c) :=
  (W6_of_ne m ρ c main_v28 (by decide)).trans (at5_v28 m ρ c)
theorem at6_arg5 : W6 m ρ c (Proc.devRef .tc main_arg5) = (args m c).w2 :=
  (W6_of_ne m ρ c main_arg5 (by decide)).trans (at5_arg5 m ρ c)
theorem at6_arg6 : W6 m ρ c (Proc.devRef .tc main_arg6) = (args m c).b2 :=
  (W6_of_ne m ρ c main_arg6 (by decide)).trans (at5_arg6 m ρ c)
theorem at6_arg7 : W6 m ρ c (Proc.devRef .tc main_arg7) = (args m c).g2 :=
  (W6_of_ne m ρ c main_arg7 (by decide)).trans (at5_arg7 m ρ c)
theorem at6_arg8 : W6 m ρ c (Proc.devRef .tc main_arg8) = (args m c).bt2 :=
  (W6_of_ne m ρ c main_arg8 (by decide)).trans (at5_arg8 m ρ c)
theorem at6_arg9 : W6 m ρ c (Proc.devRef .tc main_arg9) = (args m c).wmu :=
  (W6_of_ne m ρ c main_arg9 (by decide)).trans (at5_arg9 m ρ c)
theorem at6_arg10 : W6 m ρ c (Proc.devRef .tc main_arg10) = (args m c).bmu :=
  (W6_of_ne m ρ c main_arg10 (by decide)).trans (at5_arg10 m ρ c)
theorem at6_arg11 : W6 m ρ c (Proc.devRef .tc main_arg11) = (args m c).wls :=
  (W6_of_ne m ρ c main_arg11 (by decide)).trans (at5_arg11 m ρ c)
theorem at6_arg12 : W6 m ρ c (Proc.devRef .tc main_arg12) = (args m c).bls :=
  (W6_of_ne m ρ c main_arg12 (by decide)).trans (at5_arg12 m ρ c)

/-! ### Boundary 7: after region 3 -/

theorem at7_v58 : W7 m ρ c (Proc.devRef .tc main_v58) = KNet.P2 (args m c) :=
  ((W7_arr m ρ c 2).trans ((RegionValue.final3 (V6 m ρ) c).trans (cg2 rowsByCols (at6_v57 m ρ c) (at6_arg5 m ρ c)))).trans rfl
theorem at7_v3 : W7 m ρ c (Proc.devRef .tc main_v3) = KNet.S (args m c) :=
  (W7_of_ne m ρ c main_v3 (by decide)).trans (at6_v3 m ρ c)
theorem at7_v6 : W7 m ρ c (Proc.devRef .tc main_v6) = KNet.D (args m c) :=
  (W7_of_ne m ρ c main_v6 (by decide)).trans (at6_v6 m ρ c)
theorem at7_v28 : W7 m ρ c (Proc.devRef .tc main_v28) = KNet.Nn (args m c) :=
  (W7_of_ne m ρ c main_v28 (by decide)).trans (at6_v28 m ρ c)
theorem at7_arg6 : W7 m ρ c (Proc.devRef .tc main_arg6) = (args m c).b2 :=
  (W7_of_ne m ρ c main_arg6 (by decide)).trans (at6_arg6 m ρ c)
theorem at7_arg7 : W7 m ρ c (Proc.devRef .tc main_arg7) = (args m c).g2 :=
  (W7_of_ne m ρ c main_arg7 (by decide)).trans (at6_arg7 m ρ c)
theorem at7_arg8 : W7 m ρ c (Proc.devRef .tc main_arg8) = (args m c).bt2 :=
  (W7_of_ne m ρ c main_arg8 (by decide)).trans (at6_arg8 m ρ c)
theorem at7_arg9 : W7 m ρ c (Proc.devRef .tc main_arg9) = (args m c).wmu :=
  (W7_of_ne m ρ c main_arg9 (by decide)).trans (at6_arg9 m ρ c)
theorem at7_arg10 : W7 m ρ c (Proc.devRef .tc main_arg10) = (args m c).bmu :=
  (W7_of_ne m ρ c main_arg10 (by decide)).trans (at6_arg10 m ρ c)
theorem at7_arg11 : W7 m ρ c (Proc.devRef .tc main_arg11) = (args m c).wls :=
  (W7_of_ne m ρ c main_arg11 (by decide)).trans (at6_arg11 m ρ c)
theorem at7_arg12 : W7 m ρ c (Proc.devRef .tc main_arg12) = (args m c).bls :=
  (W7_of_ne m ρ c main_arg12 (by decide)).trans (at6_arg12 m ρ c)

/-! ### Boundary 8: after host stretch 4 -/

theorem at8_v71 : W8 m ρ c (Proc.devRef .tc main_v71) = KNet.G2 (args m c) :=
  ((KHost.read4_v71 (W7 m ρ c)).trans (cg4 KVal.aggOf128 (at7_v3 m ρ c) (at7_v6 m ρ c) (at7_v28 m ρ c) (at7_v58 m ρ c))).trans rfl
theorem at8_v72 : W8 m ρ c (Proc.devRef .tc main_v72) = KNet.R2 (args m c) :=
  ((KHost.read4_v72 (W7 m ρ c)).trans (cg1 KVal.rowOf128 (at7_arg6 m ρ c))).trans rfl
theorem at8_v3 : W8 m ρ c (Proc.devRef .tc main_v3) = KNet.S (args m c) :=
  (KHost.keep4 (W7 m ρ c) main_v3 (by decide)).trans (at7_v3 m ρ c)
theorem at8_v6 : W8 m ρ c (Proc.devRef .tc main_v6) = KNet.D (args m c) :=
  (KHost.keep4 (W7 m ρ c) main_v6 (by decide)).trans (at7_v6 m ρ c)
theorem at8_v28 : W8 m ρ c (Proc.devRef .tc main_v28) = KNet.Nn (args m c) :=
  (KHost.keep4 (W7 m ρ c) main_v28 (by decide)).trans (at7_v28 m ρ c)
theorem at8_arg6 : W8 m ρ c (Proc.devRef .tc main_arg6) = (args m c).b2 :=
  (KHost.keep4 (W7 m ρ c) main_arg6 (by decide)).trans (at7_arg6 m ρ c)
theorem at8_arg7 : W8 m ρ c (Proc.devRef .tc main_arg7) = (args m c).g2 :=
  (KHost.keep4 (W7 m ρ c) main_arg7 (by decide)).trans (at7_arg7 m ρ c)
theorem at8_arg8 : W8 m ρ c (Proc.devRef .tc main_arg8) = (args m c).bt2 :=
  (KHost.keep4 (W7 m ρ c) main_arg8 (by decide)).trans (at7_arg8 m ρ c)
theorem at8_arg9 : W8 m ρ c (Proc.devRef .tc main_arg9) = (args m c).wmu :=
  (KHost.keep4 (W7 m ρ c) main_arg9 (by decide)).trans (at7_arg9 m ρ c)
theorem at8_arg10 : W8 m ρ c (Proc.devRef .tc main_arg10) = (args m c).bmu :=
  (KHost.keep4 (W7 m ρ c) main_arg10 (by decide)).trans (at7_arg10 m ρ c)
theorem at8_arg11 : W8 m ρ c (Proc.devRef .tc main_arg11) = (args m c).wls :=
  (KHost.keep4 (W7 m ρ c) main_arg11 (by decide)).trans (at7_arg11 m ρ c)
theorem at8_arg12 : W8 m ρ c (Proc.devRef .tc main_arg12) = (args m c).bls :=
  (KHost.keep4 (W7 m ρ c) main_arg12 (by decide)).trans (at7_arg12 m ρ c)

/-! ### Boundary 9: after region 4 -/

theorem at9_v73_0 : W9 m ρ c (Proc.devRef .tc main_v73_0) = KNet.SM2 (args m c) :=
  ((W9_arr m ρ c 2).trans ((Stats4.finalS (V8 m ρ) c).trans (cg2 colSum (at8_v71 m ρ c) (at8_v72 m ρ c)))).trans rfl
theorem at9_v73_1 : W9 m ρ c (Proc.devRef .tc main_v73_1) = KNet.SQ2 (args m c) :=
  ((W9_arr m ρ c 3).trans ((Stats4.finalQ (V8 m ρ) c).trans (cg2 colSumSq (at8_v71 m ρ c) (at8_v72 m ρ c)))).trans rfl
theorem at9_v3 : W9 m ρ c (Proc.devRef .tc main_v3) = KNet.S (args m c) :=
  (W9_of_ne m ρ c main_v3 (by decide)).trans (at8_v3 m ρ c)
theorem at9_v6 : W9 m ρ c (Proc.devRef .tc main_v6) = KNet.D (args m c) :=
  (W9_of_ne m ρ c main_v6 (by decide)).trans (at8_v6 m ρ c)
theorem at9_v28 : W9 m ρ c (Proc.devRef .tc main_v28) = KNet.Nn (args m c) :=
  (W9_of_ne m ρ c main_v28 (by decide)).trans (at8_v28 m ρ c)
theorem at9_arg6 : W9 m ρ c (Proc.devRef .tc main_arg6) = (args m c).b2 :=
  (W9_of_ne m ρ c main_arg6 (by decide)).trans (at8_arg6 m ρ c)
theorem at9_v71 : W9 m ρ c (Proc.devRef .tc main_v71) = KNet.G2 (args m c) :=
  ((W9_arr m ρ c 0).trans (((dat4 (V8 m ρ) c).arrAt_in 0 rfl _).trans (A_eq4 (V8 m ρ) c 0))).trans (at8_v71 m ρ c)
theorem at9_arg7 : W9 m ρ c (Proc.devRef .tc main_arg7) = (args m c).g2 :=
  (W9_of_ne m ρ c main_arg7 (by decide)).trans (at8_arg7 m ρ c)
theorem at9_arg8 : W9 m ρ c (Proc.devRef .tc main_arg8) = (args m c).bt2 :=
  (W9_of_ne m ρ c main_arg8 (by decide)).trans (at8_arg8 m ρ c)
theorem at9_arg9 : W9 m ρ c (Proc.devRef .tc main_arg9) = (args m c).wmu :=
  (W9_of_ne m ρ c main_arg9 (by decide)).trans (at8_arg9 m ρ c)
theorem at9_arg10 : W9 m ρ c (Proc.devRef .tc main_arg10) = (args m c).bmu :=
  (W9_of_ne m ρ c main_arg10 (by decide)).trans (at8_arg10 m ρ c)
theorem at9_arg11 : W9 m ρ c (Proc.devRef .tc main_arg11) = (args m c).wls :=
  (W9_of_ne m ρ c main_arg11 (by decide)).trans (at8_arg11 m ρ c)
theorem at9_arg12 : W9 m ρ c (Proc.devRef .tc main_arg12) = (args m c).bls :=
  (W9_of_ne m ρ c main_arg12 (by decide)).trans (at8_arg12 m ρ c)

/-! ### Boundary 10: after host stretch 5 -/

theorem at10_v75 : W10 m ρ c (Proc.devRef .tc main_v75) = KNet.MN2 (args m c) :=
  ((KHost.read5_v75 (W9 m ρ c)).trans (cg1 KVal.meanOf (at9_v73_0 m ρ c))).trans rfl
theorem at10_v82 : W10 m ρ c (Proc.devRef .tc main_v82) = KNet.IV2 (args m c) :=
  ((KHost.read5_v82 (W9 m ρ c)).trans (cg2 KVal.invstdOf (at9_v73_0 m ρ c) (at9_v73_1 m ρ c))).trans rfl
theorem at10_v83 : W10 m ρ c (Proc.devRef .tc main_v83) = KNet.R2 (args m c) :=
  ((KHost.read5_v83 (W9 m ρ c)).trans (cg1 KVal.rowOf128 (at9_arg6 m ρ c))).trans rfl
theorem at10_v84 : W10 m ρ c (Proc.devRef .tc main_v84) = KVal.rowOf128 (args m c).g2 :=
  ((KHost.read5_v84 (W9 m ρ c)).trans (cg1 KVal.rowOf128 (at9_arg7 m ρ c))).trans rfl
theorem at10_v85 : W10 m ρ c (Proc.devRef .tc main_v85) = KVal.rowOf128 (args m c).bt2 :=
  ((KHost.read5_v85 (W9 m ρ c)).trans (cg1 KVal.rowOf128 (at9_arg8 m ρ c))).trans rfl
theorem at10_v3 : W10 m ρ c (Proc.devRef .tc main_v3) = KNet.S (args m c) :=
  (KHost.keep5 (W9 m ρ c) main_v3 (by decide)).trans (at9_v3 m ρ c)
theorem at10_v6 : W10 m ρ c (Proc.devRef .tc main_v6) = KNet.D (args m c) :=
  (KHost.keep5 (W9 m ρ c) main_v6 (by decide)).trans (at9_v6 m ρ c)
theorem at10_v28 : W10 m ρ c (Proc.devRef .tc main_v28) = KNet.Nn (args m c) :=
  (KHost.keep5 (W9 m ρ c) main_v28 (by decide)).trans (at9_v28 m ρ c)
theorem at10_v71 : W10 m ρ c (Proc.devRef .tc main_v71) = KNet.G2 (args m c) :=
  (KHost.keep5 (W9 m ρ c) main_v71 (by decide)).trans (at9_v71 m ρ c)
theorem at10_arg9 : W10 m ρ c (Proc.devRef .tc main_arg9) = (args m c).wmu :=
  (KHost.keep5 (W9 m ρ c) main_arg9 (by decide)).trans (at9_arg9 m ρ c)
theorem at10_arg10 : W10 m ρ c (Proc.devRef .tc main_arg10) = (args m c).bmu :=
  (KHost.keep5 (W9 m ρ c) main_arg10 (by decide)).trans (at9_arg10 m ρ c)
theorem at10_arg11 : W10 m ρ c (Proc.devRef .tc main_arg11) = (args m c).wls :=
  (KHost.keep5 (W9 m ρ c) main_arg11 (by decide)).trans (at9_arg11 m ρ c)
theorem at10_arg12 : W10 m ρ c (Proc.devRef .tc main_arg12) = (args m c).bls :=
  (KHost.keep5 (W9 m ρ c) main_arg12 (by decide)).trans (at9_arg12 m ρ c)

/-! ### Boundary 11: after region 5 -/

theorem at11_v86 : W11 m ρ c (Proc.devRef .tc main_v86) = KNet.H2 (args m c) :=
  ((W11_arr m ρ c 6).trans ((RegionValue.final5 (V10 m ρ) c).trans (cg6 normAct (at10_v71 m ρ c) (at10_v83 m ρ c) (at10_v75 m ρ c) (at10_v82 m ρ c) (at10_v84 m ρ c) (at10_v85 m ρ c)))).trans rfl
theorem at11_v3 : W11 m ρ c (Proc.devRef .tc main_v3) = KNet.S (args m c) :=
  (W11_of_ne m ρ c main_v3 (by decide)).trans (at10_v3 m ρ c)
theorem at11_v6 : W11 m ρ c (Proc.devRef .tc main_v6) = KNet.D (args m c) :=
  (W11_of_ne m ρ c main_v6 (by decide)).trans (at10_v6 m ρ c)
theorem at11_v28 : W11 m ρ c (Proc.devRef .tc main_v28) = KNet.Nn (args m c) :=
  (W11_of_ne m ρ c main_v28 (by decide)).trans (at10_v28 m ρ c)
theorem at11_arg9 : W11 m ρ c (Proc.devRef .tc main_arg9) = (args m c).wmu :=
  (W11_of_ne m ρ c main_arg9 (by decide)).trans (at10_arg9 m ρ c)
theorem at11_arg10 : W11 m ρ c (Proc.devRef .tc main_arg10) = (args m c).bmu :=
  (W11_of_ne m ρ c main_arg10 (by decide)).trans (at10_arg10 m ρ c)
theorem at11_arg11 : W11 m ρ c (Proc.devRef .tc main_arg11) = (args m c).wls :=
  (W11_of_ne m ρ c main_arg11 (by decide)).trans (at10_arg11 m ρ c)
theorem at11_arg12 : W11 m ρ c (Proc.devRef .tc main_arg12) = (args m c).bls :=
  (W11_of_ne m ρ c main_arg12 (by decide)).trans (at10_arg12 m ρ c)

/-! ### Boundary 12: after region 6 -/

theorem at12_v87 : W12 m ρ c (Proc.devRef .tc main_v87) = KNet.P3 (args m c) :=
  ((W12_arr m ρ c 2).trans ((RegionValue.final6 (V11 m ρ) c).trans (cg2 rowsByCols (at11_v86 m ρ c) (at11_arg9 m ρ c)))).trans rfl
theorem at12_v3 : W12 m ρ c (Proc.devRef .tc main_v3) = KNet.S (args m c) :=
  (W12_of_ne m ρ c main_v3 (by decide)).trans (at11_v3 m ρ c)
theorem at12_v6 : W12 m ρ c (Proc.devRef .tc main_v6) = KNet.D (args m c) :=
  (W12_of_ne m ρ c main_v6 (by decide)).trans (at11_v6 m ρ c)
theorem at12_v28 : W12 m ρ c (Proc.devRef .tc main_v28) = KNet.Nn (args m c) :=
  (W12_of_ne m ρ c main_v28 (by decide)).trans (at11_v28 m ρ c)
theorem at12_v86 : W12 m ρ c (Proc.devRef .tc main_v86) = KNet.H2 (args m c) :=
  ((W12_arr m ρ c 0).trans (((dat6 (V11 m ρ) c).arrAt_in 0 rfl _).trans (A_eq6 (V11 m ρ) c 0))).trans (at11_v86 m ρ c)
theorem at12_arg10 : W12 m ρ c (Proc.devRef .tc main_arg10) = (args m c).bmu :=
  (W12_of_ne m ρ c main_arg10 (by decide)).trans (at11_arg10 m ρ c)
theorem at12_arg11 : W12 m ρ c (Proc.devRef .tc main_arg11) = (args m c).wls :=
  (W12_of_ne m ρ c main_arg11 (by decide)).trans (at11_arg11 m ρ c)
theorem at12_arg12 : W12 m ρ c (Proc.devRef .tc main_arg12) = (args m c).bls :=
  (W12_of_ne m ρ c main_arg12 (by decide)).trans (at11_arg12 m ρ c)

/-! ### Boundary 13: after host stretch 7 -/

theorem at13_v100 : W13 m ρ c (Proc.devRef .tc main_v100) = KNet.G3 (args m c) :=
  ((KHost.read7_v100 (W12 m ρ c)).trans (cg4 KVal.aggOf64 (at12_v3 m ρ c) (at12_v6 m ρ c) (at12_v28 m ρ c) (at12_v87 m ρ c))).trans rfl
theorem at13_v101 : W13 m ρ c (Proc.devRef .tc main_v101) = KVal.rowOf64 (args m c).bmu :=
  ((KHost.read7_v101 (W12 m ρ c)).trans (cg1 KVal.rowOf64 (at12_arg10 m ρ c))).trans rfl
theorem at13_v3 : W13 m ρ c (Proc.devRef .tc main_v3) = KNet.S (args m c) :=
  (KHost.keep7 (W12 m ρ c) main_v3 (by decide)).trans (at12_v3 m ρ c)
theorem at13_v6 : W13 m ρ c (Proc.devRef .tc main_v6) = KNet.D (args m c) :=
  (KHost.keep7 (W12 m ρ c) main_v6 (by decide)).trans (at12_v6 m ρ c)
theorem at13_v28 : W13 m ρ c (Proc.devRef .tc main_v28) = KNet.Nn (args m c) :=
  (KHost.keep7 (W12 m ρ c) main_v28 (by decide)).trans (at12_v28 m ρ c)
theorem at13_v86 : W13 m ρ c (Proc.devRef .tc main_v86) = KNet.H2 (args m c) :=
  (KHost.keep7 (W12 m ρ c) main_v86 (by decide)).trans (at12_v86 m ρ c)
theorem at13_arg11 : W13 m ρ c (Proc.devRef .tc main_arg11) = (args m c).wls :=
  (KHost.keep7 (W12 m ρ c) main_arg11 (by decide)).trans (at12_arg11 m ρ c)
theorem at13_arg12 : W13 m ρ c (Proc.devRef .tc main_arg12) = (args m c).bls :=
  (KHost.keep7 (W12 m ρ c) main_arg12 (by decide)).trans (at12_arg12 m ρ c)

/-! ### Boundary 14: after region 7 -/

theorem at14_v102 : W14 m ρ c (Proc.devRef .tc main_v102) = KNet.MU (args m c) :=
  ((W14_arr m ρ c 2).trans ((RegionValue.final7 (V13 m ρ) c).trans (cg2 addRow (at13_v100 m ρ c) (at13_v101 m ρ c)))).trans rfl
theorem at14_v3 : W14 m ρ c (Proc.devRef .tc main_v3) = KNet.S (args m c) :=
  (W14_of_ne m ρ c main_v3 (by decide)).trans (at13_v3 m ρ c)
theorem at14_v6 : W14 m ρ c (Proc.devRef .tc main_v6) = KNet.D (args m c) :=
  (W14_of_ne m ρ c main_v6 (by decide)).trans (at13_v6 m ρ c)
theorem at14_v28 : W14 m ρ c (Proc.devRef .tc main_v28) = KNet.Nn (args m c) :=
  (W14_of_ne m ρ c main_v28 (by decide)).trans (at13_v28 m ρ c)
theorem at14_v86 : W14 m ρ c (Proc.devRef .tc main_v86) = KNet.H2 (args m c) :=
  (W14_of_ne m ρ c main_v86 (by decide)).trans (at13_v86 m ρ c)
theorem at14_arg11 : W14 m ρ c (Proc.devRef .tc main_arg11) = (args m c).wls :=
  (W14_of_ne m ρ c main_arg11 (by decide)).trans (at13_arg11 m ρ c)
theorem at14_arg12 : W14 m ρ c (Proc.devRef .tc main_arg12) = (args m c).bls :=
  (W14_of_ne m ρ c main_arg12 (by decide)).trans (at13_arg12 m ρ c)

/-! ### Boundary 15: after region 8 -/

theorem at15_v103 : W15 m ρ c (Proc.devRef .tc main_v103) = KNet.P4 (args m c) :=
  ((W15_arr m ρ c 2).trans ((RegionValue.final8 (V14 m ρ) c).trans (cg2 rowsByCols (at14_v86 m ρ c) (at14_arg11 m ρ c)))).trans rfl
theorem at15_v3 : W15 m ρ c (Proc.devRef .tc main_v3) = KNet.S (args m c) :=
  (W15_of_ne m ρ c main_v3 (by decide)).trans (at14_v3 m ρ c)
theorem at15_v6 : W15 m ρ c (Proc.devRef .tc main_v6) = KNet.D (args m c) :=
  (W15_of_ne m ρ c main_v6 (by decide)).trans (at14_v6 m ρ c)
theorem at15_v28 : W15 m ρ c (Proc.devRef .tc main_v28) = KNet.Nn (args m c) :=
  (W15_of_ne m ρ c main_v28 (by decide)).trans (at14_v28 m ρ c)
theorem at15_arg12 : W15 m ρ c (Proc.devRef .tc main_arg12) = (args m c).bls :=
  (W15_of_ne m ρ c main_arg12 (by decide)).trans (at14_arg12 m ρ c)
theorem at15_v102 : W15 m ρ c (Proc.devRef .tc main_v102) = KNet.MU (args m c) :=
  (W15_of_ne m ρ c main_v102 (by decide)).trans (at14_v102 m ρ c)

/-! ### Boundary 16: after host stretch 9 -/

theorem at16_v116 : W16 m ρ c (Proc.devRef .tc main_v116) = KNet.G4 (args m c) :=
  ((KHost.read9_v116 (W15 m ρ c)).trans (cg4 KVal.aggOf64 (at15_v3 m ρ c) (at15_v6 m ρ c) (at15_v28 m ρ c) (at15_v103 m ρ c))).trans rfl
theorem at16_v117 : W16 m ρ c (Proc.devRef .tc main_v117) = KVal.rowOf64 (args m c).bls :=
  ((KHost.read9_v117 (W15 m ρ c)).trans (cg1 KVal.rowOf64 (at15_arg12 m ρ c))).trans rfl
theorem at16_v102 : W16 m ρ c (Proc.devRef .tc main_v102) = KNet.MU (args m c) :=
  (KHost.keep9 (W15 m ρ c) main_v102 (by decide)).trans (at15_v102 m ρ c)

/-! ### Boundary 17: after region 9 -/

theorem at17_v118 : W17 m ρ c (Proc.devRef .tc main_v118) = KNet.LS (args m c) :=
  ((W17_arr m ρ c 2).trans ((RegionValue.final9 (V16 m ρ) c).trans (cg2 addRow (at16_v116 m ρ c) (at16_v117 m ρ c)))).trans rfl
theorem at17_v102 : W17 m ρ c (Proc.devRef .tc main_v102) = KNet.MU (args m c) :=
  (W17_of_ne m ρ c main_v102 (by decide)).trans (at16_v102 m ρ c)

/-- The two result buffers at the last boundary: the two heads. -/
theorem result_mu : W17 m ρ c (Proc.devRef .tc main_v102) = KNet.MU (args m c) := at17_v102 m ρ c
theorem result_ls : W17 m ρ c (Proc.devRef .tc main_v118) = KNet.LS (args m c) := at17_v118 m ρ c

end Cert.KernelIdeal.KValue

end
-- ==== Proof.RefRun.lean ====
/- The reference program's @main as a list of its host operations, and its run read back: every weakly fair
   execution terminates with each buffer at the fold of the operations' results over the launch contents.
   The operations of the functions @main calls (the variance with its select, the rectifier) are listed
   inline at their call sites over the calls' buffer records. The list is cut where the computation changes
   subject (index vectors, normalisation, per layer: dense product, aggregation, bias, column mean, column
   variance, affine part and rectifier), and again where a window of @main ends inside such a stretch. -/
import proofs.«151309_j60756607369296_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every operation of two lists holds of every operation of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The two index vectors: the iota of the nodes, then for each row of the edge table its slice, the reshape to a vector, and the concatenation with the iota (every node's self loop). -/
abbrev opsEdges : List (HloOp τ sig (Elt F)) :=
  [ StableHlo.nullary main_v0 (iotaInDim S100000 32 0),
    StableHlo.unary main_arg13 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg13 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The symmetric normalisation: the degree (a scatter-add of ones at the destinations), its maximum with one, the reciprocal square root, its gathers at the wrapped source and destination indices, their product. -/
abbrev opsNorm : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x3F800000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (maximumf : (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_c (constantI S_ 32 0#32),
    StableHlo.unary main_c main_v14 (broadcastInDim S1700000 ![] bcast_S_S1700000 : (⟨S_, .i32⟩ : BufTy).Contents (Elt F) → (⟨S1700000, .i32⟩ : BufTy).Contents (Elt F)),
    StableHlo.binary main_v3 main_v14 main_v15 (cmpi .slt : (⟨S1700000, .i32⟩ : BufTy).Contents (Elt F) → (⟨S1700000, .i32⟩ : BufTy).Contents (Elt F) → (⟨S1700000, .i1⟩ : BufTy).Contents (Elt F)),
    StableHlo.nullary main_c_2 (constantI S_ 32 100000#32),
    StableHlo.unary main_c_2 main_v16 (broadcastInDim S1700000 ![] bcast_S_S1700000 : (⟨S_, .i32⟩ : BufTy).Contents (Elt F) → (⟨S1700000, .i32⟩ : BufTy).Contents (Elt F)),
    StableHlo.binary main_v3 main_v16 main_v17 (addi : (⟨S1700000, .i32⟩ : BufTy).Contents (Elt F) → (⟨S1700000, .i32⟩ : BufTy).Contents (Elt F) → (⟨S1700000, .i32⟩ : BufTy).Contents (Elt F)),
    StableHlo.ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v18 main_v19 (broadcastInDim S1700000x1 ![0] bcast_S1700000_S1700000x1_0 : (⟨S1700000, .i32⟩ : BufTy).Contents (Elt F) → (⟨S1700000x1, .i32⟩ : BufTy).Contents (Elt F)),
    StableHlo.binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_3 (constantI S_ 32 0#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (addi : (⟨S1700000, .i32⟩ : BufTy).Contents (Elt F) → (⟨S1700000, .i32⟩ : BufTy).Contents (Elt F) → (⟨S1700000, .i32⟩ : BufTy).Contents (Elt F)),
    StableHlo.ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v25 main_v26 (broadcastInDim S1700000x1 ![0] bcast_S1700000_S1700000x1_0 : (⟨S1700000, .i32⟩ : BufTy).Contents (Elt F) → (⟨S1700000x1, .i32⟩ : BufTy).Contents (Elt F)),
    StableHlo.binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v20 main_v27 main_v28 (mulf : (⟨S1700000, .f32⟩ : BufTy).Contents (Elt F) → (⟨S1700000, .f32⟩ : BufTy).Contents (Elt F) → (⟨S1700000, .f32⟩ : BufTy).Contents (Elt F)) ]

/-- The first layer's dense product. -/
abbrev opsDotA : List (HloOp τ sig (Elt F)) :=
  [ StableHlo.binary main_arg0 main_arg1 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- The first layer's aggregation: the wrapped source index, the row gather, the normalisation spread over the columns, the product, the scatter-add into a zero table at the destinations. -/
abbrev opsAgg1 : List (HloOp τ sig (Elt F)) :=
  [ StableHlo.nullary main_c_5 (constantI S_ 32 0#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v3 main_v32 main_v33 (addi : (⟨S1700000, .i32⟩ : BufTy).Contents (Elt F) → (⟨S1700000, .i32⟩ : BufTy).Contents (Elt F) → (⟨S1700000, .i32⟩ : BufTy).Contents (Elt F)),
    StableHlo.ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v34 main_v35 (broadcastInDim S1700000x1 ![0] bcast_S1700000_S1700000x1_0 : (⟨S1700000, .i32⟩ : BufTy).Contents (Elt F) → (⟨S1700000x1, .i32⟩ : BufTy).Contents (Elt F)),
    StableHlo.binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v28 main_v37 (broadcastInDim S1700000x1 ![0] bcast_S1700000_S1700000x1_0 : (⟨S1700000, .f32⟩ : BufTy).Contents (Elt F) → (⟨S1700000x1, .f32⟩ : BufTy).Contents (Elt F)),
    StableHlo.unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    StableHlo.nullary main_cst_7 (constant S_ .f32 0x00000000#32),
    StableHlo.unary main_cst_7 main_v40 (broadcastInDim S100000x128 ![] bcast_S_S100000x128 : (⟨S_, .f32⟩ : BufTy).Contents (Elt F) → (⟨S100000x128, .f32⟩ : BufTy).Contents (Elt F)),
    StableHlo.unary main_v6 main_v41 (broadcastInDim S1700000x1 ![0] bcast_S1700000_S1700000x1_0 : (⟨S1700000, .i32⟩ : BufTy).Contents (Elt F) → (⟨S1700000x1, .i32⟩ : BufTy).Contents (Elt F)),
    StableHlo.ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The first layer's bias, spread over the rows and added. -/
abbrev opsBias1 : List (HloOp τ sig (Elt F)) :=
  [ StableHlo.unary main_arg2 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)) ]

/-- The first normalisation's column sum and the divisor's spread (the window of @main ends here). -/
abbrev opsMean1a : List (HloOp τ sig (Elt F)) :=
  [ StableHlo.nullary main_cst_8 (constant S_ .f32 0x00000000#32),
    StableHlo.binary main_v45 main_cst_8 main_v46 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v47 (broadcastInDim S128 ![] bcast_S_S128 : (⟨S_, .f32⟩ : BufTy).Contents (Elt F) → (⟨S128, .f32⟩ : BufTy).Contents (Elt F)) ]

/-- The first normalisation's column mean: the quotient. -/
abbrev opsMean1b : List (HloOp τ sig (Elt F)) :=
  [ StableHlo.binary main_v46 main_v47 main_v48 (Host.divf : (⟨S128, .f32⟩ : BufTy).Contents (Elt F) → (⟨S128, .f32⟩ : BufTy).Contents (Elt F) → (⟨S128, .f32⟩ : BufTy).Contents (Elt F)) ]

/-- The first normalisation's column variance: the integer constant and the outlined variance with its select. -/
abbrev opsVar1 : List (HloOp τ sig (Elt F)) :=
  [ StableHlo.nullary main_c_10 (constantI S_ 32 0#32),
    StableHlo.TRef.nullary main_call0.cst (constant S_ .f32 0x00000000#32),
    StableHlo.TRef.binary (.of main_v45 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v45 : TRef sig ⟨S100000x128, .f32⟩) main_call0.v4 main_call0.v5 subf,
    StableHlo.TRef.binary main_call0.v5 main_call0.v5 main_call0.v6 mulf,
    StableHlo.TRef.unary (.of main_c_10 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The first normalisation's affine part and the rectifier. -/
abbrev opsAff1 : List (HloOp τ sig (Elt F)) :=
  [ StableHlo.unary main_v48 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v51 main_v52 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v53 (broadcastInDim S128 ![] bcast_S_S128 : (⟨S_, .f32⟩ : BufTy).Contents (Elt F) → (⟨S128, .f32⟩ : BufTy).Contents (Elt F)),
    StableHlo.binary main_v49 main_v53 main_v54 (addf : (⟨S128, .f32⟩ : BufTy).Contents (Elt F) → (⟨S128, .f32⟩ : BufTy).Contents (Elt F) → (⟨S128, .f32⟩ : BufTy).Contents (Elt F)),
    StableHlo.unary main_v54 main_v55 (Host.rsqrt : (⟨S128, .f32⟩ : BufTy).Contents (Elt F) → (⟨S128, .f32⟩ : BufTy).Contents (Elt F)),
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v57 main_v58 (mulf : (⟨S100000x128, .f32⟩ : BufTy).Contents (Elt F) → (⟨S100000x128, .f32⟩ : BufTy).Contents (Elt F) → (⟨S100000x128, .f32⟩ : BufTy).Contents (Elt F)),
    StableHlo.unary main_arg3 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v64 : TRef sig ⟨S100000x128, .f32⟩) main_call1.v0 main_call1.v1 maximumf ]

/-- The second layer's dense product. -/
abbrev opsDotB : List (HloOp τ sig (Elt F)) :=
  [ StableHlo.binary main_v65 main_arg5 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second layer's aggregation. -/
abbrev opsAgg2 : List (HloOp τ sig (Elt F)) :=
  [ StableHlo.nullary main_c_12 (constantI S_ 32 0#32),
    StableHlo.unary main_c_12 main_v67 (broadcastInDim S1700000 ![] bcast_S_S1700000 : (⟨S_, .i32⟩ : BufTy).Contents (Elt F) → (⟨S1700000, .i32⟩ : BufTy).Contents (Elt F)),
    StableHlo.binary main_v3 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v69 (broadcastInDim S1700000 ![] bcast_S_S1700000 : (⟨S_, .i32⟩ : BufTy).Contents (Elt F) → (⟨S1700000, .i32⟩ : BufTy).Contents (Elt F)),
    StableHlo.binary main_v3 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v28 main_v74 (broadcastInDim S1700000x1 ![0] bcast_S1700000_S1700000x1_0 : (⟨S1700000, .f32⟩ : BufTy).Contents (Elt F) → (⟨S1700000x1, .f32⟩ : BufTy).Contents (Elt F)),
    StableHlo.unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    StableHlo.nullary main_cst_14 (constant S_ .f32 0x00000000#32),
    StableHlo.unary main_cst_14 main_v77 (broadcastInDim S100000x128 ![] bcast_S_S100000x128 : (⟨S_, .f32⟩ : BufTy).Contents (Elt F) → (⟨S100000x128, .f32⟩ : BufTy).Contents (Elt F)),
    StableHlo.unary main_v6 main_v78 (broadcastInDim S1700000x1 ![0] bcast_S1700000_S1700000x1_0 : (⟨S1700000, .i32⟩ : BufTy).Contents (Elt F) → (⟨S1700000x1, .i32⟩ : BufTy).Contents (Elt F)),
    StableHlo.ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second layer's bias. -/
abbrev opsBias2 : List (HloOp τ sig (Elt F)) :=
  [ StableHlo.unary main_arg6 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)) ]

/-- The second normalisation's column mean. -/
abbrev opsMean2 : List (HloOp τ sig (Elt F)) :=
  [ StableHlo.nullary main_cst_15 (constant S_ .f32 0x00000000#32),
    StableHlo.binary main_v82 main_cst_15 main_v83 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v84 (broadcastInDim S128 ![] bcast_S_S128 : (⟨S_, .f32⟩ : BufTy).Contents (Elt F) → (⟨S128, .f32⟩ : BufTy).Contents (Elt F)),
    StableHlo.binary main_v83 main_v84 main_v85 (Host.divf : (⟨S128, .f32⟩ : BufTy).Contents (Elt F) → (⟨S128, .f32⟩ : BufTy).Contents (Elt F) → (⟨S128, .f32⟩ : BufTy).Contents (Elt F)) ]

/-- The second normalisation's column variance. -/
abbrev opsVar2 : List (HloOp τ sig (Elt F)) :=
  [ StableHlo.nullary main_c_17 (constantI S_ 32 0#32),
    StableHlo.TRef.nullary main_call2.cst (constant S_ .f32 0x00000000#32),
    StableHlo.TRef.binary (.of main_v82 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v82 : TRef sig ⟨S100000x128, .f32⟩) main_call2.v4 main_call2.v5 subf,
    StableHlo.TRef.binary main_call2.v5 main_call2.v5 main_call2.v6 mulf,
    StableHlo.TRef.unary (.of main_c_17 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The second normalisation's affine part up to the scale (the window of @main ends here). -/
abbrev opsAff2a : List (HloOp τ sig (Elt F)) :=
  [ StableHlo.unary main_v85 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v88 main_v89 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v90 (broadcastInDim S128 ![] bcast_S_S128 : (⟨S_, .f32⟩ : BufTy).Contents (Elt F) → (⟨S128, .f32⟩ : BufTy).Contents (Elt F)),
    StableHlo.binary main_v86 main_v90 main_v91 (addf : (⟨S128, .f32⟩ : BufTy).Contents (Elt F) → (⟨S128, .f32⟩ : BufTy).Contents (Elt F) → (⟨S128, .f32⟩ : BufTy).Contents (Elt F)),
    StableHlo.unary main_v91 main_v92 (Host.rsqrt : (⟨S128, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v94 main_v95 (mulf : (⟨S100000x128, .f32⟩ : BufTy).Contents (Elt F) → (⟨S100000x128, .f32⟩ : BufTy).Contents (Elt F) → (⟨S100000x128, .f32⟩ : BufTy).Contents (Elt F)),
    StableHlo.unary main_arg7 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (mulf : (⟨S100000x128, .f32⟩ : BufTy).Contents (Elt F) → (⟨S100000x128, .f32⟩ : BufTy).Contents (Elt F) → (⟨S100000x128, .f32⟩ : BufTy).Contents (Elt F)) ]

/-- The second normalisation's shift and the rectifier. -/
abbrev opsAff2b : List (HloOp τ sig (Elt F)) :=
  [ StableHlo.unary main_arg8 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v100 main_v101 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v101 : TRef sig ⟨S100000x128, .f32⟩) main_call3.v0 main_call3.v1 maximumf ]

/-- The mean head's dense product. -/
abbrev opsDotMu : List (HloOp τ sig (Elt F)) :=
  [ StableHlo.binary main_v102 main_arg9 main_v103 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The mean head's aggregation. -/
abbrev opsAggMu : List (HloOp τ sig (Elt F)) :=
  [ StableHlo.nullary main_c_19 (constantI S_ 32 0#32),
    StableHlo.unary main_c_19 main_v104 (broadcastInDim S1700000 ![] bcast_S_S1700000 : (⟨S_, .i32⟩ : BufTy).Contents (Elt F) → (⟨S1700000, .i32⟩ : BufTy).Contents (Elt F)),
    StableHlo.binary main_v3 main_v104 main_v105 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v106 (broadcastInDim S1700000 ![] bcast_S_S1700000 : (⟨S_, .i32⟩ : BufTy).Contents (Elt F) → (⟨S1700000, .i32⟩ : BufTy).Contents (Elt F)),
    StableHlo.binary main_v3 main_v106 main_v107 (addi : (⟨S1700000, .i32⟩ : BufTy).Contents (Elt F) → (⟨S1700000, .i32⟩ : BufTy).Contents (Elt F) → (⟨S1700000, .i32⟩ : BufTy).Contents (Elt F)),
    StableHlo.ternary main_v105 main_v107 main_v3 main_v108 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v108 main_v109 (broadcastInDim S1700000x1 ![0] bcast_S1700000_S1700000x1_0 : (⟨S1700000, .i32⟩ : BufTy).Contents (Elt F) → (⟨S1700000x1, .i32⟩ : BufTy).Contents (Elt F)),
    StableHlo.binary main_v103 main_v109 main_v110 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v28 main_v111 (broadcastInDim S1700000x1 ![0] bcast_S1700000_S1700000x1_0 : (⟨S1700000, .f32⟩ : BufTy).Contents (Elt F) → (⟨S1700000x1, .f32⟩ : BufTy).Contents (Elt F)),
    StableHlo.unary main_v111 main_v112 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v110 main_v112 main_v113 (mulf : (⟨S1700000x64, .f32⟩ : BufTy).Contents (Elt F) → (⟨S1700000x64, .f32⟩ : BufTy).Contents (Elt F) → (⟨S1700000x64, .f32⟩ : BufTy).Contents (Elt F)),
    StableHlo.nullary main_cst_21 (constant S_ .f32 0x00000000#32),
    StableHlo.unary main_cst_21 main_v114 (broadcastInDim S100000x64 ![] bcast_S_S100000x64 : (⟨S_, .f32⟩ : BufTy).Contents (Elt F) → (⟨S100000x64, .f32⟩ : BufTy).Contents (Elt F)),
    StableHlo.unary main_v6 main_v115 (broadcastInDim S1700000x1 ![0] bcast_S1700000_S1700000x1_0 : (⟨S1700000, .i32⟩ : BufTy).Contents (Elt F) → (⟨S1700000x1, .i32⟩ : BufTy).Contents (Elt F)),
    StableHlo.ternary main_v114 main_v115 main_v113 main_v116 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The mean head's bias. -/
abbrev opsBiasMu : List (HloOp τ sig (Elt F)) :=
  [ StableHlo.unary main_arg10 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v118 main_v119 (addf : (⟨S100000x64, .f32⟩ : BufTy).Contents (Elt F) → (⟨S100000x64, .f32⟩ : BufTy).Contents (Elt F) → (⟨S100000x64, .f32⟩ : BufTy).Contents (Elt F)) ]

/-- The log-deviation head's dense product. -/
abbrev opsDotLs : List (HloOp τ sig (Elt F)) :=
  [ StableHlo.binary main_v102 main_arg11 main_v120 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The log-deviation head's aggregation. -/
abbrev opsAggLs : List (HloOp τ sig (Elt F)) :=
  [ StableHlo.nullary main_c_22 (constantI S_ 32 0#32),
    StableHlo.unary main_c_22 main_v121 (broadcastInDim S1700000 ![] bcast_S_S1700000 : (⟨S_, .i32⟩ : BufTy).Contents (Elt F) → (⟨S1700000, .i32⟩ : BufTy).Contents (Elt F)),
    StableHlo.binary main_v3 main_v121 main_v122 (cmpi .slt : (⟨S1700000, .i32⟩ : BufTy).Contents (Elt F) → (⟨S1700000, .i32⟩ : BufTy).Contents (Elt F) → (⟨S1700000, .i1⟩ : BufTy).Contents (Elt F)),
    StableHlo.nullary main_c_23 (constantI S_ 32 100000#32),
    StableHlo.unary main_c_23 main_v123 (broadcastInDim S1700000 ![] bcast_S_S1700000 : (⟨S_, .i32⟩ : BufTy).Contents (Elt F) → (⟨S1700000, .i32⟩ : BufTy).Contents (Elt F)),
    StableHlo.binary main_v3 main_v123 main_v124 (addi : (⟨S1700000, .i32⟩ : BufTy).Contents (Elt F) → (⟨S1700000, .i32⟩ : BufTy).Contents (Elt F) → (⟨S1700000, .i32⟩ : BufTy).Contents (Elt F)),
    StableHlo.ternary main_v122 main_v124 main_v3 main_v125 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v125 main_v126 (broadcastInDim S1700000x1 ![0] bcast_S1700000_S1700000x1_0 : (⟨S1700000, .i32⟩ : BufTy).Contents (Elt F) → (⟨S1700000x1, .i32⟩ : BufTy).Contents (Elt F)),
    StableHlo.binary main_v120 main_v126 main_v127 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v28 main_v128 (broadcastInDim S1700000x1 ![0] bcast_S1700000_S1700000x1_0 : (⟨S1700000, .f32⟩ : BufTy).Contents (Elt F) → (⟨S1700000x1, .f32⟩ : BufTy).Contents (Elt F)),
    StableHlo.unary main_v128 main_v129 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v127 main_v129 main_v130 (mulf : (⟨S1700000x64, .f32⟩ : BufTy).Contents (Elt F) → (⟨S1700000x64, .f32⟩ : BufTy).Contents (Elt F) → (⟨S1700000x64, .f32⟩ : BufTy).Contents (Elt F)),
    StableHlo.nullary main_cst_24 (constant S_ .f32 0x00000000#32),
    StableHlo.unary main_cst_24 main_v131 (broadcastInDim S100000x64 ![] bcast_S_S100000x64 : (⟨S_, .f32⟩ : BufTy).Contents (Elt F) → (⟨S100000x64, .f32⟩ : BufTy).Contents (Elt F)),
    StableHlo.unary main_v6 main_v132 (broadcastInDim S1700000x1 ![0] bcast_S1700000_S1700000x1_0 : (⟨S1700000, .i32⟩ : BufTy).Contents (Elt F) → (⟨S1700000x1, .i32⟩ : BufTy).Contents (Elt F)),
    StableHlo.ternary main_v131 main_v132 main_v130 main_v133 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The log-deviation head's bias. -/
abbrev opsBiasLs : List (HloOp τ sig (Elt F)) :=
  [ StableHlo.unary main_arg12 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S100000x64 ![0, 1] bcast_S1x64_S100000x64_0_1 : (⟨S1x64, .f32⟩ : BufTy).Contents (Elt F) → (⟨S100000x64, .f32⟩ : BufTy).Contents (Elt F)),
    StableHlo.binary main_v133 main_v135 main_v136 (addf : (⟨S100000x64, .f32⟩ : BufTy).Contents (Elt F) → (⟨S100000x64, .f32⟩ : BufTy).Contents (Elt F) → (⟨S100000x64, .f32⟩ : BufTy).Contents (Elt F)) ]

/-- The operations of @main's window 0, the calls unfolded. -/
abbrev ops0 : List (HloOp τ sig (Elt F)) :=
  opsEdges ++ (opsNorm ++ (opsDotA ++ (opsAgg1 ++ (opsBias1 ++ (opsMean1a)))))

/-- The operations of @main's window 1, the calls unfolded. -/
abbrev ops1 : List (HloOp τ sig (Elt F)) :=
  opsMean1b ++ (opsVar1 ++ (opsAff1 ++ (opsDotB ++ (opsAgg2 ++ (opsBias2 ++ (opsMean2 ++ (opsVar2 ++ (opsAff2a))))))))

/-- The operations of @main's window 2, the calls unfolded. -/
abbrev ops2 : List (HloOp τ sig (Elt F)) :=
  opsAff2b ++ (opsDotMu ++ (opsAggMu ++ (opsBiasMu ++ (opsDotLs ++ (opsAggLs ++ (opsBiasLs))))))

/-- @main's operations in order, the calls unfolded. -/
abbrev ops : List (HloOp τ sig (Elt F)) := ops0 ++ (ops1 ++ ops2)

set_option maxRecDepth 8192 in
set_option maxHeartbeats 4000000 in
/-- The first window calls no function: it is its operations' line as written. -/
theorem main_part0_eq (c : Dev nD) : main_part0 (F := F) c = seq ops0 := rfl

set_option maxRecDepth 8192 in
set_option maxHeartbeats 4000000 in
/-- The second window: the functions' definitions unfolded at their calls and the records at their fields, both
    sides are one chain of steps once sequencing is reassociated. -/
theorem main_part1_eq (c : Dev nD) : main_part1 (F := F) c = seq ops1 := by
  simp only [main_part1, fn_var.body, fn_where.body, fn_relu.body, bind_assoc, pure_bind]
  rfl

set_option maxRecDepth 8192 in
set_option maxHeartbeats 4000000 in
/-- The third window, likewise. -/
theorem main_part2_eq (c : Dev nD) : main_part2 (F := F) c = seq ops2 := by
  simp only [main_part2, fn_relu.body, bind_assoc, pure_bind]
  rfl

/-- @main is its windows in turn, so the line of all the operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsEdges_sub : (opsEdges : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem opsEdges_fresh : (opsEdges : List (HloOp τ sig (Elt F))).Forall fun op => op.fresh = ∅ :=
  ⟨rfl, rfl, rfl, rfl, rfl, rfl, rfl⟩
theorem opsNorm_sub : (opsNorm : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsNorm_fresh : (opsNorm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem opsDotA_sub : (opsDotA : List (HloOp τ sig (Elt F))).Forall fun op => op.bufs ⊆ tcRefs τ sig :=
  binary_bufs_sub ..
theorem opsDotA_fresh : (opsDotA : List (HloOp τ sig (Elt F))).Forall fun op => op.fresh = ∅ :=
  rfl
theorem opsAgg1_sub : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsAgg1_fresh : (opsAgg1 : List (HloOp τ sig (Elt F))).Forall fun op => op.fresh = ∅ :=
  ⟨rfl, rfl, rfl, rfl, rfl, rfl, rfl, rfl, rfl, rfl, rfl, rfl, rfl, rfl, rfl, rfl⟩
theorem opsBias1_sub : (opsBias1 : List (HloOp τ sig (Elt F))).Forall fun op => op.bufs ⊆ tcRefs τ sig :=
  ⟨unary_bufs_sub .., unary_bufs_sub .., binary_bufs_sub ..⟩
theorem opsBias1_fresh : (opsBias1 : List (HloOp τ sig (Elt F))).Forall fun op => op.fresh = ∅ :=
  ⟨rfl, rfl, rfl⟩
theorem opsMean1a_sub : (opsMean1a : List (HloOp τ sig (Elt F))).Forall fun op => op.bufs ⊆ tcRefs τ sig :=
  ⟨nullary_bufs_sub .., binary_bufs_sub .., nullary_bufs_sub .., unary_bufs_sub ..⟩
theorem opsMean1a_fresh : (opsMean1a : List (HloOp τ sig (Elt F))).Forall fun op => op.fresh = ∅ :=
  ⟨rfl, rfl, rfl, rfl⟩
theorem opsMean1b_sub : (opsMean1b : List (HloOp τ sig (Elt F))).Forall fun op => op.bufs ⊆ tcRefs τ sig :=
  binary_bufs_sub ..
theorem opsMean1b_fresh : (opsMean1b : List (HloOp τ sig (Elt F))).Forall fun op => op.fresh = ∅ :=
  rfl
theorem opsVar1_sub : (opsVar1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar1_fresh : (opsVar1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem opsAff1_sub : (opsAff1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem opsAff1_fresh : (opsAff1 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsDotB_sub : (opsDotB : List (HloOp τ sig (Elt F))).Forall fun op => op.bufs ⊆ tcRefs τ sig :=
  binary_bufs_sub ..
theorem opsDotB_fresh : (opsDotB : List (HloOp τ sig (Elt F))).Forall fun op => op.fresh = ∅ :=
  rfl
theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsAgg2_fresh : (opsAgg2 : List (HloOp τ sig (Elt F))).Forall fun op => op.fresh = ∅ :=
  ⟨rfl, rfl, rfl, rfl, rfl, rfl, rfl, rfl, rfl, rfl, rfl, rfl, rfl, rfl, rfl, rfl⟩
theorem opsBias2_sub : (opsBias2 : List (HloOp τ sig (Elt F))).Forall fun op => op.bufs ⊆ tcRefs τ sig :=
  ⟨unary_bufs_sub .., unary_bufs_sub .., binary_bufs_sub ..⟩
theorem opsBias2_fresh : (opsBias2 : List (HloOp τ sig (Elt F))).Forall fun op => op.fresh = ∅ :=
  ⟨rfl, rfl, rfl⟩
theorem opsMean2_sub : (opsMean2 : List (HloOp τ sig (Elt F))).Forall fun op => op.bufs ⊆ tcRefs τ sig :=
  ⟨nullary_bufs_sub .., binary_bufs_sub .., nullary_bufs_sub .., unary_bufs_sub .., binary_bufs_sub ..⟩
theorem opsMean2_fresh : (opsMean2 : List (HloOp τ sig (Elt F))).Forall fun op => op.fresh = ∅ :=
  ⟨rfl, rfl, rfl, rfl, rfl⟩
theorem opsVar2_sub : (opsVar2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar2_fresh : (opsVar2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem opsAff2a_sub : (opsAff2a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem opsAff2a_fresh : (opsAff2a : List (HloOp τ sig (Elt F))).Forall fun op => op.fresh = ∅ :=
  ⟨rfl, rfl, rfl, rfl, rfl, rfl, rfl, rfl, rfl, rfl, rfl, rfl, rfl⟩
theorem opsAff2b_sub : (opsAff2b : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem opsAff2b_fresh : (opsAff2b : List (HloOp τ sig (Elt F))).Forall fun op => op.fresh = ∅ :=
  ⟨rfl, rfl, rfl, rfl, rfl, rfl⟩
theorem opsDotMu_sub : (opsDotMu : List (HloOp τ sig (Elt F))).Forall fun op => op.bufs ⊆ tcRefs τ sig :=
  binary_bufs_sub ..
theorem opsDotMu_fresh : (opsDotMu : List (HloOp τ sig (Elt F))).Forall fun op => op.fresh = ∅ :=
  rfl
theorem opsAggMu_sub : (opsAggMu : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsAggMu_fresh : (opsAggMu : List (HloOp τ sig (Elt F))).Forall fun op => op.fresh = ∅ :=
  ⟨rfl, rfl, rfl, rfl, rfl, rfl, rfl, rfl, rfl, rfl, rfl, rfl, rfl, rfl, rfl, rfl⟩
theorem opsBiasMu_sub : (opsBiasMu : List (HloOp τ sig (Elt F))).Forall fun op => op.bufs ⊆ tcRefs τ sig :=
  ⟨unary_bufs_sub .., unary_bufs_sub .., binary_bufs_sub ..⟩
theorem opsBiasMu_fresh : (opsBiasMu : List (HloOp τ sig (Elt F))).Forall fun op => op.fresh = ∅ :=
  ⟨rfl, rfl, rfl⟩
theorem opsDotLs_sub : (opsDotLs : List (HloOp τ sig (Elt F))).Forall fun op => op.bufs ⊆ tcRefs τ sig :=
  binary_bufs_sub ..
theorem opsDotLs_fresh : (opsDotLs : List (HloOp τ sig (Elt F))).Forall fun op => op.fresh = ∅ :=
  rfl
theorem opsAggLs_sub : (opsAggLs : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsAggLs_fresh : (opsAggLs : List (HloOp τ sig (Elt F))).Forall fun op => op.fresh = ∅ :=
  ⟨rfl, rfl, rfl, rfl, rfl, rfl, rfl, rfl, rfl, rfl, rfl, rfl, rfl, rfl, rfl, rfl⟩
theorem opsBiasLs_sub : (opsBiasLs : List (HloOp τ sig (Elt F))).Forall fun op => op.bufs ⊆ tcRefs τ sig :=
  ⟨unary_bufs_sub .., unary_bufs_sub .., binary_bufs_sub ..⟩
theorem opsBiasLs_fresh : (opsBiasLs : List (HloOp τ sig (Elt F))).Forall fun op => op.fresh = ∅ :=
  ⟨rfl, rfl, rfl⟩

/-- Every operation names TensorCore buffers only. -/
theorem ops_sub : (ops : List (HloOp τ sig (Elt F))).Forall fun op => op.bufs ⊆ tcRefs τ sig :=
  forall_append (forall_append opsEdges_sub (forall_append opsNorm_sub (forall_append opsDotA_sub (forall_append opsAgg1_sub (forall_append opsBias1_sub (opsMean1a_sub)))))) (forall_append (forall_append opsMean1b_sub (forall_append opsVar1_sub (forall_append opsAff1_sub (forall_append opsDotB_sub (forall_append opsAgg2_sub (forall_append opsBias2_sub (forall_append opsMean2_sub (forall_append opsVar2_sub (opsAff2a_sub))))))))) (forall_append opsAff2b_sub (forall_append opsDotMu_sub (forall_append opsAggMu_sub (forall_append opsBiasMu_sub (forall_append opsDotLs_sub (forall_append opsAggLs_sub (opsBiasLs_sub))))))))

/-- Every operation determines its results. -/
theorem ops_fresh : (ops : List (HloOp τ sig (Elt F))).Forall fun op => op.fresh = ∅ :=
  forall_append (forall_append opsEdges_fresh (forall_append opsNorm_fresh (forall_append opsDotA_fresh (forall_append opsAgg1_fresh (forall_append opsBias1_fresh (opsMean1a_fresh)))))) (forall_append (forall_append opsMean1b_fresh (forall_append opsVar1_fresh (forall_append opsAff1_fresh (forall_append opsDotB_fresh (forall_append opsAgg2_fresh (forall_append opsBias2_fresh (forall_append opsMean2_fresh (forall_append opsVar2_fresh (opsAff2a_fresh))))))))) (forall_append opsAff2b_fresh (forall_append opsDotMu_fresh (forall_append opsAggMu_fresh (forall_append opsBiasMu_fresh (forall_append opsDotLs_fresh (forall_append opsAggLs_fresh (opsBiasLs_fresh))))))))

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefValue.lean ====
/- The reference program's two results as a composition of named stage functions of its fourteen argument arrays.
   Each stage function is the program's own operations for one stretch (the index vectors, the normalisation, and per
   layer the dense product, the aggregation, the bias, the column mean, the column variance, the affine part with the
   rectifier); each stretch of the operation list is read off against its stage from any contents, the stretches are
   chained in program order, and the run is restated over the stages. -/
import proofs.«151309_j60756607369296_1_alg».proof.Proof.RefRun

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The contents after two lists run in turn are the second's after the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The stages

Each is the reference's own operations for one stretch of the program, as a function of the contents the stretch
reads. -/

/-- One row of the edge table as a vector, followed by every node's own index (the self loops). -/
def withLoops (row : (⟨S1x1600000, .i32⟩ : BufTy).Contents (Elt F)) : (⟨S1700000, .i32⟩ : BufTy).Contents (Elt F) :=
  ((fun a b => concatenate S1700000 0 [⟨S1600000, a⟩, ⟨S100000, b⟩] concatenates_S1600000_S100000_S1700000_d0) :
      (⟨S1600000, .i32⟩ : BufTy).Contents (Elt F) → (⟨S100000, .i32⟩ : BufTy).Contents (Elt F) → (⟨S1700000, .i32⟩ : BufTy).Contents (Elt F))
    (shapeCast S1600000 row shapeCasts_S1x1600000_S1600000) (iotaInDim S100000 32 0)

/-- The source index of every edge and self loop: row 0 of the edge table, then the nodes. -/
def src (ei : (⟨S2x1600000, .i32⟩ : BufTy).Contents (Elt F)) : (⟨S1700000, .i32⟩ : BufTy).Contents (Elt F) :=
  withLoops (extractStridedSlice S1x1600000 ![0, 0] ei slices_S2x1600000_S1x1600000_0_0)

/-- The destination index of every edge and self loop: row 1 of the edge table, then the nodes. -/
def dst (ei : (⟨S2x1600000, .i32⟩ : BufTy).Contents (Elt F)) : (⟨S1700000, .i32⟩ : BufTy).Contents (Elt F) :=
  withLoops (extractStridedSlice S1x1600000 ![1, 0] ei slices_S2x1600000_S1x1600000_1_0)

/-- An index vector as a column. -/
def colIdx (i : (⟨S1700000, .i32⟩ : BufTy).Contents (Elt F)) : (⟨S1700000x1, .i32⟩ : BufTy).Contents (Elt F) :=
  broadcastInDim S1700000x1 ![0] bcast_S1700000_S1700000x1_0 i

/-- An index vector wrapped as a gather reads it (a negative index counts from the end: compare with 0, add the
    node count, select), as a column. -/
def wrapIdx (i : (⟨S1700000, .i32⟩ : BufTy).Contents (Elt F)) : (⟨S1700000x1, .i32⟩ : BufTy).Contents (Elt F) :=
  colIdx (select (cmpi .slt i (broadcastInDim S1700000 ![] bcast_S_S1700000 (constantI S_ 32 0#32)))
    (addi i (broadcastInDim S1700000 ![] bcast_S_S1700000 (constantI S_ 32 100000#32))) i)

/-- The reciprocal square root of each node's degree (ones added at the destinations, at least one). -/
def degInvSqrt (d : (⟨S1700000, .i32⟩ : BufTy).Contents (Elt F)) : (⟨S100000, .f32⟩ : BufTy).Contents (Elt F) :=
  Host.rsqrt (maximumf
    (Host.scatterAdd scatter_S100000_S1700000x1_S1700000_n_0_0_1
      (broadcastInDim S100000 ![] bcast_S_S100000 (constant S_ .f32 0x00000000#32)) (colIdx d)
      (broadcastInDim S1700000 ![] bcast_S_S1700000 (constant S_ .f32 0x3F800000#32)))
    (broadcastInDim S100000 ![] bcast_S_S100000 (constant S_ .f32 0x3F800000#32)))

/-- The normalisation of each edge over the two index vectors: the product of the reciprocal square roots of the
    degrees of its ends. -/
def normOf (s d : (⟨S1700000, .i32⟩ : BufTy).Contents (Elt F)) : (⟨S1700000, .f32⟩ : BufTy).Contents (Elt F) :=
  mulf (Host.gather gather_S100000_S1700000x1_S1700000_n_0_n_n_0_1_1 (degInvSqrt d) (wrapIdx s))
    (Host.gather gather_S100000_S1700000x1_S1700000_n_0_n_n_0_1_1 (degInvSqrt d) (wrapIdx d))

/-- The normalisation of each edge, from the edge table. -/
def norm (ei : (⟨S2x1600000, .i32⟩ : BufTy).Contents (Elt F)) : (⟨S1700000, .f32⟩ : BufTy).Contents (Elt F) :=
  normOf (src ei) (dst ei)

/-- The aggregation of 128-column rows over the index vectors and the normalisation: each edge's source row, scaled,
    added at its destination into a zero table. -/
def aggRows128 (s d : (⟨S1700000, .i32⟩ : BufTy).Contents (Elt F)) (n : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (colIdx d)
    (mulf (Host.gather gather_S100000x128_S1700000x1_S1700000x128_1_0_n_n_0_1_1128 h (wrapIdx s))
      (broadcastInDim S1700000x128 ![0, 1] bcast_S1700000x1_S1700000x128_0_1
        (broadcastInDim S1700000x1 ![0] bcast_S1700000_S1700000x1_0 n)))

/-- The aggregation of 128-column rows, from the edge table. -/
def agg128 (ei : (⟨S2x1600000, .i32⟩ : BufTy).Contents (Elt F)) (h : (⟨S100000x128, .f32⟩ : BufTy).Contents (Elt F)) : (⟨S100000x128, .f32⟩ : BufTy).Contents (Elt F) :=
  aggRows128 (src ei) (dst ei) (norm ei) h

/-- The aggregation of 64-column rows over the index vectors and the normalisation. -/
def aggRows64 (s d : (⟨S1700000, .i32⟩ : BufTy).Contents (Elt F)) (n : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (colIdx d)
    (mulf (Host.gather gather_S100000x64_S1700000x1_S1700000x64_1_0_n_n_0_1_164 h (wrapIdx s))
      (broadcastInDim S1700000x64 ![0, 1] bcast_S1700000x1_S1700000x64_0_1
        (broadcastInDim S1700000x1 ![0] bcast_S1700000_S1700000x1_0 n)))

/-- The aggregation of 64-column rows, from the edge table. -/
def agg64 (ei : (⟨S2x1600000, .i32⟩ : BufTy).Contents (Elt F)) (h : (⟨S100000x64, .f32⟩ : BufTy).Contents (Elt F)) : (⟨S100000x64, .f32⟩ : BufTy).Contents (Elt F) :=
  aggRows64 (src ei) (dst ei) (norm ei) h

/-- A 128-vector spread over the rows of a 100000 by 128 table. -/
def rows128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A 64-vector spread over the rows of a 100000 by 64 table. -/
def rows64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The bias added to every row (128 columns). -/
def bias128 (a : (⟨S100000x128, .f32⟩ : BufTy).Contents (Elt F)) (b : (⟨S128, .f32⟩ : BufTy).Contents (Elt F)) : (⟨S100000x128, .f32⟩ : BufTy).Contents (Elt F) :=
  addf a (rows128 b)

/-- The bias added to every row (64 columns). -/
def bias64 (a : (⟨S100000x64, .f32⟩ : BufTy).Contents (Elt F)) (b : (⟨S64, .f32⟩ : BufTy).Contents (Elt F)) : (⟨S100000x64, .f32⟩ : BufTy).Contents (Elt F) :=
  addf a (rows64 b)

/-- The column sums, from zero. -/
def colSum (x : (⟨S100000x128, .f32⟩ : BufTy).Contents (Elt F)) : (⟨S128, .f32⟩ : BufTy).Contents (Elt F) :=
  Host.reduceAdd x (constant S_ .f32 0x00000000#32 : (⟨S_, .f32⟩ : BufTy).Contents (Elt F)) reducesTo_S100000x128_S128_d0 h_S_

/-- The column means: the column sums over the row count. -/
def colMean (x : (⟨S100000x128, .f32⟩ : BufTy).Contents (Elt F)) : (⟨S128, .f32⟩ : BufTy).Contents (Elt F) :=
  Host.divf (colSum x) (broadcastInDim S128 ![] bcast_S_S128 (constant S_ .f32 0x47C35000#32))

/-- The variance's own column means, as one row. -/
def varMean (x : (⟨S100000x128, .f32⟩ : BufTy).Contents (Elt F)) : (⟨S1x128, .f32⟩ : BufTy).Contents (Elt F) :=
  Host.divf (broadcastInDim S1x128 ![1] bcast_S128_S1x128_1 (colSum x))
    (broadcastInDim S1x128 ![] bcast_S_S1x128 (constant S_ .f32 0x47C35000#32))

/-- The table centred at the variance's column means. -/
def varCentred (x : (⟨S100000x128, .f32⟩ : BufTy).Contents (Elt F)) : (⟨S100000x128, .f32⟩ : BufTy).Contents (Elt F) :=
  subf x (broadcastInDim S100000x128 ![0, 1] bcast_S1x128_S100000x128_0_1 (varMean x))

/-- The variance's divisor: the row count less the correction (the integer constant 0, converted). -/
def varCount : (⟨S_, .f32⟩ : BufTy).Contents (Elt F) :=
  subf (constant S_ .f32 0x47C35000#32) (sitofp .f32 (constantI S_ 32 0#32 : (⟨S_, .i32⟩ : BufTy).Contents (Elt F)))

/-- The column variances: the column sums of the squared centred table over the divisor, where the divisor is
    positive, and the not-a-number word elsewhere. -/
def colVar (x : (⟨S100000x128, .f32⟩ : BufTy).Contents (Elt F)) : (⟨S128, .f32⟩ : BufTy).Contents (Elt F) :=
  select (broadcastInDim S128 ![] bcast_S_S128 (cmpf .ogt (varCount (F := F)) (constant S_ .f32 0x00000000#32)))
    (Host.divf (colSum (mulf (varCentred x) (varCentred x))) (broadcastInDim S128 ![] bcast_S_S128 (varCount (F := F))))
    (broadcastInDim S128 ![] bcast_S_S128 (id (constant S_ .f32 0x7FC00000#32 : (⟨S_, .f32⟩ : BufTy).Contents (Elt F))))

/-- The normalised table scaled: centred at `mean`, times the reciprocal square root of `var` plus the epsilon word,
    times `g`. -/
def affScaled (x : (⟨S100000x128, .f32⟩ : BufTy).Contents (Elt F)) (mean var g : (⟨S128, .f32⟩ : BufTy).Contents (Elt F)) : (⟨S100000x128, .f32⟩ : BufTy).Contents (Elt F) :=
  mulf (mulf (subf x (rows128 mean))
      (rows128 (Host.rsqrt (addf var (broadcastInDim S128 ![] bcast_S_S128 (constant S_ .f32 0x3727C5AC#32))))))
    (rows128 g)

/-- The shift and the rectifier: `bt` added to every row, then the maximum with zero. -/
def shiftRelu (y : (⟨S100000x128, .f32⟩ : BufTy).Contents (Elt F)) (bt : (⟨S128, .f32⟩ : BufTy).Contents (Elt F)) : (⟨S100000x128, .f32⟩ : BufTy).Contents (Elt F) :=
  maximumf (addf y (rows128 bt))
    (broadcastInDim S100000x128 ![] bcast_S_S100000x128 (constant S_ .f32 0x00000000#32))

/-- The normalisation's affine part and the rectifier, over a given mean and variance. -/
def affineRelu (x : (⟨S100000x128, .f32⟩ : BufTy).Contents (Elt F)) (mean var g bt : (⟨S128, .f32⟩ : BufTy).Contents (Elt F)) : (⟨S100000x128, .f32⟩ : BufTy).Contents (Elt F) :=
  shiftRelu (affScaled x mean var g) bt

/-- Batch normalisation over the rows, then the rectifier. -/
def bnRelu (x : (⟨S100000x128, .f32⟩ : BufTy).Contents (Elt F)) (g bt : (⟨S128, .f32⟩ : BufTy).Contents (Elt F)) : (⟨S100000x128, .f32⟩ : BufTy).Contents (Elt F) :=
  affineRelu x (colMean x) (colVar x) g bt

/-- The first layer's dense product. -/
def dotA (x : (⟨S100000x256, .f32⟩ : BufTy).Contents (Elt F)) (w : (⟨S256x128, .f32⟩ : BufTy).Contents (Elt F)) : (⟨S100000x128, .f32⟩ : BufTy).Contents (Elt F) :=
  Host.dotGeneral dot_S100000x256_S256x128_S100000x128_1_0_0_1_n_n none x w

/-- The second layer's dense product. -/
def dotB (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- A head's dense product. -/
def dotC (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- The first layer. -/
def h1 (x : (⟨S100000x256, .f32⟩ : BufTy).Contents (Elt F)) (W1 : (⟨S256x128, .f32⟩ : BufTy).Contents (Elt F)) (b1 g1 bt1 : (⟨S128, .f32⟩ : BufTy).Contents (Elt F))
    (ei : (⟨S2x1600000, .i32⟩ : BufTy).Contents (Elt F)) : (⟨S100000x128, .f32⟩ : BufTy).Contents (Elt F) :=
  bnRelu (bias128 (agg128 ei (dotA x W1)) b1) g1 bt1

/-- The second layer. -/
def h2 (x : (⟨S100000x256, .f32⟩ : BufTy).Contents (Elt F)) (W1 : (⟨S256x128, .f32⟩ : BufTy).Contents (Elt F)) (b1 g1 bt1 : (⟨S128, .f32⟩ : BufTy).Contents (Elt F))
    (W2 : (⟨S128x128, .f32⟩ : BufTy).Contents (Elt F)) (b2 g2 bt2 : (⟨S128, .f32⟩ : BufTy).Contents (Elt F))
    (ei : (⟨S2x1600000, .i32⟩ : BufTy).Contents (Elt F)) : (⟨S100000x128, .f32⟩ : BufTy).Contents (Elt F) :=
  bnRelu (bias128 (agg128 ei (dotB (h1 x W1 b1 g1 bt1 ei) W2)) b2) g2 bt2

/-- The mean head. -/
def mu (x : (⟨S100000x256, .f32⟩ : BufTy).Contents (Elt F)) (W1 : (⟨S256x128, .f32⟩ : BufTy).Contents (Elt F)) (b1 g1 bt1 : (⟨S128, .f32⟩ : BufTy).Contents (Elt F))
    (W2 : (⟨S128x128, .f32⟩ : BufTy).Contents (Elt F)) (b2 g2 bt2 : (⟨S128, .f32⟩ : BufTy).Contents (Elt F))
    (Wmu : (⟨S128x64, .f32⟩ : BufTy).Contents (Elt F)) (bmu : (⟨S64, .f32⟩ : BufTy).Contents (Elt F))
    (ei : (⟨S2x1600000, .i32⟩ : BufTy).Contents (Elt F)) : (⟨S100000x64, .f32⟩ : BufTy).Contents (Elt F) :=
  bias64 (agg64 ei (dotC (h2 x W1 b1 g1 bt1 W2 b2 g2 bt2 ei) Wmu)) bmu

/-- The log-deviation head. -/
def ls (x : (⟨S100000x256, .f32⟩ : BufTy).Contents (Elt F)) (W1 : (⟨S256x128, .f32⟩ : BufTy).Contents (Elt F)) (b1 g1 bt1 : (⟨S128, .f32⟩ : BufTy).Contents (Elt F))
    (W2 : (⟨S128x128, .f32⟩ : BufTy).Contents (Elt F)) (b2 g2 bt2 : (⟨S128, .f32⟩ : BufTy).Contents (Elt F))
    (Wls : (⟨S128x64, .f32⟩ : BufTy).Contents (Elt F)) (bls : (⟨S64, .f32⟩ : BufTy).Contents (Elt F))
    (ei : (⟨S2x1600000, .i32⟩ : BufTy).Contents (Elt F)) : (⟨S100000x64, .f32⟩ : BufTy).Contents (Elt F) :=
  bias64 (agg64 ei (dotC (h2 x W1 b1 g1 bt1 W2 b2 g2 bt2 ei) Wls)) bls

/-! ## Each stretch against its stage

From any contents `V`: the stretch's result buffer holds the stage function of what `V` holds at the buffers the
stretch reads, and a buffer the stretch does not write keeps what it held. The scatter, gather, reduction and
concatenation stay folded throughout: the comparison never looks inside them. -/

attribute [local irreducible] Host.gather Host.scatterAdd Host.reduceAdd concatenate

/-- The buffers `opsEdges` writes. -/
abbrev opsEdges_W : List (Ref sig .tc) := [main_v0, main_v1, main_v2, main_v3, main_v4, main_v5, main_v6]
set_option maxRecDepth 8192 in
theorem opsEdges_writes : (opsEdges : List (HloOp τ sig (Elt F))).Forall fun op => op.writes ⊆ (opsEdges_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsEdges_main_v3 (V : Valuation τ sig (Elt F)) :
    after opsEdges V (Proc.devRef .tc main_v3) = src (V (Proc.devRef .tc main_arg13)) := by
  simp only [opsEdges]
  after_results_simp <;> rfl
set_option maxRecDepth 8192 in
set_option maxHeartbeats 4000000 in
theorem opsEdges_main_v6 (V : Valuation τ sig (Elt F)) :
    after opsEdges V (Proc.devRef .tc main_v6) = dst (V (Proc.devRef .tc main_arg13)) := by
  simp only [opsEdges]
  after_results_simp <;> rfl

/-- The buffers `opsNorm` writes. -/
abbrev opsNorm_W : List (Ref sig .tc) := [main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
set_option maxRecDepth 8192 in
theorem opsNorm_writes : (opsNorm : List (HloOp τ sig (Elt F))).Forall fun op => op.writes ⊆ (opsNorm_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsNorm_main_v28 (V : Valuation τ sig (Elt F)) :
    after opsNorm V (Proc.devRef .tc main_v28) = normOf (V (Proc.devRef .tc main_v3)) (V (Proc.devRef .tc main_v6)) := by
  simp only [opsNorm]
  after_results_simp <;> rfl

/-- The buffers `opsDotA` writes. -/
abbrev opsDotA_W : List (Ref sig .tc) := [main_v29]
set_option maxRecDepth 8192 in
theorem opsDotA_writes : (opsDotA : List (HloOp τ sig (Elt F))).Forall fun op => op.writes ⊆ (opsDotA_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
set_option maxRecDepth 8192 in
set_option maxHeartbeats 4000000 in
theorem opsDotA_main_v29 (V : Valuation τ sig (Elt F)) :
    after opsDotA V (Proc.devRef .tc main_v29) = dotA (V (Proc.devRef .tc main_arg0)) (V (Proc.devRef .tc main_arg1)) := by
  simp only [opsDotA]
  after_results_simp <;> rfl

/-- The buffers `opsAgg1` writes. -/
abbrev opsAgg1_W : List (Ref sig .tc) := [main_c_5, main_v30, main_v31, main_c_6, main_v32, main_v33, main_v34, main_v35, main_v36, main_v37, main_v38, main_v39, main_cst_7, main_v40, main_v41, main_v42]
set_option maxRecDepth 8192 in
theorem opsAgg1_writes : (opsAgg1 : List (HloOp τ sig (Elt F))).Forall fun op => op.writes ⊆ (opsAgg1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAgg1_main_v42 (V : Valuation τ sig (Elt F)) :
    after opsAgg1 V (Proc.devRef .tc main_v42) = aggRows128 (V (Proc.devRef .tc main_v3)) (V (Proc.devRef .tc main_v6)) (V (Proc.devRef .tc main_v28)) (V (Proc.devRef .tc main_v29)) := by
  simp only [opsAgg1]
  after_results_simp <;> rfl

/-- The buffers `opsBias1` writes. -/
abbrev opsBias1_W : List (Ref sig .tc) := [main_v43, main_v44, main_v45]
set_option maxRecDepth 8192 in
theorem opsBias1_writes : (opsBias1 : List (HloOp τ sig (Elt F))).Forall fun op => op.writes ⊆ (opsBias1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsBias1_main_v45 (V : Valuation τ sig (Elt F)) :
    after opsBias1 V (Proc.devRef .tc main_v45) = bias128 (V (Proc.devRef .tc main_v42)) (V (Proc.devRef .tc main_arg2)) := by
  simp only [opsBias1]
  after_results_simp <;> rfl

/-- The buffers `opsMean1a` writes. -/
abbrev opsMean1a_W : List (Ref sig .tc) := [main_cst_8, main_v46, main_cst_9, main_v47]
set_option maxRecDepth 8192 in
theorem opsMean1a_writes : (opsMean1a : List (HloOp τ sig (Elt F))).Forall fun op => op.writes ⊆ (opsMean1a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsMean1a_main_v46 (V : Valuation τ sig (Elt F)) :
    after opsMean1a V (Proc.devRef .tc main_v46) = colSum (V (Proc.devRef .tc main_v45)) := by
  simp only [opsMean1a]
  after_results_simp <;> rfl
set_option maxRecDepth 8192 in
set_option maxHeartbeats 4000000 in
theorem opsMean1a_main_v47 (V : Valuation τ sig (Elt F)) :
    after opsMean1a V (Proc.devRef .tc main_v47) = broadcastInDim S128 ![] bcast_S_S128 (constant S_ .f32 0x47C35000#32) := by
  simp only [opsMean1a]
  after_results_simp <;> rfl

/-- The buffers `opsMean1b` writes. -/
abbrev opsMean1b_W : List (Ref sig .tc) := [main_v48]
set_option maxRecDepth 8192 in
theorem opsMean1b_writes : (opsMean1b : List (HloOp τ sig (Elt F))).Forall fun op => op.writes ⊆ (opsMean1b_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
set_option maxRecDepth 8192 in
set_option maxHeartbeats 4000000 in
theorem opsMean1b_main_v48 (V : Valuation τ sig (Elt F)) :
    after opsMean1b V (Proc.devRef .tc main_v48) = Host.divf (V (Proc.devRef .tc main_v46)) (V (Proc.devRef .tc main_v47)) := by
  simp only [opsMean1b]
  after_results_simp <;> rfl

/-- The buffers `opsVar1` writes. -/
abbrev opsVar1_W : List (Ref sig .tc) := [main_c_10, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
set_option maxRecDepth 8192 in
theorem opsVar1_writes : (opsVar1 : List (HloOp τ sig (Elt F))).Forall fun op => op.writes ⊆ (opsVar1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsVar1_main_v49 (V : Valuation τ sig (Elt F)) :
    after opsVar1 V (Proc.devRef .tc main_v49) = colVar (V (Proc.devRef .tc main_v45)) := by
  simp only [opsVar1]
  after_results_simp <;> rfl

/-- The buffers `opsAff1` writes. -/
abbrev opsAff1_W : List (Ref sig .tc) := [main_v50, main_v51, main_v52, main_cst_11, main_v53, main_v54, main_v55, main_v56, main_v57, main_v58, main_v59, main_v60, main_v61, main_v62, main_v63, main_v64, main_call1.cst.ref, main_call1.v0.ref, main_call1.v1.ref]
set_option maxRecDepth 8192 in
theorem opsAff1_writes : (opsAff1 : List (HloOp τ sig (Elt F))).Forall fun op => op.writes ⊆ (opsAff1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAff1_main_v65 (V : Valuation τ sig (Elt F)) :
    after opsAff1 V (Proc.devRef .tc main_v65) = affineRelu (V (Proc.devRef .tc main_v45)) (V (Proc.devRef .tc main_v48)) (V (Proc.devRef .tc main_v49)) (V (Proc.devRef .tc main_arg3)) (V (Proc.devRef .tc main_arg4)) := by
  simp only [opsAff1]
  after_results_simp <;> rfl

/-- The buffers `opsDotB` writes. -/
abbrev opsDotB_W : List (Ref sig .tc) := [main_v66]
set_option maxRecDepth 8192 in
theorem opsDotB_writes : (opsDotB : List (HloOp τ sig (Elt F))).Forall fun op => op.writes ⊆ (opsDotB_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
set_option maxRecDepth 8192 in
set_option maxHeartbeats 4000000 in
theorem opsDotB_main_v66 (V : Valuation τ sig (Elt F)) :
    after opsDotB V (Proc.devRef .tc main_v66) = dotB (V (Proc.devRef .tc main_v65)) (V (Proc.devRef .tc main_arg5)) := by
  simp only [opsDotB]
  after_results_simp <;> rfl

/-- The buffers `opsAgg2` writes. -/
abbrev opsAgg2_W : List (Ref sig .tc) := [main_c_12, main_v67, main_v68, main_c_13, main_v69, main_v70, main_v71, main_v72, main_v73, main_v74, main_v75, main_v76, main_cst_14, main_v77, main_v78, main_v79]
set_option maxRecDepth 8192 in
theorem opsAgg2_writes : (opsAgg2 : List (HloOp τ sig (Elt F))).Forall fun op => op.writes ⊆ (opsAgg2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAgg2_main_v79 (V : Valuation τ sig (Elt F)) :
    after opsAgg2 V (Proc.devRef .tc main_v79) = aggRows128 (V (Proc.devRef .tc main_v3)) (V (Proc.devRef .tc main_v6)) (V (Proc.devRef .tc main_v28)) (V (Proc.devRef .tc main_v66)) := by
  simp only [opsAgg2]
  after_results_simp <;> rfl

/-- The buffers `opsBias2` writes. -/
abbrev opsBias2_W : List (Ref sig .tc) := [main_v80, main_v81, main_v82]
set_option maxRecDepth 8192 in
theorem opsBias2_writes : (opsBias2 : List (HloOp τ sig (Elt F))).Forall fun op => op.writes ⊆ (opsBias2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsBias2_main_v82 (V : Valuation τ sig (Elt F)) :
    after opsBias2 V (Proc.devRef .tc main_v82) = bias128 (V (Proc.devRef .tc main_v79)) (V (Proc.devRef .tc main_arg6)) := by
  simp only [opsBias2]
  after_results_simp <;> rfl

/-- The buffers `opsMean2` writes. -/
abbrev opsMean2_W : List (Ref sig .tc) := [main_cst_15, main_v83, main_cst_16, main_v84, main_v85]
set_option maxRecDepth 8192 in
theorem opsMean2_writes : (opsMean2 : List (HloOp τ sig (Elt F))).Forall fun op => op.writes ⊆ (opsMean2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsMean2_main_v85 (V : Valuation τ sig (Elt F)) :
    after opsMean2 V (Proc.devRef .tc main_v85) = colMean (V (Proc.devRef .tc main_v82)) := by
  simp only [opsMean2]
  after_results_simp <;> rfl

/-- The buffers `opsVar2` writes. -/
abbrev opsVar2_W : List (Ref sig .tc) := [main_c_17, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
set_option maxRecDepth 8192 in
theorem opsVar2_writes : (opsVar2 : List (HloOp τ sig (Elt F))).Forall fun op => op.writes ⊆ (opsVar2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsVar2_main_v86 (V : Valuation τ sig (Elt F)) :
    after opsVar2 V (Proc.devRef .tc main_v86) = colVar (V (Proc.devRef .tc main_v82)) := by
  simp only [opsVar2]
  after_results_simp <;> rfl

/-- The buffers `opsAff2a` writes. -/
abbrev opsAff2a_W : List (Ref sig .tc) := [main_v87, main_v88, main_v89, main_cst_18, main_v90, main_v91, main_v92, main_v93, main_v94, main_v95, main_v96, main_v97, main_v98]
set_option maxRecDepth 8192 in
theorem opsAff2a_writes : (opsAff2a : List (HloOp τ sig (Elt F))).Forall fun op => op.writes ⊆ (opsAff2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAff2a_main_v98 (V : Valuation τ sig (Elt F)) :
    after opsAff2a V (Proc.devRef .tc main_v98) = affScaled (V (Proc.devRef .tc main_v82)) (V (Proc.devRef .tc main_v85)) (V (Proc.devRef .tc main_v86)) (V (Proc.devRef .tc main_arg7)) := by
  simp only [opsAff2a]
  after_results_simp <;> rfl

/-- The buffers `opsAff2b` writes. -/
abbrev opsAff2b_W : List (Ref sig .tc) := [main_v99, main_v100, main_v101, main_call3.cst.ref, main_call3.v0.ref, main_call3.v1.ref]
set_option maxRecDepth 8192 in
theorem opsAff2b_writes : (opsAff2b : List (HloOp τ sig (Elt F))).Forall fun op => op.writes ⊆ (opsAff2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAff2b_main_v102 (V : Valuation τ sig (Elt F)) :
    after opsAff2b V (Proc.devRef .tc main_v102) = shiftRelu (V (Proc.devRef .tc main_v98)) (V (Proc.devRef .tc main_arg8)) := by
  simp only [opsAff2b]
  after_results_simp <;> rfl

/-- The buffers `opsDotMu` writes. -/
abbrev opsDotMu_W : List (Ref sig .tc) := [main_v103]
set_option maxRecDepth 8192 in
theorem opsDotMu_writes : (opsDotMu : List (HloOp τ sig (Elt F))).Forall fun op => op.writes ⊆ (opsDotMu_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
set_option maxRecDepth 8192 in
set_option maxHeartbeats 4000000 in
theorem opsDotMu_main_v103 (V : Valuation τ sig (Elt F)) :
    after opsDotMu V (Proc.devRef .tc main_v103) = dotC (V (Proc.devRef .tc main_v102)) (V (Proc.devRef .tc main_arg9)) := by
  simp only [opsDotMu]
  after_results_simp <;> rfl

/-- The buffers `opsAggMu` writes. -/
abbrev opsAggMu_W : List (Ref sig .tc) := [main_c_19, main_v104, main_v105, main_c_20, main_v106, main_v107, main_v108, main_v109, main_v110, main_v111, main_v112, main_v113, main_cst_21, main_v114, main_v115, main_v116]
set_option maxRecDepth 8192 in
theorem opsAggMu_writes : (opsAggMu : List (HloOp τ sig (Elt F))).Forall fun op => op.writes ⊆ (opsAggMu_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAggMu_main_v116 (V : Valuation τ sig (Elt F)) :
    after opsAggMu V (Proc.devRef .tc main_v116) = aggRows64 (V (Proc.devRef .tc main_v3)) (V (Proc.devRef .tc main_v6)) (V (Proc.devRef .tc main_v28)) (V (Proc.devRef .tc main_v103)) := by
  simp only [opsAggMu]
  after_results_simp <;> rfl

/-- The buffers `opsBiasMu` writes. -/
abbrev opsBiasMu_W : List (Ref sig .tc) := [main_v117, main_v118, main_v119]
set_option maxRecDepth 8192 in
theorem opsBiasMu_writes : (opsBiasMu : List (HloOp τ sig (Elt F))).Forall fun op => op.writes ⊆ (opsBiasMu_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsBiasMu_main_v119 (V : Valuation τ sig (Elt F)) :
    after opsBiasMu V (Proc.devRef .tc main_v119) = bias64 (V (Proc.devRef .tc main_v116)) (V (Proc.devRef .tc main_arg10)) := by
  simp only [opsBiasMu]
  after_results_simp <;> rfl

/-- The buffers `opsDotLs` writes. -/
abbrev opsDotLs_W : List (Ref sig .tc) := [main_v120]
set_option maxRecDepth 8192 in
theorem opsDotLs_writes : (opsDotLs : List (HloOp τ sig (Elt F))).Forall fun op => op.writes ⊆ (opsDotLs_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
set_option maxRecDepth 8192 in
set_option maxHeartbeats 4000000 in
theorem opsDotLs_main_v120 (V : Valuation τ sig (Elt F)) :
    after opsDotLs V (Proc.devRef .tc main_v120) = dotC (V (Proc.devRef .tc main_v102)) (V (Proc.devRef .tc main_arg11)) := by
  simp only [opsDotLs]
  after_results_simp <;> rfl

/-- The buffers `opsAggLs` writes. -/
abbrev opsAggLs_W : List (Ref sig .tc) := [main_c_22, main_v121, main_v122, main_c_23, main_v123, main_v124, main_v125, main_v126, main_v127, main_v128, main_v129, main_v130, main_cst_24, main_v131, main_v132, main_v133]
set_option maxRecDepth 8192 in
theorem opsAggLs_writes : (opsAggLs : List (HloOp τ sig (Elt F))).Forall fun op => op.writes ⊆ (opsAggLs_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsAggLs_main_v133 (V : Valuation τ sig (Elt F)) :
    after opsAggLs V (Proc.devRef .tc main_v133) = aggRows64 (V (Proc.devRef .tc main_v3)) (V (Proc.devRef .tc main_v6)) (V (Proc.devRef .tc main_v28)) (V (Proc.devRef .tc main_v120)) := by
  simp only [opsAggLs]
  after_results_simp <;> rfl

/-- The buffers `opsBiasLs` writes. -/
abbrev opsBiasLs_W : List (Ref sig .tc) := [main_v134, main_v135, main_v136]
set_option maxRecDepth 8192 in
theorem opsBiasLs_writes : (opsBiasLs : List (HloOp τ sig (Elt F))).Forall fun op => op.writes ⊆ (opsBiasLs_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
set_option maxRecDepth 8192 in
set_option maxHeartbeats 4000000 in
theorem opsBiasLs_main_v136 (V : Valuation τ sig (Elt F)) :
    after opsBiasLs V (Proc.devRef .tc main_v136) = bias64 (V (Proc.devRef .tc main_v133)) (V (Proc.devRef .tc main_arg12)) := by
  simp only [opsBiasLs]
  after_results_simp <;> rfl

/-! ## The stretches in program order

`valK V0` is the contents after the first `K` stretches from `V0`; `valK_‹buffer›` gives a buffer still to be read its
composed term of `V0`'s argument arrays. -/

/-- The contents before the first stretch. -/
def val0 (V0 : Valuation τ sig (Elt F)) : Valuation τ sig (Elt F) := V0

theorem val0_main_arg0 (V0 : Valuation τ sig (Elt F)) : val0 V0 (Proc.devRef .tc main_arg0) = V0 (Proc.devRef .tc main_arg0) := rfl
theorem val0_main_arg1 (V0 : Valuation τ sig (Elt F)) : val0 V0 (Proc.devRef .tc main_arg1) = V0 (Proc.devRef .tc main_arg1) := rfl
theorem val0_main_arg2 (V0 : Valuation τ sig (Elt F)) : val0 V0 (Proc.devRef .tc main_arg2) = V0 (Proc.devRef .tc main_arg2) := rfl
theorem val0_main_arg3 (V0 : Valuation τ sig (Elt F)) : val0 V0 (Proc.devRef .tc main_arg3) = V0 (Proc.devRef .tc main_arg3) := rfl
theorem val0_main_arg4 (V0 : Valuation τ sig (Elt F)) : val0 V0 (Proc.devRef .tc main_arg4) = V0 (Proc.devRef .tc main_arg4) := rfl
theorem val0_main_arg5 (V0 : Valuation τ sig (Elt F)) : val0 V0 (Proc.devRef .tc main_arg5) = V0 (Proc.devRef .tc main_arg5) := rfl
theorem val0_main_arg6 (V0 : Valuation τ sig (Elt F)) : val0 V0 (Proc.devRef .tc main_arg6) = V0 (Proc.devRef .tc main_arg6) := rfl
theorem val0_main_arg7 (V0 : Valuation τ sig (Elt F)) : val0 V0 (Proc.devRef .tc main_arg7) = V0 (Proc.devRef .tc main_arg7) := rfl
theorem val0_main_arg8 (V0 : Valuation τ sig (Elt F)) : val0 V0 (Proc.devRef .tc main_arg8) = V0 (Proc.devRef .tc main_arg8) := rfl
theorem val0_main_arg9 (V0 : Valuation τ sig (Elt F)) : val0 V0 (Proc.devRef .tc main_arg9) = V0 (Proc.devRef .tc main_arg9) := rfl
theorem val0_main_arg10 (V0 : Valuation τ sig (Elt F)) : val0 V0 (Proc.devRef .tc main_arg10) = V0 (Proc.devRef .tc main_arg10) := rfl
theorem val0_main_arg11 (V0 : Valuation τ sig (Elt F)) : val0 V0 (Proc.devRef .tc main_arg11) = V0 (Proc.devRef .tc main_arg11) := rfl
theorem val0_main_arg12 (V0 : Valuation τ sig (Elt F)) : val0 V0 (Proc.devRef .tc main_arg12) = V0 (Proc.devRef .tc main_arg12) := rfl
theorem val0_main_arg13 (V0 : Valuation τ sig (Elt F)) : val0 V0 (Proc.devRef .tc main_arg13) = V0 (Proc.devRef .tc main_arg13) := rfl

/-- The contents after the first 1 stretch. -/
def val1 (V0 : Valuation τ sig (Elt F)) : Valuation τ sig (Elt F) := after opsEdges (val0 V0)
theorem val1_keep (V0 : Valuation τ sig (Elt F)) (r : Ref sig .tc) (h : r ∉ opsEdges_W) :
    val1 V0 (Proc.devRef .tc r) = val0 V0 (Proc.devRef .tc r) :=
  after_of_writes_sub opsEdges _ opsEdges_writes h
theorem val1_main_arg0 (V0 : Valuation τ sig (Elt F)) : val1 V0 (Proc.devRef .tc main_arg0) = V0 (Proc.devRef .tc main_arg0) :=
  (val1_keep V0 main_arg0 (by decide)).trans (val0_main_arg0 V0)
theorem val1_main_arg1 (V0 : Valuation τ sig (Elt F)) : val1 V0 (Proc.devRef .tc main_arg1) = V0 (Proc.devRef .tc main_arg1) :=
  (val1_keep V0 main_arg1 (by decide)).trans (val0_main_arg1 V0)
theorem val1_main_arg2 (V0 : Valuation τ sig (Elt F)) : val1 V0 (Proc.devRef .tc main_arg2) = V0 (Proc.devRef .tc main_arg2) :=
  (val1_keep V0 main_arg2 (by decide)).trans (val0_main_arg2 V0)
theorem val1_main_arg3 (V0 : Valuation τ sig (Elt F)) : val1 V0 (Proc.devRef .tc main_arg3) = V0 (Proc.devRef .tc main_arg3) :=
  (val1_keep V0 main_arg3 (by decide)).trans (val0_main_arg3 V0)
theorem val1_main_arg4 (V0 : Valuation τ sig (Elt F)) : val1 V0 (Proc.devRef .tc main_arg4) = V0 (Proc.devRef .tc main_arg4) :=
  (val1_keep V0 main_arg4 (by decide)).trans (val0_main_arg4 V0)
theorem val1_main_arg5 (V0 : Valuation τ sig (Elt F)) : val1 V0 (Proc.devRef .tc main_arg5) = V0 (Proc.devRef .tc main_arg5) :=
  (val1_keep V0 main_arg5 (by decide)).trans (val0_main_arg5 V0)
theorem val1_main_arg6 (V0 : Valuation τ sig (Elt F)) : val1 V0 (Proc.devRef .tc main_arg6) = V0 (Proc.devRef .tc main_arg6) :=
  (val1_keep V0 main_arg6 (by decide)).trans (val0_main_arg6 V0)
theorem val1_main_arg7 (V0 : Valuation τ sig (Elt F)) : val1 V0 (Proc.devRef .tc main_arg7) = V0 (Proc.devRef .tc main_arg7) :=
  (val1_keep V0 main_arg7 (by decide)).trans (val0_main_arg7 V0)
theorem val1_main_arg8 (V0 : Valuation τ sig (Elt F)) : val1 V0 (Proc.devRef .tc main_arg8) = V0 (Proc.devRef .tc main_arg8) :=
  (val1_keep V0 main_arg8 (by decide)).trans (val0_main_arg8 V0)
theorem val1_main_arg9 (V0 : Valuation τ sig (Elt F)) : val1 V0 (Proc.devRef .tc main_arg9) = V0 (Proc.devRef .tc main_arg9) :=
  (val1_keep V0 main_arg9 (by decide)).trans (val0_main_arg9 V0)
theorem val1_main_arg10 (V0 : Valuation τ sig (Elt F)) : val1 V0 (Proc.devRef .tc main_arg10) = V0 (Proc.devRef .tc main_arg10) :=
  (val1_keep V0 main_arg10 (by decide)).trans (val0_main_arg10 V0)
theorem val1_main_arg11 (V0 : Valuation τ sig (Elt F)) : val1 V0 (Proc.devRef .tc main_arg11) = V0 (Proc.devRef .tc main_arg11) :=
  (val1_keep V0 main_arg11 (by decide)).trans (val0_main_arg11 V0)
theorem val1_main_arg12 (V0 : Valuation τ sig (Elt F)) : val1 V0 (Proc.devRef .tc main_arg12) = V0 (Proc.devRef .tc main_arg12) :=
  (val1_keep V0 main_arg12 (by decide)).trans (val0_main_arg12 V0)
theorem val1_main_arg13 (V0 : Valuation τ sig (Elt F)) : val1 V0 (Proc.devRef .tc main_arg13) = V0 (Proc.devRef .tc main_arg13) :=
  (val1_keep V0 main_arg13 (by decide)).trans (val0_main_arg13 V0)
theorem val1_main_v3 (V0 : Valuation τ sig (Elt F)) : val1 V0 (Proc.devRef .tc main_v3) = src (V0 (Proc.devRef .tc main_arg13)) := by
  unfold val1
  rw [opsEdges_main_v3, val0_main_arg13]
theorem val1_main_v6 (V0 : Valuation τ sig (Elt F)) : val1 V0 (Proc.devRef .tc main_v6) = dst (V0 (Proc.devRef .tc main_arg13)) := by
  unfold val1
  rw [opsEdges_main_v6, val0_main_arg13]

/-- The contents after the first 2 stretches. -/
def val2 (V0 : Valuation τ sig (Elt F)) : Valuation τ sig (Elt F) := after opsNorm (val1 V0)
theorem val2_keep (V0 : Valuation τ sig (Elt F)) (r : Ref sig .tc) (h : r ∉ opsNorm_W) :
    val2 V0 (Proc.devRef .tc r) = val1 V0 (Proc.devRef .tc r) :=
  after_of_writes_sub opsNorm _ opsNorm_writes h
theorem val2_main_arg0 (V0 : Valuation τ sig (Elt F)) : val2 V0 (Proc.devRef .tc main_arg0) = V0 (Proc.devRef .tc main_arg0) :=
  (val2_keep V0 main_arg0 (by decide)).trans (val1_main_arg0 V0)
theorem val2_main_arg1 (V0 : Valuation τ sig (Elt F)) : val2 V0 (Proc.devRef .tc main_arg1) = V0 (Proc.devRef .tc main_arg1) :=
  (val2_keep V0 main_arg1 (by decide)).trans (val1_main_arg1 V0)
theorem val2_main_arg2 (V0 : Valuation τ sig (Elt F)) : val2 V0 (Proc.devRef .tc main_arg2) = V0 (Proc.devRef .tc main_arg2) :=
  (val2_keep V0 main_arg2 (by decide)).trans (val1_main_arg2 V0)
theorem val2_main_arg3 (V0 : Valuation τ sig (Elt F)) : val2 V0 (Proc.devRef .tc main_arg3) = V0 (Proc.devRef .tc main_arg3) :=
  (val2_keep V0 main_arg3 (by decide)).trans (val1_main_arg3 V0)
theorem val2_main_arg4 (V0 : Valuation τ sig (Elt F)) : val2 V0 (Proc.devRef .tc main_arg4) = V0 (Proc.devRef .tc main_arg4) :=
  (val2_keep V0 main_arg4 (by decide)).trans (val1_main_arg4 V0)
theorem val2_main_arg5 (V0 : Valuation τ sig (Elt F)) : val2 V0 (Proc.devRef .tc main_arg5) = V0 (Proc.devRef .tc main_arg5) :=
  (val2_keep V0 main_arg5 (by decide)).trans (val1_main_arg5 V0)
theorem val2_main_arg6 (V0 : Valuation τ sig (Elt F)) : val2 V0 (Proc.devRef .tc main_arg6) = V0 (Proc.devRef .tc main_arg6) :=
  (val2_keep V0 main_arg6 (by decide)).trans (val1_main_arg6 V0)
theorem val2_main_arg7 (V0 : Valuation τ sig (Elt F)) : val2 V0 (Proc.devRef .tc main_arg7) = V0 (Proc.devRef .tc main_arg7) :=
  (val2_keep V0 main_arg7 (by decide)).trans (val1_main_arg7 V0)
theorem val2_main_arg8 (V0 : Valuation τ sig (Elt F)) : val2 V0 (Proc.devRef .tc main_arg8) = V0 (Proc.devRef .tc main_arg8) :=
  (val2_keep V0 main_arg8 (by decide)).trans (val1_main_arg8 V0)
theorem val2_main_arg9 (V0 : Valuation τ sig (Elt F)) : val2 V0 (Proc.devRef .tc main_arg9) = V0 (Proc.devRef .tc main_arg9) :=
  (val2_keep V0 main_arg9 (by decide)).trans (val1_main_arg9 V0)
theorem val2_main_arg10 (V0 : Valuation τ sig (Elt F)) : val2 V0 (Proc.devRef .tc main_arg10) = V0 (Proc.devRef .tc main_arg10) :=
  (val2_keep V0 main_arg10 (by decide)).trans (val1_main_arg10 V0)
theorem val2_main_arg11 (V0 : Valuation τ sig (Elt F)) : val2 V0 (Proc.devRef .tc main_arg11) = V0 (Proc.devRef .tc main_arg11) :=
  (val2_keep V0 main_arg11 (by decide)).trans (val1_main_arg11 V0)
theorem val2_main_arg12 (V0 : Valuation τ sig (Elt F)) : val2 V0 (Proc.devRef .tc main_arg12) = V0 (Proc.devRef .tc main_arg12) :=
  (val2_keep V0 main_arg12 (by decide)).trans (val1_main_arg12 V0)
theorem val2_main_arg13 (V0 : Valuation τ sig (Elt F)) : val2 V0 (Proc.devRef .tc main_arg13) = V0 (Proc.devRef .tc main_arg13) :=
  (val2_keep V0 main_arg13 (by decide)).trans (val1_main_arg13 V0)
theorem val2_main_v3 (V0 : Valuation τ sig (Elt F)) : val2 V0 (Proc.devRef .tc main_v3) = src (V0 (Proc.devRef .tc main_arg13)) :=
  (val2_keep V0 main_v3 (by decide)).trans (val1_main_v3 V0)
theorem val2_main_v6 (V0 : Valuation τ sig (Elt F)) : val2 V0 (Proc.devRef .tc main_v6) = dst (V0 (Proc.devRef .tc main_arg13)) :=
  (val2_keep V0 main_v6 (by decide)).trans (val1_main_v6 V0)
theorem val2_main_v28 (V0 : Valuation τ sig (Elt F)) : val2 V0 (Proc.devRef .tc main_v28) = norm (V0 (Proc.devRef .tc main_arg13)) := by
  unfold val2
  rw [opsNorm_main_v28, val1_main_v3, val1_main_v6]
  rfl

/-- The contents after the first 3 stretches. -/
def val3 (V0 : Valuation τ sig (Elt F)) : Valuation τ sig (Elt F) := after opsDotA (val2 V0)
theorem val3_keep (V0 : Valuation τ sig (Elt F)) (r : Ref sig .tc) (h : r ∉ opsDotA_W) :
    val3 V0 (Proc.devRef .tc r) = val2 V0 (Proc.devRef .tc r) :=
  after_of_writes_sub opsDotA _ opsDotA_writes h
theorem val3_main_arg0 (V0 : Valuation τ sig (Elt F)) : val3 V0 (Proc.devRef .tc main_arg0) = V0 (Proc.devRef .tc main_arg0) :=
  (val3_keep V0 main_arg0 (by decide)).trans (val2_main_arg0 V0)
theorem val3_main_arg1 (V0 : Valuation τ sig (Elt F)) : val3 V0 (Proc.devRef .tc main_arg1) = V0 (Proc.devRef .tc main_arg1) :=
  (val3_keep V0 main_arg1 (by decide)).trans (val2_main_arg1 V0)
theorem val3_main_arg2 (V0 : Valuation τ sig (Elt F)) : val3 V0 (Proc.devRef .tc main_arg2) = V0 (Proc.devRef .tc main_arg2) :=
  (val3_keep V0 main_arg2 (by decide)).trans (val2_main_arg2 V0)
theorem val3_main_arg3 (V0 : Valuation τ sig (Elt F)) : val3 V0 (Proc.devRef .tc main_arg3) = V0 (Proc.devRef .tc main_arg3) :=
  (val3_keep V0 main_arg3 (by decide)).trans (val2_main_arg3 V0)
theorem val3_main_arg4 (V0 : Valuation τ sig (Elt F)) : val3 V0 (Proc.devRef .tc main_arg4) = V0 (Proc.devRef .tc main_arg4) :=
  (val3_keep V0 main_arg4 (by decide)).trans (val2_main_arg4 V0)
theorem val3_main_arg5 (V0 : Valuation τ sig (Elt F)) : val3 V0 (Proc.devRef .tc main_arg5) = V0 (Proc.devRef .tc main_arg5) :=
  (val3_keep V0 main_arg5 (by decide)).trans (val2_main_arg5 V0)
theorem val3_main_arg6 (V0 : Valuation τ sig (Elt F)) : val3 V0 (Proc.devRef .tc main_arg6) = V0 (Proc.devRef .tc main_arg6) :=
  (val3_keep V0 main_arg6 (by decide)).trans (val2_main_arg6 V0)
theorem val3_main_arg7 (V0 : Valuation τ sig (Elt F)) : val3 V0 (Proc.devRef .tc main_arg7) = V0 (Proc.devRef .tc main_arg7) :=
  (val3_keep V0 main_arg7 (by decide)).trans (val2_main_arg7 V0)
theorem val3_main_arg8 (V0 : Valuation τ sig (Elt F)) : val3 V0 (Proc.devRef .tc main_arg8) = V0 (Proc.devRef .tc main_arg8) :=
  (val3_keep V0 main_arg8 (by decide)).trans (val2_main_arg8 V0)
theorem val3_main_arg9 (V0 : Valuation τ sig (Elt F)) : val3 V0 (Proc.devRef .tc main_arg9) = V0 (Proc.devRef .tc main_arg9) :=
  (val3_keep V0 main_arg9 (by decide)).trans (val2_main_arg9 V0)
theorem val3_main_arg10 (V0 : Valuation τ sig (Elt F)) : val3 V0 (Proc.devRef .tc main_arg10) = V0 (Proc.devRef .tc main_arg10) :=
  (val3_keep V0 main_arg10 (by decide)).trans (val2_main_arg10 V0)
theorem val3_main_arg11 (V0 : Valuation τ sig (Elt F)) : val3 V0 (Proc.devRef .tc main_arg11) = V0 (Proc.devRef .tc main_arg11) :=
  (val3_keep V0 main_arg11 (by decide)).trans (val2_main_arg11 V0)
theorem val3_main_arg12 (V0 : Valuation τ sig (Elt F)) : val3 V0 (Proc.devRef .tc main_arg12) = V0 (Proc.devRef .tc main_arg12) :=
  (val3_keep V0 main_arg12 (by decide)).trans (val2_main_arg12 V0)
theorem val3_main_arg13 (V0 : Valuation τ sig (Elt F)) : val3 V0 (Proc.devRef .tc main_arg13) = V0 (Proc.devRef .tc main_arg13) :=
  (val3_keep V0 main_arg13 (by decide)).trans (val2_main_arg13 V0)
theorem val3_main_v3 (V0 : Valuation τ sig (Elt F)) : val3 V0 (Proc.devRef .tc main_v3) = src (V0 (Proc.devRef .tc main_arg13)) :=
  (val3_keep V0 main_v3 (by decide)).trans (val2_main_v3 V0)
theorem val3_main_v6 (V0 : Valuation τ sig (Elt F)) : val3 V0 (Proc.devRef .tc main_v6) = dst (V0 (Proc.devRef .tc main_arg13)) :=
  (val3_keep V0 main_v6 (by decide)).trans (val2_main_v6 V0)
theorem val3_main_v28 (V0 : Valuation τ sig (Elt F)) : val3 V0 (Proc.devRef .tc main_v28) = norm (V0 (Proc.devRef .tc main_arg13)) :=
  (val3_keep V0 main_v28 (by decide)).trans (val2_main_v28 V0)
theorem val3_main_v29 (V0 : Valuation τ sig (Elt F)) : val3 V0 (Proc.devRef .tc main_v29) = dotA (V0 (Proc.devRef .tc main_arg0)) (V0 (Proc.devRef .tc main_arg1)) := by
  unfold val3
  rw [opsDotA_main_v29, val2_main_arg0, val2_main_arg1]

/-- The contents after the first 4 stretches. -/
def val4 (V0 : Valuation τ sig (Elt F)) : Valuation τ sig (Elt F) := after opsAgg1 (val3 V0)
theorem val4_keep (V0 : Valuation τ sig (Elt F)) (r : Ref sig .tc) (h : r ∉ opsAgg1_W) :
    val4 V0 (Proc.devRef .tc r) = val3 V0 (Proc.devRef .tc r) :=
  after_of_writes_sub opsAgg1 _ opsAgg1_writes h
theorem val4_main_arg0 (V0 : Valuation τ sig (Elt F)) : val4 V0 (Proc.devRef .tc main_arg0) = V0 (Proc.devRef .tc main_arg0) :=
  (val4_keep V0 main_arg0 (by decide)).trans (val3_main_arg0 V0)
theorem val4_main_arg1 (V0 : Valuation τ sig (Elt F)) : val4 V0 (Proc.devRef .tc main_arg1) = V0 (Proc.devRef .tc main_arg1) :=
  (val4_keep V0 main_arg1 (by decide)).trans (val3_main_arg1 V0)
theorem val4_main_arg2 (V0 : Valuation τ sig (Elt F)) : val4 V0 (Proc.devRef .tc main_arg2) = V0 (Proc.devRef .tc main_arg2) :=
  (val4_keep V0 main_arg2 (by decide)).trans (val3_main_arg2 V0)
theorem val4_main_arg3 (V0 : Valuation τ sig (Elt F)) : val4 V0 (Proc.devRef .tc main_arg3) = V0 (Proc.devRef .tc main_arg3) :=
  (val4_keep V0 main_arg3 (by decide)).trans (val3_main_arg3 V0)
theorem val4_main_arg4 (V0 : Valuation τ sig (Elt F)) : val4 V0 (Proc.devRef .tc main_arg4) = V0 (Proc.devRef .tc main_arg4) :=
  (val4_keep V0 main_arg4 (by decide)).trans (val3_main_arg4 V0)
theorem val4_main_arg5 (V0 : Valuation τ sig (Elt F)) : val4 V0 (Proc.devRef .tc main_arg5) = V0 (Proc.devRef .tc main_arg5) :=
  (val4_keep V0 main_arg5 (by decide)).trans (val3_main_arg5 V0)
theorem val4_main_arg6 (V0 : Valuation τ sig (Elt F)) : val4 V0 (Proc.devRef .tc main_arg6) = V0 (Proc.devRef .tc main_arg6) :=
  (val4_keep V0 main_arg6 (by decide)).trans (val3_main_arg6 V0)
theorem val4_main_arg7 (V0 : Valuation τ sig (Elt F)) : val4 V0 (Proc.devRef .tc main_arg7) = V0 (Proc.devRef .tc main_arg7) :=
  (val4_keep V0 main_arg7 (by decide)).trans (val3_main_arg7 V0)
theorem val4_main_arg8 (V0 : Valuation τ sig (Elt F)) : val4 V0 (Proc.devRef .tc main_arg8) = V0 (Proc.devRef .tc main_arg8) :=
  (val4_keep V0 main_arg8 (by decide)).trans (val3_main_arg8 V0)
theorem val4_main_arg9 (V0 : Valuation τ sig (Elt F)) : val4 V0 (Proc.devRef .tc main_arg9) = V0 (Proc.devRef .tc main_arg9) :=
  (val4_keep V0 main_arg9 (by decide)).trans (val3_main_arg9 V0)
theorem val4_main_arg10 (V0 : Valuation τ sig (Elt F)) : val4 V0 (Proc.devRef .tc main_arg10) = V0 (Proc.devRef .tc main_arg10) :=
  (val4_keep V0 main_arg10 (by decide)).trans (val3_main_arg10 V0)
theorem val4_main_arg11 (V0 : Valuation τ sig (Elt F)) : val4 V0 (Proc.devRef .tc main_arg11) = V0 (Proc.devRef .tc main_arg11) :=
  (val4_keep V0 main_arg11 (by decide)).trans (val3_main_arg11 V0)
theorem val4_main_arg12 (V0 : Valuation τ sig (Elt F)) : val4 V0 (Proc.devRef .tc main_arg12) = V0 (Proc.devRef .tc main_arg12) :=
  (val4_keep V0 main_arg12 (by decide)).trans (val3_main_arg12 V0)
theorem val4_main_arg13 (V0 : Valuation τ sig (Elt F)) : val4 V0 (Proc.devRef .tc main_arg13) = V0 (Proc.devRef .tc main_arg13) :=
  (val4_keep V0 main_arg13 (by decide)).trans (val3_main_arg13 V0)
theorem val4_main_v3 (V0 : Valuation τ sig (Elt F)) : val4 V0 (Proc.devRef .tc main_v3) = src (V0 (Proc.devRef .tc main_arg13)) :=
  (val4_keep V0 main_v3 (by decide)).trans (val3_main_v3 V0)
theorem val4_main_v6 (V0 : Valuation τ sig (Elt F)) : val4 V0 (Proc.devRef .tc main_v6) = dst (V0 (Proc.devRef .tc main_arg13)) :=
  (val4_keep V0 main_v6 (by decide)).trans (val3_main_v6 V0)
theorem val4_main_v28 (V0 : Valuation τ sig (Elt F)) : val4 V0 (Proc.devRef .tc main_v28) = norm (V0 (Proc.devRef .tc main_arg13)) :=
  (val4_keep V0 main_v28 (by decide)).trans (val3_main_v28 V0)
theorem val4_main_v42 (V0 : Valuation τ sig (Elt F)) : val4 V0 (Proc.devRef .tc main_v42) = agg128 (V0 (Proc.devRef .tc main_arg13)) (dotA (V0 (Proc.devRef .tc main_arg0)) (V0 (Proc.devRef .tc main_arg1))) := by
  unfold val4
  rw [opsAgg1_main_v42, val3_main_v3, val3_main_v6, val3_main_v28, val3_main_v29]
  rfl

/-- The contents after the first 5 stretches. -/
def val5 (V0 : Valuation τ sig (Elt F)) : Valuation τ sig (Elt F) := after opsBias1 (val4 V0)
theorem val5_keep (V0 : Valuation τ sig (Elt F)) (r : Ref sig .tc) (h : r ∉ opsBias1_W) :
    val5 V0 (Proc.devRef .tc r) = val4 V0 (Proc.devRef .tc r) :=
  after_of_writes_sub opsBias1 _ opsBias1_writes h
theorem val5_main_arg0 (V0 : Valuation τ sig (Elt F)) : val5 V0 (Proc.devRef .tc main_arg0) = V0 (Proc.devRef .tc main_arg0) :=
  (val5_keep V0 main_arg0 (by decide)).trans (val4_main_arg0 V0)
theorem val5_main_arg1 (V0 : Valuation τ sig (Elt F)) : val5 V0 (Proc.devRef .tc main_arg1) = V0 (Proc.devRef .tc main_arg1) :=
  (val5_keep V0 main_arg1 (by decide)).trans (val4_main_arg1 V0)
theorem val5_main_arg2 (V0 : Valuation τ sig (Elt F)) : val5 V0 (Proc.devRef .tc main_arg2) = V0 (Proc.devRef .tc main_arg2) :=
  (val5_keep V0 main_arg2 (by decide)).trans (val4_main_arg2 V0)
theorem val5_main_arg3 (V0 : Valuation τ sig (Elt F)) : val5 V0 (Proc.devRef .tc main_arg3) = V0 (Proc.devRef .tc main_arg3) :=
  (val5_keep V0 main_arg3 (by decide)).trans (val4_main_arg3 V0)
theorem val5_main_arg4 (V0 : Valuation τ sig (Elt F)) : val5 V0 (Proc.devRef .tc main_arg4) = V0 (Proc.devRef .tc main_arg4) :=
  (val5_keep V0 main_arg4 (by decide)).trans (val4_main_arg4 V0)
theorem val5_main_arg5 (V0 : Valuation τ sig (Elt F)) : val5 V0 (Proc.devRef .tc main_arg5) = V0 (Proc.devRef .tc main_arg5) :=
  (val5_keep V0 main_arg5 (by decide)).trans (val4_main_arg5 V0)
theorem val5_main_arg6 (V0 : Valuation τ sig (Elt F)) : val5 V0 (Proc.devRef .tc main_arg6) = V0 (Proc.devRef .tc main_arg6) :=
  (val5_keep V0 main_arg6 (by decide)).trans (val4_main_arg6 V0)
theorem val5_main_arg7 (V0 : Valuation τ sig (Elt F)) : val5 V0 (Proc.devRef .tc main_arg7) = V0 (Proc.devRef .tc main_arg7) :=
  (val5_keep V0 main_arg7 (by decide)).trans (val4_main_arg7 V0)
theorem val5_main_arg8 (V0 : Valuation τ sig (Elt F)) : val5 V0 (Proc.devRef .tc main_arg8) = V0 (Proc.devRef .tc main_arg8) :=
  (val5_keep V0 main_arg8 (by decide)).trans (val4_main_arg8 V0)
theorem val5_main_arg9 (V0 : Valuation τ sig (Elt F)) : val5 V0 (Proc.devRef .tc main_arg9) = V0 (Proc.devRef .tc main_arg9) :=
  (val5_keep V0 main_arg9 (by decide)).trans (val4_main_arg9 V0)
theorem val5_main_arg10 (V0 : Valuation τ sig (Elt F)) : val5 V0 (Proc.devRef .tc main_arg10) = V0 (Proc.devRef .tc main_arg10) :=
  (val5_keep V0 main_arg10 (by decide)).trans (val4_main_arg10 V0)
theorem val5_main_arg11 (V0 : Valuation τ sig (Elt F)) : val5 V0 (Proc.devRef .tc main_arg11) = V0 (Proc.devRef .tc main_arg11) :=
  (val5_keep V0 main_arg11 (by decide)).trans (val4_main_arg11 V0)
theorem val5_main_arg12 (V0 : Valuation τ sig (Elt F)) : val5 V0 (Proc.devRef .tc main_arg12) = V0 (Proc.devRef .tc main_arg12) :=
  (val5_keep V0 main_arg12 (by decide)).trans (val4_main_arg12 V0)
theorem val5_main_arg13 (V0 : Valuation τ sig (Elt F)) : val5 V0 (Proc.devRef .tc main_arg13) = V0 (Proc.devRef .tc main_arg13) :=
  (val5_keep V0 main_arg13 (by decide)).trans (val4_main_arg13 V0)
theorem val5_main_v3 (V0 : Valuation τ sig (Elt F)) : val5 V0 (Proc.devRef .tc main_v3) = src (V0 (Proc.devRef .tc main_arg13)) :=
  (val5_keep V0 main_v3 (by decide)).trans (val4_main_v3 V0)
theorem val5_main_v6 (V0 : Valuation τ sig (Elt F)) : val5 V0 (Proc.devRef .tc main_v6) = dst (V0 (Proc.devRef .tc main_arg13)) :=
  (val5_keep V0 main_v6 (by decide)).trans (val4_main_v6 V0)
theorem val5_main_v28 (V0 : Valuation τ sig (Elt F)) : val5 V0 (Proc.devRef .tc main_v28) = norm (V0 (Proc.devRef .tc main_arg13)) :=
  (val5_keep V0 main_v28 (by decide)).trans (val4_main_v28 V0)
theorem val5_main_v45 (V0 : Valuation τ sig (Elt F)) : val5 V0 (Proc.devRef .tc main_v45) = bias128 (agg128 (V0 (Proc.devRef .tc main_arg13)) (dotA (V0 (Proc.devRef .tc main_arg0)) (V0 (Proc.devRef .tc main_arg1)))) (V0 (Proc.devRef .tc main_arg2)) := by
  unfold val5
  rw [opsBias1_main_v45, val4_main_v42, val4_main_arg2]

/-- The contents after the first 6 stretches. -/
def val6 (V0 : Valuation τ sig (Elt F)) : Valuation τ sig (Elt F) := after opsMean1a (val5 V0)
theorem val6_keep (V0 : Valuation τ sig (Elt F)) (r : Ref sig .tc) (h : r ∉ opsMean1a_W) :
    val6 V0 (Proc.devRef .tc r) = val5 V0 (Proc.devRef .tc r) :=
  after_of_writes_sub opsMean1a _ opsMean1a_writes h
theorem val6_main_arg0 (V0 : Valuation τ sig (Elt F)) : val6 V0 (Proc.devRef .tc main_arg0) = V0 (Proc.devRef .tc main_arg0) :=
  (val6_keep V0 main_arg0 (by decide)).trans (val5_main_arg0 V0)
theorem val6_main_arg1 (V0 : Valuation τ sig (Elt F)) : val6 V0 (Proc.devRef .tc main_arg1) = V0 (Proc.devRef .tc main_arg1) :=
  (val6_keep V0 main_arg1 (by decide)).trans (val5_main_arg1 V0)
theorem val6_main_arg2 (V0 : Valuation τ sig (Elt F)) : val6 V0 (Proc.devRef .tc main_arg2) = V0 (Proc.devRef .tc main_arg2) :=
  (val6_keep V0 main_arg2 (by decide)).trans (val5_main_arg2 V0)
theorem val6_main_arg3 (V0 : Valuation τ sig (Elt F)) : val6 V0 (Proc.devRef .tc main_arg3) = V0 (Proc.devRef .tc main_arg3) :=
  (val6_keep V0 main_arg3 (by decide)).trans (val5_main_arg3 V0)
theorem val6_main_arg4 (V0 : Valuation τ sig (Elt F)) : val6 V0 (Proc.devRef .tc main_arg4) = V0 (Proc.devRef .tc main_arg4) :=
  (val6_keep V0 main_arg4 (by decide)).trans (val5_main_arg4 V0)
theorem val6_main_arg5 (V0 : Valuation τ sig (Elt F)) : val6 V0 (Proc.devRef .tc main_arg5) = V0 (Proc.devRef .tc main_arg5) :=
  (val6_keep V0 main_arg5 (by decide)).trans (val5_main_arg5 V0)
theorem val6_main_arg6 (V0 : Valuation τ sig (Elt F)) : val6 V0 (Proc.devRef .tc main_arg6) = V0 (Proc.devRef .tc main_arg6) :=
  (val6_keep V0 main_arg6 (by decide)).trans (val5_main_arg6 V0)
theorem val6_main_arg7 (V0 : Valuation τ sig (Elt F)) : val6 V0 (Proc.devRef .tc main_arg7) = V0 (Proc.devRef .tc main_arg7) :=
  (val6_keep V0 main_arg7 (by decide)).trans (val5_main_arg7 V0)
theorem val6_main_arg8 (V0 : Valuation τ sig (Elt F)) : val6 V0 (Proc.devRef .tc main_arg8) = V0 (Proc.devRef .tc main_arg8) :=
  (val6_keep V0 main_arg8 (by decide)).trans (val5_main_arg8 V0)
theorem val6_main_arg9 (V0 : Valuation τ sig (Elt F)) : val6 V0 (Proc.devRef .tc main_arg9) = V0 (Proc.devRef .tc main_arg9) :=
  (val6_keep V0 main_arg9 (by decide)).trans (val5_main_arg9 V0)
theorem val6_main_arg10 (V0 : Valuation τ sig (Elt F)) : val6 V0 (Proc.devRef .tc main_arg10) = V0 (Proc.devRef .tc main_arg10) :=
  (val6_keep V0 main_arg10 (by decide)).trans (val5_main_arg10 V0)
theorem val6_main_arg11 (V0 : Valuation τ sig (Elt F)) : val6 V0 (Proc.devRef .tc main_arg11) = V0 (Proc.devRef .tc main_arg11) :=
  (val6_keep V0 main_arg11 (by decide)).trans (val5_main_arg11 V0)
theorem val6_main_arg12 (V0 : Valuation τ sig (Elt F)) : val6 V0 (Proc.devRef .tc main_arg12) = V0 (Proc.devRef .tc main_arg12) :=
  (val6_keep V0 main_arg12 (by decide)).trans (val5_main_arg12 V0)
theorem val6_main_arg13 (V0 : Valuation τ sig (Elt F)) : val6 V0 (Proc.devRef .tc main_arg13) = V0 (Proc.devRef .tc main_arg13) :=
  (val6_keep V0 main_arg13 (by decide)).trans (val5_main_arg13 V0)
theorem val6_main_v3 (V0 : Valuation τ sig (Elt F)) : val6 V0 (Proc.devRef .tc main_v3) = src (V0 (Proc.devRef .tc main_arg13)) :=
  (val6_keep V0 main_v3 (by decide)).trans (val5_main_v3 V0)
theorem val6_main_v6 (V0 : Valuation τ sig (Elt F)) : val6 V0 (Proc.devRef .tc main_v6) = dst (V0 (Proc.devRef .tc main_arg13)) :=
  (val6_keep V0 main_v6 (by decide)).trans (val5_main_v6 V0)
theorem val6_main_v28 (V0 : Valuation τ sig (Elt F)) : val6 V0 (Proc.devRef .tc main_v28) = norm (V0 (Proc.devRef .tc main_arg13)) :=
  (val6_keep V0 main_v28 (by decide)).trans (val5_main_v28 V0)
theorem val6_main_v45 (V0 : Valuation τ sig (Elt F)) : val6 V0 (Proc.devRef .tc main_v45) = bias128 (agg128 (V0 (Proc.devRef .tc main_arg13)) (dotA (V0 (Proc.devRef .tc main_arg0)) (V0 (Proc.devRef .tc main_arg1)))) (V0 (Proc.devRef .tc main_arg2)) :=
  (val6_keep V0 main_v45 (by decide)).trans (val5_main_v45 V0)
theorem val6_main_v46 (V0 : Valuation τ sig (Elt F)) : val6 V0 (Proc.devRef .tc main_v46) = colSum (bias128 (agg128 (V0 (Proc.devRef .tc main_arg13)) (dotA (V0 (Proc.devRef .tc main_arg0)) (V0 (Proc.devRef .tc main_arg1)))) (V0 (Proc.devRef .tc main_arg2))) := by
  unfold val6
  rw [opsMean1a_main_v46, val5_main_v45]
theorem val6_main_v47 (V0 : Valuation τ sig (Elt F)) : val6 V0 (Proc.devRef .tc main_v47) = broadcastInDim S128 ![] bcast_S_S128 (constant S_ .f32 0x47C35000#32) := by
  unfold val6
  rw [opsMean1a_main_v47]

/-- The contents after the first 7 stretches. -/
def val7 (V0 : Valuation τ sig (Elt F)) : Valuation τ sig (Elt F) := after opsMean1b (val6 V0)
theorem val7_keep (V0 : Valuation τ sig (Elt F)) (r : Ref sig .tc) (h : r ∉ opsMean1b_W) :
    val7 V0 (Proc.devRef .tc r) = val6 V0 (Proc.devRef .tc r) :=
  after_of_writes_sub opsMean1b _ opsMean1b_writes h
theorem val7_main_arg0 (V0 : Valuation τ sig (Elt F)) : val7 V0 (Proc.devRef .tc main_arg0) = V0 (Proc.devRef .tc main_arg0) :=
  (val7_keep V0 main_arg0 (by decide)).trans (val6_main_arg0 V0)
theorem val7_main_arg1 (V0 : Valuation τ sig (Elt F)) : val7 V0 (Proc.devRef .tc main_arg1) = V0 (Proc.devRef .tc main_arg1) :=
  (val7_keep V0 main_arg1 (by decide)).trans (val6_main_arg1 V0)
theorem val7_main_arg2 (V0 : Valuation τ sig (Elt F)) : val7 V0 (Proc.devRef .tc main_arg2) = V0 (Proc.devRef .tc main_arg2) :=
  (val7_keep V0 main_arg2 (by decide)).trans (val6_main_arg2 V0)
theorem val7_main_arg3 (V0 : Valuation τ sig (Elt F)) : val7 V0 (Proc.devRef .tc main_arg3) = V0 (Proc.devRef .tc main_arg3) :=
  (val7_keep V0 main_arg3 (by decide)).trans (val6_main_arg3 V0)
theorem val7_main_arg4 (V0 : Valuation τ sig (Elt F)) : val7 V0 (Proc.devRef .tc main_arg4) = V0 (Proc.devRef .tc main_arg4) :=
  (val7_keep V0 main_arg4 (by decide)).trans (val6_main_arg4 V0)
theorem val7_main_arg5 (V0 : Valuation τ sig (Elt F)) : val7 V0 (Proc.devRef .tc main_arg5) = V0 (Proc.devRef .tc main_arg5) :=
  (val7_keep V0 main_arg5 (by decide)).trans (val6_main_arg5 V0)
theorem val7_main_arg6 (V0 : Valuation τ sig (Elt F)) : val7 V0 (Proc.devRef .tc main_arg6) = V0 (Proc.devRef .tc main_arg6) :=
  (val7_keep V0 main_arg6 (by decide)).trans (val6_main_arg6 V0)
theorem val7_main_arg7 (V0 : Valuation τ sig (Elt F)) : val7 V0 (Proc.devRef .tc main_arg7) = V0 (Proc.devRef .tc main_arg7) :=
  (val7_keep V0 main_arg7 (by decide)).trans (val6_main_arg7 V0)
theorem val7_main_arg8 (V0 : Valuation τ sig (Elt F)) : val7 V0 (Proc.devRef .tc main_arg8) = V0 (Proc.devRef .tc main_arg8) :=
  (val7_keep V0 main_arg8 (by decide)).trans (val6_main_arg8 V0)
theorem val7_main_arg9 (V0 : Valuation τ sig (Elt F)) : val7 V0 (Proc.devRef .tc main_arg9) = V0 (Proc.devRef .tc main_arg9) :=
  (val7_keep V0 main_arg9 (by decide)).trans (val6_main_arg9 V0)
theorem val7_main_arg10 (V0 : Valuation τ sig (Elt F)) : val7 V0 (Proc.devRef .tc main_arg10) = V0 (Proc.devRef .tc main_arg10) :=
  (val7_keep V0 main_arg10 (by decide)).trans (val6_main_arg10 V0)
theorem val7_main_arg11 (V0 : Valuation τ sig (Elt F)) : val7 V0 (Proc.devRef .tc main_arg11) = V0 (Proc.devRef .tc main_arg11) :=
  (val7_keep V0 main_arg11 (by decide)).trans (val6_main_arg11 V0)
theorem val7_main_arg12 (V0 : Valuation τ sig (Elt F)) : val7 V0 (Proc.devRef .tc main_arg12) = V0 (Proc.devRef .tc main_arg12) :=
  (val7_keep V0 main_arg12 (by decide)).trans (val6_main_arg12 V0)
theorem val7_main_arg13 (V0 : Valuation τ sig (Elt F)) : val7 V0 (Proc.devRef .tc main_arg13) = V0 (Proc.devRef .tc main_arg13) :=
  (val7_keep V0 main_arg13 (by decide)).trans (val6_main_arg13 V0)
theorem val7_main_v3 (V0 : Valuation τ sig (Elt F)) : val7 V0 (Proc.devRef .tc main_v3) = src (V0 (Proc.devRef .tc main_arg13)) :=
  (val7_keep V0 main_v3 (by decide)).trans (val6_main_v3 V0)
theorem val7_main_v6 (V0 : Valuation τ sig (Elt F)) : val7 V0 (Proc.devRef .tc main_v6) = dst (V0 (Proc.devRef .tc main_arg13)) :=
  (val7_keep V0 main_v6 (by decide)).trans (val6_main_v6 V0)
theorem val7_main_v28 (V0 : Valuation τ sig (Elt F)) : val7 V0 (Proc.devRef .tc main_v28) = norm (V0 (Proc.devRef .tc main_arg13)) :=
  (val7_keep V0 main_v28 (by decide)).trans (val6_main_v28 V0)
theorem val7_main_v45 (V0 : Valuation τ sig (Elt F)) : val7 V0 (Proc.devRef .tc main_v45) = bias128 (agg128 (V0 (Proc.devRef .tc main_arg13)) (dotA (V0 (Proc.devRef .tc main_arg0)) (V0 (Proc.devRef .tc main_arg1)))) (V0 (Proc.devRef .tc main_arg2)) :=
  (val7_keep V0 main_v45 (by decide)).trans (val6_main_v45 V0)
theorem val7_main_v48 (V0 : Valuation τ sig (Elt F)) : val7 V0 (Proc.devRef .tc main_v48) = colMean (bias128 (agg128 (V0 (Proc.devRef .tc main_arg13)) (dotA (V0 (Proc.devRef .tc main_arg0)) (V0 (Proc.devRef .tc main_arg1)))) (V0 (Proc.devRef .tc main_arg2))) := by
  unfold val7
  rw [opsMean1b_main_v48, val6_main_v46, val6_main_v47]
  rfl

/-- The contents after the first 8 stretches. -/
def val8 (V0 : Valuation τ sig (Elt F)) : Valuation τ sig (Elt F) := after opsVar1 (val7 V0)
theorem val8_keep (V0 : Valuation τ sig (Elt F)) (r : Ref sig .tc) (h : r ∉ opsVar1_W) :
    val8 V0 (Proc.devRef .tc r) = val7 V0 (Proc.devRef .tc r) :=
  after_of_writes_sub opsVar1 _ opsVar1_writes h
theorem val8_main_arg0 (V0 : Valuation τ sig (Elt F)) : val8 V0 (Proc.devRef .tc main_arg0) = V0 (Proc.devRef .tc main_arg0) :=
  (val8_keep V0 main_arg0 (by decide)).trans (val7_main_arg0 V0)
theorem val8_main_arg1 (V0 : Valuation τ sig (Elt F)) : val8 V0 (Proc.devRef .tc main_arg1) = V0 (Proc.devRef .tc main_arg1) :=
  (val8_keep V0 main_arg1 (by decide)).trans (val7_main_arg1 V0)
theorem val8_main_arg2 (V0 : Valuation τ sig (Elt F)) : val8 V0 (Proc.devRef .tc main_arg2) = V0 (Proc.devRef .tc main_arg2) :=
  (val8_keep V0 main_arg2 (by decide)).trans (val7_main_arg2 V0)
theorem val8_main_arg3 (V0 : Valuation τ sig (Elt F)) : val8 V0 (Proc.devRef .tc main_arg3) = V0 (Proc.devRef .tc main_arg3) :=
  (val8_keep V0 main_arg3 (by decide)).trans (val7_main_arg3 V0)
theorem val8_main_arg4 (V0 : Valuation τ sig (Elt F)) : val8 V0 (Proc.devRef .tc main_arg4) = V0 (Proc.devRef .tc main_arg4) :=
  (val8_keep V0 main_arg4 (by decide)).trans (val7_main_arg4 V0)
theorem val8_main_arg5 (V0 : Valuation τ sig (Elt F)) : val8 V0 (Proc.devRef .tc main_arg5) = V0 (Proc.devRef .tc main_arg5) :=
  (val8_keep V0 main_arg5 (by decide)).trans (val7_main_arg5 V0)
theorem val8_main_arg6 (V0 : Valuation τ sig (Elt F)) : val8 V0 (Proc.devRef .tc main_arg6) = V0 (Proc.devRef .tc main_arg6) :=
  (val8_keep V0 main_arg6 (by decide)).trans (val7_main_arg6 V0)
theorem val8_main_arg7 (V0 : Valuation τ sig (Elt F)) : val8 V0 (Proc.devRef .tc main_arg7) = V0 (Proc.devRef .tc main_arg7) :=
  (val8_keep V0 main_arg7 (by decide)).trans (val7_main_arg7 V0)
theorem val8_main_arg8 (V0 : Valuation τ sig (Elt F)) : val8 V0 (Proc.devRef .tc main_arg8) = V0 (Proc.devRef .tc main_arg8) :=
  (val8_keep V0 main_arg8 (by decide)).trans (val7_main_arg8 V0)
theorem val8_main_arg9 (V0 : Valuation τ sig (Elt F)) : val8 V0 (Proc.devRef .tc main_arg9) = V0 (Proc.devRef .tc main_arg9) :=
  (val8_keep V0 main_arg9 (by decide)).trans (val7_main_arg9 V0)
theorem val8_main_arg10 (V0 : Valuation τ sig (Elt F)) : val8 V0 (Proc.devRef .tc main_arg10) = V0 (Proc.devRef .tc main_arg10) :=
  (val8_keep V0 main_arg10 (by decide)).trans (val7_main_arg10 V0)
theorem val8_main_arg11 (V0 : Valuation τ sig (Elt F)) : val8 V0 (Proc.devRef .tc main_arg11) = V0 (Proc.devRef .tc main_arg11) :=
  (val8_keep V0 main_arg11 (by decide)).trans (val7_main_arg11 V0)
theorem val8_main_arg12 (V0 : Valuation τ sig (Elt F)) : val8 V0 (Proc.devRef .tc main_arg12) = V0 (Proc.devRef .tc main_arg12) :=
  (val8_keep V0 main_arg12 (by decide)).trans (val7_main_arg12 V0)
theorem val8_main_arg13 (V0 : Valuation τ sig (Elt F)) : val8 V0 (Proc.devRef .tc main_arg13) = V0 (Proc.devRef .tc main_arg13) :=
  (val8_keep V0 main_arg13 (by decide)).trans (val7_main_arg13 V0)
theorem val8_main_v3 (V0 : Valuation τ sig (Elt F)) : val8 V0 (Proc.devRef .tc main_v3) = src (V0 (Proc.devRef .tc main_arg13)) :=
  (val8_keep V0 main_v3 (by decide)).trans (val7_main_v3 V0)
theorem val8_main_v6 (V0 : Valuation τ sig (Elt F)) : val8 V0 (Proc.devRef .tc main_v6) = dst (V0 (Proc.devRef .tc main_arg13)) :=
  (val8_keep V0 main_v6 (by decide)).trans (val7_main_v6 V0)
theorem val8_main_v28 (V0 : Valuation τ sig (Elt F)) : val8 V0 (Proc.devRef .tc main_v28) = norm (V0 (Proc.devRef .tc main_arg13)) :=
  (val8_keep V0 main_v28 (by decide)).trans (val7_main_v28 V0)
theorem val8_main_v45 (V0 : Valuation τ sig (Elt F)) : val8 V0 (Proc.devRef .tc main_v45) = bias128 (agg128 (V0 (Proc.devRef .tc main_arg13)) (dotA (V0 (Proc.devRef .tc main_arg0)) (V0 (Proc.devRef .tc main_arg1)))) (V0 (Proc.devRef .tc main_arg2)) :=
  (val8_keep V0 main_v45 (by decide)).trans (val7_main_v45 V0)
theorem val8_main_v48 (V0 : Valuation τ sig (Elt F)) : val8 V0 (Proc.devRef .tc main_v48) = colMean (bias128 (agg128 (V0 (Proc.devRef .tc main_arg13)) (dotA (V0 (Proc.devRef .tc main_arg0)) (V0 (Proc.devRef .tc main_arg1)))) (V0 (Proc.devRef .tc main_arg2))) :=
  (val8_keep V0 main_v48 (by decide)).trans (val7_main_v48 V0)
theorem val8_main_v49 (V0 : Valuation τ sig (Elt F)) : val8 V0 (Proc.devRef .tc main_v49) = colVar (bias128 (agg128 (V0 (Proc.devRef .tc main_arg13)) (dotA (V0 (Proc.devRef .tc main_arg0)) (V0 (Proc.devRef .tc main_arg1)))) (V0 (Proc.devRef .tc main_arg2))) := by
  unfold val8
  rw [opsVar1_main_v49, val7_main_v45]

/-- The contents after the first 9 stretches. -/
def val9 (V0 : Valuation τ sig (Elt F)) : Valuation τ sig (Elt F) := after opsAff1 (val8 V0)
theorem val9_keep (V0 : Valuation τ sig (Elt F)) (r : Ref sig .tc) (h : r ∉ opsAff1_W) :
    val9 V0 (Proc.devRef .tc r) = val8 V0 (Proc.devRef .tc r) :=
  after_of_writes_sub opsAff1 _ opsAff1_writes h
theorem val9_main_arg0 (V0 : Valuation τ sig (Elt F)) : val9 V0 (Proc.devRef .tc main_arg0) = V0 (Proc.devRef .tc main_arg0) :=
  (val9_keep V0 main_arg0 (by decide)).trans (val8_main_arg0 V0)
theorem val9_main_arg1 (V0 : Valuation τ sig (Elt F)) : val9 V0 (Proc.devRef .tc main_arg1) = V0 (Proc.devRef .tc main_arg1) :=
  (val9_keep V0 main_arg1 (by decide)).trans (val8_main_arg1 V0)
theorem val9_main_arg2 (V0 : Valuation τ sig (Elt F)) : val9 V0 (Proc.devRef .tc main_arg2) = V0 (Proc.devRef .tc main_arg2) :=
  (val9_keep V0 main_arg2 (by decide)).trans (val8_main_arg2 V0)
theorem val9_main_arg3 (V0 : Valuation τ sig (Elt F)) : val9 V0 (Proc.devRef .tc main_arg3) = V0 (Proc.devRef .tc main_arg3) :=
  (val9_keep V0 main_arg3 (by decide)).trans (val8_main_arg3 V0)
theorem val9_main_arg4 (V0 : Valuation τ sig (Elt F)) : val9 V0 (Proc.devRef .tc main_arg4) = V0 (Proc.devRef .tc main_arg4) :=
  (val9_keep V0 main_arg4 (by decide)).trans (val8_main_arg4 V0)
theorem val9_main_arg5 (V0 : Valuation τ sig (Elt F)) : val9 V0 (Proc.devRef .tc main_arg5) = V0 (Proc.devRef .tc main_arg5) :=
  (val9_keep V0 main_arg5 (by decide)).trans (val8_main_arg5 V0)
theorem val9_main_arg6 (V0 : Valuation τ sig (Elt F)) : val9 V0 (Proc.devRef .tc main_arg6) = V0 (Proc.devRef .tc main_arg6) :=
  (val9_keep V0 main_arg6 (by decide)).trans (val8_main_arg6 V0)
theorem val9_main_arg7 (V0 : Valuation τ sig (Elt F)) : val9 V0 (Proc.devRef .tc main_arg7) = V0 (Proc.devRef .tc main_arg7) :=
  (val9_keep V0 main_arg7 (by decide)).trans (val8_main_arg7 V0)
theorem val9_main_arg8 (V0 : Valuation τ sig (Elt F)) : val9 V0 (Proc.devRef .tc main_arg8) = V0 (Proc.devRef .tc main_arg8) :=
  (val9_keep V0 main_arg8 (by decide)).trans (val8_main_arg8 V0)
theorem val9_main_arg9 (V0 : Valuation τ sig (Elt F)) : val9 V0 (Proc.devRef .tc main_arg9) = V0 (Proc.devRef .tc main_arg9) :=
  (val9_keep V0 main_arg9 (by decide)).trans (val8_main_arg9 V0)
theorem val9_main_arg10 (V0 : Valuation τ sig (Elt F)) : val9 V0 (Proc.devRef .tc main_arg10) = V0 (Proc.devRef .tc main_arg10) :=
  (val9_keep V0 main_arg10 (by decide)).trans (val8_main_arg10 V0)
theorem val9_main_arg11 (V0 : Valuation τ sig (Elt F)) : val9 V0 (Proc.devRef .tc main_arg11) = V0 (Proc.devRef .tc main_arg11) :=
  (val9_keep V0 main_arg11 (by decide)).trans (val8_main_arg11 V0)
theorem val9_main_arg12 (V0 : Valuation τ sig (Elt F)) : val9 V0 (Proc.devRef .tc main_arg12) = V0 (Proc.devRef .tc main_arg12) :=
  (val9_keep V0 main_arg12 (by decide)).trans (val8_main_arg12 V0)
theorem val9_main_arg13 (V0 : Valuation τ sig (Elt F)) : val9 V0 (Proc.devRef .tc main_arg13) = V0 (Proc.devRef .tc main_arg13) :=
  (val9_keep V0 main_arg13 (by decide)).trans (val8_main_arg13 V0)
theorem val9_main_v3 (V0 : Valuation τ sig (Elt F)) : val9 V0 (Proc.devRef .tc main_v3) = src (V0 (Proc.devRef .tc main_arg13)) :=
  (val9_keep V0 main_v3 (by decide)).trans (val8_main_v3 V0)
theorem val9_main_v6 (V0 : Valuation τ sig (Elt F)) : val9 V0 (Proc.devRef .tc main_v6) = dst (V0 (Proc.devRef .tc main_arg13)) :=
  (val9_keep V0 main_v6 (by decide)).trans (val8_main_v6 V0)
theorem val9_main_v28 (V0 : Valuation τ sig (Elt F)) : val9 V0 (Proc.devRef .tc main_v28) = norm (V0 (Proc.devRef .tc main_arg13)) :=
  (val9_keep V0 main_v28 (by decide)).trans (val8_main_v28 V0)
theorem val9_main_v65 (V0 : Valuation τ sig (Elt F)) : val9 V0 (Proc.devRef .tc main_v65) = h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13)) := by
  unfold val9
  rw [opsAff1_main_v65, val8_main_v45, val8_main_v48, val8_main_v49, val8_main_arg3, val8_main_arg4]
  rfl

/-- The contents after the first 10 stretches. -/
def val10 (V0 : Valuation τ sig (Elt F)) : Valuation τ sig (Elt F) := after opsDotB (val9 V0)
theorem val10_keep (V0 : Valuation τ sig (Elt F)) (r : Ref sig .tc) (h : r ∉ opsDotB_W) :
    val10 V0 (Proc.devRef .tc r) = val9 V0 (Proc.devRef .tc r) :=
  after_of_writes_sub opsDotB _ opsDotB_writes h
theorem val10_main_arg0 (V0 : Valuation τ sig (Elt F)) : val10 V0 (Proc.devRef .tc main_arg0) = V0 (Proc.devRef .tc main_arg0) :=
  (val10_keep V0 main_arg0 (by decide)).trans (val9_main_arg0 V0)
theorem val10_main_arg1 (V0 : Valuation τ sig (Elt F)) : val10 V0 (Proc.devRef .tc main_arg1) = V0 (Proc.devRef .tc main_arg1) :=
  (val10_keep V0 main_arg1 (by decide)).trans (val9_main_arg1 V0)
theorem val10_main_arg2 (V0 : Valuation τ sig (Elt F)) : val10 V0 (Proc.devRef .tc main_arg2) = V0 (Proc.devRef .tc main_arg2) :=
  (val10_keep V0 main_arg2 (by decide)).trans (val9_main_arg2 V0)
theorem val10_main_arg3 (V0 : Valuation τ sig (Elt F)) : val10 V0 (Proc.devRef .tc main_arg3) = V0 (Proc.devRef .tc main_arg3) :=
  (val10_keep V0 main_arg3 (by decide)).trans (val9_main_arg3 V0)
theorem val10_main_arg4 (V0 : Valuation τ sig (Elt F)) : val10 V0 (Proc.devRef .tc main_arg4) = V0 (Proc.devRef .tc main_arg4) :=
  (val10_keep V0 main_arg4 (by decide)).trans (val9_main_arg4 V0)
theorem val10_main_arg5 (V0 : Valuation τ sig (Elt F)) : val10 V0 (Proc.devRef .tc main_arg5) = V0 (Proc.devRef .tc main_arg5) :=
  (val10_keep V0 main_arg5 (by decide)).trans (val9_main_arg5 V0)
theorem val10_main_arg6 (V0 : Valuation τ sig (Elt F)) : val10 V0 (Proc.devRef .tc main_arg6) = V0 (Proc.devRef .tc main_arg6) :=
  (val10_keep V0 main_arg6 (by decide)).trans (val9_main_arg6 V0)
theorem val10_main_arg7 (V0 : Valuation τ sig (Elt F)) : val10 V0 (Proc.devRef .tc main_arg7) = V0 (Proc.devRef .tc main_arg7) :=
  (val10_keep V0 main_arg7 (by decide)).trans (val9_main_arg7 V0)
theorem val10_main_arg8 (V0 : Valuation τ sig (Elt F)) : val10 V0 (Proc.devRef .tc main_arg8) = V0 (Proc.devRef .tc main_arg8) :=
  (val10_keep V0 main_arg8 (by decide)).trans (val9_main_arg8 V0)
theorem val10_main_arg9 (V0 : Valuation τ sig (Elt F)) : val10 V0 (Proc.devRef .tc main_arg9) = V0 (Proc.devRef .tc main_arg9) :=
  (val10_keep V0 main_arg9 (by decide)).trans (val9_main_arg9 V0)
theorem val10_main_arg10 (V0 : Valuation τ sig (Elt F)) : val10 V0 (Proc.devRef .tc main_arg10) = V0 (Proc.devRef .tc main_arg10) :=
  (val10_keep V0 main_arg10 (by decide)).trans (val9_main_arg10 V0)
theorem val10_main_arg11 (V0 : Valuation τ sig (Elt F)) : val10 V0 (Proc.devRef .tc main_arg11) = V0 (Proc.devRef .tc main_arg11) :=
  (val10_keep V0 main_arg11 (by decide)).trans (val9_main_arg11 V0)
theorem val10_main_arg12 (V0 : Valuation τ sig (Elt F)) : val10 V0 (Proc.devRef .tc main_arg12) = V0 (Proc.devRef .tc main_arg12) :=
  (val10_keep V0 main_arg12 (by decide)).trans (val9_main_arg12 V0)
theorem val10_main_arg13 (V0 : Valuation τ sig (Elt F)) : val10 V0 (Proc.devRef .tc main_arg13) = V0 (Proc.devRef .tc main_arg13) :=
  (val10_keep V0 main_arg13 (by decide)).trans (val9_main_arg13 V0)
theorem val10_main_v3 (V0 : Valuation τ sig (Elt F)) : val10 V0 (Proc.devRef .tc main_v3) = src (V0 (Proc.devRef .tc main_arg13)) :=
  (val10_keep V0 main_v3 (by decide)).trans (val9_main_v3 V0)
theorem val10_main_v6 (V0 : Valuation τ sig (Elt F)) : val10 V0 (Proc.devRef .tc main_v6) = dst (V0 (Proc.devRef .tc main_arg13)) :=
  (val10_keep V0 main_v6 (by decide)).trans (val9_main_v6 V0)
theorem val10_main_v28 (V0 : Valuation τ sig (Elt F)) : val10 V0 (Proc.devRef .tc main_v28) = norm (V0 (Proc.devRef .tc main_arg13)) :=
  (val10_keep V0 main_v28 (by decide)).trans (val9_main_v28 V0)
theorem val10_main_v66 (V0 : Valuation τ sig (Elt F)) : val10 V0 (Proc.devRef .tc main_v66) = dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)) := by
  unfold val10
  rw [opsDotB_main_v66, val9_main_v65, val9_main_arg5]

/-- The contents after the first 11 stretches. -/
def val11 (V0 : Valuation τ sig (Elt F)) : Valuation τ sig (Elt F) := after opsAgg2 (val10 V0)
theorem val11_keep (V0 : Valuation τ sig (Elt F)) (r : Ref sig .tc) (h : r ∉ opsAgg2_W) :
    val11 V0 (Proc.devRef .tc r) = val10 V0 (Proc.devRef .tc r) :=
  after_of_writes_sub opsAgg2 _ opsAgg2_writes h
theorem val11_main_arg0 (V0 : Valuation τ sig (Elt F)) : val11 V0 (Proc.devRef .tc main_arg0) = V0 (Proc.devRef .tc main_arg0) :=
  (val11_keep V0 main_arg0 (by decide)).trans (val10_main_arg0 V0)
theorem val11_main_arg1 (V0 : Valuation τ sig (Elt F)) : val11 V0 (Proc.devRef .tc main_arg1) = V0 (Proc.devRef .tc main_arg1) :=
  (val11_keep V0 main_arg1 (by decide)).trans (val10_main_arg1 V0)
theorem val11_main_arg2 (V0 : Valuation τ sig (Elt F)) : val11 V0 (Proc.devRef .tc main_arg2) = V0 (Proc.devRef .tc main_arg2) :=
  (val11_keep V0 main_arg2 (by decide)).trans (val10_main_arg2 V0)
theorem val11_main_arg3 (V0 : Valuation τ sig (Elt F)) : val11 V0 (Proc.devRef .tc main_arg3) = V0 (Proc.devRef .tc main_arg3) :=
  (val11_keep V0 main_arg3 (by decide)).trans (val10_main_arg3 V0)
theorem val11_main_arg4 (V0 : Valuation τ sig (Elt F)) : val11 V0 (Proc.devRef .tc main_arg4) = V0 (Proc.devRef .tc main_arg4) :=
  (val11_keep V0 main_arg4 (by decide)).trans (val10_main_arg4 V0)
theorem val11_main_arg5 (V0 : Valuation τ sig (Elt F)) : val11 V0 (Proc.devRef .tc main_arg5) = V0 (Proc.devRef .tc main_arg5) :=
  (val11_keep V0 main_arg5 (by decide)).trans (val10_main_arg5 V0)
theorem val11_main_arg6 (V0 : Valuation τ sig (Elt F)) : val11 V0 (Proc.devRef .tc main_arg6) = V0 (Proc.devRef .tc main_arg6) :=
  (val11_keep V0 main_arg6 (by decide)).trans (val10_main_arg6 V0)
theorem val11_main_arg7 (V0 : Valuation τ sig (Elt F)) : val11 V0 (Proc.devRef .tc main_arg7) = V0 (Proc.devRef .tc main_arg7) :=
  (val11_keep V0 main_arg7 (by decide)).trans (val10_main_arg7 V0)
theorem val11_main_arg8 (V0 : Valuation τ sig (Elt F)) : val11 V0 (Proc.devRef .tc main_arg8) = V0 (Proc.devRef .tc main_arg8) :=
  (val11_keep V0 main_arg8 (by decide)).trans (val10_main_arg8 V0)
theorem val11_main_arg9 (V0 : Valuation τ sig (Elt F)) : val11 V0 (Proc.devRef .tc main_arg9) = V0 (Proc.devRef .tc main_arg9) :=
  (val11_keep V0 main_arg9 (by decide)).trans (val10_main_arg9 V0)
theorem val11_main_arg10 (V0 : Valuation τ sig (Elt F)) : val11 V0 (Proc.devRef .tc main_arg10) = V0 (Proc.devRef .tc main_arg10) :=
  (val11_keep V0 main_arg10 (by decide)).trans (val10_main_arg10 V0)
theorem val11_main_arg11 (V0 : Valuation τ sig (Elt F)) : val11 V0 (Proc.devRef .tc main_arg11) = V0 (Proc.devRef .tc main_arg11) :=
  (val11_keep V0 main_arg11 (by decide)).trans (val10_main_arg11 V0)
theorem val11_main_arg12 (V0 : Valuation τ sig (Elt F)) : val11 V0 (Proc.devRef .tc main_arg12) = V0 (Proc.devRef .tc main_arg12) :=
  (val11_keep V0 main_arg12 (by decide)).trans (val10_main_arg12 V0)
theorem val11_main_arg13 (V0 : Valuation τ sig (Elt F)) : val11 V0 (Proc.devRef .tc main_arg13) = V0 (Proc.devRef .tc main_arg13) :=
  (val11_keep V0 main_arg13 (by decide)).trans (val10_main_arg13 V0)
theorem val11_main_v3 (V0 : Valuation τ sig (Elt F)) : val11 V0 (Proc.devRef .tc main_v3) = src (V0 (Proc.devRef .tc main_arg13)) :=
  (val11_keep V0 main_v3 (by decide)).trans (val10_main_v3 V0)
theorem val11_main_v6 (V0 : Valuation τ sig (Elt F)) : val11 V0 (Proc.devRef .tc main_v6) = dst (V0 (Proc.devRef .tc main_arg13)) :=
  (val11_keep V0 main_v6 (by decide)).trans (val10_main_v6 V0)
theorem val11_main_v28 (V0 : Valuation τ sig (Elt F)) : val11 V0 (Proc.devRef .tc main_v28) = norm (V0 (Proc.devRef .tc main_arg13)) :=
  (val11_keep V0 main_v28 (by decide)).trans (val10_main_v28 V0)
theorem val11_main_v79 (V0 : Valuation τ sig (Elt F)) : val11 V0 (Proc.devRef .tc main_v79) = agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5))) := by
  unfold val11
  rw [opsAgg2_main_v79, val10_main_v3, val10_main_v6, val10_main_v28, val10_main_v66]
  rfl

/-- The contents after the first 12 stretches. -/
def val12 (V0 : Valuation τ sig (Elt F)) : Valuation τ sig (Elt F) := after opsBias2 (val11 V0)
theorem val12_keep (V0 : Valuation τ sig (Elt F)) (r : Ref sig .tc) (h : r ∉ opsBias2_W) :
    val12 V0 (Proc.devRef .tc r) = val11 V0 (Proc.devRef .tc r) :=
  after_of_writes_sub opsBias2 _ opsBias2_writes h
theorem val12_main_arg0 (V0 : Valuation τ sig (Elt F)) : val12 V0 (Proc.devRef .tc main_arg0) = V0 (Proc.devRef .tc main_arg0) :=
  (val12_keep V0 main_arg0 (by decide)).trans (val11_main_arg0 V0)
theorem val12_main_arg1 (V0 : Valuation τ sig (Elt F)) : val12 V0 (Proc.devRef .tc main_arg1) = V0 (Proc.devRef .tc main_arg1) :=
  (val12_keep V0 main_arg1 (by decide)).trans (val11_main_arg1 V0)
theorem val12_main_arg2 (V0 : Valuation τ sig (Elt F)) : val12 V0 (Proc.devRef .tc main_arg2) = V0 (Proc.devRef .tc main_arg2) :=
  (val12_keep V0 main_arg2 (by decide)).trans (val11_main_arg2 V0)
theorem val12_main_arg3 (V0 : Valuation τ sig (Elt F)) : val12 V0 (Proc.devRef .tc main_arg3) = V0 (Proc.devRef .tc main_arg3) :=
  (val12_keep V0 main_arg3 (by decide)).trans (val11_main_arg3 V0)
theorem val12_main_arg4 (V0 : Valuation τ sig (Elt F)) : val12 V0 (Proc.devRef .tc main_arg4) = V0 (Proc.devRef .tc main_arg4) :=
  (val12_keep V0 main_arg4 (by decide)).trans (val11_main_arg4 V0)
theorem val12_main_arg5 (V0 : Valuation τ sig (Elt F)) : val12 V0 (Proc.devRef .tc main_arg5) = V0 (Proc.devRef .tc main_arg5) :=
  (val12_keep V0 main_arg5 (by decide)).trans (val11_main_arg5 V0)
theorem val12_main_arg6 (V0 : Valuation τ sig (Elt F)) : val12 V0 (Proc.devRef .tc main_arg6) = V0 (Proc.devRef .tc main_arg6) :=
  (val12_keep V0 main_arg6 (by decide)).trans (val11_main_arg6 V0)
theorem val12_main_arg7 (V0 : Valuation τ sig (Elt F)) : val12 V0 (Proc.devRef .tc main_arg7) = V0 (Proc.devRef .tc main_arg7) :=
  (val12_keep V0 main_arg7 (by decide)).trans (val11_main_arg7 V0)
theorem val12_main_arg8 (V0 : Valuation τ sig (Elt F)) : val12 V0 (Proc.devRef .tc main_arg8) = V0 (Proc.devRef .tc main_arg8) :=
  (val12_keep V0 main_arg8 (by decide)).trans (val11_main_arg8 V0)
theorem val12_main_arg9 (V0 : Valuation τ sig (Elt F)) : val12 V0 (Proc.devRef .tc main_arg9) = V0 (Proc.devRef .tc main_arg9) :=
  (val12_keep V0 main_arg9 (by decide)).trans (val11_main_arg9 V0)
theorem val12_main_arg10 (V0 : Valuation τ sig (Elt F)) : val12 V0 (Proc.devRef .tc main_arg10) = V0 (Proc.devRef .tc main_arg10) :=
  (val12_keep V0 main_arg10 (by decide)).trans (val11_main_arg10 V0)
theorem val12_main_arg11 (V0 : Valuation τ sig (Elt F)) : val12 V0 (Proc.devRef .tc main_arg11) = V0 (Proc.devRef .tc main_arg11) :=
  (val12_keep V0 main_arg11 (by decide)).trans (val11_main_arg11 V0)
theorem val12_main_arg12 (V0 : Valuation τ sig (Elt F)) : val12 V0 (Proc.devRef .tc main_arg12) = V0 (Proc.devRef .tc main_arg12) :=
  (val12_keep V0 main_arg12 (by decide)).trans (val11_main_arg12 V0)
theorem val12_main_arg13 (V0 : Valuation τ sig (Elt F)) : val12 V0 (Proc.devRef .tc main_arg13) = V0 (Proc.devRef .tc main_arg13) :=
  (val12_keep V0 main_arg13 (by decide)).trans (val11_main_arg13 V0)
theorem val12_main_v3 (V0 : Valuation τ sig (Elt F)) : val12 V0 (Proc.devRef .tc main_v3) = src (V0 (Proc.devRef .tc main_arg13)) :=
  (val12_keep V0 main_v3 (by decide)).trans (val11_main_v3 V0)
theorem val12_main_v6 (V0 : Valuation τ sig (Elt F)) : val12 V0 (Proc.devRef .tc main_v6) = dst (V0 (Proc.devRef .tc main_arg13)) :=
  (val12_keep V0 main_v6 (by decide)).trans (val11_main_v6 V0)
theorem val12_main_v28 (V0 : Valuation τ sig (Elt F)) : val12 V0 (Proc.devRef .tc main_v28) = norm (V0 (Proc.devRef .tc main_arg13)) :=
  (val12_keep V0 main_v28 (by decide)).trans (val11_main_v28 V0)
theorem val12_main_v82 (V0 : Valuation τ sig (Elt F)) : val12 V0 (Proc.devRef .tc main_v82) = bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6)) := by
  unfold val12
  rw [opsBias2_main_v82, val11_main_v79, val11_main_arg6]

/-- The contents after the first 13 stretches. -/
def val13 (V0 : Valuation τ sig (Elt F)) : Valuation τ sig (Elt F) := after opsMean2 (val12 V0)
theorem val13_keep (V0 : Valuation τ sig (Elt F)) (r : Ref sig .tc) (h : r ∉ opsMean2_W) :
    val13 V0 (Proc.devRef .tc r) = val12 V0 (Proc.devRef .tc r) :=
  after_of_writes_sub opsMean2 _ opsMean2_writes h
theorem val13_main_arg0 (V0 : Valuation τ sig (Elt F)) : val13 V0 (Proc.devRef .tc main_arg0) = V0 (Proc.devRef .tc main_arg0) :=
  (val13_keep V0 main_arg0 (by decide)).trans (val12_main_arg0 V0)
theorem val13_main_arg1 (V0 : Valuation τ sig (Elt F)) : val13 V0 (Proc.devRef .tc main_arg1) = V0 (Proc.devRef .tc main_arg1) :=
  (val13_keep V0 main_arg1 (by decide)).trans (val12_main_arg1 V0)
theorem val13_main_arg2 (V0 : Valuation τ sig (Elt F)) : val13 V0 (Proc.devRef .tc main_arg2) = V0 (Proc.devRef .tc main_arg2) :=
  (val13_keep V0 main_arg2 (by decide)).trans (val12_main_arg2 V0)
theorem val13_main_arg3 (V0 : Valuation τ sig (Elt F)) : val13 V0 (Proc.devRef .tc main_arg3) = V0 (Proc.devRef .tc main_arg3) :=
  (val13_keep V0 main_arg3 (by decide)).trans (val12_main_arg3 V0)
theorem val13_main_arg4 (V0 : Valuation τ sig (Elt F)) : val13 V0 (Proc.devRef .tc main_arg4) = V0 (Proc.devRef .tc main_arg4) :=
  (val13_keep V0 main_arg4 (by decide)).trans (val12_main_arg4 V0)
theorem val13_main_arg5 (V0 : Valuation τ sig (Elt F)) : val13 V0 (Proc.devRef .tc main_arg5) = V0 (Proc.devRef .tc main_arg5) :=
  (val13_keep V0 main_arg5 (by decide)).trans (val12_main_arg5 V0)
theorem val13_main_arg6 (V0 : Valuation τ sig (Elt F)) : val13 V0 (Proc.devRef .tc main_arg6) = V0 (Proc.devRef .tc main_arg6) :=
  (val13_keep V0 main_arg6 (by decide)).trans (val12_main_arg6 V0)
theorem val13_main_arg7 (V0 : Valuation τ sig (Elt F)) : val13 V0 (Proc.devRef .tc main_arg7) = V0 (Proc.devRef .tc main_arg7) :=
  (val13_keep V0 main_arg7 (by decide)).trans (val12_main_arg7 V0)
theorem val13_main_arg8 (V0 : Valuation τ sig (Elt F)) : val13 V0 (Proc.devRef .tc main_arg8) = V0 (Proc.devRef .tc main_arg8) :=
  (val13_keep V0 main_arg8 (by decide)).trans (val12_main_arg8 V0)
theorem val13_main_arg9 (V0 : Valuation τ sig (Elt F)) : val13 V0 (Proc.devRef .tc main_arg9) = V0 (Proc.devRef .tc main_arg9) :=
  (val13_keep V0 main_arg9 (by decide)).trans (val12_main_arg9 V0)
theorem val13_main_arg10 (V0 : Valuation τ sig (Elt F)) : val13 V0 (Proc.devRef .tc main_arg10) = V0 (Proc.devRef .tc main_arg10) :=
  (val13_keep V0 main_arg10 (by decide)).trans (val12_main_arg10 V0)
theorem val13_main_arg11 (V0 : Valuation τ sig (Elt F)) : val13 V0 (Proc.devRef .tc main_arg11) = V0 (Proc.devRef .tc main_arg11) :=
  (val13_keep V0 main_arg11 (by decide)).trans (val12_main_arg11 V0)
theorem val13_main_arg12 (V0 : Valuation τ sig (Elt F)) : val13 V0 (Proc.devRef .tc main_arg12) = V0 (Proc.devRef .tc main_arg12) :=
  (val13_keep V0 main_arg12 (by decide)).trans (val12_main_arg12 V0)
theorem val13_main_arg13 (V0 : Valuation τ sig (Elt F)) : val13 V0 (Proc.devRef .tc main_arg13) = V0 (Proc.devRef .tc main_arg13) :=
  (val13_keep V0 main_arg13 (by decide)).trans (val12_main_arg13 V0)
theorem val13_main_v3 (V0 : Valuation τ sig (Elt F)) : val13 V0 (Proc.devRef .tc main_v3) = src (V0 (Proc.devRef .tc main_arg13)) :=
  (val13_keep V0 main_v3 (by decide)).trans (val12_main_v3 V0)
theorem val13_main_v6 (V0 : Valuation τ sig (Elt F)) : val13 V0 (Proc.devRef .tc main_v6) = dst (V0 (Proc.devRef .tc main_arg13)) :=
  (val13_keep V0 main_v6 (by decide)).trans (val12_main_v6 V0)
theorem val13_main_v28 (V0 : Valuation τ sig (Elt F)) : val13 V0 (Proc.devRef .tc main_v28) = norm (V0 (Proc.devRef .tc main_arg13)) :=
  (val13_keep V0 main_v28 (by decide)).trans (val12_main_v28 V0)
theorem val13_main_v82 (V0 : Valuation τ sig (Elt F)) : val13 V0 (Proc.devRef .tc main_v82) = bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6)) :=
  (val13_keep V0 main_v82 (by decide)).trans (val12_main_v82 V0)
theorem val13_main_v85 (V0 : Valuation τ sig (Elt F)) : val13 V0 (Proc.devRef .tc main_v85) = colMean (bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6))) := by
  unfold val13
  rw [opsMean2_main_v85, val12_main_v82]

/-- The contents after the first 14 stretches. -/
def val14 (V0 : Valuation τ sig (Elt F)) : Valuation τ sig (Elt F) := after opsVar2 (val13 V0)
theorem val14_keep (V0 : Valuation τ sig (Elt F)) (r : Ref sig .tc) (h : r ∉ opsVar2_W) :
    val14 V0 (Proc.devRef .tc r) = val13 V0 (Proc.devRef .tc r) :=
  after_of_writes_sub opsVar2 _ opsVar2_writes h
theorem val14_main_arg0 (V0 : Valuation τ sig (Elt F)) : val14 V0 (Proc.devRef .tc main_arg0) = V0 (Proc.devRef .tc main_arg0) :=
  (val14_keep V0 main_arg0 (by decide)).trans (val13_main_arg0 V0)
theorem val14_main_arg1 (V0 : Valuation τ sig (Elt F)) : val14 V0 (Proc.devRef .tc main_arg1) = V0 (Proc.devRef .tc main_arg1) :=
  (val14_keep V0 main_arg1 (by decide)).trans (val13_main_arg1 V0)
theorem val14_main_arg2 (V0 : Valuation τ sig (Elt F)) : val14 V0 (Proc.devRef .tc main_arg2) = V0 (Proc.devRef .tc main_arg2) :=
  (val14_keep V0 main_arg2 (by decide)).trans (val13_main_arg2 V0)
theorem val14_main_arg3 (V0 : Valuation τ sig (Elt F)) : val14 V0 (Proc.devRef .tc main_arg3) = V0 (Proc.devRef .tc main_arg3) :=
  (val14_keep V0 main_arg3 (by decide)).trans (val13_main_arg3 V0)
theorem val14_main_arg4 (V0 : Valuation τ sig (Elt F)) : val14 V0 (Proc.devRef .tc main_arg4) = V0 (Proc.devRef .tc main_arg4) :=
  (val14_keep V0 main_arg4 (by decide)).trans (val13_main_arg4 V0)
theorem val14_main_arg5 (V0 : Valuation τ sig (Elt F)) : val14 V0 (Proc.devRef .tc main_arg5) = V0 (Proc.devRef .tc main_arg5) :=
  (val14_keep V0 main_arg5 (by decide)).trans (val13_main_arg5 V0)
theorem val14_main_arg6 (V0 : Valuation τ sig (Elt F)) : val14 V0 (Proc.devRef .tc main_arg6) = V0 (Proc.devRef .tc main_arg6) :=
  (val14_keep V0 main_arg6 (by decide)).trans (val13_main_arg6 V0)
theorem val14_main_arg7 (V0 : Valuation τ sig (Elt F)) : val14 V0 (Proc.devRef .tc main_arg7) = V0 (Proc.devRef .tc main_arg7) :=
  (val14_keep V0 main_arg7 (by decide)).trans (val13_main_arg7 V0)
theorem val14_main_arg8 (V0 : Valuation τ sig (Elt F)) : val14 V0 (Proc.devRef .tc main_arg8) = V0 (Proc.devRef .tc main_arg8) :=
  (val14_keep V0 main_arg8 (by decide)).trans (val13_main_arg8 V0)
theorem val14_main_arg9 (V0 : Valuation τ sig (Elt F)) : val14 V0 (Proc.devRef .tc main_arg9) = V0 (Proc.devRef .tc main_arg9) :=
  (val14_keep V0 main_arg9 (by decide)).trans (val13_main_arg9 V0)
theorem val14_main_arg10 (V0 : Valuation τ sig (Elt F)) : val14 V0 (Proc.devRef .tc main_arg10) = V0 (Proc.devRef .tc main_arg10) :=
  (val14_keep V0 main_arg10 (by decide)).trans (val13_main_arg10 V0)
theorem val14_main_arg11 (V0 : Valuation τ sig (Elt F)) : val14 V0 (Proc.devRef .tc main_arg11) = V0 (Proc.devRef .tc main_arg11) :=
  (val14_keep V0 main_arg11 (by decide)).trans (val13_main_arg11 V0)
theorem val14_main_arg12 (V0 : Valuation τ sig (Elt F)) : val14 V0 (Proc.devRef .tc main_arg12) = V0 (Proc.devRef .tc main_arg12) :=
  (val14_keep V0 main_arg12 (by decide)).trans (val13_main_arg12 V0)
theorem val14_main_arg13 (V0 : Valuation τ sig (Elt F)) : val14 V0 (Proc.devRef .tc main_arg13) = V0 (Proc.devRef .tc main_arg13) :=
  (val14_keep V0 main_arg13 (by decide)).trans (val13_main_arg13 V0)
theorem val14_main_v3 (V0 : Valuation τ sig (Elt F)) : val14 V0 (Proc.devRef .tc main_v3) = src (V0 (Proc.devRef .tc main_arg13)) :=
  (val14_keep V0 main_v3 (by decide)).trans (val13_main_v3 V0)
theorem val14_main_v6 (V0 : Valuation τ sig (Elt F)) : val14 V0 (Proc.devRef .tc main_v6) = dst (V0 (Proc.devRef .tc main_arg13)) :=
  (val14_keep V0 main_v6 (by decide)).trans (val13_main_v6 V0)
theorem val14_main_v28 (V0 : Valuation τ sig (Elt F)) : val14 V0 (Proc.devRef .tc main_v28) = norm (V0 (Proc.devRef .tc main_arg13)) :=
  (val14_keep V0 main_v28 (by decide)).trans (val13_main_v28 V0)
theorem val14_main_v82 (V0 : Valuation τ sig (Elt F)) : val14 V0 (Proc.devRef .tc main_v82) = bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6)) :=
  (val14_keep V0 main_v82 (by decide)).trans (val13_main_v82 V0)
theorem val14_main_v85 (V0 : Valuation τ sig (Elt F)) : val14 V0 (Proc.devRef .tc main_v85) = colMean (bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6))) :=
  (val14_keep V0 main_v85 (by decide)).trans (val13_main_v85 V0)
theorem val14_main_v86 (V0 : Valuation τ sig (Elt F)) : val14 V0 (Proc.devRef .tc main_v86) = colVar (bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6))) := by
  unfold val14
  rw [opsVar2_main_v86, val13_main_v82]

/-- The contents after the first 15 stretches. -/
def val15 (V0 : Valuation τ sig (Elt F)) : Valuation τ sig (Elt F) := after opsAff2a (val14 V0)
theorem val15_keep (V0 : Valuation τ sig (Elt F)) (r : Ref sig .tc) (h : r ∉ opsAff2a_W) :
    val15 V0 (Proc.devRef .tc r) = val14 V0 (Proc.devRef .tc r) :=
  after_of_writes_sub opsAff2a _ opsAff2a_writes h
theorem val15_main_arg0 (V0 : Valuation τ sig (Elt F)) : val15 V0 (Proc.devRef .tc main_arg0) = V0 (Proc.devRef .tc main_arg0) :=
  (val15_keep V0 main_arg0 (by decide)).trans (val14_main_arg0 V0)
theorem val15_main_arg1 (V0 : Valuation τ sig (Elt F)) : val15 V0 (Proc.devRef .tc main_arg1) = V0 (Proc.devRef .tc main_arg1) :=
  (val15_keep V0 main_arg1 (by decide)).trans (val14_main_arg1 V0)
theorem val15_main_arg2 (V0 : Valuation τ sig (Elt F)) : val15 V0 (Proc.devRef .tc main_arg2) = V0 (Proc.devRef .tc main_arg2) :=
  (val15_keep V0 main_arg2 (by decide)).trans (val14_main_arg2 V0)
theorem val15_main_arg3 (V0 : Valuation τ sig (Elt F)) : val15 V0 (Proc.devRef .tc main_arg3) = V0 (Proc.devRef .tc main_arg3) :=
  (val15_keep V0 main_arg3 (by decide)).trans (val14_main_arg3 V0)
theorem val15_main_arg4 (V0 : Valuation τ sig (Elt F)) : val15 V0 (Proc.devRef .tc main_arg4) = V0 (Proc.devRef .tc main_arg4) :=
  (val15_keep V0 main_arg4 (by decide)).trans (val14_main_arg4 V0)
theorem val15_main_arg5 (V0 : Valuation τ sig (Elt F)) : val15 V0 (Proc.devRef .tc main_arg5) = V0 (Proc.devRef .tc main_arg5) :=
  (val15_keep V0 main_arg5 (by decide)).trans (val14_main_arg5 V0)
theorem val15_main_arg6 (V0 : Valuation τ sig (Elt F)) : val15 V0 (Proc.devRef .tc main_arg6) = V0 (Proc.devRef .tc main_arg6) :=
  (val15_keep V0 main_arg6 (by decide)).trans (val14_main_arg6 V0)
theorem val15_main_arg7 (V0 : Valuation τ sig (Elt F)) : val15 V0 (Proc.devRef .tc main_arg7) = V0 (Proc.devRef .tc main_arg7) :=
  (val15_keep V0 main_arg7 (by decide)).trans (val14_main_arg7 V0)
theorem val15_main_arg8 (V0 : Valuation τ sig (Elt F)) : val15 V0 (Proc.devRef .tc main_arg8) = V0 (Proc.devRef .tc main_arg8) :=
  (val15_keep V0 main_arg8 (by decide)).trans (val14_main_arg8 V0)
theorem val15_main_arg9 (V0 : Valuation τ sig (Elt F)) : val15 V0 (Proc.devRef .tc main_arg9) = V0 (Proc.devRef .tc main_arg9) :=
  (val15_keep V0 main_arg9 (by decide)).trans (val14_main_arg9 V0)
theorem val15_main_arg10 (V0 : Valuation τ sig (Elt F)) : val15 V0 (Proc.devRef .tc main_arg10) = V0 (Proc.devRef .tc main_arg10) :=
  (val15_keep V0 main_arg10 (by decide)).trans (val14_main_arg10 V0)
theorem val15_main_arg11 (V0 : Valuation τ sig (Elt F)) : val15 V0 (Proc.devRef .tc main_arg11) = V0 (Proc.devRef .tc main_arg11) :=
  (val15_keep V0 main_arg11 (by decide)).trans (val14_main_arg11 V0)
theorem val15_main_arg12 (V0 : Valuation τ sig (Elt F)) : val15 V0 (Proc.devRef .tc main_arg12) = V0 (Proc.devRef .tc main_arg12) :=
  (val15_keep V0 main_arg12 (by decide)).trans (val14_main_arg12 V0)
theorem val15_main_arg13 (V0 : Valuation τ sig (Elt F)) : val15 V0 (Proc.devRef .tc main_arg13) = V0 (Proc.devRef .tc main_arg13) :=
  (val15_keep V0 main_arg13 (by decide)).trans (val14_main_arg13 V0)
theorem val15_main_v3 (V0 : Valuation τ sig (Elt F)) : val15 V0 (Proc.devRef .tc main_v3) = src (V0 (Proc.devRef .tc main_arg13)) :=
  (val15_keep V0 main_v3 (by decide)).trans (val14_main_v3 V0)
theorem val15_main_v6 (V0 : Valuation τ sig (Elt F)) : val15 V0 (Proc.devRef .tc main_v6) = dst (V0 (Proc.devRef .tc main_arg13)) :=
  (val15_keep V0 main_v6 (by decide)).trans (val14_main_v6 V0)
theorem val15_main_v28 (V0 : Valuation τ sig (Elt F)) : val15 V0 (Proc.devRef .tc main_v28) = norm (V0 (Proc.devRef .tc main_arg13)) :=
  (val15_keep V0 main_v28 (by decide)).trans (val14_main_v28 V0)
theorem val15_main_v98 (V0 : Valuation τ sig (Elt F)) : val15 V0 (Proc.devRef .tc main_v98) = affScaled (bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6))) (colMean (bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6)))) (colVar (bias128 (agg128 (V0 (Proc.devRef .tc main_arg13)) (dotB (h1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg13))) (V0 (Proc.devRef .tc main_arg5)))) (V0 (Proc.devRef .tc main_arg6)))) (V0 (Proc.devRef .tc main_arg7)) := by
  unfold val15
  rw [opsAff2a_main_v98, val14_main_v82, val14_main_v85, val14_main_v86, val14_main_arg7]

/-- The contents after the first 16 stretches. -/
def val16 (V0 : Valuation τ sig (Elt F)) : Valuation τ sig (Elt F) := after opsAff2b (val15 V0)
theorem val16_keep (V0 : Valuation τ sig (Elt F)) (r : Ref sig .tc) (h : r ∉ opsAff2b_W) :
    val16 V0 (Proc.devRef .tc r) = val15 V0 (Proc.devRef .tc r) :=
  after_of_writes_sub opsAff2b _ opsAff2b_writes h
theorem val16_main_arg0 (V0 : Valuation τ sig (Elt F)) : val16 V0 (Proc.devRef .tc main_arg0) = V0 (Proc.devRef .tc main_arg0) :=
  (val16_keep V0 main_arg0 (by decide)).trans (val15_main_arg0 V0)
theorem val16_main_arg1 (V0 : Valuation τ sig (Elt F)) : val16 V0 (Proc.devRef .tc main_arg1) = V0 (Proc.devRef .tc main_arg1) :=
  (val16_keep V0 main_arg1 (by decide)).trans (val15_main_arg1 V0)
theorem val16_main_arg2 (V0 : Valuation τ sig (Elt F)) : val16 V0 (Proc.devRef .tc main_arg2) = V0 (Proc.devRef .tc main_arg2) :=
  (val16_keep V0 main_arg2 (by decide)).trans (val15_main_arg2 V0)
theorem val16_main_arg3 (V0 : Valuation τ sig (Elt F)) : val16 V0 (Proc.devRef .tc main_arg3) = V0 (Proc.devRef .tc main_arg3) :=
  (val16_keep V0 main_arg3 (by decide)).trans (val15_main_arg3 V0)
theorem val16_main_arg4 (V0 : Valuation τ sig (Elt F)) : val16 V0 (Proc.devRef .tc main_arg4) = V0 (Proc.devRef .tc main_arg4) :=
  (val16_keep V0 main_arg4 (by decide)).trans (val15_main_arg4 V0)
theorem val16_main_arg5 (V0 : Valuation τ sig (Elt F)) : val16 V0 (Proc.devRef .tc main_arg5) = V0 (Proc.devRef .tc main_arg5) :=
  (val16_keep V0 main_arg5 (by decide)).trans (val15_main_arg5 V0)
theorem val16_main_arg6 (V0 : Valuation τ sig (Elt F)) : val16 V0 (Proc.devRef .tc main_arg6) = V0 (Proc.devRef .tc main_arg6) :=
  (val16_keep V0 main_arg6 (by decide)).trans (val15_main_arg6 V0)
theorem val16_main_arg7 (V0 : Valuation τ sig (Elt F)) : val16 V0 (Proc.devRef .tc main_arg7) = V0 (Proc.devRef .tc main_arg7) :=
  (val16_keep V0 main_arg7 (by decide)).trans (val15_main_arg7 V0)
theorem val16_main_arg8 (V0 : Valuation τ sig (Elt F)) : val16 V0 (Proc.devRef .tc main_arg8) = V0 (Proc.devRef .tc main_arg8) :=
  (val16_keep V0 main_arg8 (by decide)).trans (val15_main_arg8 V0)
theorem val16_main_arg9 (V0 : Valuation τ sig (Elt F)) : val16 V0 (Proc.devRef .tc main_arg9) = V0 (Proc.devRef .tc main_arg9) :=
  (val16_keep V0 main_arg9 (by decide)).trans (val15_main_arg9 V0)
theorem val16_main_arg10 (V0 : Valuation τ sig (Elt F)) : val16 V0 (Proc.devRef .tc main_arg10) = V0 (Proc.devRef .tc main_arg10) :=
  (val16_keep V0 main_arg10 (by decide)).trans (val15_main_arg10 V0)
theorem val16_main_arg11 (V0 : Valuation τ sig (Elt F)) : val16 V0 (Proc.devRef .tc main_arg11) = V0 (Proc.devRef .tc main_arg11) :=
  (val16_keep V0 main_arg11 (by decide)).trans (val15_main_arg11 V0)
theorem val16_main_arg12 (V0 : Valuation τ sig (Elt F)) : val16 V0 (Proc.devRef .tc main_arg12) = V0 (Proc.devRef .tc main_arg12) :=
  (val16_keep V0 main_arg12 (by decide)).trans (val15_main_arg12 V0)
theorem val16_main_arg13 (V0 : Valuation τ sig (Elt F)) : val16 V0 (Proc.devRef .tc main_arg13) = V0 (Proc.devRef .tc main_arg13) :=
  (val16_keep V0 main_arg13 (by decide)).trans (val15_main_arg13 V0)
theorem val16_main_v3 (V0 : Valuation τ sig (Elt F)) : val16 V0 (Proc.devRef .tc main_v3) = src (V0 (Proc.devRef .tc main_arg13)) :=
  (val16_keep V0 main_v3 (by decide)).trans (val15_main_v3 V0)
theorem val16_main_v6 (V0 : Valuation τ sig (Elt F)) : val16 V0 (Proc.devRef .tc main_v6) = dst (V0 (Proc.devRef .tc main_arg13)) :=
  (val16_keep V0 main_v6 (by decide)).trans (val15_main_v6 V0)
theorem val16_main_v28 (V0 : Valuation τ sig (Elt F)) : val16 V0 (Proc.devRef .tc main_v28) = norm (V0 (Proc.devRef .tc main_arg13)) :=
  (val16_keep V0 main_v28 (by decide)).trans (val15_main_v28 V0)
theorem val16_main_v102 (V0 : Valuation τ sig (Elt F)) : val16 V0 (Proc.devRef .tc main_v102) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13)) := by
  unfold val16
  rw [opsAff2b_main_v102, val15_main_v98, val15_main_arg8]
  rfl

/-- The contents after the first 17 stretches. -/
def val17 (V0 : Valuation τ sig (Elt F)) : Valuation τ sig (Elt F) := after opsDotMu (val16 V0)
theorem val17_keep (V0 : Valuation τ sig (Elt F)) (r : Ref sig .tc) (h : r ∉ opsDotMu_W) :
    val17 V0 (Proc.devRef .tc r) = val16 V0 (Proc.devRef .tc r) :=
  after_of_writes_sub opsDotMu _ opsDotMu_writes h
theorem val17_main_arg0 (V0 : Valuation τ sig (Elt F)) : val17 V0 (Proc.devRef .tc main_arg0) = V0 (Proc.devRef .tc main_arg0) :=
  (val17_keep V0 main_arg0 (by decide)).trans (val16_main_arg0 V0)
theorem val17_main_arg1 (V0 : Valuation τ sig (Elt F)) : val17 V0 (Proc.devRef .tc main_arg1) = V0 (Proc.devRef .tc main_arg1) :=
  (val17_keep V0 main_arg1 (by decide)).trans (val16_main_arg1 V0)
theorem val17_main_arg2 (V0 : Valuation τ sig (Elt F)) : val17 V0 (Proc.devRef .tc main_arg2) = V0 (Proc.devRef .tc main_arg2) :=
  (val17_keep V0 main_arg2 (by decide)).trans (val16_main_arg2 V0)
theorem val17_main_arg3 (V0 : Valuation τ sig (Elt F)) : val17 V0 (Proc.devRef .tc main_arg3) = V0 (Proc.devRef .tc main_arg3) :=
  (val17_keep V0 main_arg3 (by decide)).trans (val16_main_arg3 V0)
theorem val17_main_arg4 (V0 : Valuation τ sig (Elt F)) : val17 V0 (Proc.devRef .tc main_arg4) = V0 (Proc.devRef .tc main_arg4) :=
  (val17_keep V0 main_arg4 (by decide)).trans (val16_main_arg4 V0)
theorem val17_main_arg5 (V0 : Valuation τ sig (Elt F)) : val17 V0 (Proc.devRef .tc main_arg5) = V0 (Proc.devRef .tc main_arg5) :=
  (val17_keep V0 main_arg5 (by decide)).trans (val16_main_arg5 V0)
theorem val17_main_arg6 (V0 : Valuation τ sig (Elt F)) : val17 V0 (Proc.devRef .tc main_arg6) = V0 (Proc.devRef .tc main_arg6) :=
  (val17_keep V0 main_arg6 (by decide)).trans (val16_main_arg6 V0)
theorem val17_main_arg7 (V0 : Valuation τ sig (Elt F)) : val17 V0 (Proc.devRef .tc main_arg7) = V0 (Proc.devRef .tc main_arg7) :=
  (val17_keep V0 main_arg7 (by decide)).trans (val16_main_arg7 V0)
theorem val17_main_arg8 (V0 : Valuation τ sig (Elt F)) : val17 V0 (Proc.devRef .tc main_arg8) = V0 (Proc.devRef .tc main_arg8) :=
  (val17_keep V0 main_arg8 (by decide)).trans (val16_main_arg8 V0)
theorem val17_main_arg9 (V0 : Valuation τ sig (Elt F)) : val17 V0 (Proc.devRef .tc main_arg9) = V0 (Proc.devRef .tc main_arg9) :=
  (val17_keep V0 main_arg9 (by decide)).trans (val16_main_arg9 V0)
theorem val17_main_arg10 (V0 : Valuation τ sig (Elt F)) : val17 V0 (Proc.devRef .tc main_arg10) = V0 (Proc.devRef .tc main_arg10) :=
  (val17_keep V0 main_arg10 (by decide)).trans (val16_main_arg10 V0)
theorem val17_main_arg11 (V0 : Valuation τ sig (Elt F)) : val17 V0 (Proc.devRef .tc main_arg11) = V0 (Proc.devRef .tc main_arg11) :=
  (val17_keep V0 main_arg11 (by decide)).trans (val16_main_arg11 V0)
theorem val17_main_arg12 (V0 : Valuation τ sig (Elt F)) : val17 V0 (Proc.devRef .tc main_arg12) = V0 (Proc.devRef .tc main_arg12) :=
  (val17_keep V0 main_arg12 (by decide)).trans (val16_main_arg12 V0)
theorem val17_main_arg13 (V0 : Valuation τ sig (Elt F)) : val17 V0 (Proc.devRef .tc main_arg13) = V0 (Proc.devRef .tc main_arg13) :=
  (val17_keep V0 main_arg13 (by decide)).trans (val16_main_arg13 V0)
theorem val17_main_v3 (V0 : Valuation τ sig (Elt F)) : val17 V0 (Proc.devRef .tc main_v3) = src (V0 (Proc.devRef .tc main_arg13)) :=
  (val17_keep V0 main_v3 (by decide)).trans (val16_main_v3 V0)
theorem val17_main_v6 (V0 : Valuation τ sig (Elt F)) : val17 V0 (Proc.devRef .tc main_v6) = dst (V0 (Proc.devRef .tc main_arg13)) :=
  (val17_keep V0 main_v6 (by decide)).trans (val16_main_v6 V0)
theorem val17_main_v28 (V0 : Valuation τ sig (Elt F)) : val17 V0 (Proc.devRef .tc main_v28) = norm (V0 (Proc.devRef .tc main_arg13)) :=
  (val17_keep V0 main_v28 (by decide)).trans (val16_main_v28 V0)
theorem val17_main_v102 (V0 : Valuation τ sig (Elt F)) : val17 V0 (Proc.devRef .tc main_v102) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13)) :=
  (val17_keep V0 main_v102 (by decide)).trans (val16_main_v102 V0)
theorem val17_main_v103 (V0 : Valuation τ sig (Elt F)) : val17 V0 (Proc.devRef .tc main_v103) = dotC (h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13))) (V0 (Proc.devRef .tc main_arg9)) := by
  unfold val17
  rw [opsDotMu_main_v103, val16_main_v102, val16_main_arg9]

/-- The contents after the first 18 stretches. -/
def val18 (V0 : Valuation τ sig (Elt F)) : Valuation τ sig (Elt F) := after opsAggMu (val17 V0)
theorem val18_keep (V0 : Valuation τ sig (Elt F)) (r : Ref sig .tc) (h : r ∉ opsAggMu_W) :
    val18 V0 (Proc.devRef .tc r) = val17 V0 (Proc.devRef .tc r) :=
  after_of_writes_sub opsAggMu _ opsAggMu_writes h
theorem val18_main_arg0 (V0 : Valuation τ sig (Elt F)) : val18 V0 (Proc.devRef .tc main_arg0) = V0 (Proc.devRef .tc main_arg0) :=
  (val18_keep V0 main_arg0 (by decide)).trans (val17_main_arg0 V0)
theorem val18_main_arg1 (V0 : Valuation τ sig (Elt F)) : val18 V0 (Proc.devRef .tc main_arg1) = V0 (Proc.devRef .tc main_arg1) :=
  (val18_keep V0 main_arg1 (by decide)).trans (val17_main_arg1 V0)
theorem val18_main_arg2 (V0 : Valuation τ sig (Elt F)) : val18 V0 (Proc.devRef .tc main_arg2) = V0 (Proc.devRef .tc main_arg2) :=
  (val18_keep V0 main_arg2 (by decide)).trans (val17_main_arg2 V0)
theorem val18_main_arg3 (V0 : Valuation τ sig (Elt F)) : val18 V0 (Proc.devRef .tc main_arg3) = V0 (Proc.devRef .tc main_arg3) :=
  (val18_keep V0 main_arg3 (by decide)).trans (val17_main_arg3 V0)
theorem val18_main_arg4 (V0 : Valuation τ sig (Elt F)) : val18 V0 (Proc.devRef .tc main_arg4) = V0 (Proc.devRef .tc main_arg4) :=
  (val18_keep V0 main_arg4 (by decide)).trans (val17_main_arg4 V0)
theorem val18_main_arg5 (V0 : Valuation τ sig (Elt F)) : val18 V0 (Proc.devRef .tc main_arg5) = V0 (Proc.devRef .tc main_arg5) :=
  (val18_keep V0 main_arg5 (by decide)).trans (val17_main_arg5 V0)
theorem val18_main_arg6 (V0 : Valuation τ sig (Elt F)) : val18 V0 (Proc.devRef .tc main_arg6) = V0 (Proc.devRef .tc main_arg6) :=
  (val18_keep V0 main_arg6 (by decide)).trans (val17_main_arg6 V0)
theorem val18_main_arg7 (V0 : Valuation τ sig (Elt F)) : val18 V0 (Proc.devRef .tc main_arg7) = V0 (Proc.devRef .tc main_arg7) :=
  (val18_keep V0 main_arg7 (by decide)).trans (val17_main_arg7 V0)
theorem val18_main_arg8 (V0 : Valuation τ sig (Elt F)) : val18 V0 (Proc.devRef .tc main_arg8) = V0 (Proc.devRef .tc main_arg8) :=
  (val18_keep V0 main_arg8 (by decide)).trans (val17_main_arg8 V0)
theorem val18_main_arg9 (V0 : Valuation τ sig (Elt F)) : val18 V0 (Proc.devRef .tc main_arg9) = V0 (Proc.devRef .tc main_arg9) :=
  (val18_keep V0 main_arg9 (by decide)).trans (val17_main_arg9 V0)
theorem val18_main_arg10 (V0 : Valuation τ sig (Elt F)) : val18 V0 (Proc.devRef .tc main_arg10) = V0 (Proc.devRef .tc main_arg10) :=
  (val18_keep V0 main_arg10 (by decide)).trans (val17_main_arg10 V0)
theorem val18_main_arg11 (V0 : Valuation τ sig (Elt F)) : val18 V0 (Proc.devRef .tc main_arg11) = V0 (Proc.devRef .tc main_arg11) :=
  (val18_keep V0 main_arg11 (by decide)).trans (val17_main_arg11 V0)
theorem val18_main_arg12 (V0 : Valuation τ sig (Elt F)) : val18 V0 (Proc.devRef .tc main_arg12) = V0 (Proc.devRef .tc main_arg12) :=
  (val18_keep V0 main_arg12 (by decide)).trans (val17_main_arg12 V0)
theorem val18_main_arg13 (V0 : Valuation τ sig (Elt F)) : val18 V0 (Proc.devRef .tc main_arg13) = V0 (Proc.devRef .tc main_arg13) :=
  (val18_keep V0 main_arg13 (by decide)).trans (val17_main_arg13 V0)
theorem val18_main_v3 (V0 : Valuation τ sig (Elt F)) : val18 V0 (Proc.devRef .tc main_v3) = src (V0 (Proc.devRef .tc main_arg13)) :=
  (val18_keep V0 main_v3 (by decide)).trans (val17_main_v3 V0)
theorem val18_main_v6 (V0 : Valuation τ sig (Elt F)) : val18 V0 (Proc.devRef .tc main_v6) = dst (V0 (Proc.devRef .tc main_arg13)) :=
  (val18_keep V0 main_v6 (by decide)).trans (val17_main_v6 V0)
theorem val18_main_v28 (V0 : Valuation τ sig (Elt F)) : val18 V0 (Proc.devRef .tc main_v28) = norm (V0 (Proc.devRef .tc main_arg13)) :=
  (val18_keep V0 main_v28 (by decide)).trans (val17_main_v28 V0)
theorem val18_main_v102 (V0 : Valuation τ sig (Elt F)) : val18 V0 (Proc.devRef .tc main_v102) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13)) :=
  (val18_keep V0 main_v102 (by decide)).trans (val17_main_v102 V0)
theorem val18_main_v116 (V0 : Valuation τ sig (Elt F)) : val18 V0 (Proc.devRef .tc main_v116) = agg64 (V0 (Proc.devRef .tc main_arg13)) (dotC (h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13))) (V0 (Proc.devRef .tc main_arg9))) := by
  unfold val18
  rw [opsAggMu_main_v116, val17_main_v3, val17_main_v6, val17_main_v28, val17_main_v103]
  rfl

/-- The contents after the first 19 stretches. -/
def val19 (V0 : Valuation τ sig (Elt F)) : Valuation τ sig (Elt F) := after opsBiasMu (val18 V0)
theorem val19_keep (V0 : Valuation τ sig (Elt F)) (r : Ref sig .tc) (h : r ∉ opsBiasMu_W) :
    val19 V0 (Proc.devRef .tc r) = val18 V0 (Proc.devRef .tc r) :=
  after_of_writes_sub opsBiasMu _ opsBiasMu_writes h
theorem val19_main_arg0 (V0 : Valuation τ sig (Elt F)) : val19 V0 (Proc.devRef .tc main_arg0) = V0 (Proc.devRef .tc main_arg0) :=
  (val19_keep V0 main_arg0 (by decide)).trans (val18_main_arg0 V0)
theorem val19_main_arg1 (V0 : Valuation τ sig (Elt F)) : val19 V0 (Proc.devRef .tc main_arg1) = V0 (Proc.devRef .tc main_arg1) :=
  (val19_keep V0 main_arg1 (by decide)).trans (val18_main_arg1 V0)
theorem val19_main_arg2 (V0 : Valuation τ sig (Elt F)) : val19 V0 (Proc.devRef .tc main_arg2) = V0 (Proc.devRef .tc main_arg2) :=
  (val19_keep V0 main_arg2 (by decide)).trans (val18_main_arg2 V0)
theorem val19_main_arg3 (V0 : Valuation τ sig (Elt F)) : val19 V0 (Proc.devRef .tc main_arg3) = V0 (Proc.devRef .tc main_arg3) :=
  (val19_keep V0 main_arg3 (by decide)).trans (val18_main_arg3 V0)
theorem val19_main_arg4 (V0 : Valuation τ sig (Elt F)) : val19 V0 (Proc.devRef .tc main_arg4) = V0 (Proc.devRef .tc main_arg4) :=
  (val19_keep V0 main_arg4 (by decide)).trans (val18_main_arg4 V0)
theorem val19_main_arg5 (V0 : Valuation τ sig (Elt F)) : val19 V0 (Proc.devRef .tc main_arg5) = V0 (Proc.devRef .tc main_arg5) :=
  (val19_keep V0 main_arg5 (by decide)).trans (val18_main_arg5 V0)
theorem val19_main_arg6 (V0 : Valuation τ sig (Elt F)) : val19 V0 (Proc.devRef .tc main_arg6) = V0 (Proc.devRef .tc main_arg6) :=
  (val19_keep V0 main_arg6 (by decide)).trans (val18_main_arg6 V0)
theorem val19_main_arg7 (V0 : Valuation τ sig (Elt F)) : val19 V0 (Proc.devRef .tc main_arg7) = V0 (Proc.devRef .tc main_arg7) :=
  (val19_keep V0 main_arg7 (by decide)).trans (val18_main_arg7 V0)
theorem val19_main_arg8 (V0 : Valuation τ sig (Elt F)) : val19 V0 (Proc.devRef .tc main_arg8) = V0 (Proc.devRef .tc main_arg8) :=
  (val19_keep V0 main_arg8 (by decide)).trans (val18_main_arg8 V0)
theorem val19_main_arg9 (V0 : Valuation τ sig (Elt F)) : val19 V0 (Proc.devRef .tc main_arg9) = V0 (Proc.devRef .tc main_arg9) :=
  (val19_keep V0 main_arg9 (by decide)).trans (val18_main_arg9 V0)
theorem val19_main_arg10 (V0 : Valuation τ sig (Elt F)) : val19 V0 (Proc.devRef .tc main_arg10) = V0 (Proc.devRef .tc main_arg10) :=
  (val19_keep V0 main_arg10 (by decide)).trans (val18_main_arg10 V0)
theorem val19_main_arg11 (V0 : Valuation τ sig (Elt F)) : val19 V0 (Proc.devRef .tc main_arg11) = V0 (Proc.devRef .tc main_arg11) :=
  (val19_keep V0 main_arg11 (by decide)).trans (val18_main_arg11 V0)
theorem val19_main_arg12 (V0 : Valuation τ sig (Elt F)) : val19 V0 (Proc.devRef .tc main_arg12) = V0 (Proc.devRef .tc main_arg12) :=
  (val19_keep V0 main_arg12 (by decide)).trans (val18_main_arg12 V0)
theorem val19_main_arg13 (V0 : Valuation τ sig (Elt F)) : val19 V0 (Proc.devRef .tc main_arg13) = V0 (Proc.devRef .tc main_arg13) :=
  (val19_keep V0 main_arg13 (by decide)).trans (val18_main_arg13 V0)
theorem val19_main_v3 (V0 : Valuation τ sig (Elt F)) : val19 V0 (Proc.devRef .tc main_v3) = src (V0 (Proc.devRef .tc main_arg13)) :=
  (val19_keep V0 main_v3 (by decide)).trans (val18_main_v3 V0)
theorem val19_main_v6 (V0 : Valuation τ sig (Elt F)) : val19 V0 (Proc.devRef .tc main_v6) = dst (V0 (Proc.devRef .tc main_arg13)) :=
  (val19_keep V0 main_v6 (by decide)).trans (val18_main_v6 V0)
theorem val19_main_v28 (V0 : Valuation τ sig (Elt F)) : val19 V0 (Proc.devRef .tc main_v28) = norm (V0 (Proc.devRef .tc main_arg13)) :=
  (val19_keep V0 main_v28 (by decide)).trans (val18_main_v28 V0)
theorem val19_main_v102 (V0 : Valuation τ sig (Elt F)) : val19 V0 (Proc.devRef .tc main_v102) = h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13)) :=
  (val19_keep V0 main_v102 (by decide)).trans (val18_main_v102 V0)
theorem val19_main_v119 (V0 : Valuation τ sig (Elt F)) : val19 V0 (Proc.devRef .tc main_v119) = mu (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg13)) := by
  unfold val19
  rw [opsBiasMu_main_v119, val18_main_v116, val18_main_arg10]
  rfl

/-- The contents after the first 20 stretches. -/
def val20 (V0 : Valuation τ sig (Elt F)) : Valuation τ sig (Elt F) := after opsDotLs (val19 V0)
theorem val20_keep (V0 : Valuation τ sig (Elt F)) (r : Ref sig .tc) (h : r ∉ opsDotLs_W) :
    val20 V0 (Proc.devRef .tc r) = val19 V0 (Proc.devRef .tc r) :=
  after_of_writes_sub opsDotLs _ opsDotLs_writes h
theorem val20_main_arg0 (V0 : Valuation τ sig (Elt F)) : val20 V0 (Proc.devRef .tc main_arg0) = V0 (Proc.devRef .tc main_arg0) :=
  (val20_keep V0 main_arg0 (by decide)).trans (val19_main_arg0 V0)
theorem val20_main_arg1 (V0 : Valuation τ sig (Elt F)) : val20 V0 (Proc.devRef .tc main_arg1) = V0 (Proc.devRef .tc main_arg1) :=
  (val20_keep V0 main_arg1 (by decide)).trans (val19_main_arg1 V0)
theorem val20_main_arg2 (V0 : Valuation τ sig (Elt F)) : val20 V0 (Proc.devRef .tc main_arg2) = V0 (Proc.devRef .tc main_arg2) :=
  (val20_keep V0 main_arg2 (by decide)).trans (val19_main_arg2 V0)
theorem val20_main_arg3 (V0 : Valuation τ sig (Elt F)) : val20 V0 (Proc.devRef .tc main_arg3) = V0 (Proc.devRef .tc main_arg3) :=
  (val20_keep V0 main_arg3 (by decide)).trans (val19_main_arg3 V0)
theorem val20_main_arg4 (V0 : Valuation τ sig (Elt F)) : val20 V0 (Proc.devRef .tc main_arg4) = V0 (Proc.devRef .tc main_arg4) :=
  (val20_keep V0 main_arg4 (by decide)).trans (val19_main_arg4 V0)
theorem val20_main_arg5 (V0 : Valuation τ sig (Elt F)) : val20 V0 (Proc.devRef .tc main_arg5) = V0 (Proc.devRef .tc main_arg5) :=
  (val20_keep V0 main_arg5 (by decide)).trans (val19_main_arg5 V0)
theorem val20_main_arg6 (V0 : Valuation τ sig (Elt F)) : val20 V0 (Proc.devRef .tc main_arg6) = V0 (Proc.devRef .tc main_arg6) :=
  (val20_keep V0 main_arg6 (by decide)).trans (val19_main_arg6 V0)
theorem val20_main_arg7 (V0 : Valuation τ sig (Elt F)) : val20 V0 (Proc.devRef .tc main_arg7) = V0 (Proc.devRef .tc main_arg7) :=
  (val20_keep V0 main_arg7 (by decide)).trans (val19_main_arg7 V0)
theorem val20_main_arg8 (V0 : Valuation τ sig (Elt F)) : val20 V0 (Proc.devRef .tc main_arg8) = V0 (Proc.devRef .tc main_arg8) :=
  (val20_keep V0 main_arg8 (by decide)).trans (val19_main_arg8 V0)
theorem val20_main_arg9 (V0 : Valuation τ sig (Elt F)) : val20 V0 (Proc.devRef .tc main_arg9) = V0 (Proc.devRef .tc main_arg9) :=
  (val20_keep V0 main_arg9 (by decide)).trans (val19_main_arg9 V0)
theorem val20_main_arg10 (V0 : Valuation τ sig (Elt F)) : val20 V0 (Proc.devRef .tc main_arg10) = V0 (Proc.devRef .tc main_arg10) :=
  (val20_keep V0 main_arg10 (by decide)).trans (val19_main_arg10 V0)
theorem val20_main_arg11 (V0 : Valuation τ sig (Elt F)) : val20 V0 (Proc.devRef .tc main_arg11) = V0 (Proc.devRef .tc main_arg11) :=
  (val20_keep V0 main_arg11 (by decide)).trans (val19_main_arg11 V0)
theorem val20_main_arg12 (V0 : Valuation τ sig (Elt F)) : val20 V0 (Proc.devRef .tc main_arg12) = V0 (Proc.devRef .tc main_arg12) :=
  (val20_keep V0 main_arg12 (by decide)).trans (val19_main_arg12 V0)
theorem val20_main_arg13 (V0 : Valuation τ sig (Elt F)) : val20 V0 (Proc.devRef .tc main_arg13) = V0 (Proc.devRef .tc main_arg13) :=
  (val20_keep V0 main_arg13 (by decide)).trans (val19_main_arg13 V0)
theorem val20_main_v3 (V0 : Valuation τ sig (Elt F)) : val20 V0 (Proc.devRef .tc main_v3) = src (V0 (Proc.devRef .tc main_arg13)) :=
  (val20_keep V0 main_v3 (by decide)).trans (val19_main_v3 V0)
theorem val20_main_v6 (V0 : Valuation τ sig (Elt F)) : val20 V0 (Proc.devRef .tc main_v6) = dst (V0 (Proc.devRef .tc main_arg13)) :=
  (val20_keep V0 main_v6 (by decide)).trans (val19_main_v6 V0)
theorem val20_main_v28 (V0 : Valuation τ sig (Elt F)) : val20 V0 (Proc.devRef .tc main_v28) = norm (V0 (Proc.devRef .tc main_arg13)) :=
  (val20_keep V0 main_v28 (by decide)).trans (val19_main_v28 V0)
theorem val20_main_v119 (V0 : Valuation τ sig (Elt F)) : val20 V0 (Proc.devRef .tc main_v119) = mu (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg13)) :=
  (val20_keep V0 main_v119 (by decide)).trans (val19_main_v119 V0)
theorem val20_main_v120 (V0 : Valuation τ sig (Elt F)) : val20 V0 (Proc.devRef .tc main_v120) = dotC (h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13))) (V0 (Proc.devRef .tc main_arg11)) := by
  unfold val20
  rw [opsDotLs_main_v120, val19_main_v102, val19_main_arg11]

/-- The contents after the first 21 stretches. -/
def val21 (V0 : Valuation τ sig (Elt F)) : Valuation τ sig (Elt F) := after opsAggLs (val20 V0)
theorem val21_keep (V0 : Valuation τ sig (Elt F)) (r : Ref sig .tc) (h : r ∉ opsAggLs_W) :
    val21 V0 (Proc.devRef .tc r) = val20 V0 (Proc.devRef .tc r) :=
  after_of_writes_sub opsAggLs _ opsAggLs_writes h
theorem val21_main_arg0 (V0 : Valuation τ sig (Elt F)) : val21 V0 (Proc.devRef .tc main_arg0) = V0 (Proc.devRef .tc main_arg0) :=
  (val21_keep V0 main_arg0 (by decide)).trans (val20_main_arg0 V0)
theorem val21_main_arg1 (V0 : Valuation τ sig (Elt F)) : val21 V0 (Proc.devRef .tc main_arg1) = V0 (Proc.devRef .tc main_arg1) :=
  (val21_keep V0 main_arg1 (by decide)).trans (val20_main_arg1 V0)
theorem val21_main_arg2 (V0 : Valuation τ sig (Elt F)) : val21 V0 (Proc.devRef .tc main_arg2) = V0 (Proc.devRef .tc main_arg2) :=
  (val21_keep V0 main_arg2 (by decide)).trans (val20_main_arg2 V0)
theorem val21_main_arg3 (V0 : Valuation τ sig (Elt F)) : val21 V0 (Proc.devRef .tc main_arg3) = V0 (Proc.devRef .tc main_arg3) :=
  (val21_keep V0 main_arg3 (by decide)).trans (val20_main_arg3 V0)
theorem val21_main_arg4 (V0 : Valuation τ sig (Elt F)) : val21 V0 (Proc.devRef .tc main_arg4) = V0 (Proc.devRef .tc main_arg4) :=
  (val21_keep V0 main_arg4 (by decide)).trans (val20_main_arg4 V0)
theorem val21_main_arg5 (V0 : Valuation τ sig (Elt F)) : val21 V0 (Proc.devRef .tc main_arg5) = V0 (Proc.devRef .tc main_arg5) :=
  (val21_keep V0 main_arg5 (by decide)).trans (val20_main_arg5 V0)
theorem val21_main_arg6 (V0 : Valuation τ sig (Elt F)) : val21 V0 (Proc.devRef .tc main_arg6) = V0 (Proc.devRef .tc main_arg6) :=
  (val21_keep V0 main_arg6 (by decide)).trans (val20_main_arg6 V0)
theorem val21_main_arg7 (V0 : Valuation τ sig (Elt F)) : val21 V0 (Proc.devRef .tc main_arg7) = V0 (Proc.devRef .tc main_arg7) :=
  (val21_keep V0 main_arg7 (by decide)).trans (val20_main_arg7 V0)
theorem val21_main_arg8 (V0 : Valuation τ sig (Elt F)) : val21 V0 (Proc.devRef .tc main_arg8) = V0 (Proc.devRef .tc main_arg8) :=
  (val21_keep V0 main_arg8 (by decide)).trans (val20_main_arg8 V0)
theorem val21_main_arg9 (V0 : Valuation τ sig (Elt F)) : val21 V0 (Proc.devRef .tc main_arg9) = V0 (Proc.devRef .tc main_arg9) :=
  (val21_keep V0 main_arg9 (by decide)).trans (val20_main_arg9 V0)
theorem val21_main_arg10 (V0 : Valuation τ sig (Elt F)) : val21 V0 (Proc.devRef .tc main_arg10) = V0 (Proc.devRef .tc main_arg10) :=
  (val21_keep V0 main_arg10 (by decide)).trans (val20_main_arg10 V0)
theorem val21_main_arg11 (V0 : Valuation τ sig (Elt F)) : val21 V0 (Proc.devRef .tc main_arg11) = V0 (Proc.devRef .tc main_arg11) :=
  (val21_keep V0 main_arg11 (by decide)).trans (val20_main_arg11 V0)
theorem val21_main_arg12 (V0 : Valuation τ sig (Elt F)) : val21 V0 (Proc.devRef .tc main_arg12) = V0 (Proc.devRef .tc main_arg12) :=
  (val21_keep V0 main_arg12 (by decide)).trans (val20_main_arg12 V0)
theorem val21_main_arg13 (V0 : Valuation τ sig (Elt F)) : val21 V0 (Proc.devRef .tc main_arg13) = V0 (Proc.devRef .tc main_arg13) :=
  (val21_keep V0 main_arg13 (by decide)).trans (val20_main_arg13 V0)
theorem val21_main_v119 (V0 : Valuation τ sig (Elt F)) : val21 V0 (Proc.devRef .tc main_v119) = mu (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg13)) :=
  (val21_keep V0 main_v119 (by decide)).trans (val20_main_v119 V0)
theorem val21_main_v133 (V0 : Valuation τ sig (Elt F)) : val21 V0 (Proc.devRef .tc main_v133) = agg64 (V0 (Proc.devRef .tc main_arg13)) (dotC (h2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg13))) (V0 (Proc.devRef .tc main_arg11))) := by
  unfold val21
  rw [opsAggLs_main_v133, val20_main_v3, val20_main_v6, val20_main_v28, val20_main_v120]
  rfl

/-- The contents after the first 22 stretches. -/
def val22 (V0 : Valuation τ sig (Elt F)) : Valuation τ sig (Elt F) := after opsBiasLs (val21 V0)
theorem val22_keep (V0 : Valuation τ sig (Elt F)) (r : Ref sig .tc) (h : r ∉ opsBiasLs_W) :
    val22 V0 (Proc.devRef .tc r) = val21 V0 (Proc.devRef .tc r) :=
  after_of_writes_sub opsBiasLs _ opsBiasLs_writes h
theorem val22_main_arg0 (V0 : Valuation τ sig (Elt F)) : val22 V0 (Proc.devRef .tc main_arg0) = V0 (Proc.devRef .tc main_arg0) :=
  (val22_keep V0 main_arg0 (by decide)).trans (val21_main_arg0 V0)
theorem val22_main_arg1 (V0 : Valuation τ sig (Elt F)) : val22 V0 (Proc.devRef .tc main_arg1) = V0 (Proc.devRef .tc main_arg1) :=
  (val22_keep V0 main_arg1 (by decide)).trans (val21_main_arg1 V0)
theorem val22_main_arg2 (V0 : Valuation τ sig (Elt F)) : val22 V0 (Proc.devRef .tc main_arg2) = V0 (Proc.devRef .tc main_arg2) :=
  (val22_keep V0 main_arg2 (by decide)).trans (val21_main_arg2 V0)
theorem val22_main_arg3 (V0 : Valuation τ sig (Elt F)) : val22 V0 (Proc.devRef .tc main_arg3) = V0 (Proc.devRef .tc main_arg3) :=
  (val22_keep V0 main_arg3 (by decide)).trans (val21_main_arg3 V0)
theorem val22_main_arg4 (V0 : Valuation τ sig (Elt F)) : val22 V0 (Proc.devRef .tc main_arg4) = V0 (Proc.devRef .tc main_arg4) :=
  (val22_keep V0 main_arg4 (by decide)).trans (val21_main_arg4 V0)
theorem val22_main_arg5 (V0 : Valuation τ sig (Elt F)) : val22 V0 (Proc.devRef .tc main_arg5) = V0 (Proc.devRef .tc main_arg5) :=
  (val22_keep V0 main_arg5 (by decide)).trans (val21_main_arg5 V0)
theorem val22_main_arg6 (V0 : Valuation τ sig (Elt F)) : val22 V0 (Proc.devRef .tc main_arg6) = V0 (Proc.devRef .tc main_arg6) :=
  (val22_keep V0 main_arg6 (by decide)).trans (val21_main_arg6 V0)
theorem val22_main_arg7 (V0 : Valuation τ sig (Elt F)) : val22 V0 (Proc.devRef .tc main_arg7) = V0 (Proc.devRef .tc main_arg7) :=
  (val22_keep V0 main_arg7 (by decide)).trans (val21_main_arg7 V0)
theorem val22_main_arg8 (V0 : Valuation τ sig (Elt F)) : val22 V0 (Proc.devRef .tc main_arg8) = V0 (Proc.devRef .tc main_arg8) :=
  (val22_keep V0 main_arg8 (by decide)).trans (val21_main_arg8 V0)
theorem val22_main_arg9 (V0 : Valuation τ sig (Elt F)) : val22 V0 (Proc.devRef .tc main_arg9) = V0 (Proc.devRef .tc main_arg9) :=
  (val22_keep V0 main_arg9 (by decide)).trans (val21_main_arg9 V0)
theorem val22_main_arg10 (V0 : Valuation τ sig (Elt F)) : val22 V0 (Proc.devRef .tc main_arg10) = V0 (Proc.devRef .tc main_arg10) :=
  (val22_keep V0 main_arg10 (by decide)).trans (val21_main_arg10 V0)
theorem val22_main_arg11 (V0 : Valuation τ sig (Elt F)) : val22 V0 (Proc.devRef .tc main_arg11) = V0 (Proc.devRef .tc main_arg11) :=
  (val22_keep V0 main_arg11 (by decide)).trans (val21_main_arg11 V0)
theorem val22_main_arg12 (V0 : Valuation τ sig (Elt F)) : val22 V0 (Proc.devRef .tc main_arg12) = V0 (Proc.devRef .tc main_arg12) :=
  (val22_keep V0 main_arg12 (by decide)).trans (val21_main_arg12 V0)
theorem val22_main_arg13 (V0 : Valuation τ sig (Elt F)) : val22 V0 (Proc.devRef .tc main_arg13) = V0 (Proc.devRef .tc main_arg13) :=
  (val22_keep V0 main_arg13 (by decide)).trans (val21_main_arg13 V0)
theorem val22_main_v119 (V0 : Valuation τ sig (Elt F)) : val22 V0 (Proc.devRef .tc main_v119) = mu (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg13)) :=
  (val22_keep V0 main_v119 (by decide)).trans (val21_main_v119 V0)
theorem val22_main_v136 (V0 : Valuation τ sig (Elt F)) : val22 V0 (Proc.devRef .tc main_v136) = ls (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) := by
  unfold val22
  rw [opsBiasLs_main_v136, val21_main_v133, val21_main_arg12]
  rfl

/-- The whole list's contents are the last stretch's. -/
theorem after_ops (V0 : Valuation τ sig (Elt F)) : after ops V0 = val22 V0 := by
  simp only [ops, ops0, ops1, ops2, after_app]
  rfl

/-- On every device, for any float values, from any memory with zero counters: every weakly fair execution of @main
    terminates with the two results at the mean head and the log-deviation head of the argument arrays, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13))
      ∧ r.2.mem ((c.tc : Thread nD τ).loc main_v136) = ls (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v119).trans ((congrFun (after_ops _) _).trans (val22_main_v119 (launchContents m c))),
      (h c main_v136).trans ((congrFun (after_ops _) _).trans (val22_main_v136 (launchContents m c))),
      (h c main_arg0).trans ((congrFun (after_ops _) _).trans (val22_main_arg0 (launchContents m c))),
      (h c main_arg1).trans ((congrFun (after_ops _) _).trans (val22_main_arg1 (launchContents m c))),
      (h c main_arg2).trans ((congrFun (after_ops _) _).trans (val22_main_arg2 (launchContents m c))),
      (h c main_arg3).trans ((congrFun (after_ops _) _).trans (val22_main_arg3 (launchContents m c))),
      (h c main_arg4).trans ((congrFun (after_ops _) _).trans (val22_main_arg4 (launchContents m c))),
      (h c main_arg5).trans ((congrFun (after_ops _) _).trans (val22_main_arg5 (launchContents m c))),
      (h c main_arg6).trans ((congrFun (after_ops _) _).trans (val22_main_arg6 (launchContents m c))),
      (h c main_arg7).trans ((congrFun (after_ops _) _).trans (val22_main_arg7 (launchContents m c))),
      (h c main_arg8).trans ((congrFun (after_ops _) _).trans (val22_main_arg8 (launchContents m c))),
      (h c main_arg9).trans ((congrFun (after_ops _) _).trans (val22_main_arg9 (launchContents m c))),
      (h c main_arg10).trans ((congrFun (after_ops _) _).trans (val22_main_arg10 (launchContents m c))),
      (h c main_arg11).trans ((congrFun (after_ops _) _).trans (val22_main_arg11 (launchContents m c))),
      (h c main_arg12).trans ((congrFun (after_ops _) _).trans (val22_main_arg12 (launchContents m c))),
      (h c main_arg13).trans ((congrFun (after_ops _) _).trans (val22_main_arg13 (launchContents m c)))⟩)
    (run_main m ρ)

end Cert.ReferenceIdeal.RefValue

end
-- ==== Proof.LibBnFold.lean ====
import Mathlib
import Idealize.ShloMosaic.PureOps.Ideal
import Idealize.ShloMosaic.PureOps.Ideal.Laws

/-!
  Three facts about extended reals that are REAL NUMBERS, for folding an affine normalisation
  ((x - mean) * scale + shift) into a matrix product: the fold itself is a ring identity once every factor is
  real; a finite sum of products of reals is real; and a real numerator over the square root of a
  nonnegative real plus a positive constant is real.
-/

noncomputable section

namespace Cert.LibBnFold

open Idealize.ShloMosaic
open scoped BigOperators

/-- For real w, b, mn, s, bet the normalised sum ((w + b) - mn) * s + bet splits as
    w * s + (b * s + (bet - mn * s)): a ring identity in ℝ, carried to the extended reals by the
    coercion's additivity and multiplicativity (it fails at the infinities, where EReal is not a ring). -/
theorem bn_fold {w b mn s bet : EReal} (hw : ∃ r : ℝ, w = (r : EReal)) (hb : ∃ r : ℝ, b = (r : EReal))
    (hmn : ∃ r : ℝ, mn = (r : EReal)) (hs : ∃ r : ℝ, s = (r : EReal)) (hbet : ∃ r : ℝ, bet = (r : EReal)) :
    ((w + b) - mn) * s + bet = w * s + (b * s + (bet - mn * s)) := by
  obtain ⟨w, rfl⟩ := hw
  obtain ⟨b, rfl⟩ := hb
  obtain ⟨mn, rfl⟩ := hmn
  obtain ⟨s, rfl⟩ := hs
  obtain ⟨bet, rfl⟩ := hbet
  rw [← EReal.coe_add, ← EReal.coe_sub, ← EReal.coe_mul, ← EReal.coe_add,
    ← EReal.coe_mul, ← EReal.coe_mul, ← EReal.coe_mul, ← EReal.coe_sub, ← EReal.coe_add, ← EReal.coe_add]
  congr 1
  ring

/-- A finite sum of products of real numbers, taken in the extended reals, is a real number
    (induction on the finite index set: the empty sum is 0, and a real plus a real is real). -/
theorem sum_mul_real {K : Type} [Fintype K] (f g : K → EReal) (hf : ∀ k, ∃ r : ℝ, f k = (r : EReal))
    (hg : ∀ k, ∃ r : ℝ, g k = (r : EReal)) : ∃ r : ℝ, (∑ k, f k * g k) = (r : EReal) := by
  classical
  have key : ∀ t : Finset K, ∃ r : ℝ, (∑ k ∈ t, f k * g k) = (r : EReal) := by
    intro t
    induction t using Finset.induction_on with
    | empty => exact ⟨0, by rw [Finset.sum_empty, EReal.coe_zero]⟩
    | insert a t ha ih =>
      obtain ⟨r, hr⟩ := ih
      obtain ⟨x, hx⟩ := hf a
      obtain ⟨y, hy⟩ := hg a
      exact ⟨x * y + r, by rw [Finset.sum_insert ha, hr, hx, hy, ← EReal.coe_mul, ← EReal.coe_add]⟩
  exact key Finset.univ

/-- The f32 word 0x3727C5AC (about 1e-5) denotes a real number: sign 0, biased exponent 110 and
    fraction 2606508, so the normal value (2^23 + 2606508) * 2^(110 - 127 - 23) = 10995116 * 2^(-40). -/
theorem eps_val : Ideal.ofBits .f32 0x3727C5AC#32 = (((10995116 : ℝ) * (2 : ℝ) ^ (-40 : ℤ) : ℝ) : EReal) := by
  simp [Ideal.ofBits, Ideal.ieee, -EReal.coe_mul]

/-- That real number is positive. -/
theorem eps_pos_real : ∃ e : ℝ, 0 < e ∧ Ideal.ofBits .f32 0x3727C5AC#32 = (e : EReal) :=
  ⟨(10995116 : ℝ) * (2 : ℝ) ^ (-40 : ℤ), by positivity, eps_val⟩

/-- A real g divided by the square root of v + ε, for a real v ≥ 0 and the positive constant ε the word
    0x3727C5AC denotes, is a real number: v + ε is a positive real, so its square root is a positive real,
    and the quotient by a nonzero real is the product with its reciprocal. -/
theorem scale_real {g v : EReal} (hg : ∃ r : ℝ, g = (r : EReal)) (hv : ∃ r : ℝ, v = (r : EReal)) (hv0 : (0 : EReal) ≤ v) :
    ∃ r : ℝ, Ideal.div g (Ideal.sqrt (v + Ideal.ofBits .f32 0x3727C5AC#32)) = (r : EReal) := by
  obtain ⟨g, rfl⟩ := hg
  obtain ⟨v, rfl⟩ := hv
  obtain ⟨e, he, hE⟩ := eps_pos_real
  have hv' : (0 : ℝ) ≤ v := EReal.coe_nonneg.mp hv0
  have hpos : (0 : ℝ) < v + e := by linarith
  rw [hE, ← EReal.coe_add, Ideal.sqrt_coe, if_neg (not_lt.mpr hpos.le),
    Ideal.div_coe (Real.sqrt_pos.mpr hpos).ne', ← EReal.coe_mul]
  exact ⟨_, rfl⟩

end Cert.LibBnFold

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.RefBridge.lean ====
/- The reference's stage functions against the kernel side's, at the exact instance (a float an extended real).
   The index vectors, the normalisation and the aggregations are the same operations under two names; a dense product
   is the sum over the contracted axis; a bias spread over the rows is the row added to every row; and a batch
   normalisation over the rows followed by the rectifier is the kernel side's affine normalisation by the column mean
   and the inverse deviation, the variance being the mean of the squared deviations on one side and the mean of the
   squares less the square of the mean on the other: equal on real data. -/
import proofs.«151309_j60756607369296_1_alg».proof.Proof.RefValue
import proofs.«151309_j60756607369296_1_alg».proof.Proof.KStages
import proofs.«151309_j60756607369296_1_alg».proof.Proof.RowFns
import proofs.«151309_j60756607369296_1_alg».proof.Proof.StatFns
import proofs.«151309_j60756607369296_1_alg».proof.Proof.LibPlainDot
import proofs.«151309_j60756607369296_1_alg».proof.Proof.LibAggLinear
import proofs.«151309_j60756607369296_1_alg».proof.Proof.LibBatchMoments
import proofs.«151309_j60756607369296_1_alg».proof.Proof.LibBnFold
import proofs.«151309_j60756607369296_1_alg».proof.Proof.LibBcastChain
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Cert.ReferenceIdeal Cert.ReferenceIdeal.Gen Idealize.ShloMosaic Idealize.ShloMosaic.ValueIdx
open Cert.KernelIdeal (KVal.src KVal.dst KVal.normOf KVal.aggOf128 KVal.aggOf64 KVal.rowOf128 KVal.rowOf64 KVal.meanOf KVal.invstdOf)
open Cert.Lib.PlainDot Cert.Lib.AggLinear Cert.Lib.BcastChain

/-! ## The same operations under two names -/

section Same
variable {F : FTy → Type} [FloatOps F]

attribute [local irreducible] Host.gather Host.scatterAdd concatenate

theorem src_eq (ei : (⟨S2x1600000, .i32⟩ : BufTy).Contents (Elt F)) : RefValue.src ei = Cert.KernelIdeal.KVal.src ei := rfl
theorem dst_eq (ei : (⟨S2x1600000, .i32⟩ : BufTy).Contents (Elt F)) : RefValue.dst ei = Cert.KernelIdeal.KVal.dst ei := rfl
theorem normOf_eq (s d : (⟨S1700000, .i32⟩ : BufTy).Contents (Elt F)) : RefValue.normOf s d = Cert.KernelIdeal.KVal.normOf s d := rfl
theorem aggRows128_eq (s d : (⟨S1700000, .i32⟩ : BufTy).Contents (Elt F)) (n : (⟨S1700000, .f32⟩ : BufTy).Contents (Elt F)) (h : (⟨S100000x128, .f32⟩ : BufTy).Contents (Elt F)) :
    RefValue.aggRows128 s d n h = Cert.KernelIdeal.KVal.aggOf128 s d n h := rfl
theorem aggRows64_eq (s d : (⟨S1700000, .i32⟩ : BufTy).Contents (Elt F)) (n : (⟨S1700000, .f32⟩ : BufTy).Contents (Elt F)) (h : (⟨S100000x64, .f32⟩ : BufTy).Contents (Elt F)) :
    RefValue.aggRows64 s d n h = Cert.KernelIdeal.KVal.aggOf64 s d n h := rfl

end Same

/-! ## The dense products -/

theorem dotA_eq (x : (⟨S100000x256, .f32⟩ : BufTy).Contents (Elt Ideal)) (w : (⟨S256x128, .f32⟩ : BufTy).Contents (Elt Ideal)) :
    RefValue.dotA x w = rowsByCols x w := by
  unfold RefValue.dotA
  exact dotGeneral_eq dot_S100000x256_S256x128_S100000x128_1_0_0_1_n_n rfl none .single x w

theorem dotB_eq (x : (⟨S100000x128, .f32⟩ : BufTy).Contents (Elt Ideal)) (w : (⟨S128x128, .f32⟩ : BufTy).Contents (Elt Ideal)) :
    RefValue.dotB x w = rowsByCols x w := by
  unfold RefValue.dotB
  exact dotGeneral_eq dot_S100000x128_S128x128_S100000x128_1_0_0_1_n_n rfl none .single x w

theorem dotC_eq (x : (⟨S100000x128, .f32⟩ : BufTy).Contents (Elt Ideal)) (w : (⟨S128x64, .f32⟩ : BufTy).Contents (Elt Ideal)) :
    RefValue.dotC x w = rowsByCols x w := by
  unfold RefValue.dotC
  exact dotGeneral_eq dot_S100000x128_S128x64_S100000x64_1_0_0_1_n_n rfl none .single x w

/-! ## The spreads read at an index -/

section Read
variable {α : Type}

/-- A vector as one row, `[c] → [1,c]`, reads at `(0, q)` its entry `q`. -/
theorem toRow_apply {c : ℕ} (b : (⟨1, ![c]⟩ : Shape).Idx → α)
    (h3 : (⟨1, ![c]⟩ : Shape).BroadcastsInDim ⟨2, ![1, c]⟩ ![1]) (q : Fin c) :
    broadcastInDim ⟨2, ![1, c]⟩ ![1] h3 b (ix2 (0 : Fin 1) q) = b (ix1 q) :=
  broadcastInDim_apply ![1] h3 b (ix2 (0 : Fin 1) q) (ix1 q) (fun a => by
    match a with
    | ⟨0, _⟩ =>
      show q.val = if c = 1 then 0 else q.val
      split
      · have := q.isLt; omega
      · rfl)

/-- One row spread over the rows, `[1,c] → [n,c]`, reads at `(p, q)` the row at `(0, q)`. -/
theorem rowOver_apply {n c : ℕ} (v : (⟨2, ![1, c]⟩ : Shape).Idx → α)
    (h4 : (⟨2, ![1, c]⟩ : Shape).BroadcastsInDim ⟨2, ![n, c]⟩ ![0, 1]) (p : Fin n) (q : Fin c) :
    broadcastInDim ⟨2, ![n, c]⟩ ![0, 1] h4 v (ix2 p q) = v (ix2 (0 : Fin 1) q) :=
  broadcastInDim_apply ![0, 1] h4 v (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)

end Read

section ReadF
variable {F : FTy → Type} [FloatOps F]

theorem rows128_apply (v : (⟨S128, .f32⟩ : BufTy).Contents (Elt F)) (p : Fin 100000) (q : Fin 128) :
    RefValue.rows128 v (ix2 p q) = v (ix1 q) :=
  overRows_apply v bcast_S128_S1x128_1 bcast_S1x128_S100000x128_0_1 p q

theorem rows64_apply (v : (⟨S64, .f32⟩ : BufTy).Contents (Elt F)) (p : Fin 100000) (q : Fin 64) :
    RefValue.rows64 v (ix2 p q) = v (ix1 q) :=
  overRows_apply v bcast_S64_S1x64_1 bcast_S1x64_S100000x64_0_1 p q

theorem rowOf128_apply (v : (⟨S128, .f32⟩ : BufTy).Contents (Elt F)) (u : Fin 1) (q : Fin 128) :
    Cert.KernelIdeal.KVal.rowOf128 v (ix2 u q) = v (ix1 q) :=
  shapeCast_a_1a_apply v _ u q

theorem rowOf64_apply (v : (⟨S64, .f32⟩ : BufTy).Contents (Elt F)) (u : Fin 1) (q : Fin 64) :
    Cert.KernelIdeal.KVal.rowOf64 v (ix2 u q) = v (ix1 q) :=
  shapeCast_a_1a_apply v _ u q

end ReadF

/-! ## The bias -/

theorem bias128_apply (G : (⟨S100000x128, .f32⟩ : BufTy).Contents (Elt Ideal)) (b : (⟨S128, .f32⟩ : BufTy).Contents (Elt Ideal)) (p : Fin 100000) (q : Fin 128) :
    RefValue.bias128 G b (ix2 p q) = G (ix2 p q) + b (ix1 q) := by
  show G (ix2 p q) + RefValue.rows128 b (ix2 p q) = _
  rw [rows128_apply]

theorem bias64_apply (G : (⟨S100000x64, .f32⟩ : BufTy).Contents (Elt Ideal)) (b : (⟨S64, .f32⟩ : BufTy).Contents (Elt Ideal)) (p : Fin 100000) (q : Fin 64) :
    RefValue.bias64 G b (ix2 p q) = G (ix2 p q) + b (ix1 q) := by
  show G (ix2 p q) + RefValue.rows64 b (ix2 p q) = _
  rw [rows64_apply]

/-- The bias spread over the rows and added is the one-row matrix added to every row (64 columns). -/
theorem bias64_eq (G : (⟨S100000x64, .f32⟩ : BufTy).Contents (Elt Ideal)) (b : (⟨S64, .f32⟩ : BufTy).Contents (Elt Ideal)) :
    RefValue.bias64 G b = Cert.KernelIdeal.RowFns.addRow G (Cert.KernelIdeal.KVal.rowOf64 b) := by
  funext i
  obtain ⟨p, q, rfl⟩ : ∃ p q, i = ix2 p q := ⟨i 0, i 1, eq_ix2 i⟩
  rw [bias64_apply]
  show _ = G (ix2 p q) + Cert.KernelIdeal.KVal.rowOf64 b (ix2 (0 : Fin 1) q)
  rw [rowOf64_apply]

/-- The same at 128 columns. -/
theorem bias128_eq (G : (⟨S100000x128, .f32⟩ : BufTy).Contents (Elt Ideal)) (b : (⟨S128, .f32⟩ : BufTy).Contents (Elt Ideal)) :
    RefValue.bias128 G b = Cert.KernelIdeal.RowFns.addRow G (Cert.KernelIdeal.KVal.rowOf128 b) := by
  funext i
  obtain ⟨p, q, rfl⟩ : ∃ p q, i = ix2 p q := ⟨i 0, i 1, eq_ix2 i⟩
  rw [bias128_apply]
  show _ = G (ix2 p q) + Cert.KernelIdeal.KVal.rowOf128 b (ix2 (0 : Fin 1) q)
  rw [rowOf128_apply]

/-! ## The column statistics at a column -/

/-- The word 0x47C35000 is the row count. -/
theorem rowCount_val : Ideal.ofBits .f32 0x47C35000#32 = ((100000 : ℝ) : EReal) := by
  simp [Ideal.ofBits, Ideal.ieee, -EReal.coe_mul]; norm_num

/-- The column sums from zero: at column `q`, the sum over the rows. -/
theorem colSum_apply (x : (⟨S100000x128, .f32⟩ : BufTy).Contents (Elt Ideal)) (q : Fin 128) :
    RefValue.colSum x (ix1 q) = ∑ i : Fin 100000, x (ix2 i q) := by
  unfold RefValue.colSum Host.reduceAdd
  show Ideal.hostReduceAdd reducesTo_S100000x128_S128_d0 x (Ideal.ofBits .f32 0x00000000#32) (ix1 q) = _
  rw [Ideal.hostReduceAdd_single reducesTo_S100000x128_S128_d0 (by decide : S100000x128.Reduces [0] S128),
    Ideal.ofBits_zero_f32, zero_add]
  exact Finset.sum_congr rfl fun k _ => congrArg x (funext fun a => Fin.ext (by
    match a with
    | ⟨0, _⟩ => rfl
    | ⟨1, _⟩ => rfl))

/-- The column means: at column `q`, the sum over the rows by the row count. -/
theorem colMean_apply (x : (⟨S100000x128, .f32⟩ : BufTy).Contents (Elt Ideal)) (q : Fin 128) :
    RefValue.colMean x (ix1 q) = Ideal.div (∑ i : Fin 100000, x (ix2 i q)) ((100000 : ℝ) : EReal) := by
  unfold RefValue.colMean
  show Ideal.div (RefValue.colSum x (ix1 q))
    (broadcastInDim S128 ![] bcast_S_S128 (constant (F := Ideal) S_ .f32 0x47C35000#32) (ix1 q)) = _
  rw [colSum_apply, overAll_apply]
  show Ideal.div _ (Ideal.ofBits .f32 0x47C35000#32) = _
  rw [rowCount_val]

/-- The variance's own column means, the same quotient. -/
theorem varMean_apply (x : (⟨S100000x128, .f32⟩ : BufTy).Contents (Elt Ideal)) (q : Fin 128) :
    RefValue.varMean x (ix2 (0 : Fin 1) q) = Ideal.div (∑ i : Fin 100000, x (ix2 i q)) ((100000 : ℝ) : EReal) := by
  unfold RefValue.varMean
  show Ideal.div (broadcastInDim S1x128 ![1] bcast_S128_S1x128_1 (RefValue.colSum x) (ix2 (0 : Fin 1) q))
    (broadcastInDim S1x128 ![] bcast_S_S1x128 (constant (F := Ideal) S_ .f32 0x47C35000#32) (ix2 (0 : Fin 1) q)) = _
  rw [toRow_apply, colSum_apply, overAll_apply]
  show Ideal.div _ (Ideal.ofBits .f32 0x47C35000#32) = _
  rw [rowCount_val]

/-- The centred table at `(i, q)`. -/
theorem varCentred_apply (x : (⟨S100000x128, .f32⟩ : BufTy).Contents (Elt Ideal)) (i : Fin 100000) (q : Fin 128) :
    RefValue.varCentred x (ix2 i q)
      = x (ix2 i q) - Ideal.div (∑ j : Fin 100000, x (ix2 j q)) ((100000 : ℝ) : EReal) := by
  unfold RefValue.varCentred
  show x (ix2 i q) - broadcastInDim S100000x128 ![0, 1] bcast_S1x128_S100000x128_0_1 (RefValue.varMean x) (ix2 i q) = _
  rw [rowOver_apply, varMean_apply]

/-- The variance's divisor is the row count: the converted integer 0 is 0. -/
theorem varCount_val : RefValue.varCount (F := Ideal) ix0 = ((100000 : ℝ) : EReal) := by
  show Ideal.ofBits .f32 0x47C35000#32 - (((0#32 : BitVec 32).toInt : ℝ) : EReal) = _
  rw [rowCount_val]
  simp

/-- The column variances: the divisor is positive, so the select takes the quotient; at column `q`, the sum over the
    rows of the squared deviations from the column mean, by the row count. -/
theorem colVar_apply (x : (⟨S100000x128, .f32⟩ : BufTy).Contents (Elt Ideal)) (q : Fin 128) :
    RefValue.colVar x (ix1 q)
      = Ideal.div (∑ i : Fin 100000,
          (x (ix2 i q) - Ideal.div (∑ j : Fin 100000, x (ix2 j q)) ((100000 : ℝ) : EReal))
            * (x (ix2 i q) - Ideal.div (∑ j : Fin 100000, x (ix2 j q)) ((100000 : ℝ) : EReal)))
          ((100000 : ℝ) : EReal) := by
  unfold RefValue.colVar
  show Scalar.select
      (broadcastInDim S128 ![] bcast_S_S128
        (cmpf .ogt (RefValue.varCount (F := Ideal)) (constant (F := Ideal) S_ .f32 0x00000000#32)) (ix1 q))
      (Ideal.div (RefValue.colSum (mulf (RefValue.varCentred x) (RefValue.varCentred x)) (ix1 q))
        (broadcastInDim S128 ![] bcast_S_S128 (RefValue.varCount (F := Ideal)) (ix1 q)))
      (broadcastInDim S128 ![] bcast_S_S128 (id (constant (F := Ideal) S_ .f32 0x7FC00000#32)) (ix1 q)) = _
  rw [overAll_apply, overAll_apply, overAll_apply]
  have hc : cmpf .ogt (RefValue.varCount (F := Ideal)) (constant (F := Ideal) S_ .f32 0x00000000#32) ix0 = 1#1 := by
    show Ideal.cmp .ogt (RefValue.varCount (F := Ideal) ix0) (Ideal.ofBits .f32 0x00000000#32) = 1#1
    rw [varCount_val, Ideal.ofBits_zero_f32]
    simp [Ideal.cmp]
  rw [hc, varCount_val, colSum_apply]
  show Ideal.div (∑ i : Fin 100000, RefValue.varCentred x (ix2 i q) * RefValue.varCentred x (ix2 i q)) _ = _
  refine congrArg (fun s => Ideal.div s ((100000 : ℝ) : EReal)) (Finset.sum_congr rfl fun i _ => ?_)
  rw [varCentred_apply]

/-! ## Real data -/

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_div_coe {x : EReal} (hx : IsReal x) {n : ℝ} (hn : n ≠ 0) : IsReal (Ideal.div x (n : EReal)) := by
  obtain ⟨a, rfl⟩ := hx; rw [Ideal.div_coe hn, ← EReal.coe_mul]; exact ⟨_, rfl⟩

/-- The mean of the squared deviations of real data from their mean is a real number, the reals' own. -/
theorem devMean_coe {ι : Type} [Fintype ι] (o : ι → ℝ) (n : ℝ) (hn : n ≠ 0) :
    Ideal.div (∑ i, ((o i : EReal) - Ideal.div (∑ j, (o j : EReal)) (n : EReal))
        * ((o i : EReal) - Ideal.div (∑ j, (o j : EReal)) (n : EReal))) (n : EReal)
      = (((∑ i, (o i - (∑ j, o j) * (1 / n)) * (o i - (∑ j, o j) * (1 / n))) * (1 / n) : ℝ) : EReal) := by
  have hmean : Ideal.div (∑ j, (o j : EReal)) (n : EReal) = (((∑ j, o j) * (1 / n) : ℝ) : EReal) := by
    rw [Ideal.div_coe hn, ← Cert.LibBatchMoments.coe_sum, ← EReal.coe_mul]
  have hdev : (∑ i, ((o i : EReal) - (((∑ j, o j) * (1 / n) : ℝ) : EReal))
        * ((o i : EReal) - (((∑ j, o j) * (1 / n) : ℝ) : EReal)))
      = ((∑ i, (o i - (∑ j, o j) * (1 / n)) * (o i - (∑ j, o j) * (1 / n)) : ℝ) : EReal) := by
    rw [Cert.LibBatchMoments.coe_sum]
    exact Finset.sum_congr rfl (fun i _ => by rw [← EReal.coe_sub, ← EReal.coe_mul])
  rw [hmean, hdev, Ideal.div_coe hn, ← EReal.coe_mul]

/-! ## The kernel side's statistics at a column -/

theorem meanOf_apply (sm : (⟨S1x128, .f32⟩ : BufTy).Contents (Elt Ideal)) (q : Fin 128) :
    Cert.KernelIdeal.KVal.meanOf sm (ix2 (0 : Fin 1) q) = Ideal.div (sm (ix2 (0 : Fin 1) q)) ((100000 : ℝ) : EReal) := by
  unfold Cert.KernelIdeal.KVal.meanOf
  show Ideal.div (sm (ix2 (0 : Fin 1) q))
    (broadcastInDim _ _ _ (constant (F := Ideal) _ .f32 0x47C35000#32) (ix2 (0 : Fin 1) q)) = _
  rw [overAll_apply]
  show Ideal.div _ (Ideal.ofBits .f32 0x47C35000#32) = _
  rw [rowCount_val]

theorem invstdOf_apply (sm sq : (⟨S1x128, .f32⟩ : BufTy).Contents (Elt Ideal)) (q : Fin 128) :
    Cert.KernelIdeal.KVal.invstdOf sm sq (ix2 (0 : Fin 1) q)
      = Ideal.rsqrt ((Ideal.div (sq (ix2 (0 : Fin 1) q)) ((100000 : ℝ) : EReal)
          - Ideal.div (sm (ix2 (0 : Fin 1) q)) ((100000 : ℝ) : EReal) * Ideal.div (sm (ix2 (0 : Fin 1) q)) ((100000 : ℝ) : EReal))
          + Ideal.ofBits .f32 0x3727C5AC#32) := by
  unfold Cert.KernelIdeal.KVal.invstdOf
  show Ideal.rsqrt ((Ideal.div (sq (ix2 (0 : Fin 1) q))
        (broadcastInDim _ _ _ (constant (F := Ideal) _ .f32 0x47C35000#32) (ix2 (0 : Fin 1) q))
      - Ideal.div (sm (ix2 (0 : Fin 1) q))
          (broadcastInDim _ _ _ (constant (F := Ideal) _ .f32 0x47C35000#32) (ix2 (0 : Fin 1) q))
        * Ideal.div (sm (ix2 (0 : Fin 1) q))
          (broadcastInDim _ _ _ (constant (F := Ideal) _ .f32 0x47C35000#32) (ix2 (0 : Fin 1) q)))
      + broadcastInDim _ _ _ (constant (F := Ideal) _ .f32 0x3727C5AC#32) (ix2 (0 : Fin 1) q)) = _
  rw [overAll_apply, overAll_apply]
  show Ideal.rsqrt ((Ideal.div _ (Ideal.ofBits .f32 0x47C35000#32)
      - Ideal.div _ (Ideal.ofBits .f32 0x47C35000#32) * Ideal.div _ (Ideal.ofBits .f32 0x47C35000#32))
      + Ideal.ofBits .f32 0x3727C5AC#32) = _
  rw [rowCount_val]

/-! ## The normalisation with the rectifier at an index -/

theorem bnRelu_apply (x : (⟨S100000x128, .f32⟩ : BufTy).Contents (Elt Ideal)) (g bt : (⟨S128, .f32⟩ : BufTy).Contents (Elt Ideal)) (p : Fin 100000) (q : Fin 128) :
    RefValue.bnRelu x g bt (ix2 p q)
      = max ((((x (ix2 p q) - RefValue.colMean x (ix1 q))
          * Ideal.rsqrt (RefValue.colVar x (ix1 q) + Ideal.ofBits .f32 0x3727C5AC#32)) * g (ix1 q)) + bt (ix1 q)) 0 := by
  unfold RefValue.bnRelu RefValue.affineRelu RefValue.shiftRelu RefValue.affScaled
  show max ((((x (ix2 p q) - RefValue.rows128 (RefValue.colMean x) (ix2 p q))
        * RefValue.rows128 (Host.rsqrt (addf (RefValue.colVar x)
            (broadcastInDim S128 ![] bcast_S_S128 (constant (F := Ideal) S_ .f32 0x3727C5AC#32)))) (ix2 p q))
        * RefValue.rows128 g (ix2 p q)) + RefValue.rows128 bt (ix2 p q))
      (broadcastInDim S100000x128 ![] bcast_S_S100000x128 (constant (F := Ideal) S_ .f32 0x00000000#32) (ix2 p q)) = _
  rw [rows128_apply, rows128_apply, rows128_apply, rows128_apply, overAll_apply]
  show max ((((x (ix2 p q) - RefValue.colMean x (ix1 q))
        * Ideal.rsqrt (RefValue.colVar x (ix1 q)
            + broadcastInDim S128 ![] bcast_S_S128 (constant (F := Ideal) S_ .f32 0x3727C5AC#32) (ix1 q)))
        * g (ix1 q)) + bt (ix1 q)) (Ideal.ofBits .f32 0x00000000#32) = _
  rw [overAll_apply, Ideal.ofBits_zero_f32]
  rfl

/-! ## The two column facts -/

/-- The means agree: both are the column sum of the biased table by the row count. -/
theorem mean_col (G : (⟨S100000x128, .f32⟩ : BufTy).Contents (Elt Ideal)) (b : (⟨S128, .f32⟩ : BufTy).Contents (Elt Ideal)) (q : Fin 128) :
    Cert.KernelIdeal.KVal.meanOf (F := Ideal) (Cert.KernelIdeal.StatFns.colSum G (Cert.KernelIdeal.KVal.rowOf128 b)) (ix2 (0 : Fin 1) q)
      = RefValue.colMean (RefValue.bias128 G b) (ix1 q) := by
  rw [meanOf_apply, colMean_apply]
  show Ideal.div (∑ i : Fin 100000, (G (ix2 i q) + Cert.KernelIdeal.KVal.rowOf128 b (ix2 (0 : Fin 1) q))) _ = _
  rw [rowOf128_apply]
  refine congrArg (fun s => Ideal.div s ((100000 : ℝ) : EReal)) (Finset.sum_congr rfl fun i _ => ?_)
  rw [bias128_apply]

/-- The inverse deviations agree on real data: the mean of the squares less the square of the mean is the mean of the
    squared deviations. -/
theorem invstd_col (G : (⟨S100000x128, .f32⟩ : BufTy).Contents (Elt Ideal)) (b : (⟨S128, .f32⟩ : BufTy).Contents (Elt Ideal))
    (hG : ∀ i, IsReal (G i)) (hb : ∀ i, IsReal (b i)) (q : Fin 128) :
    Cert.KernelIdeal.KVal.invstdOf (F := Ideal) (Cert.KernelIdeal.StatFns.colSum G (Cert.KernelIdeal.KVal.rowOf128 b)) (Cert.KernelIdeal.StatFns.colSumSq G (Cert.KernelIdeal.KVal.rowOf128 b)) (ix2 (0 : Fin 1) q)
      = Ideal.rsqrt (RefValue.colVar (RefValue.bias128 G b) (ix1 q) + Ideal.ofBits .f32 0x3727C5AC#32) := by
  rw [invstdOf_apply, colVar_apply]
  choose g' hg' using hG
  choose b' hb' using hb
  have hX : ∀ i : Fin 100000, RefValue.bias128 G b (ix2 i q) = ((g' (ix2 i q) + b' (ix1 q) : ℝ) : EReal) := fun i => by
    rw [bias128_apply, hg', hb', ← EReal.coe_add]
  have hK : ∀ i : Fin 100000, G (ix2 i q) + Cert.KernelIdeal.KVal.rowOf128 b (ix2 (0 : Fin 1) q) = ((g' (ix2 i q) + b' (ix1 q) : ℝ) : EReal) :=
    fun i => by rw [rowOf128_apply, hg', hb', ← EReal.coe_add]
  have e1 : Cert.KernelIdeal.StatFns.colSum G (Cert.KernelIdeal.KVal.rowOf128 b) (ix2 (0 : Fin 1) q)
      = ∑ i : Fin 100000, ((g' (ix2 i q) + b' (ix1 q) : ℝ) : EReal) :=
    Finset.sum_congr rfl fun i _ => hK i
  have e2 : Cert.KernelIdeal.StatFns.colSumSq G (Cert.KernelIdeal.KVal.rowOf128 b) (ix2 (0 : Fin 1) q)
      = ∑ i : Fin 100000, ((g' (ix2 i q) + b' (ix1 q) : ℝ) : EReal) * ((g' (ix2 i q) + b' (ix1 q) : ℝ) : EReal) :=
    Finset.sum_congr rfl fun i _ => by
      show (G (ix2 i q) + Cert.KernelIdeal.KVal.rowOf128 b (ix2 (0 : Fin 1) q)) * (G (ix2 i q) + Cert.KernelIdeal.KVal.rowOf128 b (ix2 (0 : Fin 1) q)) = _
      rw [hK i]
  rw [e1, e2]
  simp only [hX]
  rw [Cert.LibBatchMoments.var_two_ways (fun i : Fin 100000 => g' (ix2 i q) + b' (ix1 q)) 100000 (by norm_num) (by simp)]

/-! ## The law -/

/-- On real data, the reference's batch normalisation of the biased table followed by the rectifier is the affine
    normalisation by the column mean and the inverse deviation taken from the column sums and the column sums of
    squares, followed by the positive part. -/
theorem bn_law (G : (⟨S100000x128, .f32⟩ : BufTy).Contents (Elt Ideal)) (b g bt : (⟨S128, .f32⟩ : BufTy).Contents (Elt Ideal))
    (hG : ∀ i, IsReal (G i)) (hb : ∀ i, IsReal (b i)) :
    RefValue.bnRelu (RefValue.bias128 G b) g bt = Cert.KernelIdeal.RowFns.normAct G (Cert.KernelIdeal.KVal.rowOf128 b) (Cert.KernelIdeal.KVal.meanOf (F := Ideal) (Cert.KernelIdeal.StatFns.colSum G (Cert.KernelIdeal.KVal.rowOf128 b))) (Cert.KernelIdeal.KVal.invstdOf (F := Ideal) (Cert.KernelIdeal.StatFns.colSum G (Cert.KernelIdeal.KVal.rowOf128 b)) (Cert.KernelIdeal.StatFns.colSumSq G (Cert.KernelIdeal.KVal.rowOf128 b))) (Cert.KernelIdeal.KVal.rowOf128 g) (Cert.KernelIdeal.KVal.rowOf128 bt) := by
  funext i
  obtain ⟨p, q, rfl⟩ : ∃ p q, i = ix2 p q := ⟨i 0, i 1, eq_ix2 i⟩
  rw [bnRelu_apply]
  show _ = max ((((G (ix2 p q) + Cert.KernelIdeal.KVal.rowOf128 b (ix2 (0 : Fin 1) q)) - Cert.KernelIdeal.KVal.meanOf (F := Ideal) (Cert.KernelIdeal.StatFns.colSum G (Cert.KernelIdeal.KVal.rowOf128 b)) (ix2 (0 : Fin 1) q)) * Cert.KernelIdeal.KVal.invstdOf (F := Ideal) (Cert.KernelIdeal.StatFns.colSum G (Cert.KernelIdeal.KVal.rowOf128 b)) (Cert.KernelIdeal.StatFns.colSumSq G (Cert.KernelIdeal.KVal.rowOf128 b)) (ix2 (0 : Fin 1) q)) * Cert.KernelIdeal.KVal.rowOf128 g (ix2 (0 : Fin 1) q) + Cert.KernelIdeal.KVal.rowOf128 bt (ix2 (0 : Fin 1) q)) 0
  rw [mean_col G b q, invstd_col G b hG hb q, rowOf128_apply, rowOf128_apply, rowOf128_apply, bias128_apply]

/-! ## The layer's output is real -/

theorem bn_real (G : (⟨S100000x128, .f32⟩ : BufTy).Contents (Elt Ideal)) (b g bt : (⟨S128, .f32⟩ : BufTy).Contents (Elt Ideal))
    (hG : ∀ i, IsReal (G i)) (hb : ∀ i, IsReal (b i)) (hg : ∀ i, IsReal (g i)) (hbt : ∀ i, IsReal (bt i)) :
    ∀ i, IsReal (Cert.KernelIdeal.RowFns.normAct G (Cert.KernelIdeal.KVal.rowOf128 b) (Cert.KernelIdeal.KVal.meanOf (F := Ideal) (Cert.KernelIdeal.StatFns.colSum G (Cert.KernelIdeal.KVal.rowOf128 b))) (Cert.KernelIdeal.KVal.invstdOf (F := Ideal) (Cert.KernelIdeal.StatFns.colSum G (Cert.KernelIdeal.KVal.rowOf128 b)) (Cert.KernelIdeal.StatFns.colSumSq G (Cert.KernelIdeal.KVal.rowOf128 b))) (Cert.KernelIdeal.KVal.rowOf128 g) (Cert.KernelIdeal.KVal.rowOf128 bt) i) := by
  intro i
  obtain ⟨p, q, rfl⟩ : ∃ p q, i = ix2 p q := ⟨i 0, i 1, eq_ix2 i⟩
  show IsReal (max ((((G (ix2 p q) + Cert.KernelIdeal.KVal.rowOf128 b (ix2 (0 : Fin 1) q)) - Cert.KernelIdeal.KVal.meanOf (F := Ideal) (Cert.KernelIdeal.StatFns.colSum G (Cert.KernelIdeal.KVal.rowOf128 b)) (ix2 (0 : Fin 1) q)) * Cert.KernelIdeal.KVal.invstdOf (F := Ideal) (Cert.KernelIdeal.StatFns.colSum G (Cert.KernelIdeal.KVal.rowOf128 b)) (Cert.KernelIdeal.StatFns.colSumSq G (Cert.KernelIdeal.KVal.rowOf128 b)) (ix2 (0 : Fin 1) q)) * Cert.KernelIdeal.KVal.rowOf128 g (ix2 (0 : Fin 1) q) + Cert.KernelIdeal.KVal.rowOf128 bt (ix2 (0 : Fin 1) q)) 0)
  have hM : IsReal (Cert.KernelIdeal.KVal.meanOf (F := Ideal) (Cert.KernelIdeal.StatFns.colSum G (Cert.KernelIdeal.KVal.rowOf128 b)) (ix2 (0 : Fin 1) q)) := by
    rw [meanOf_apply]
    refine isReal_div_coe (IsReal.sum _ _ fun i _ => (hG _).add ?_) (by norm_num)
    rw [rowOf128_apply]; exact hb _
  have hR : IsReal (Cert.KernelIdeal.KVal.invstdOf (F := Ideal) (Cert.KernelIdeal.StatFns.colSum G (Cert.KernelIdeal.KVal.rowOf128 b)) (Cert.KernelIdeal.StatFns.colSumSq G (Cert.KernelIdeal.KVal.rowOf128 b)) (ix2 (0 : Fin 1) q)) := by
    rw [invstd_col G b hG hb q, colVar_apply]
    choose g' hg' using hG
    choose b' hb' using hb
    have hX : ∀ i : Fin 100000, RefValue.bias128 G b (ix2 i q) = ((g' (ix2 i q) + b' (ix1 q) : ℝ) : EReal) := fun i => by
      rw [bias128_apply, hg', hb', ← EReal.coe_add]
    simp only [hX]
    rw [devMean_coe (fun i : Fin 100000 => g' (ix2 i q) + b' (ix1 q)) 100000 (by norm_num)]
    obtain ⟨e, he, hE⟩ := Cert.LibBnFold.eps_pos_real
    have hv : (0 : ℝ) ≤ (∑ i : Fin 100000, (g' (ix2 i q) + b' (ix1 q) - (∑ j : Fin 100000, (g' (ix2 j q) + b' (ix1 q))) * (1 / 100000))
        * (g' (ix2 i q) + b' (ix1 q) - (∑ j : Fin 100000, (g' (ix2 j q) + b' (ix1 q))) * (1 / 100000))) * (1 / 100000) :=
      mul_nonneg (Finset.sum_nonneg fun i _ => mul_self_nonneg _) (by norm_num)
    rw [hE, ← EReal.coe_add, Ideal.rsqrt_coe, if_neg (not_lt.mpr (by linarith)), if_neg (by linarith)]
    exact ⟨_, rfl⟩
  rw [rowOf128_apply, rowOf128_apply, rowOf128_apply]
  exact IsReal.max (IsReal.add (IsReal.mul (IsReal.mul (isReal_sub (IsReal.add (hG _) (hb _)) hM) hR) (hg _)) (hbt _)) isReal_zero

end Cert.ReferenceIdeal.Bridge

end
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibColumnTake.lean ====
/-
  Taking entries of a vector at a column of start indices, read at an index.

  `x[idx]` for a flat array `x : [N]` and an index vector `idx : [R]` lowers to a gather whose start indices are the
  column `[R, 1]`: the one operand axis is collapsed, there is no offset axis, and a slice is one entry. The result at
  `r` is `x` at the start index `idx[r, 0]` read as a signed integer and clamped into `[0, N − 1]` — the same row
  selection as a gather of whole rows of an `[N, C]` table by the same column. With it, the cast of a column
  `[a, 1]` back to the vector `[a]` read at an index.
-/
import Idealize.ShloMosaic.Lib.Pipeline.Value
import Idealize.ShloMosaic.Lib.ValueIdx
import proofs.«151309_j60756607369296_1_alg».proof.Proof.LibRowGather

noncomputable section

namespace Cert.Lib.ColumnTake

open Idealize.ShloMosaic Idealize.ShloMosaic.ValueIdx Cert.Lib.RowGather

variable {α : Type}

/-- The dimension numbers of taking entries at a column of start indices: no offset axis, the operand's one axis
    collapsed and addressed by the start index, the index vector along axis 1 of the start indices, a slice one entry. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the entry the start index `idx[r, 0]` selects. -/
theorem gather_column_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r) = x (ix1 (rowOf N hN (idx (ix2 r 0)))) := by
  unfold Host.gather
  congr 1
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An `[a, 1]` column cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ColumnTake

end
-- ==== Proof.LibRowScatter.lean ====
/-
  Adding rows into a table at a column of start indices. For a table `x : [N, C]`, start indices `idx : [R, 1]` and
  updates `u : [R, C]`, the scatter with one inserted row axis and one window axis of width `C` sends update entry
  `(r, k)` to table entry `(ρ, k)`, where the row `ρ` is the start index `idx[r, 0]` read as a signed integer and NOT
  clamped: when that integer is outside `[0, N − 1]` the update is dropped. The column coordinate passes through.
  So if update `(r, k)` lands on table entry `(p, q)`, then `idx[r, 0]` is `p` and `k = q`.
-/
import Idealize.ShloMosaic.Lib.ValueIdx

noncomputable section

namespace Cert.Lib.RowScatter

open Idealize.ShloMosaic Idealize.ShloMosaic.ValueIdx

/-- The dimension numbers of a row scatter: update axis 1 is the window axis, table axis 0 is inserted and is the
    axis the start index addresses, the index vector lies along axis 1 of the start indices. -/
abbrev rowScat (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window starts, on the row axis, at the start index of the update's row, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScat N R C wf).start (ix2 r k) idx (0 : Fin 2) = (idx (ix2 r 0)).toInt := by
  unfold ScatterDims.start
  rw [dif_pos (show (0 : Fin 2) ∈ (rowScat N R C wf).scatterDimsToOperandDims from List.mem_singleton.mpr rfl)]
  have hsi : (rowScat N R C wf).siIdx (ix2 r k) ⟨List.idxOf (0 : Fin 2) (rowScat N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis the window starts at `0`. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N R C wf).start j idx (1 : Fin 2) = 0 := by
  unfold ScatterDims.start
  rw [dif_neg (fun h => absurd (List.mem_singleton.mp h) (show ¬((1 : Fin 2) = 0) by decide))]

/-- The window coordinate is `0` on the (inserted) row axis … -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowScat N R C wf).window j (0 : Fin 2) = 0 := by
  unfold ScatterDims.window
  rw [dif_neg (show ¬((0 : Fin 2) ∈ (rowScat N R C wf).sKept) from fun h => by have := (List.mem_filter.mp h).2; simp at this)]

/-- … and the update's column on the column axis. -/
theorem window_col {N R C : Nat} (wf : ScatterDims.WF ⟨2, ![N, C]⟩ ⟨2, ![R, 1]⟩ ⟨2, ![R, C]⟩ [1] [0] [0] 1)
    (r : Fin R) (k : Fin C) : (rowScat N R C wf).window (ix2 r k) (1 : Fin 2) = k.val := by
  unfold ScatterDims.window
  rw [dif_pos (show (1 : Fin 2) ∈ (rowScat N R C wf).sKept from List.mem_filter.mpr ⟨List.mem_finRange _, by simp⟩)]
  rfl

/-- If update entry `(r, k)` lands on table entry `(p, q)`, its row's start index is `p` and `k = q`. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C)
    (h : (rowScat N R C wf).resultIdx? (ix2 r k) idx = some (ix2 p q)) :
    (idx (ix2 r 0)).toInt = (p.val : Int) ∧ k = q := by
  unfold ScatterDims.resultIdx? at h
  split at h
  · rename_i hb
    have h' := Option.some.inj h
    have e0 : ((rowScat N R C wf).start (ix2 r k) idx (0 : Fin 2) + ((rowScat N R C wf).window (ix2 r k) (0 : Fin 2) : Int)).toNat = p.val :=
      congrArg Fin.val (congrFun h' (0 : Fin 2))
    have e1 : ((rowScat N R C wf).start (ix2 r k) idx (1 : Fin 2) + ((rowScat N R C wf).window (ix2 r k) (1 : Fin 2) : Int)).toNat = q.val :=
      congrArg Fin.val (congrFun h' (1 : Fin 2))
    have b0 := (hb (0 : Fin 2)).1
    rw [start_row, window_row] at e0 b0
    rw [start_col, window_col] at e1
    refine ⟨by omega, Fin.ext (by omega)⟩
  · exact absurd h (by simp)

end Cert.Lib.RowScatter

end
-- ==== Proof.LibRowScatterSum.lean ====
/-
  Adding rows into a table at a column of start indices, read at an index as a sum over rows.

  For a table `z : [N, C]`, start indices `idx : [R, 1]` and updates `u : [R, C]`, the accumulating scatter with one
  inserted row axis and one window axis of width `C` gives, at table entry `(p, q)` on the extended reals,
  `z[p, q] + ∑ r ∈ landing idx p, u[r, q]`, where `landing idx p` is the set of update rows whose start index, read
  as a signed integer, is exactly `p` (an out-of-range start drops its row). The set of rows does not depend on the
  width `C`: scatters of different widths by the same column of start indices add over the same rows.
-/
import Idealize.ShloMosaic.Lib.ValueIdx
import Idealize.ShloMosaic.PureOps.Ideal
import proofs.«151309_j60756607369296_1_alg».proof.Proof.LibRowScatter

noncomputable section

namespace Cert.Lib.RowScatterSum

open Idealize.ShloMosaic Idealize.ShloMosaic.ValueIdx Cert.Lib.RowScatter

/-- The update rows that land on table row `p`: those whose start index, read signed, is `p`. -/
def landing {R w : Nat} (N : Nat) (idx : IVec ⟨2, ![R, 1]⟩ w) (p : Fin N) : Finset (Fin R) :=
  Finset.univ.filter (fun r => (idx (ix2 r 0)).toInt = (p.val : Int))

/-- Update entry `(r, k)` lands on table entry `(p, q)` exactly when row `r`'s start index is `p` and `k = q`. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C) :
    (rowScat N R C wf).resultIdx? (ix2 r k) idx = some (ix2 p q) ↔ ((idx (ix2 r 0)).toInt = (p.val : Int) ∧ k = q) := by
  constructor
  · exact lands wf idx r k p q
  · rintro ⟨h0, rfl⟩
    have hp := p.isLt
    have hk := k.isLt
    have hb : ∀ a : Fin 2, 0 ≤ (rowScat N R C wf).start (ix2 r k) idx a + ((rowScat N R C wf).window (ix2 r k) a : Int)
        ∧ (rowScat N R C wf).start (ix2 r k) idx a + ((rowScat N R C wf).window (ix2 r k) a : Int) < ((⟨2, ![N, C]⟩ : Shape).size a : Int) := by
      refine Fin.forall_fin_two.mpr ⟨?_, ?_⟩
      · rw [start_row, window_row]
        show 0 ≤ (idx (ix2 r 0)).toInt + ((0 : Nat) : Int) ∧ (idx (ix2 r 0)).toInt + ((0 : Nat) : Int) < (N : Int)
        omega
      · rw [start_col, window_col]
        show 0 ≤ (0 : Int) + (k.val : Int) ∧ (0 : Int) + (k.val : Int) < (C : Int)
        omega
    unfold ScatterDims.resultIdx?
    rw [dif_pos hb]
    refine congrArg some (funext fun a => Fin.ext ?_)
    revert a
    refine Fin.forall_fin_two.mpr ⟨?_, ?_⟩
    · show ((rowScat N R C wf).start (ix2 r k) idx (0 : Fin 2) + ((rowScat N R C wf).window (ix2 r k) (0 : Fin 2) : Int)).toNat = p.val
      rw [start_row, window_row]
      omega
    · show ((rowScat N R C wf).start (ix2 r k) idx (1 : Fin 2) + ((rowScat N R C wf).window (ix2 r k) (1 : Fin 2) : Int)).toNat = k.val
      rw [start_col, window_col]
      omega

/-- The accumulating row scatter at `(p, q)`: the table's entry plus the updates' column `q` summed over the rows
    that land on `p`. -/
theorem scatterAdd_rows_apply {N R C w : Nat} {φ : FTy}
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScat N R C wf)
    (z : FVec Ideal ⟨2, ![N, C]⟩ φ) (idx : IVec ⟨2, ![R, 1]⟩ w) (u : FVec Ideal ⟨2, ![R, C]⟩ φ) (p : Fin N) (q : Fin C) :
    Host.scatterAdd d z idx u (ix2 p q) = (z (ix2 p q) : EReal) + ∑ r ∈ landing N idx p, (u (ix2 r q) : EReal) := by
  subst hd
  show Ideal.hostScatterAdd (rowScat N R C wf) z idx u (ix2 p q) = _
  unfold Ideal.hostScatterAdd landing
  congr 1
  rw [Finset.sum_filter, sum_idx2, Finset.sum_filter]
  refine Finset.sum_congr rfl fun r _ => ?_
  by_cases h : (idx (ix2 r 0)).toInt = (p.val : Int)
  · rw [if_pos h]
    rw [Finset.sum_eq_single q]
    · rw [if_pos ((lands_iff wf idx r q p q).mpr ⟨h, rfl⟩)]
    · intro k _ hk
      rw [if_neg (fun hl => hk ((lands_iff wf idx r k p q).mp hl).2)]
    · intro hq
      exact absurd (Finset.mem_univ q) hq
  · rw [if_neg h]
    refine Finset.sum_eq_zero fun k _ => ?_
    rw [if_neg (fun hl => h ((lands_iff wf idx r k p q).mp hl).1)]

end Cert.Lib.RowScatterSum

end
-- ==== Proof.LibSentinel.lean ====
/-
  The float constants of the batch-hard triplet loss, as the extended reals their bit patterns
  denote, and the two sentinel tests.

  * ofBits_neg_one … ofBits_zero : the patterns of -1, 3, 1, -1/2, 5/2 and 0.
  * ofBits_eps, eps_pos, ofBits_eps_pos : the pattern 0x2B8CBCCC denotes the positive real
    9223372 * 2^(-63).
  * neg_half_lt_fold_max_iff : for distances d c in [0, 2], the maximum over all c of
    (d c where P c holds, -1 elsewhere) exceeds -1/2 exactly when some c has P c.
  * fold_min_lt_five_halves_iff : the minimum over all c of (d c where P c holds, 3 elsewhere)
    is below 5/2 exactly when some c has P c.
  * the same two statements with the constants spelled as bit patterns.
-/
import Mathlib
import Idealize.ShloMosaic.PureOps.Ideal

noncomputable section

namespace LibSentinel

open Idealize.ShloMosaic Finset

/-- The pattern of -1.0. -/
theorem ofBits_neg_one : Ideal.ofBits .f32 0xBF800000#32 = ((-1 : ℝ) : EReal) := by
  simp [Ideal.ofBits, Ideal.ieee, -EReal.coe_mul] <;> norm_num

/-- The pattern of 3.0. -/
theorem ofBits_three : Ideal.ofBits .f32 0x40400000#32 = ((3 : ℝ) : EReal) := by
  simp [Ideal.ofBits, Ideal.ieee, -EReal.coe_mul] <;> norm_num

/-- The pattern of 1.0. -/
theorem ofBits_one : Ideal.ofBits .f32 0x3F800000#32 = ((1 : ℝ) : EReal) := by
  simp [Ideal.ofBits, Ideal.ieee, -EReal.coe_mul] <;> norm_num

/-- The pattern of 1.0, as the extended real 1. -/
theorem ofBits_one' : Ideal.ofBits .f32 0x3F800000#32 = 1 := by
  rw [ofBits_one]; rfl

/-- The pattern of -0.5. -/
theorem ofBits_neg_half : Ideal.ofBits .f32 0xBF000000#32 = ((-1 / 2 : ℝ) : EReal) := by
  simp [Ideal.ofBits, Ideal.ieee, -EReal.coe_mul] <;> norm_num

/-- The pattern of 2.5. -/
theorem ofBits_five_halves : Ideal.ofBits .f32 0x40200000#32 = ((5 / 2 : ℝ) : EReal) := by
  simp [Ideal.ofBits, Ideal.ieee, -EReal.coe_mul] <;> norm_num

/-- The pattern of +0.0. -/
theorem ofBits_zero : Ideal.ofBits .f32 0x00000000#32 = 0 := by
  simp [Ideal.ofBits, Ideal.ieee]

/-- The pattern of +0.0, as a coerced real. -/
theorem ofBits_zero' : Ideal.ofBits .f32 0x00000000#32 = ((0 : ℝ) : EReal) := by
  rw [ofBits_zero]; rfl

/-- The small positive constant the norm is clamped below by. -/
theorem ofBits_eps :
    Ideal.ofBits .f32 0x2B8CBCCC#32 = ((9223372 * (2 : ℝ) ^ (-63 : ℤ) : ℝ) : EReal) := by
  simp [Ideal.ofBits, Ideal.ieee, -EReal.coe_mul] <;> norm_num

theorem eps_pos : (0 : ℝ) < 9223372 * (2 : ℝ) ^ (-63 : ℤ) := by positivity

/-- The clamp constant is a positive real. -/
theorem ofBits_eps_pos : ∃ c : ℝ, 0 < c ∧ Ideal.ofBits .f32 0x2B8CBCCC#32 = (c : EReal) :=
  ⟨_, eps_pos, ofBits_eps⟩

private theorem fold_max_eq_sup' {ι : Type*} (s : Finset ι) (f : ι → EReal) :
    s.fold max ⊥ f = s.sup f := by
  classical
  induction s using Finset.induction_on with
  | empty => simp
  | insert a s ha ih => rw [Finset.fold_insert ha, Finset.sup_insert, ih]

private theorem fold_min_eq_inf' {ι : Type*} (s : Finset ι) (f : ι → EReal) :
    s.fold min ⊤ f = s.inf f := by
  classical
  induction s using Finset.induction_on with
  | empty => simp
  | insert a s ha ih => rw [Finset.fold_insert ha, Finset.inf_insert, ih]

/-- The hardest-positive test: with distances in [0, 2] and the sentinel -1 where P fails, the
    maximum exceeds -1/2 exactly when P holds somewhere. -/
theorem neg_half_lt_fold_max_iff {ι : Type*} [Fintype ι] (P : ι → Prop) [DecidablePred P]
    (d : ι → EReal) (hd : ∀ c, 0 ≤ d c ∧ d c ≤ 2) :
    ((-1 / 2 : ℝ) : EReal)
        < (univ : Finset ι).fold max ⊥ (fun c => if P c then d c else ((-1 : ℝ) : EReal))
      ↔ ∃ c, P c := by
  rw [fold_max_eq_sup', Finset.lt_sup_iff]
  constructor
  · rintro ⟨c, _, hc⟩
    by_cases hP : P c
    · exact ⟨c, hP⟩
    · rw [if_neg hP, EReal.coe_lt_coe_iff] at hc
      norm_num at hc
  · rintro ⟨c, hP⟩
    refine ⟨c, mem_univ _, ?_⟩
    rw [if_pos hP]
    refine lt_of_lt_of_le ?_ (hd c).1
    have : ((-1 / 2 : ℝ) : EReal) < ((0 : ℝ) : EReal) := by
      rw [EReal.coe_lt_coe_iff]; norm_num
    simpa using this

/-- The hardest-negative test: with distances in [0, 2] and the sentinel 3 where P fails, the
    minimum is below 5/2 exactly when P holds somewhere. -/
theorem fold_min_lt_five_halves_iff {ι : Type*} [Fintype ι] (P : ι → Prop) [DecidablePred P]
    (d : ι → EReal) (hd : ∀ c, 0 ≤ d c ∧ d c ≤ 2) :
    (univ : Finset ι).fold min ⊤ (fun c => if P c then d c else ((3 : ℝ) : EReal))
        < ((5 / 2 : ℝ) : EReal)
      ↔ ∃ c, P c := by
  rw [fold_min_eq_inf', Finset.inf_lt_iff]
  constructor
  · rintro ⟨c, _, hc⟩
    by_cases hP : P c
    · exact ⟨c, hP⟩
    · rw [if_neg hP, EReal.coe_lt_coe_iff] at hc
      norm_num at hc
  · rintro ⟨c, hP⟩
    refine ⟨c, mem_univ _, ?_⟩
    rw [if_pos hP]
    refine lt_of_le_of_lt (hd c).2 ?_
    have h2 : ((2 : ℝ) : EReal) < ((5 / 2 : ℝ) : EReal) := by
      rw [EReal.coe_lt_coe_iff]; norm_num
    exact h2

/-- The hardest-positive test with its constants as bit patterns. -/
theorem ofBits_neg_half_lt_fold_max_iff {ι : Type*} [Fintype ι] (P : ι → Prop) [DecidablePred P]
    (d : ι → EReal) (hd : ∀ c, 0 ≤ d c ∧ d c ≤ 2) :
    Ideal.ofBits .f32 0xBF000000#32
        < (univ : Finset ι).fold max ⊥
            (fun c => if P c then d c else Ideal.ofBits .f32 0xBF800000#32)
      ↔ ∃ c, P c := by
  rw [ofBits_neg_half, ofBits_neg_one]
  exact neg_half_lt_fold_max_iff P d hd

/-- The hardest-negative test with its constants as bit patterns. -/
theorem fold_min_lt_ofBits_five_halves_iff {ι : Type*} [Fintype ι] (P : ι → Prop)
    [DecidablePred P] (d : ι → EReal) (hd : ∀ c, 0 ≤ d c ∧ d c ≤ 2) :
    (univ : Finset ι).fold min ⊤
          (fun c => if P c then d c else Ideal.ofBits .f32 0x40400000#32)
        < Ideal.ofBits .f32 0x40200000#32
      ↔ ∃ c, P c := by
  rw [ofBits_five_halves, ofBits_three]
  exact fold_min_lt_five_halves_iff P d hd

end LibSentinel

end
-- ==== Proof.StageReal.lean ====
/-
  The host stages of the kernel program carry real arrays to real arrays.

  At the ideal instance a float is an extended real, and an extended real is REAL when it is the image of a real
  number. The stages between the kernel regions are built from products, sums, maxima, a reciprocal square root of a
  quantity that is at least one, and from index operations (a gather of rows, a scatter-add of rows, broadcasts, a
  cast of a vector to a one-row matrix) that only move entries. Each therefore sends arrays whose entries are all
  real to arrays whose entries are all real:

    • rsqrt (max y 1) is real for EVERY extended real y: the maximum is ⊤ (where rsqrt is 0) or a real that is at
      least 1 (where rsqrt is the real 1/√·);
    • the edge normalisation is a product of two such values, each read by a gather at some node;
    • the aggregation is 0 plus a finite sum of (a gathered table entry) · (an edge weight);
    • a matrix product is a finite sum of products; a vector as a one-row matrix has the vector's entries; adding a
      row to every row of a matrix is a sum of two entries.
-/
import proofs.«151309_j60756607369296_1_alg».proof.Proof.KStages
import proofs.«151309_j60756607369296_1_alg».proof.Proof.RowFns
import proofs.«151309_j60756607369296_1_alg».proof.Proof.LibAggLinear
import proofs.«151309_j60756607369296_1_alg».proof.Proof.LibRowGather
import proofs.«151309_j60756607369296_1_alg».proof.Proof.LibColumnTake
import proofs.«151309_j60756607369296_1_alg».proof.Proof.LibRowScatter
import proofs.«151309_j60756607369296_1_alg».proof.Proof.LibRowScatterSum
import proofs.«151309_j60756607369296_1_alg».proof.Proof.LibBcastChain
import proofs.«151309_j60756607369296_1_alg».proof.Proof.LibSentinel
import proofs.«151309_j60756607369296_1_alg».proof.Proof.LibPlainDot
import Idealize.ShloMosaic.Lib.ValueIdx
import Idealize.ShloMosaic.Lib.Pipeline.Value
import Idealize.ShloMosaic.Lib.ValueLayout

noncomputable section

namespace Cert.KernelIdeal.StageReal

open Idealize.ShloMosaic Idealize.ShloMosaic.ValueIdx
open Cert.KernelIdeal Cert.KernelIdeal.Gen
open Cert.Lib.AggLinear

/-! ## The reciprocal square root of a quantity that is at least one -/

/-- The reciprocal square root of a positive real is the real `1/√r`. -/
theorem rsqrt_pos_real (r : ℝ) (h : 0 < r) : IsReal (Ideal.rsqrt (r : EReal)) := by
  rw [Ideal.rsqrt_coe, if_neg (not_lt.2 h.le), if_neg h.ne']
  exact isReal_coe _

/-- `rsqrt (max y 1)` is real for every extended real `y`: at `⊥` the maximum is `1`, at `⊤` it is `⊤` and
    `rsqrt ⊤ = 0`, and at a real `r` it is the real `max r 1 ≥ 1 > 0`. -/
theorem rsqrt_max_one_real (y : EReal) : IsReal (Ideal.rsqrt (max y 1)) := by
  induction y using EReal.rec with
  | bot =>
    rw [max_eq_right bot_le]
    exact rsqrt_pos_real 1 one_pos
  | top =>
    rw [max_eq_left le_top, Ideal.rsqrt_top]
    exact isReal_zero
  | coe r =>
    rcases le_total (r : EReal) 1 with h | h
    · rw [max_eq_right h]
      exact rsqrt_pos_real 1 one_pos
    · rw [max_eq_left h]
      have h1 : (1 : ℝ) ≤ r := (EReal.coe_le_coe_iff (x := 1) (y := r)).mp h
      exact rsqrt_pos_real r (lt_of_lt_of_le one_pos h1)

/-! ## A matrix product, a vector as a one-row matrix, a row added to every row -/

/-- A product of real matrices is real: each entry is a finite sum of products of reals. -/
theorem rowsByCols_real {M K N : ℕ} (l : (⟨2, ![M, K]⟩ : Shape).Idx → EReal) (r : (⟨2, ![K, N]⟩ : Shape).Idx → EReal)
    (hl : ∀ i, IsReal (l i)) (hr : ∀ i, IsReal (r i)) : ∀ j, IsReal (Cert.Lib.PlainDot.rowsByCols l r j) := by
  intro j
  rw [Cert.Lib.PlainDot.rowsByCols_apply]
  exact IsReal.sum _ _ fun k _ => (hl _).mul (hr _)

/-- A real 128-vector as a one-row matrix is real: a cast only renames the entries. -/
theorem rowOf128_real (b : (⟨S128, .f32⟩ : BufTy).Contents (Elt Ideal)) (hb : ∀ i, IsReal (b i)) :
    ∀ j, IsReal (KVal.rowOf128 (F := Ideal) b j) := by
  intro j
  unfold KVal.rowOf128 shapeCast
  exact hb _

/-- A real 64-vector as a one-row matrix is real. -/
theorem rowOf64_real (b : (⟨S64, .f32⟩ : BufTy).Contents (Elt Ideal)) (hb : ∀ i, IsReal (b i)) :
    ∀ j, IsReal (KVal.rowOf64 (F := Ideal) b j) := by
  intro j
  unfold KVal.rowOf64 shapeCast
  exact hb _

/-- A real row added to every row of a real matrix is real. -/
theorem addRow_real {M C : ℕ} (a : (⟨2, ![M, C]⟩ : Shape).Idx → EReal) (b : (⟨2, ![1, C]⟩ : Shape).Idx → EReal)
    (ha : ∀ i, IsReal (a i)) (hb : ∀ i, IsReal (b i)) : ∀ i, IsReal (Cert.KernelIdeal.RowFns.addRow a b i) := by
  intro i
  rw [Cert.KernelIdeal.RowFns.addRow_apply]
  exact (ha i).add (hb _)

/-! ## The index operations only move entries -/

/-- A gather reads entries of its table: a gather from a real table is real. -/
theorem gather_real {s si t : Shape} {w : ℕ} (g : GatherDims s si t) (x : s.Idx → EReal) (idx : IVec si w)
    (hx : ∀ i, IsReal (x i)) : ∀ j, IsReal (Host.gather g x idx j) := fun j => hx _

/-- An elementwise product of real arrays is real. -/
theorem mulf_real {s : Shape} {φ : FTy} (a b : FVec Ideal s φ) (ha : ∀ i, IsReal (a i)) (hb : ∀ i, IsReal (b i)) :
    ∀ i, IsReal (mulf a b i) := fun i => (ha i).mul (hb i)

/-- The word of `1.0` spread over any shape reads the extended real `1` everywhere. -/
theorem ones_apply {t : Shape} (dims : Fin 0 → Fin t.rank) (h : S_.BroadcastsInDim t dims) (k : t.Idx) :
    broadcastInDim t dims h (constant (F := Ideal) S_ .f32 0x3F800000#32) k = (1 : EReal) :=
  LibSentinel.ofBits_one'

/-- The reciprocal square root of the maximum of any array with an array of ones is a real array. -/
theorem rsqrt_max_ones_real {s : Shape} (deg ones : FVec Ideal s .f32) (hones : ∀ k, ones k = (1 : EReal)) :
    ∀ k, IsReal (Host.rsqrt (maximumf deg ones) k) := by
  intro k
  show IsReal (Ideal.rsqrt (max (deg k) (ones k)))
  rw [hones k]
  exact rsqrt_max_one_real _

/-! ## The edge normalisation -/

/-- The edge normalisation is real at every edge, whatever the edge list: each factor is
    `rsqrt (max deg 1)` read at some node, and that is real whatever the count `deg` is. -/
theorem normOf_real (s d : (⟨S1700000, .i32⟩ : BufTy).Contents (Elt Ideal)) :
    ∀ e, IsReal (KVal.normOf (F := Ideal) s d e) := by
  unfold KVal.normOf
  exact mulf_real _ _
    (gather_real _ _ _ (rsqrt_max_ones_real _ _ (ones_apply _ _)))
    (gather_real _ _ _ (rsqrt_max_ones_real _ _ (ones_apply _ _)))

end Cert.KernelIdeal.StageReal

end
-- ==== Proof.AggReal.lean ====
/-
  The sparse aggregation carries real tables to real tables.

  The aggregation of a table `h` over edges `(s, d)` weighted by `n` adds, into each row of a zero table, rows of `h`
  each scaled by an entry of `n`. Read at an entry `(p, q)` on the extended reals it is `0` plus a finite sum, over
  the edges whose destination is `p`, of an entry of `h` times an entry of `n`. When every entry of `h` and of `n` is
  a real number, so is every term, hence the sum, hence the entry. Which edges arrive at `p`, and which row of `h` an
  edge reads, play no part.

  Three general steps — a row scatter into a real table of real updates is real (`scatterAdd_rows_real`), gathered rows
  of a real table scaled by a real vector spread over the columns are real (`gathered_scaled_real`), a zero word spread
  over a table is real (`zeros_real`) — and then the two aggregations of the program, at 128 and at 64 columns.
-/
import proofs.«151309_j60756607369296_1_alg».proof.Proof.KStages
import proofs.«151309_j60756607369296_1_alg».proof.Proof.LibAggLinear
import proofs.«151309_j60756607369296_1_alg».proof.Proof.LibRowScatterSum
import proofs.«151309_j60756607369296_1_alg».proof.Proof.LibRowGather
import proofs.«151309_j60756607369296_1_alg».proof.Proof.LibBcastChain
import Idealize.ShloMosaic.Lib.ValueIdx
import Idealize.ShloMosaic.PureOps.Ideal.Laws

noncomputable section

namespace Cert.KernelIdeal.AggReal

open Idealize.ShloMosaic Idealize.ShloMosaic.ValueIdx
open Cert.KernelIdeal Cert.KernelIdeal.Gen
open Cert.Lib.AggLinear Cert.Lib.RowScatter Cert.Lib.RowScatterSum Cert.Lib.RowGather Cert.Lib.BcastChain

/-- An accumulating row scatter of real updates into a real table is a real table: each entry is the table's entry
    plus a finite sum of update entries. -/
theorem scatterAdd_rows_real {N R C w : Nat} (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScat N R C wf)
    (z : FVec Ideal ⟨2, ![N, C]⟩ .f32) (idx : IVec ⟨2, ![R, 1]⟩ w) (u : FVec Ideal ⟨2, ![R, C]⟩ .f32)
    (hz : ∀ i, IsReal (z i)) (hu : ∀ i, IsReal (u i)) (i : (⟨2, ![N, C]⟩ : Shape).Idx) :
    IsReal (Host.scatterAdd d z idx u i) := by
  obtain ⟨p, q, rfl⟩ : ∃ (p : Fin N) (q : Fin C), i = ix2 p q := ⟨i 0, i 1, eq_ix2 i⟩
  rw [scatterAdd_rows_apply d wf hd z idx u p q]
  exact (hz _).add (IsReal.sum _ _ fun r _ => hu _)

/-- Rows gathered from a real table, each scaled by its entry of a real vector spread over the columns, form a real
    table: entry `(r, k)` is an entry of the table times entry `r` of the vector. -/
theorem gathered_scaled_real {N R C w : Nat} (hN : 0 < N) (g : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C]) (hg : g = rowDims N R C wf)
    (x : FVec Ideal ⟨2, ![N, C]⟩ .f32) (idx : IVec ⟨2, ![R, 1]⟩ w) (n : FVec Ideal ⟨1, ![R]⟩ .f32)
    (h1 : (⟨1, ![R]⟩ : Shape).BroadcastsInDim ⟨2, ![R, 1]⟩ ![0])
    (h2 : (⟨2, ![R, 1]⟩ : Shape).BroadcastsInDim ⟨2, ![R, C]⟩ ![0, 1])
    (hx : ∀ i, IsReal (x i)) (hn : ∀ e, IsReal (n e)) (i : (⟨2, ![R, C]⟩ : Shape).Idx) :
    IsReal (mulf (Host.gather g x idx) (broadcastInDim ⟨2, ![R, C]⟩ ![0, 1] h2 (broadcastInDim ⟨2, ![R, 1]⟩ ![0] h1 n)) i) := by
  subst hg
  obtain ⟨r, k, rfl⟩ : ∃ (r : Fin R) (k : Fin C), i = ix2 r k := ⟨i 0, i 1, eq_ix2 i⟩
  rw [mulf_apply, gather_rows_apply hN wf x idx r k, overCols_apply n h1 h2 r k]
  exact (hx _).mul (hn _)

/-- The zero word spread over a table is a real table. -/
theorem zeros_real {t : Shape} (dims : Fin 0 → Fin t.rank) (h : (⟨0, ![]⟩ : Shape).BroadcastsInDim t dims) (i : t.Idx) :
    IsReal (broadcastInDim t dims h (constant (F := Ideal) ⟨0, ![]⟩ .f32 0x00000000#32) i) := by
  rw [overAll_apply, constant_apply, Ideal.ofBits_zero_f32]
  exact isReal_zero

/-- The aggregation of a real 128-column table with real weights is a real table. -/
theorem aggOf128_real (s d : (⟨S1700000, .i32⟩ : BufTy).Contents (Elt Ideal)) (n : (⟨S1700000, .f32⟩ : BufTy).Contents (Elt Ideal))
    (h : (⟨S100000x128, .f32⟩ : BufTy).Contents (Elt Ideal)) (hn : ∀ e, IsReal (n e)) (hh : ∀ i, IsReal (h i)) :
    ∀ i, IsReal (KVal.aggOf128 (F := Ideal) s d n h i) := by
  intro i
  unfold KVal.aggOf128
  refine scatterAdd_rows_real scatter_S100000x128_S1700000x1_S1700000x128_1_0_0_1
    scatter_S100000x128_S1700000x1_S1700000x128_1_0_0_1_wf rfl _ _ _ (fun j => zeros_real _ _ j) (fun j => ?_) i
  exact gathered_scaled_real (by omega) gather_S100000x128_S1700000x1_S1700000x128_1_0_n_n_0_1_1128
    gather_S100000x128_S1700000x1_S1700000x128_1_0_n_n_0_1_1128_wf rfl h _ n _ _ hh hn j

/-- The aggregation of a real 64-column table with real weights is a real table. -/
theorem aggOf64_real (s d : (⟨S1700000, .i32⟩ : BufTy).Contents (Elt Ideal)) (n : (⟨S1700000, .f32⟩ : BufTy).Contents (Elt Ideal))
    (h : (⟨S100000x64, .f32⟩ : BufTy).Contents (Elt Ideal)) (hn : ∀ e, IsReal (n e)) (hh : ∀ i, IsReal (h i)) :
    ∀ i, IsReal (KVal.aggOf64 (F := Ideal) s d n h i) := by
  intro i
  unfold KVal.aggOf64
  refine scatterAdd_rows_real scatter_S100000x64_S1700000x1_S1700000x64_1_0_0_1
    scatter_S100000x64_S1700000x1_S1700000x64_1_0_0_1_wf rfl _ _ _ (fun j => zeros_real _ _ j) (fun j => ?_) i
  exact gathered_scaled_real (by omega) gather_S100000x64_S1700000x1_S1700000x64_1_0_n_n_0_1_164
    gather_S100000x64_S1700000x1_S1700000x64_1_0_n_n_0_1_164_wf rfl h _ n _ _ hh hn j

end Cert.KernelIdeal.AggReal

end
-- ==== Proof.NetEq.lean ====
/-
  The kernel's network and the reference's network are one function of real arguments.

  Layer by layer. The edge lists, the normalisation and the aggregation are the same host operations in both
  programs; a kernel's tiled matrix product and the host's dot_general are the same sums; a head's bias row added by
  the kernel is the reference's broadcast bias. A normalised layer is the one place where the programs differ: the
  kernel's variance E[y²] − E[y]² against the reference's E[(y − E[y])²], equal when every entry of the layer's input
  y = A(HW) + b is a real number. That holds because the arguments are real and each stage keeps reals real: a product
  and an aggregation are finite sums of products, the normalisation weights are rsqrt of numbers at least 1, and a
  normalised layer divides by the square root of a variance plus a positive constant.
-/
import proofs.«151309_j60756607369296_1_alg».proof.Proof.KReal
import proofs.«151309_j60756607369296_1_alg».proof.Proof.RefBridge
import proofs.«151309_j60756607369296_1_alg».proof.Proof.StageReal
import proofs.«151309_j60756607369296_1_alg».proof.Proof.AggReal

noncomputable section

namespace Cert.Proof.NetEq

open Idealize.ShloMosaic
open Cert.KernelIdeal Cert.KernelIdeal.KReal Cert.Lib.AggLinear
open Cert.ReferenceIdeal (RefValue.src RefValue.dst)
open Cert.ReferenceIdeal.RefValue Cert.ReferenceIdeal.Bridge Cert.KernelIdeal.StageReal Cert.KernelIdeal.AggReal

variable (a : KNet.Args)

/-- The normalisation weights are real, whatever the edge list. -/
theorem Nn_real : ∀ e, IsReal (KNet.Nn a e) := normOf_real (KNet.S a) (KNet.D a)

/-! ### Layer 1 -/

theorem P1_real (hr : RealArgs a) : ∀ i, IsReal (KNet.P1 a i) := rowsByCols_real a.x a.w1 hr.x hr.w1
theorem G1_real (hr : RealArgs a) : ∀ i, IsReal (KNet.G1 a i) :=
  aggOf128_real (KNet.S a) (KNet.D a) (KNet.Nn a) (KNet.P1 a) (Nn_real a) (P1_real a hr)

/-- The reference's aggregation of the first product is the kernel's. -/
theorem G1_eq : agg128 a.ei (dotA a.x a.w1) = KNet.G1 a := by
  unfold agg128 Cert.ReferenceIdeal.RefValue.norm
  rw [dotA_eq, src_eq, dst_eq, normOf_eq, aggRows128_eq]
  rfl

theorem H1_eq (hr : RealArgs a) : h1 a.x a.w1 a.b1 a.g1 a.bt1 a.ei = KNet.H1 a := by
  unfold h1
  rw [G1_eq]
  exact bn_law (KNet.G1 a) a.b1 a.g1 a.bt1 (G1_real a hr) hr.b1

theorem H1_real (hr : RealArgs a) : ∀ i, IsReal (KNet.H1 a i) :=
  bn_real (KNet.G1 a) a.b1 a.g1 a.bt1 (G1_real a hr) hr.b1 hr.g1 hr.bt1

/-! ### Layer 2 -/

theorem P2_real (hr : RealArgs a) : ∀ i, IsReal (KNet.P2 a i) := rowsByCols_real (KNet.H1 a) a.w2 (H1_real a hr) hr.w2
theorem G2_real (hr : RealArgs a) : ∀ i, IsReal (KNet.G2 a i) :=
  aggOf128_real (KNet.S a) (KNet.D a) (KNet.Nn a) (KNet.P2 a) (Nn_real a) (P2_real a hr)

theorem G2_eq : agg128 a.ei (dotB (KNet.H1 a) a.w2) = KNet.G2 a := by
  unfold agg128 Cert.ReferenceIdeal.RefValue.norm
  rw [dotB_eq, src_eq, dst_eq, normOf_eq, aggRows128_eq]
  rfl

theorem H2_eq (hr : RealArgs a) : h2 a.x a.w1 a.b1 a.g1 a.bt1 a.w2 a.b2 a.g2 a.bt2 a.ei = KNet.H2 a := by
  unfold h2
  rw [H1_eq a hr, G2_eq]
  exact bn_law (KNet.G2 a) a.b2 a.g2 a.bt2 (G2_real a hr) hr.b2

/-! ### The heads -/

theorem G3_eq : agg64 a.ei (dotC (KNet.H2 a) a.wmu) = KNet.G3 a := by
  unfold agg64 Cert.ReferenceIdeal.RefValue.norm
  rw [dotC_eq, src_eq, dst_eq, normOf_eq, aggRows64_eq]
  rfl

theorem G4_eq : agg64 a.ei (dotC (KNet.H2 a) a.wls) = KNet.G4 a := by
  unfold agg64 Cert.ReferenceIdeal.RefValue.norm
  rw [dotC_eq, src_eq, dst_eq, normOf_eq, aggRows64_eq]
  rfl

/-- Both heads: the kernel's network is the reference's. -/
theorem net_eq (hr : RealArgs a) :
    KNet.MU a = mu a.x a.w1 a.b1 a.g1 a.bt1 a.w2 a.b2 a.g2 a.bt2 a.wmu a.bmu a.ei
    ∧ KNet.LS a = ls a.x a.w1 a.b1 a.g1 a.bt1 a.w2 a.b2 a.g2 a.bt2 a.wls a.bls a.ei := by
  constructor
  · unfold mu
    rw [H2_eq a hr, G3_eq, bias64_eq]
    rfl
  · unfold ls
    rw [H2_eq a hr, G4_eq, bias64_eq]
    rfl

end Cert.Proof.NetEq

end
-- ==== Proof.FiniteArgs.lean ====
/-
  The precondition read back: every float argument array holds real numbers.

  The precondition is the conjunction, over the thirteen float arrays a, of "every entry of |a| is below +inf",
  each an all-reduction of entrywise comparisons. On the extended reals |x| = max(x, −x) is below +inf exactly when x
  is neither infinity, that is, when x is a real number.
-/
import proofs.«151309_j60756607369296_1_alg».proof.Defs
import proofs.«151309_j60756607369296_1_alg».proof.Proof.Gen.Pre_finite_inputs
import proofs.«151309_j60756607369296_1_alg».proof.Proof.KReal
import Idealize.ShloMosaic.Lib.ReduceAll
import Idealize.ShloMosaic.Lib.ValueIdx
import Idealize.ShloMosaic.PureOps.Ideal.Laws

set_option maxRecDepth 16384

noncomputable section

namespace Cert.Proof.FiniteArgs

open Idealize.ShloMosaic Idealize.ShloMosaic.TcCoe Idealize.SL.Sem Idealize.ShloMosaic.ValueIdx
open Cert.Lib.AggLinear

/-- The shape of a scalar has one index. -/
instance : Subsingleton (⟨0, ![]⟩ : Shape).Idx := ⟨fun a b => funext fun d => d.elim0⟩

/-- The f32 word 0x7F800000 is +inf. -/
theorem ofBits_inf : Ideal.ofBits .f32 0x7F800000#32 = ⊤ := by simp [Ideal.ofBits, Ideal.ieee]

/-- An extended real whose absolute value is below +inf is a real number. -/
theorem isReal_of_abs_lt (x : EReal) (h : Ideal.cmp .olt (max x (-x)) (Ideal.ofBits .f32 0x7F800000#32) = 1#1) : IsReal x := by
  rw [ofBits_inf] at h
  have h3 : max x (-x) < ⊤ := by
    unfold Ideal.cmp at h
    by_contra hn
    simp [hn] at h
  induction x using EReal.rec with
  | bot => simp at h3
  | top => simp at h3
  | coe r => exact ⟨r, rfl⟩

/-- One conjunct of the precondition: if the all-reduction of "|a| < +inf" is 1 then every entry of a is real. -/
theorem all_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1) (i : s.Idx) : IsReal (a i) :=
  isReal_of_abs_lt (a i) (Host.reduce_andi_all _ _ hr hu ix0 e i)

open Cert.KernelIdeal in
/-- Under the precondition the launched float argument arrays hold real numbers. -/
theorem real_args (m : (ℓ : Loc nD τ sig) → Buf (Elt Ideal) ℓ)
    (hpre : Cert.Pre_KernelIdeal (hPre_finite_inputs := Cert.Pre_finite_inputs.Gen.facts) m) (c : Dev nD) :
    Cert.KernelIdeal.KReal.RealArgs (Cert.KernelIdeal.KReal.args m c) := by
  have h := congrFun (hpre c) ix0
  simp only [Cert.Pre_finite_inputs.fn, Cert.Pre_finite_inputs.fn_part1, Cert.Pre_finite_inputs.fn_part2,
    Cert.Pre_finite_inputs.fn_part3, andi, IntOp.andi_eq_one] at h
  obtain ⟨⟨⟨⟨⟨⟨⟨⟨⟨⟨⟨⟨h0, h1⟩, h2⟩, h3⟩, h4⟩, h5⟩, h6⟩, h7⟩, h8⟩, h9⟩, h10⟩, h11⟩, h12⟩ := h
  exact ⟨all_real _ _ _ _ h0, all_real _ _ _ _ h1, all_real _ _ _ _ h2, all_real _ _ _ _ h3, all_real _ _ _ _ h4,
    all_real _ _ _ _ h5, all_real _ _ _ _ h6, all_real _ _ _ _ h7, all_real _ _ _ _ h8, all_real _ _ _ _ h9,
    all_real _ _ _ _ h10, all_real _ _ _ _ h11, all_real _ _ _ _ h12⟩

end Cert.Proof.FiniteArgs

end
-- ==== Proof.lean ====
/-
  The certificate of a two-layer graph convolution encoder with batch normalisation: the Pallas kernel program against
  its jnp reference, on the extended reals.

  Both programs compute, from node features x, an edge list and the layers' parameters, the two heads
    mu = A (H₂ W_mu) + b_mu,   logstd = A (H₂ W_ls) + b_ls,   H_{l} = max(BN(A (H_{l-1} W_l) + b_l) · g_l + β_l, 0),
  with A the symmetrically normalised adjacency with self loops. They differ in how they are cut (ten tiled kernel
  regions among host stretches against one host program) and in one formula: the kernel takes the batch variance as
  E[y²] − E[y]² from two accumulated column sums, the reference as E[(y − E[y])²]. On the extended reals the two agree
  when the data is real, which the precondition (every float input finite) gives by carrying realness through the
  products, the aggregation and each normalised layer. Everything else is re-association of sums, which holds on all
  extended reals.

  The three frames: the two kernel programs' are the generated frame certificates; the reference's is its run with the
  results dropped. The ideal pass rewrote no operation, so `preserves` is `True`.
-/
import proofs.«151309_j60756607369296_1_alg».proof.Defs
import proofs.«151309_j60756607369296_1_alg».proof.Proof.Gen.Kernel.Frame
import proofs.«151309_j60756607369296_1_alg».proof.Proof.Gen.KernelIdeal.Frame
import proofs.«151309_j60756607369296_1_alg».proof.Proof.Gen.Pre_finite_inputs
import proofs.«151309_j60756607369296_1_alg».proof.Proof.KernelRun
import proofs.«151309_j60756607369296_1_alg».proof.Proof.KValue
import proofs.«151309_j60756607369296_1_alg».proof.Proof.RefValue
import proofs.«151309_j60756607369296_1_alg».proof.Proof.NetEq
import proofs.«151309_j60756607369296_1_alg».proof.Proof.FiniteArgs

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefValue.run (F := Ideal) m ρ)

/-- Both programs, run from memories agreeing on the arguments, end with the two heads of the kernel's network as
    results: the kernel by its run read boundary by boundary, the reference by its run and the network identity. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KNet.MU (Cert.KernelIdeal.KReal.args m c),
    fun c => Cert.KernelIdeal.KNet.LS (Cert.KernelIdeal.KReal.args m c), ?_, ?_⟩
  · exact (θ_run Cert.KernelIdeal.defs _ _).mono
      (fun _ h c => ⟨(h c).1.trans (Cert.KernelIdeal.KValue.result_mu m ρ c),
        (h c).2.1.trans (Cert.KernelIdeal.KValue.result_ls m ρ c), (h c).2.2⟩)
      (Cert.KernelIdeal.KRun.run_values (F := Ideal) m ρ)
  · refine (θ_run Cert.ReferenceIdeal.defs _ _).mono (fun _ h c => ?_) (Cert.ReferenceIdeal.RefValue.run (F := Ideal) m' ρ')
    obtain ⟨e0, e1, e2, e3, e4, e5, e6, e7, e8, e9, e10, e11, e12, e13⟩ := hagree c
    have hr := Cert.Proof.FiniteArgs.real_args m hpre c
    have hnet := Cert.Proof.NetEq.net_eq (Cert.KernelIdeal.KReal.args m c) hr
    refine ⟨(h c).1.trans ?_, (h c).2.1.trans ?_, (h c).2.2⟩
    · rw [e0, e1, e2, e3, e4, e5, e6, e7, e8, e9, e10, e13]
      exact hnet.1.symm
    · rw [e0, e1, e2, e3, e4, e5, e6, e7, e8, e11, e12, e13]
      exact hnet.2.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
